-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v123_0)) (v1 : (c : Dev Cert.KernelIdeal.nD) → Buf (Elt Ideal) ((c.tc : Thread Cert.KernelIdeal.nD Cert.KernelIdeal.τ).loc Cert.KernelIdeal.main_v123_1)) (v2 : (c : Dev Cert.KernelIdeal.nD) → Buf (Elt Ideal) ((c.tc : Thread Cert.KernelIdeal.nD Cert.KernelIdeal.τ).loc Cert.KernelIdeal.main_v123_2)) (v3 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123_0) = v0 c
          ∧ r.2.mem ((c.tc : Thread Cert.KernelIdeal.nD Cert.KernelIdeal.τ).loc Cert.KernelIdeal.main_v123_1) = v1 c
          ∧ r.2.mem ((c.tc : Thread Cert.KernelIdeal.nD Cert.KernelIdeal.τ).loc Cert.KernelIdeal.main_v123_2) = v2 c
          ∧ r.2.mem ((c.tc : Thread Cert.KernelIdeal.nD Cert.KernelIdeal.τ).loc Cert.KernelIdeal.main_v26) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v125) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x128 : Shape := ⟨2, ![20000, 128]⟩
abbrev S20000x3 : Shape := ⟨2, ![20000, 3]⟩
abbrev S2x320000 : Shape := ⟨2, ![2, 320000]⟩
abbrev S256x128 : Shape := ⟨2, ![256, 128]⟩
abbrev S128 : Shape := ⟨1, ![128]⟩
abbrev S128x128 : Shape := ⟨2, ![128, 128]⟩
abbrev S18x128 : Shape := ⟨2, ![18, 128]⟩
abbrev S128x1 : Shape := ⟨2, ![128, 1]⟩
abbrev S1 : Shape := ⟨1, ![1]⟩
abbrev S_ : Shape := ⟨0, ![]⟩

class Facts : Prop where
  bcast_S_S20000x128 : S_.BroadcastsInDim S20000x128 (![] : Fin 0 → Fin S20000x128.rank)
  reducesTo_S20000x128_S_d0_1 : S20000x128.ReducesTo [0, 1] S_
  h_S_ : 0 < S_.numel
  bcast_S_S20000x3 : S_.BroadcastsInDim S20000x3 (![] : Fin 0 → Fin S20000x3.rank)
  reducesTo_S20000x3_S_d0_1 : S20000x3.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S18x128 : S_.BroadcastsInDim S18x128 (![] : Fin 0 → Fin S18x128.rank)
  reducesTo_S18x128_S_d0_1 : S18x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128x1 .f32) (main_arg16 : FVec F S1 .f32) (main_v63 : IVec S_ 1) (main_v67 : IVec S_ 1) : IVec S_ 1 :=
  let main_v68 : IVec S_ 1 := andi main_v63 main_v67
  let main_v69 : FVec F S128x1 .f32 := Host.absf main_arg15
  let main_cst_26 : FVec F S_ .f32 := constant S_ .f32 0x7F800000#32
  let main_v70 : FVec F S128x1 .f32 := broadcastInDim S128x1 ![] bcast_S_S128x1 main_cst_26
  let main_v71 : IVec S128x1 1 := cmpf .olt main_v69 main_v70
  let main_c_27 : IVec S_ 1 := constantI S_ 1 1#1
  let main_v72 : IVec S_ 1 := (fun x v => Host.reduce IntOp.andi x v reducesTo_S128x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  main_v78

def fn_part3 {F : FTy → Type} [FloatOps F] (main_arg12 : FVec F S128 .f32) (main_arg13 : FVec F S128x128 .f32) (main_arg14 : FVec F S128 .f32) (main_arg15 : FVec F S128x1 .f32) (main_arg16 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_v48 main_v49 main_v50

def fn_part1 {F : FTy → Type} [FloatOps F] (main_arg5 : FVec F S128x128 .f32) (main_arg6 : FVec F S128 .f32) (main_arg7 : FVec F S18x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S18x128 .f32 := Host.absf main_arg7
  let main_cst_10 : FVec F S_ .f32 := constant S_ .f32 0x7F800000#32
  let main_v30 : FVec F S18x128 .f32 := broadcastInDim S18x128 ![] bcast_S_S18x128 main_cst_10
  let main_v31 : IVec S18x128 1 := cmpf .olt main_v29 main_v30
  let main_c_11 : IVec S_ 1 := constantI S_ 1 1#1
  let main_v32 : IVec S_ 1 := (fun x v => Host.reduce IntOp.andi x v reducesTo_S18x128_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S20000x128 .f32) (main_arg1 : FVec F S20000x3 .f32) (main_arg2 : IVec S2x320000 32) (main_arg3 : FVec F S256x128 .f32) (main_arg4 : FVec F S128 .f32) (main_arg5 : FVec F S128x128 .f32) (main_arg6 : FVec F S128 .f32) (main_arg7 : FVec F S18x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S128x1 .f32) (main_arg16 : FVec F S1 .f32) : IVec S_ 1 :=
  let main_v0 : FVec F S20000x128 .f32 := Host.absf main_arg0
  let main_cst : FVec F S_ .f32 := constant S_ .f32 0x7F800000#32
  let main_v1 : FVec F S20000x128 .f32 := broadcastInDim S20000x128 ![] bcast_S_S20000x128 main_cst
  let main_v2 : IVec S20000x128 1 := cmpf .olt main_v0 main_v1
  let main_c : IVec S_ 1 := constantI S_ 1 1#1
  let main_v3 : IVec S_ 1 := (fun x v => Host.reduce IntOp.andi x v reducesTo_S20000x128_S_d0_1 h_S_) main_v2 main_c
  let main_v4 : FVec F S20000x3 .f32 := Host.absf main_arg1
  let main_cst_0 : FVec F S_ .f32 := constant S_ .f32 0x7F800000#32
  let main_v5 : FVec F S20000x3 .f32 := broadcastInDim S20000x3 ![] bcast_S_S20000x3 main_cst_0
  let main_v6 : IVec S20000x3 1 := cmpf .olt main_v4 main_v5
  let main_c_1 : IVec S_ 1 := constantI S_ 1 1#1
  let main_v7 : IVec S_ 1 := (fun x v => Host.reduce IntOp.andi x v reducesTo_S20000x3_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S20000x128 : Shape := ⟨2, ![20000, 128]⟩
abbrev S20000x3 : Shape := ⟨2, ![20000, 3]⟩
abbrev S2x320000 : Shape := ⟨2, ![2, 320000]⟩
abbrev S256x128 : Shape := ⟨2, ![256, 128]⟩
abbrev S128 : Shape := ⟨1, ![128]⟩
abbrev S128x128 : Shape := ⟨2, ![128, 128]⟩
abbrev S18x128 : Shape := ⟨2, ![18, 128]⟩
abbrev S128x1 : Shape := ⟨2, ![128, 1]⟩
abbrev S1 : Shape := ⟨1, ![1]⟩
abbrev S15 : Shape := ⟨1, ![15]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x3 : Shape := ⟨2, ![320000, 3]⟩
abbrev S320000x10 : Shape := ⟨2, ![320000, 10]⟩
abbrev S20000x10 : Shape := ⟨2, ![20000, 10]⟩
abbrev S20000x1 : Shape := ⟨2, ![20000, 1]⟩
abbrev S20000 : Shape := ⟨1, ![20000]⟩
abbrev S20000x1x3 : Shape := ⟨3, ![20000, 1, 3]⟩
abbrev S20000x3x3 : Shape := ⟨3, ![20000, 3, 3]⟩
abbrev S320000x3x3 : Shape := ⟨3, ![320000, 3, 3]⟩
abbrev S320000x128 : Shape := ⟨2, ![320000, 128]⟩
abbrev S320000x256 : Shape := ⟨2, ![320000, 256]⟩
abbrev S320000x4 : Shape := ⟨2, ![320000, 4]⟩
abbrev S1x15 : Shape := ⟨2, ![1, 15]⟩
abbrev S1x128 : Shape := ⟨2, ![1, 128]⟩
abbrev S1x1 : Shape := ⟨2, ![1, 1]⟩
abbrev S4000x256 : Shape := ⟨2, ![4000, 256]⟩
abbrev S4000x4 : Shape := ⟨2, ![4000, 4]⟩
abbrev S4000x128 : Shape := ⟨2, ![4000, 128]⟩
abbrev S4000x3 : Shape := ⟨2, ![4000, 3]⟩
abbrev S4000x1 : Shape := ⟨2, ![4000, 1]⟩
abbrev S4000x15 : Shape := ⟨2, ![4000, 15]⟩
abbrev S3x128 : Shape := ⟨2, ![3, 128]⟩
abbrev S15x128 : Shape := ⟨2, ![15, 128]⟩

abbrev nBuf : Space → Nat
  | .hbm => 184
  | .vmem => 25
  | .smem => 0
  | _ => 0

abbrev hbmTy0_0 (i : Nat) : BufTy := match i % 128 with
  | 0 => ⟨S20000x128, .f32⟩
  | 1 => ⟨S20000x3, .f32⟩
  | 2 => ⟨S2x320000, .i32⟩
  | 3 => ⟨S256x128, .f32⟩
  | 4 => ⟨S128, .f32⟩
  | 5 => ⟨S128x128, .f32⟩
  | 6 => ⟨S128, .f32⟩
  | 7 => ⟨S18x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x1, .f32⟩
  | 16 => ⟨S1, .f32⟩
  | 17 => ⟨S15, .f32⟩
  | 18 => ⟨S1x320000, .i32⟩
  | 19 => ⟨S320000, .i32⟩
  | 20 => ⟨S1x320000, .i32⟩
  | 21 => ⟨S320000, .i32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x3, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x3, .f32⟩
  | 40 => ⟨S320000x3, .f32⟩
  | 41 => ⟨S320000x3, .f32⟩
  | 42 => ⟨S_, .f32⟩
  | 43 => ⟨S320000, .f32⟩
  | 44 => ⟨S320000x1, .f32⟩
  | 45 => ⟨S320000x3, .f32⟩
  | 46 => ⟨S_, .f32⟩
  | 47 => ⟨S320000, .f32⟩
  | 48 => ⟨S320000x1, .f32⟩
  | 49 => ⟨S320000x1, .f32⟩
  | 50 => ⟨S_, .f32⟩
  | 51 => ⟨S320000x1, .f32⟩
  | 52 => ⟨S320000x1, .f32⟩
  | 53 => ⟨S320000x3, .f32⟩
  | 54 => ⟨S320000x3, .f32⟩
  | 55 => ⟨S_, .f32⟩
  | 56 => ⟨S320000x1, .f32⟩
  | 57 => ⟨S320000x1, .f32⟩
  | 58 => ⟨S320000x3, .f32⟩
  | 59 => ⟨S320000x3, .f32⟩
  | 60 => ⟨S_, .f32⟩
  | 61 => ⟨S320000x1, .f32⟩
  | 62 => ⟨S320000x1, .f32⟩
  | 63 => ⟨S320000x3, .f32⟩
  | 64 => ⟨S320000x3, .f32⟩
  | 65 => ⟨S_, .f32⟩
  | 66 => ⟨S320000x1, .f32⟩
  | 67 => ⟨S320000x1, .f32⟩
  | 68 => ⟨S320000x3, .f32⟩
  | 69 => ⟨S320000x3, .f32⟩
  | 70 => ⟨S_, .f32⟩
  | 71 => ⟨S320000x1, .f32⟩
  | 72 => ⟨S320000x10, .f32⟩
  | 73 => ⟨S_, .f32⟩
  | 74 => ⟨S20000x10, .f32⟩
  | 75 => ⟨S320000x1, .i32⟩
  | 76 => ⟨S20000x10, .f32⟩
  | 77 => ⟨S20000x1, .f32⟩
  | 78 => ⟨S_, .f32⟩
  | 79 => ⟨S20000x1, .f32⟩
  | 80 => ⟨S20000x1, .f32⟩
  | 81 => ⟨S20000x3, .f32⟩
  | 82 => ⟨S20000x3, .f32⟩
  | 83 => ⟨S20000x3, .f32⟩
  | 84 => ⟨S20000x3, .f32⟩
  | 85 => ⟨S_, .f32⟩
  | 86 => ⟨S20000, .f32⟩
  | 87 => ⟨S20000x1, .f32⟩
  | 88 => ⟨S20000x1, .f32⟩
  | 89 => ⟨S_, .f32⟩
  | 90 => ⟨S20000x1, .f32⟩
  | 91 => ⟨S20000x1, .f32⟩
  | 92 => ⟨S20000x3, .f32⟩
  | 93 => ⟨S20000x3, .f32⟩
  | 94 => ⟨S20000x3, .f32⟩
  | 95 => ⟨S20000x3, .f32⟩
  | 96 => ⟨S20000x3, .f32⟩
  | 97 => ⟨S20000x3, .f32⟩
  | 98 => ⟨S_, .f32⟩
  | 99 => ⟨S20000, .f32⟩
  | 100 => ⟨S20000x1, .f32⟩
  | 101 => ⟨S20000x1, .f32⟩
  | 102 => ⟨S_, .f32⟩
  | 103 => ⟨S20000x1, .f32⟩
  | 104 => ⟨S20000x1, .f32⟩
  | 105 => ⟨S20000x3, .f32⟩
  | 106 => ⟨S20000x3, .f32⟩
  | 107 => ⟨S20000x3, .f32⟩
  | 108 => ⟨S20000x3, .f32⟩
  | 109 => ⟨S20000x3, .f32⟩
  | 110 => ⟨S20000x3, .f32⟩
  | 111 => ⟨S_, .f32⟩
  | 112 => ⟨S20000, .f32⟩
  | 113 => ⟨S20000x1, .f32⟩
  | 114 => ⟨S20000x1, .f32⟩
  | 115 => ⟨S_, .f32⟩
  | 116 => ⟨S20000x1, .f32⟩
  | 117 => ⟨S20000x1, .f32⟩
  | 118 => ⟨S20000x3, .f32⟩
  | 119 => ⟨S20000x3, .f32⟩
  | 120 => ⟨S20000x1x3, .f32⟩
  | 121 => ⟨S20000x1x3, .f32⟩
  | 122 => ⟨S20000x1x3, .f32⟩
  | 123 => ⟨S20000x3x3, .f32⟩
  | 124 => ⟨S_, .i32⟩
  | 125 => ⟨S320000, .i32⟩
  | 126 => ⟨S320000, .i1⟩
  | 127 => ⟨S_, .i32⟩
  | _ => ⟨S20000x128, .f32⟩

abbrev hbmTy0_1 (i : Nat) : BufTy := match i % 128 with
  | 0 => ⟨S320000, .i32⟩
  | 1 => ⟨S320000, .i32⟩
  | 2 => ⟨S320000, .i32⟩
  | 3 => ⟨S320000x1, .i32⟩
  | 4 => ⟨S320000x3x3, .f32⟩
  | 5 => ⟨S_, .i32⟩
  | 6 => ⟨S320000, .i32⟩
  | 7 => ⟨S320000, .i1⟩
  | 8 => ⟨S_, .i32⟩
  | 9 => ⟨S320000, .i32⟩
  | 10 => ⟨S320000, .i32⟩
  | 11 => ⟨S320000, .i32⟩
  | 12 => ⟨S320000x1, .i32⟩
  | 13 => ⟨S320000x3x3, .f32⟩
  | 14 => ⟨S320000x3x3, .f32⟩
  | 15 => ⟨S_, .f32⟩
  | 16 => ⟨S320000x3, .f32⟩
  | 17 => ⟨S20000x128, .bf16⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S320000x128, .bf16⟩
  | 27 => ⟨S_, .i32⟩
  | 28 => ⟨S320000, .i32⟩
  | 29 => ⟨S320000, .i1⟩
  | 30 => ⟨S_, .i32⟩
  | 31 => ⟨S320000, .i32⟩
  | 32 => ⟨S320000, .i32⟩
  | 33 => ⟨S320000, .i32⟩
  | 34 => ⟨S320000x1, .i32⟩
  | 35 => ⟨S320000x128, .bf16⟩
  | 36 => ⟨S320000x256, .bf16⟩
  | 37 => ⟨S320000x4, .f32⟩
  | 38 => ⟨S1x15, .f32⟩
  | 39 => ⟨S256x128, .bf16⟩
  | 40 => ⟨S128x128, .bf16⟩
  | 41 => ⟨S18x128, .bf16⟩
  | 42 => ⟨S128x128, .bf16⟩
  | 43 => ⟨S128x128, .bf16⟩
  | 44 => ⟨S128x128, .bf16⟩
  | 45 => ⟨S128x1, .bf16⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S1x128, .f32⟩
  | 52 => ⟨S1x1, .f32⟩
  | 53 => ⟨S320000x128, .f32⟩
  | 54 => ⟨S320000x128, .f32⟩
  | 55 => ⟨S320000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | .local _ .vmem, ⟨0, _⟩ => ⟨S4000x256, .bf16⟩
  | .local _ .vmem, ⟨1, _⟩ => ⟨S4000x256, .bf16⟩
  | .local _ .vmem, ⟨2, _⟩ => ⟨S4000x4, .f32⟩
  | .local _ .vmem, ⟨3, _⟩ => ⟨S4000x4, .f32⟩
  | .local _ .vmem, ⟨4, _⟩ => ⟨S1x15, .f32⟩
  | .local _ .vmem, ⟨5, _⟩ => ⟨S256x128, .bf16⟩
  | .local _ .vmem, ⟨6, _⟩ => ⟨S1x128, .f32⟩
  | .local _ .vmem, ⟨7, _⟩ => ⟨S128x128, .bf16⟩
  | .local _ .vmem, ⟨8, _⟩ => ⟨S1x128, .f32⟩
  | .local _ .vmem, ⟨9, _⟩ => ⟨S18x128, .bf16⟩
  | .local _ .vmem, ⟨10, _⟩ => ⟨S1x128, .f32⟩
  | .local _ .vmem, ⟨11, _⟩ => ⟨S128x128, .bf16⟩
  | .local _ .vmem, ⟨12, _⟩ => ⟨S1x128, .f32⟩
  | .local _ .vmem, ⟨13, _⟩ => ⟨S128x128, .bf16⟩
  | .local _ .vmem, ⟨14, _⟩ => ⟨S1x128, .f32⟩
  | .local _ .vmem, ⟨15, _⟩ => ⟨S128x128, .bf16⟩
  | .local _ .vmem, ⟨16, _⟩ => ⟨S1x128, .f32⟩
  | .local _ .vmem, ⟨17, _⟩ => ⟨S128x1, .bf16⟩
  | .local _ .vmem, ⟨18, _⟩ => ⟨S1x1, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | _, _ => ⟨S20000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v22 : Ref sig .tc := ⟨.hbm, 49, rfl⟩
abbrev main_cst_4 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_5 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_7 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_cst_10 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_call1_v0 : Ref sig .tc := ⟨.hbm, 84, rfl⟩
abbrev main_call1_cst : Ref sig .tc := ⟨.hbm, 85, rfl⟩
abbrev main_call1_v1 : Ref sig .tc := ⟨.hbm, 86, rfl⟩
abbrev main_call1_v2 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_call2_v2 : Ref sig .tc := ⟨.hbm, 100, rfl⟩
abbrev main_v58 : Ref sig .tc := ⟨.hbm, 101, rfl⟩
abbrev main_cst_12 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_call3_v0 : Ref sig .tc := ⟨.hbm, 110, rfl⟩
abbrev main_call3_cst : Ref sig .tc := ⟨.hbm, 111, rfl⟩
abbrev main_call3_v1 : Ref sig .tc := ⟨.hbm, 112, rfl⟩
abbrev main_call3_v2 : Ref sig .tc := ⟨.hbm, 113, rfl⟩
abbrev main_v66 : Ref sig .tc := ⟨.hbm, 114, rfl⟩
abbrev main_cst_13 : Ref sig .tc := ⟨.hbm, 115, rfl⟩
abbrev main_v67 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_v74 : Ref sig .tc := ⟨.hbm, 123, rfl⟩
abbrev main_c_14 : Ref sig .tc := ⟨.hbm, 124, rfl⟩
abbrev main_v75 : Ref sig .tc := ⟨.hbm, 125, rfl⟩
abbrev main_v76 : Ref sig .tc := ⟨.hbm, 126, rfl⟩
abbrev main_c_15 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_16 : Ref sig .tc := ⟨.hbm, 133, rfl⟩
abbrev main_v82 : Ref sig .tc := ⟨.hbm, 134, rfl⟩
abbrev main_v83 : Ref sig .tc := ⟨.hbm, 135, rfl⟩
abbrev main_c_17 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_18 : Ref sig .tc := ⟨.hbm, 143, rfl⟩
abbrev main_v90 : Ref sig .tc := ⟨.hbm, 144, rfl⟩
abbrev main_v91 : Ref sig .tc := ⟨.hbm, 145, rfl⟩
abbrev main_c_19 : Ref sig .tc := ⟨.hbm, 146, rfl⟩
abbrev main_v92 : Ref sig .tc := ⟨.hbm, 147, rfl⟩
abbrev main_v93 : Ref sig .tc := ⟨.hbm, 148, rfl⟩
abbrev main_c_20 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_c_21 : Ref sig .tc := ⟨.hbm, 155, rfl⟩
abbrev main_v99 : Ref sig .tc := ⟨.hbm, 156, rfl⟩
abbrev main_v100 : Ref sig .tc := ⟨.hbm, 157, rfl⟩
abbrev main_c_22 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩
abbrev main_v108 : Ref sig .tc := ⟨.hbm, 166, rfl⟩
abbrev main_v109 : Ref sig .tc := ⟨.hbm, 167, rfl⟩
abbrev main_v110 : Ref sig .tc := ⟨.hbm, 168, rfl⟩
abbrev main_v111 : Ref sig .tc := ⟨.hbm, 169, rfl⟩
abbrev main_v112 : Ref sig .tc := ⟨.hbm, 170, rfl⟩
abbrev main_v113 : Ref sig .tc := ⟨.hbm, 171, rfl⟩
abbrev main_v114 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123_0 : Ref sig .tc := ⟨.hbm, 181, rfl⟩
abbrev main_v123_1 : Ref sig .tc := ⟨.hbm, 182, rfl⟩
abbrev main_v123_2 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_stg18_0 : Ref sig .tc := ⟨.vmem, 21, rfl⟩
abbrev cc0_stg18_1 : Ref sig .tc := ⟨.vmem, 22, rfl⟩
abbrev cc0_stg19_0 : Ref sig .tc := ⟨.vmem, 23, rfl⟩
abbrev cc0_stg19_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20
abbrev cc0_sem18_0 : DmaSem sig := 21
abbrev cc0_sem18_1 : DmaSem sig := 22
abbrev cc0_sem19_0 : DmaSem sig := 23
abbrev cc0_sem19_1 : DmaSem sig := 24

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S18x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S128x1 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S4000x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4000x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S4000x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  bcast_S_S320000x1 : S_.BroadcastsInDim S320000x1 (![] : Fin 0 → Fin S320000x1.rank)
  bcast_S320000x1_S320000x3_0_1 : S320000x1.BroadcastsInDim S320000x3 (![0, 1] : Fin 2 → Fin S320000x3.rank)
  concatenates_S320000x1_S320000x3_S320000x3_S320000x3_S320000x10_d1 : Shape.Concatenates [S320000x1, S320000x3, S320000x3, S320000x3] S320000x10 1
  bcast_S_S20000x10 : S_.BroadcastsInDim S20000x10 (![] : Fin 0 → Fin S20000x10.rank)
  slices_S20000x10_S20000x1_0_0 : S20000x10.Slices ![0, 0] S20000x1
  bcast_S_S20000x1 : S_.BroadcastsInDim S20000x1 (![] : Fin 0 → Fin S20000x1.rank)
  slices_S20000x10_S20000x3_0_1 : S20000x10.Slices ![0, 1] S20000x3
  bcast_S20000x1_S20000x3_0_1 : S20000x1.BroadcastsInDim S20000x3 (![0, 1] : Fin 2 → Fin S20000x3.rank)
  reducesTo_S20000x3_S20000_d1 : S20000x3.ReducesTo [1] S20000
  bcast_S20000_S20000x1_0 : S20000.BroadcastsInDim S20000x1 (![0] : Fin 1 → Fin S20000x1.rank)
  slices_S20000x10_S20000x3_0_4 : S20000x10.Slices ![0, 4] S20000x3
  slices_S20000x10_S20000x3_0_7 : S20000x10.Slices ![0, 7] S20000x3
  bcast_S20000x3_S20000x1x3_0_2 : S20000x3.BroadcastsInDim S20000x1x3 (![0, 2] : Fin 2 → Fin S20000x1x3.rank)
  concatenates_S20000x1x3_S20000x1x3_S20000x1x3_S20000x3x3_d1 : Shape.Concatenates [S20000x1x3, S20000x1x3, S20000x1x3] S20000x3x3 1
  reducesTo_S320000x3x3_S320000x3_d2 : S320000x3x3.ReducesTo [2] S320000x3
  bitsLt_bf16_f32 : FTy.bits .bf16 < FTy.bits .f32
  concatenates_S320000x128_S320000x128_S320000x256_d1 : Shape.Concatenates [S320000x128, S320000x128] S320000x256 1
  concatenates_S320000x3_S320000x1_S320000x4_d1 : Shape.Concatenates [S320000x3, S320000x1] S320000x4 1
  shapeCasts_S15_S1x15 : S15.ShapeCasts S1x15
  shapeCasts_S128_S1x128 : S128.ShapeCasts S1x128
  shapeCasts_S1_S1x1 : S1.ShapeCasts S1x1
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x4_S4000x4_0_0 : ∀ a, (![0, 0] : Fin 2 → Nat) a + S4000x4.size a ≤ S4000x4.size a
  h_S4000x4 : 0 < S4000x4.numel
  shapeCasts_S4000x4_S4000x4 : S4000x4.ShapeCasts S4000x4
  slices_S4000x4_o0_0_S4000x3 : S4000x4.Slices ![0, 0] S4000x3
  slices_S4000x4_o0_3_S4000x1 : S4000x4.Slices ![0, 3] S4000x1
  inb_S1x15_S1x15_0_0 : ∀ a, (![0, 0] : Fin 2 → Nat) a + S1x15.size a ≤ S1x15.size a
  h_S1x15 : 0 < S1x15.numel
  shapeCasts_S1x15_S1x15 : S1x15.ShapeCasts S1x15
  broadcasts_S4000x1_S4000x15 : S4000x1.Broadcasts S4000x15
  broadcasts_S1x15_S4000x15 : S1x15.Broadcasts S4000x15
  inb_S18x128_S18x128_0_0 : ∀ a, (![0, 0] : Fin 2 → Nat) a + S18x128.size a ≤ S18x128.size a
  h_S18x128 : 0 < S18x128.numel
  shapeCasts_S18x128_S18x128 : S18x128.ShapeCasts S18x128
  slices_S18x128_o0_0_S3x128 : S18x128.Slices ![0, 0] S3x128
  slices_S18x128_o3_0_S15x128 : S18x128.Slices ![3, 0] S15x128
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  gather_S20000x3_S320000x1_S320000x3_1_0_n_n_0_1_13_wf : GatherDims.WF S20000x3 S320000x1 S320000x3 [1] [0] [] [0] [] 1 ![1, 3]
  scatter_S20000x10_S320000x1_S320000x10_1_0_0_1_wf : ScatterDims.WF S20000x10 S320000x1 S320000x10 [1] [0] [0] 1
  gather_S20000x3x3_S320000x1_S320000x3x3_12_0_n_n_0_1_133_wf : GatherDims.WF S20000x3x3 S320000x1 S320000x3x3 [1, 2] [0] [] [0] [] 1 ![1, 3, 3]
  gather_S20000x128_S320000x1_S320000x128_1_0_n_n_0_1_1128_wf : GatherDims.WF S20000x128 S320000x1 S320000x128 [1] [0] [] [0] [] 1 ![1, 128]
  dot_S4000x256_S256x128_S4000x128_1_0_0_1_n_n_wf : DotDims.WF S4000x256 S256x128 S4000x128 [1] [0] [0] [1] [] []
  dot_S4000x128_S128x128_S4000x128_1_0_0_1_n_n_wf : DotDims.WF S4000x128 S128x128 S4000x128 [1] [0] [0] [1] [] []
  dot_S4000x3_S3x128_S4000x128_1_0_0_1_n_n_wf : DotDims.WF S4000x3 S3x128 S4000x128 [1] [0] [0] [1] [] []
  dot_S4000x15_S15x128_S4000x128_1_0_0_1_n_n_wf : DotDims.WF S4000x15 S15x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S320000x256.size a
  hwx0_0 : ∀ i : grid0.Coords, EltTy.bits .bf16 = 32 ∨ (Rect.block (s := S320000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x4.size a ≤ S320000x4.size a
  hwx0_1 : ∀ i : grid0.Coords, EltTy.bits .f32 = 32 ∨ (Rect.block (s := S320000x4) S4000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x15.size a ≤ S1x15.size a
  hwx0_2 : ∀ i : grid0.Coords, EltTy.bits .f32 = 32 ∨ (Rect.block (s := S1x15) S1x15.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S18x128.size a ≤ S18x128.size a
  hwx0_7 : ∀ i : grid0.Coords, EltTy.bits .bf16 = 32 ∨ (Rect.block (s := S18x128) S18x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .bf16 = 32 ∨ (Rect.block (s := S128x128) S128x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x1.size a ≤ S128x1.size a
  hwx0_15 : ∀ i : grid0.Coords, EltTy.bits .bf16 = 32 ∨ (Rect.block (s := S128x1) S128x1.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x1.size a ≤ S1x1.size a
  hwx0_16 : ∀ i : grid0.Coords, EltTy.bits .f32 = 32 ∨ (Rect.block (s := S1x1) S1x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S4000x128.size a ≤ S320000x128.size a
  hwx0_17 : ∀ i : grid0.Coords, EltTy.bits .f32 = 32 ∨ (Rect.block (s := S320000x128) S4000x128.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S4000x128.size a ≤ S320000x128.size a
  hwx0_18 : ∀ i : grid0.Coords, EltTy.bits .f32 = 32 ∨ (Rect.block (s := S320000x128) S4000x128.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S4000x128.size a ≤ S320000x128.size a
  hwx0_19 : ∀ i : grid0.Coords, EltTy.bits .f32 = 32 ∨ (Rect.block (s := S320000x128) S4000x128.size (cc0_transform_19 i) (hinb0_19 i)).WholeWords (EltTy.packing .f32)

variable [Facts₀]

def gather_S20000x3_S320000x1_S320000x3_1_0_n_n_0_1_13 : GatherDims S20000x3 S320000x1 S320000x3 where
  offsetDims := [1]
  collapsedSliceDims := [0]
  operandBatchingDims := []
  startIndicesBatchingDims := []
  startIndexMap := [0]
  indexVectorDim := 1
  sliceSizes := ![1, 3]
  wf := gather_S20000x3_S320000x1_S320000x3_1_0_n_n_0_1_13_wf
def scatter_S20000x10_S320000x1_S320000x10_1_0_0_1 : ScatterDims S20000x10 S320000x1 S320000x10 where
  updateWindowDims := [1]
  insertedWindowDims := [0]
  scatterDimsToOperandDims := [0]
  indexVectorDim := 1
  wf := scatter_S20000x10_S320000x1_S320000x10_1_0_0_1_wf
def gather_S20000x3x3_S320000x1_S320000x3x3_12_0_n_n_0_1_133 : GatherDims S20000x3x3 S320000x1 S320000x3x3 where
  offsetDims := [1, 2]
  collapsedSliceDims := [0]
  operandBatchingDims := []
  startIndicesBatchingDims := []
  startIndexMap := [0]
  indexVectorDim := 1
  sliceSizes := ![1, 3, 3]
  wf := gather_S20000x3x3_S320000x1_S320000x3x3_12_0_n_n_0_1_133_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def dot_S4000x15_S15x128_S4000x128_1_0_0_1_n_n : DotDims S4000x15 S15x128 S4000x128 where
  lhsContracting := [1]
  rhsContracting := [0]
  lhsNonContracting := [0]
  rhsNonContracting := [1]
  lhsBatch := []
  rhsBatch := []
  wf := dot_S4000x15_S15x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v106) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v107) S4000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v108) S1x15.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v109) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v116) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v110) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v117) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v111) S18x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v118) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v112) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v119) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v113) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v120) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v114) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v121) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v115) S128x1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v122) S1x1.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v123_0) S4000x128.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v123_1) S4000x128.size cc0_transform_18 reads0_18 true false 2 stage0_18 sem0_18
    hrank0 hreads0_18 hinb0_18 nbuf0_18 (Memref.isWhole_whole _) hwx0_18 hstage0_18

abbrev win0_19 : Pipeline.Window sig grid0 :=
  Pipeline.Window.ofSpec (Memref.whole main_v123_2) S4000x128.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S20000x128 : Shape := ⟨2, ![20000, 128]⟩
abbrev S20000x3 : Shape := ⟨2, ![20000, 3]⟩
abbrev S2x320000 : Shape := ⟨2, ![2, 320000]⟩
abbrev S256x128 : Shape := ⟨2, ![256, 128]⟩
abbrev S128 : Shape := ⟨1, ![128]⟩
abbrev S128x128 : Shape := ⟨2, ![128, 128]⟩
abbrev S18x128 : Shape := ⟨2, ![18, 128]⟩
abbrev S128x1 : Shape := ⟨2, ![128, 1]⟩
abbrev S1 : Shape := ⟨1, ![1]⟩
abbrev S15 : Shape := ⟨1, ![15]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x3 : Shape := ⟨2, ![320000, 3]⟩
abbrev S1x15 : Shape := ⟨2, ![1, 15]⟩
abbrev S320000x15 : Shape := ⟨2, ![320000, 15]⟩
abbrev S20000 : Shape := ⟨1, ![20000]⟩
abbrev S20000x1 : Shape := ⟨2, ![20000, 1]⟩
abbrev S20000x1x3 : Shape := ⟨3, ![20000, 1, 3]⟩
abbrev S20000x3x3 : Shape := ⟨3, ![20000, 3, 3]⟩
abbrev S320000x3x3 : Shape := ⟨3, ![320000, 3, 3]⟩
abbrev S320000x128 : Shape := ⟨2, ![320000, 128]⟩
abbrev S320000x256 : Shape := ⟨2, ![320000, 256]⟩
abbrev S320000x18 : Shape := ⟨2, ![320000, 18]⟩
abbrev S1x128 : Shape := ⟨2, ![1, 128]⟩
abbrev S1x1 : Shape := ⟨2, ![1, 1]⟩

abbrev nBuf : Space → Nat
  | .hbm => 244
  | .vmem => 0
  | .smem => 0
  | _ => 0

abbrev hbmTy0_0 (i : Nat) : BufTy := match i % 128 with
  | 0 => ⟨S20000x128, .f32⟩
  | 1 => ⟨S20000x3, .f32⟩
  | 2 => ⟨S2x320000, .i32⟩
  | 3 => ⟨S256x128, .f32⟩
  | 4 => ⟨S128, .f32⟩
  | 5 => ⟨S128x128, .f32⟩
  | 6 => ⟨S128, .f32⟩
  | 7 => ⟨S18x128, .f32⟩
  | 8 => ⟨S128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128, .f32⟩
  | 15 => ⟨S128x1, .f32⟩
  | 16 => ⟨S1, .f32⟩
  | 17 => ⟨S15, .f32⟩
  | 18 => ⟨S1x320000, .i32⟩
  | 19 => ⟨S320000, .i32⟩
  | 20 => ⟨S1x320000, .i32⟩
  | 21 => ⟨S320000, .i32⟩
  | 22 => ⟨S_, .i32⟩
  | 23 => ⟨S320000, .i32⟩
  | 24 => ⟨S320000, .i1⟩
  | 25 => ⟨S_, .i32⟩
  | 26 => ⟨S320000, .i32⟩
  | 27 => ⟨S320000, .i32⟩
  | 28 => ⟨S320000, .i32⟩
  | 29 => ⟨S320000x1, .i32⟩
  | 30 => ⟨S320000x3, .f32⟩
  | 31 => ⟨S_, .i32⟩
  | 32 => ⟨S320000, .i32⟩
  | 33 => ⟨S320000, .i1⟩
  | 34 => ⟨S_, .i32⟩
  | 35 => ⟨S320000, .i32⟩
  | 36 => ⟨S320000, .i32⟩
  | 37 => ⟨S320000, .i32⟩
  | 38 => ⟨S320000x1, .i32⟩
  | 39 => ⟨S320000x3, .f32⟩
  | 40 => ⟨S320000x3, .f32⟩
  | 41 => ⟨S320000x3, .f32⟩
  | 42 => ⟨S_, .f32⟩
  | 43 => ⟨S320000, .f32⟩
  | 44 => ⟨S320000x1, .f32⟩
  | 45 => ⟨S1x15, .f32⟩
  | 46 => ⟨S320000x15, .f32⟩
  | 47 => ⟨S320000x15, .f32⟩
  | 48 => ⟨S320000x15, .f32⟩
  | 49 => ⟨S320000x15, .f32⟩
  | 50 => ⟨S320000x3, .f32⟩
  | 51 => ⟨S_, .f32⟩
  | 52 => ⟨S320000, .f32⟩
  | 53 => ⟨S320000x1, .f32⟩
  | 54 => ⟨S320000x1, .f32⟩
  | 55 => ⟨S_, .f32⟩
  | 56 => ⟨S320000x1, .f32⟩
  | 57 => ⟨S320000x1, .f32⟩
  | 58 => ⟨S320000x3, .f32⟩
  | 59 => ⟨S320000x3, .f32⟩
  | 60 => ⟨S_, .f32⟩
  | 61 => ⟨S320000, .f32⟩
  | 62 => ⟨S_, .f32⟩
  | 63 => ⟨S20000, .f32⟩
  | 64 => ⟨S320000x1, .i32⟩
  | 65 => ⟨S20000, .f32⟩
  | 66 => ⟨S_, .f32⟩
  | 67 => ⟨S20000, .f32⟩
  | 68 => ⟨S20000, .f32⟩
  | 69 => ⟨S20000x1, .f32⟩
  | 70 => ⟨S_, .f32⟩
  | 71 => ⟨S320000x1, .f32⟩
  | 72 => ⟨S320000x1, .f32⟩
  | 73 => ⟨S320000x3, .f32⟩
  | 74 => ⟨S320000x3, .f32⟩
  | 75 => ⟨S_, .f32⟩
  | 76 => ⟨S20000x3, .f32⟩
  | 77 => ⟨S320000x1, .i32⟩
  | 78 => ⟨S20000x3, .f32⟩
  | 79 => ⟨S20000x3, .f32⟩
  | 80 => ⟨S20000x3, .f32⟩
  | 81 => ⟨S20000x3, .f32⟩
  | 82 => ⟨S_, .f32⟩
  | 83 => ⟨S20000, .f32⟩
  | 84 => ⟨S20000x1, .f32⟩
  | 85 => ⟨S20000x1, .f32⟩
  | 86 => ⟨S_, .f32⟩
  | 87 => ⟨S20000x1, .f32⟩
  | 88 => ⟨S20000x1, .f32⟩
  | 89 => ⟨S20000x3, .f32⟩
  | 90 => ⟨S20000x3, .f32⟩
  | 91 => ⟨S_, .f32⟩
  | 92 => ⟨S320000x1, .f32⟩
  | 93 => ⟨S320000x1, .f32⟩
  | 94 => ⟨S320000x3, .f32⟩
  | 95 => ⟨S320000x3, .f32⟩
  | 96 => ⟨S_, .f32⟩
  | 97 => ⟨S20000x3, .f32⟩
  | 98 => ⟨S320000x1, .i32⟩
  | 99 => ⟨S20000x3, .f32⟩
  | 100 => ⟨S20000x3, .f32⟩
  | 101 => ⟨S20000x3, .f32⟩
  | 102 => ⟨S20000x3, .f32⟩
  | 103 => ⟨S_, .f32⟩
  | 104 => ⟨S20000, .f32⟩
  | 105 => ⟨S20000x1, .f32⟩
  | 106 => ⟨S20000x1, .f32⟩
  | 107 => ⟨S_, .f32⟩
  | 108 => ⟨S20000x1, .f32⟩
  | 109 => ⟨S20000x1, .f32⟩
  | 110 => ⟨S20000x3, .f32⟩
  | 111 => ⟨S20000x3, .f32⟩
  | 112 => ⟨S_, .f32⟩
  | 113 => ⟨S320000x1, .f32⟩
  | 114 => ⟨S320000x1, .f32⟩
  | 115 => ⟨S320000x3, .f32⟩
  | 116 => ⟨S320000x3, .f32⟩
  | 117 => ⟨S_, .f32⟩
  | 118 => ⟨S20000x3, .f32⟩
  | 119 => ⟨S320000x1, .i32⟩
  | 120 => ⟨S20000x3, .f32⟩
  | 121 => ⟨S20000x3, .f32⟩
  | 122 => ⟨S20000x3, .f32⟩
  | 123 => ⟨S20000x3, .f32⟩
  | 124 => ⟨S_, .f32⟩
  | 125 => ⟨S20000, .f32⟩
  | 126 => ⟨S20000x1, .f32⟩
  | 127 => ⟨S20000x1, .f32⟩
  | _ => ⟨S20000x128, .f32⟩

abbrev hbmTy0_1 (i : Nat) : BufTy := match i % 128 with
  | 0 => ⟨S_, .f32⟩
  | 1 => ⟨S20000x1, .f32⟩
  | 2 => ⟨S20000x1, .f32⟩
  | 3 => ⟨S20000x3, .f32⟩
  | 4 => ⟨S20000x3, .f32⟩
  | 5 => ⟨S20000x1x3, .f32⟩
  | 6 => ⟨S20000x1x3, .f32⟩
  | 7 => ⟨S20000x1x3, .f32⟩
  | 8 => ⟨S20000x3x3, .f32⟩
  | 9 => ⟨S_, .i32⟩
  | 10 => ⟨S320000, .i32⟩
  | 11 => ⟨S320000, .i1⟩
  | 12 => ⟨S_, .i32⟩
  | 13 => ⟨S320000, .i32⟩
  | 14 => ⟨S320000, .i32⟩
  | 15 => ⟨S320000, .i32⟩
  | 16 => ⟨S320000x1, .i32⟩
  | 17 => ⟨S320000x3x3, .f32⟩
  | 18 => ⟨S_, .i32⟩
  | 19 => ⟨S320000, .i32⟩
  | 20 => ⟨S320000, .i1⟩
  | 21 => ⟨S_, .i32⟩
  | 22 => ⟨S320000, .i32⟩
  | 23 => ⟨S320000, .i32⟩
  | 24 => ⟨S320000, .i32⟩
  | 25 => ⟨S320000x1, .i32⟩
  | 26 => ⟨S320000x3x3, .f32⟩
  | 27 => ⟨S320000x3x3, .f32⟩
  | 28 => ⟨S_, .f32⟩
  | 29 => ⟨S320000x3, .f32⟩
  | 30 => ⟨S_, .i32⟩
  | 31 => ⟨S320000, .i32⟩
  | 32 => ⟨S320000, .i1⟩
  | 33 => ⟨S_, .i32⟩
  | 34 => ⟨S320000, .i32⟩
  | 35 => ⟨S320000, .i32⟩
  | 36 => ⟨S320000, .i32⟩
  | 37 => ⟨S320000x1, .i32⟩
  | 38 => ⟨S320000x128, .f32⟩
  | 39 => ⟨S_, .i32⟩
  | 40 => ⟨S320000, .i32⟩
  | 41 => ⟨S320000, .i1⟩
  | 42 => ⟨S_, .i32⟩
  | 43 => ⟨S320000, .i32⟩
  | 44 => ⟨S320000, .i32⟩
  | 45 => ⟨S320000, .i32⟩
  | 46 => ⟨S320000x1, .i32⟩
  | 47 => ⟨S320000x128, .f32⟩
  | 48 => ⟨S320000x256, .f32⟩
  | 49 => ⟨S320000x18, .f32⟩
  | 50 => ⟨S320000x128, .f32⟩
  | 51 => ⟨S1x128, .f32⟩
  | 52 => ⟨S320000x128, .f32⟩
  | 53 => ⟨S320000x128, .f32⟩
  | 54 => ⟨S320000x128, .f32⟩
  | 55 => ⟨S320000x128, .f32⟩
  | 56 => ⟨S_, .f32⟩
  | 57 => ⟨S320000x128, .f32⟩
  | 58 => ⟨S320000x128, .f32⟩
  | 59 => ⟨S_, .f32⟩
  | 60 => ⟨S320000x128, .f32⟩
  | 61 => ⟨S320000x128, .f32⟩
  | 62 => ⟨S320000x128, .f32⟩
  | 63 => ⟨S320000x128, .f32⟩
  | 64 => ⟨S1x128, .f32⟩
  | 65 => ⟨S320000x128, .f32⟩
  | 66 => ⟨S320000x128, .f32⟩
  | 67 => ⟨S320000x128, .f32⟩
  | 68 => ⟨S1x128, .f32⟩
  | 69 => ⟨S320000x128, .f32⟩
  | 70 => ⟨S320000x128, .f32⟩
  | 71 => ⟨S320000x128, .f32⟩
  | 72 => ⟨S320000x128, .f32⟩
  | 73 => ⟨S_, .f32⟩
  | 74 => ⟨S320000x128, .f32⟩
  | 75 => ⟨S320000x128, .f32⟩
  | 76 => ⟨S_, .f32⟩
  | 77 => ⟨S320000x128, .f32⟩
  | 78 => ⟨S320000x128, .f32⟩
  | 79 => ⟨S320000x128, .f32⟩
  | 80 => ⟨S320000x128, .f32⟩
  | 81 => ⟨S1x128, .f32⟩
  | 82 => ⟨S320000x128, .f32⟩
  | 83 => ⟨S320000x128, .f32⟩
  | 84 => ⟨S320000x128, .f32⟩
  | 85 => ⟨S1x128, .f32⟩
  | 86 => ⟨S320000x128, .f32⟩
  | 87 => ⟨S320000x128, .f32⟩
  | 88 => ⟨S320000x128, .f32⟩
  | 89 => ⟨S320000x128, .f32⟩
  | 90 => ⟨S_, .f32⟩
  | 91 => ⟨S320000x128, .f32⟩
  | 92 => ⟨S320000x128, .f32⟩
  | 93 => ⟨S_, .f32⟩
  | 94 => ⟨S320000x128, .f32⟩
  | 95 => ⟨S320000x128, .f32⟩
  | 96 => ⟨S320000x128, .f32⟩
  | 97 => ⟨S320000x128, .f32⟩
  | 98 => ⟨S1x128, .f32⟩
  | 99 => ⟨S320000x128, .f32⟩
  | 100 => ⟨S320000x128, .f32⟩
  | 101 => ⟨S320000x128, .f32⟩
  | 102 => ⟨S320000x1, .f32⟩
  | 103 => ⟨S1x1, .f32⟩
  | 104 => ⟨S320000x1, .f32⟩
  | 105 => ⟨S320000x1, .f32⟩
  | 106 => ⟨S320000x1, .f32⟩
  | 107 => ⟨S320000x1, .f32⟩
  | 108 => ⟨S_, .f32⟩
  | 109 => ⟨S320000x1, .f32⟩
  | 110 => ⟨S320000x1, .f32⟩
  | 111 => ⟨S_, .f32⟩
  | 112 => ⟨S320000x1, .f32⟩
  | 113 => ⟨S320000x1, .f32⟩
  | 114 => ⟨S320000x128, .f32⟩
  | 115 => ⟨S320000x128, .f32⟩
  | _ => ⟨S20000x128, .f32⟩

abbrev hbmTy (i : Nat) : BufTy := match i / 128 with
  | 0 => hbmTy0_0 i
  | 1 => hbmTy0_1 i
  | _ => ⟨S20000x128, .f32⟩

abbrev bufTy : (tb : Table) → Fin (tcTables nBuf tb) → BufTy
  | .hbm, ⟨i, _⟩ => hbmTy i
  | _, _ => ⟨S20000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_1 : Ref sig .tc := ⟨.hbm, 31, rfl⟩
abbrev main_v11 : Ref sig .tc := ⟨.hbm, 32, rfl⟩
abbrev main_v12 : Ref sig .tc := ⟨.hbm, 33, rfl⟩
abbrev main_c_2 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_call0_v0 : Ref sig .tc := ⟨.hbm, 50, rfl⟩
abbrev main_call0_cst : Ref sig .tc := ⟨.hbm, 51, rfl⟩
abbrev main_call0_v1 : Ref sig .tc := ⟨.hbm, 52, rfl⟩
abbrev main_call0_v2 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_5 : Ref sig .tc := ⟨.hbm, 60, rfl⟩
abbrev main_v32 : Ref sig .tc := ⟨.hbm, 61, rfl⟩
abbrev main_cst_6 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_cst_7 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_cst_8 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_9 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_call1_v0 : Ref sig .tc := ⟨.hbm, 81, rfl⟩
abbrev main_call1_cst : Ref sig .tc := ⟨.hbm, 82, rfl⟩
abbrev main_call1_v1 : Ref sig .tc := ⟨.hbm, 83, rfl⟩
abbrev main_call1_v2 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_cst_11 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_12 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_call2_v0 : Ref sig .tc := ⟨.hbm, 102, rfl⟩
abbrev main_call2_cst : Ref sig .tc := ⟨.hbm, 103, rfl⟩
abbrev main_call2_v1 : Ref sig .tc := ⟨.hbm, 104, rfl⟩
abbrev main_call2_v2 : Ref sig .tc := ⟨.hbm, 105, rfl⟩
abbrev main_v62 : Ref sig .tc := ⟨.hbm, 106, rfl⟩
abbrev main_cst_13 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_cst_14 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_cst_15 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_call3_v0 : Ref sig .tc := ⟨.hbm, 123, rfl⟩
abbrev main_call3_cst : Ref sig .tc := ⟨.hbm, 124, rfl⟩
abbrev main_call3_v1 : Ref sig .tc := ⟨.hbm, 125, rfl⟩
abbrev main_call3_v2 : Ref sig .tc := ⟨.hbm, 126, rfl⟩
abbrev main_v76 : Ref sig .tc := ⟨.hbm, 127, rfl⟩
abbrev main_cst_16 : Ref sig .tc := ⟨.hbm, 128, rfl⟩
abbrev main_v77 : Ref sig .tc := ⟨.hbm, 129, rfl⟩
abbrev main_v78 : Ref sig .tc := ⟨.hbm, 130, rfl⟩
abbrev main_v79 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_c_17 : Ref sig .tc := ⟨.hbm, 137, rfl⟩
abbrev main_v85 : Ref sig .tc := ⟨.hbm, 138, rfl⟩
abbrev main_v86 : Ref sig .tc := ⟨.hbm, 139, rfl⟩
abbrev main_c_18 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_c_19 : Ref sig .tc := ⟨.hbm, 146, rfl⟩
abbrev main_v92 : Ref sig .tc := ⟨.hbm, 147, rfl⟩
abbrev main_v93 : Ref sig .tc := ⟨.hbm, 148, rfl⟩
abbrev main_c_20 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_cst_21 : Ref sig .tc := ⟨.hbm, 156, rfl⟩
abbrev main_v100 : Ref sig .tc := ⟨.hbm, 157, rfl⟩
abbrev main_c_22 : Ref sig .tc := ⟨.hbm, 158, rfl⟩
abbrev main_v101 : Ref sig .tc := ⟨.hbm, 159, rfl⟩
abbrev main_v102 : Ref sig .tc := ⟨.hbm, 160, rfl⟩
abbrev main_c_23 : Ref sig .tc := ⟨.hbm, 161, rfl⟩
abbrev main_v103 : Ref sig .tc := ⟨.hbm, 162, rfl⟩
abbrev main_v104 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_c_24 : Ref sig .tc := ⟨.hbm, 167, rfl⟩
abbrev main_v108 : Ref sig .tc := ⟨.hbm, 168, rfl⟩
abbrev main_v109 : Ref sig .tc := ⟨.hbm, 169, rfl⟩
abbrev main_c_25 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_v120 : Ref sig .tc := ⟨.hbm, 181, rfl⟩
abbrev main_call4_v0 : Ref sig .tc := ⟨.hbm, 182, rfl⟩
abbrev main_call4_v1 : Ref sig .tc := ⟨.hbm, 183, rfl⟩
abbrev main_call4_cst : Ref sig .tc := ⟨.hbm, 184, rfl⟩
abbrev main_call4_v2 : Ref sig .tc := ⟨.hbm, 185, rfl⟩
abbrev main_call4_v3 : Ref sig .tc := ⟨.hbm, 186, rfl⟩
abbrev main_call4_cst_0 : Ref sig .tc := ⟨.hbm, 187, rfl⟩
abbrev main_call4_v4 : Ref sig .tc := ⟨.hbm, 188, rfl⟩
abbrev main_call4_v5 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_v129 : Ref sig .tc := ⟨.hbm, 198, rfl⟩
abbrev main_call5_v0 : Ref sig .tc := ⟨.hbm, 199, rfl⟩
abbrev main_call5_v1 : Ref sig .tc := ⟨.hbm, 200, rfl⟩
abbrev main_call5_cst : Ref sig .tc := ⟨.hbm, 201, rfl⟩
abbrev main_call5_v2 : Ref sig .tc := ⟨.hbm, 202, rfl⟩
abbrev main_call5_v3 : Ref sig .tc := ⟨.hbm, 203, rfl⟩
abbrev main_call5_cst_0 : Ref sig .tc := ⟨.hbm, 204, rfl⟩
abbrev main_call5_v4 : Ref sig .tc := ⟨.hbm, 205, rfl⟩
abbrev main_call5_v5 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_call6_v0 : Ref sig .tc := ⟨.hbm, 216, rfl⟩
abbrev main_call6_v1 : Ref sig .tc := ⟨.hbm, 217, rfl⟩
abbrev main_call6_cst : Ref sig .tc := ⟨.hbm, 218, rfl⟩
abbrev main_call6_v2 : Ref sig .tc := ⟨.hbm, 219, rfl⟩
abbrev main_call6_v3 : Ref sig .tc := ⟨.hbm, 220, rfl⟩
abbrev main_call6_cst_0 : Ref sig .tc := ⟨.hbm, 221, rfl⟩
abbrev main_call6_v4 : Ref sig .tc := ⟨.hbm, 222, rfl⟩
abbrev main_call6_v5 : Ref sig .tc := ⟨.hbm, 223, rfl⟩
abbrev main_v139 : Ref sig .tc := ⟨.hbm, 224, rfl⟩
abbrev main_v140 : Ref sig .tc := ⟨.hbm, 225, rfl⟩
abbrev main_v141 : Ref sig .tc := ⟨.hbm, 226, rfl⟩
abbrev main_v142 : Ref sig .tc := ⟨.hbm, 227, rfl⟩
abbrev main_v143 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_cst_26 : Ref sig .tc := ⟨.hbm, 236, rfl⟩
abbrev main_v151 : Ref sig .tc := ⟨.hbm, 237, rfl⟩
abbrev main_v152 : Ref sig .tc := ⟨.hbm, 238, rfl⟩
abbrev main_cst_27 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  reducesTo_S320000x3_S320000_d1 : S320000x3.ReducesTo [1] S320000
  h_S_ : 0 < S_.numel
  bcast_S15_S1x15_1 : S15.BroadcastsInDim S1x15 (![1] : Fin 1 → Fin S1x15.rank)
  bcast_S320000x1_S320000x15_0_1 : S320000x1.BroadcastsInDim S320000x15 (![0, 1] : Fin 2 → Fin S320000x15.rank)
  bcast_S1x15_S320000x15_0_1 : S1x15.BroadcastsInDim S320000x15 (![0, 1] : Fin 2 → Fin S320000x15.rank)
  bcast_S_S320000x1 : S_.BroadcastsInDim S320000x1 (![] : Fin 0 → Fin S320000x1.rank)
  bcast_S320000x1_S320000x3_0_1 : S320000x1.BroadcastsInDim S320000x3 (![0, 1] : Fin 2 → Fin S320000x3.rank)
  bcast_S_S20000 : S_.BroadcastsInDim S20000 (![] : Fin 0 → Fin S20000.rank)
  bcast_S20000_S20000x1_0 : S20000.BroadcastsInDim S20000x1 (![0] : Fin 1 → Fin S20000x1.rank)
  bcast_S_S20000x3 : S_.BroadcastsInDim S20000x3 (![] : Fin 0 → Fin S20000x3.rank)
  bcast_S20000x1_S20000x3_0_1 : S20000x1.BroadcastsInDim S20000x3 (![0, 1] : Fin 2 → Fin S20000x3.rank)
  reducesTo_S20000x3_S20000_d1 : S20000x3.ReducesTo [1] S20000
  bcast_S_S20000x1 : S_.BroadcastsInDim S20000x1 (![] : Fin 0 → Fin S20000x1.rank)
  bcast_S20000x3_S20000x1x3_0_2 : S20000x3.BroadcastsInDim S20000x1x3 (![0, 2] : Fin 2 → Fin S20000x1x3.rank)
  concatenates_S20000x1x3_S20000x1x3_S20000x1x3_S20000x3x3_d1 : Shape.Concatenates [S20000x1x3, S20000x1x3, S20000x1x3] S20000x3x3 1
  reducesTo_S320000x3x3_S320000x3_d2 : S320000x3x3.ReducesTo [2] S320000x3
  concatenates_S320000x128_S320000x128_S320000x256_d1 : Shape.Concatenates [S320000x128, S320000x128] S320000x256 1
  concatenates_S320000x3_S320000x15_S320000x18_d1 : Shape.Concatenates [S320000x3, S320000x15] S320000x18 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S_S320000x128 : S_.BroadcastsInDim S320000x128 (![] : Fin 0 → Fin S320000x128.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  bcast_S320000x1_S320000x128_0_1 : S320000x1.BroadcastsInDim S320000x128 (![0, 1] : Fin 2 → Fin S320000x128.rank)
  gather_S20000x3_S320000x1_S320000x3_1_0_n_n_0_1_13_wf : GatherDims.WF S20000x3 S320000x1 S320000x3 [1] [0] [] [0] [] 1 ![1, 3]
  scatter_S20000_S320000x1_S320000_n_0_0_1_wf : ScatterDims.WF S20000 S320000x1 S320000 [] [0] [0] 1
  scatter_S20000x3_S320000x1_S320000x3_1_0_0_1_wf : ScatterDims.WF S20000x3 S320000x1 S320000x3 [1] [0] [0] 1
  gather_S20000x3x3_S320000x1_S320000x3x3_12_0_n_n_0_1_133_wf : GatherDims.WF S20000x3x3 S320000x1 S320000x3x3 [1, 2] [0] [] [0] [] 1 ![1, 3, 3]
  gather_S20000x128_S320000x1_S320000x128_1_0_n_n_0_1_1128_wf : GatherDims.WF S20000x128 S320000x1 S320000x128 [1] [0] [] [0] [] 1 ![1, 128]
  dot_S320000x256_S256x128_S320000x128_1_0_0_1_n_n_wf : DotDims.WF S320000x256 S256x128 S320000x128 [1] [0] [0] [1] [] []
  dot_S320000x128_S128x128_S320000x128_1_0_0_1_n_n_wf : DotDims.WF S320000x128 S128x128 S320000x128 [1] [0] [0] [1] [] []
  dot_S320000x18_S18x128_S320000x128_1_0_0_1_n_n_wf : DotDims.WF S320000x18 S18x128 S320000x128 [1] [0] [0] [1] [] []
  dot_S320000x128_S128x1_S320000x1_1_0_0_1_n_n_wf : DotDims.WF S320000x128 S128x1 S320000x1 [1] [0] [0] [1] [] []

variable [Facts₀]

def gather_S20000x3_S320000x1_S320000x3_1_0_n_n_0_1_13 : GatherDims S20000x3 S320000x1 S320000x3 where
  offsetDims := [1]
  collapsedSliceDims := [0]
  operandBatchingDims := []
  startIndicesBatchingDims := []
  startIndexMap := [0]
  indexVectorDim := 1
  sliceSizes := ![1, 3]
  wf := gather_S20000x3_S320000x1_S320000x3_1_0_n_n_0_1_13_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def scatter_S20000x3_S320000x1_S320000x3_1_0_0_1 : ScatterDims S20000x3 S320000x1 S320000x3 where
  updateWindowDims := [1]
  insertedWindowDims := [0]
  scatterDimsToOperandDims := [0]
  indexVectorDim := 1
  wf := scatter_S20000x3_S320000x1_S320000x3_1_0_0_1_wf
def gather_S20000x3x3_S320000x1_S320000x3x3_12_0_n_n_0_1_133 : GatherDims S20000x3x3 S320000x1 S320000x3x3 where
  offsetDims := [1, 2]
  collapsedSliceDims := [0]
  operandBatchingDims := []
  startIndicesBatchingDims := []
  startIndexMap := [0]
  indexVectorDim := 1
  sliceSizes := ![1, 3, 3]
  wf := gather_S20000x3x3_S320000x1_S320000x3x3_12_0_n_n_0_1_133_wf
def gather_S20000x128_S320000x1_S320000x128_1_0_n_n_0_1_1128 : GatherDims S20000x128 S320000x1 S320000x128 where
  offsetDims := [1]
  collapsedSliceDims := [0]
  operandBatchingDims := []
  startIndicesBatchingDims := []
  startIndexMap := [0]
  indexVectorDim := 1
  sliceSizes := ![1, 128]
  wf := gather_S20000x128_S320000x1_S320000x128_1_0_n_n_0_1_1128_wf
def dot_S320000x256_S256x128_S320000x128_1_0_0_1_n_n : DotDims S320000x256 S256x128 S320000x128 where
  lhsContracting := [1]
  rhsContracting := [0]
  lhsNonContracting := [0]
  rhsNonContracting := [1]
  lhsBatch := []
  rhsBatch := []
  wf := dot_S320000x256_S256x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x18_S18x128_S320000x128_1_0_0_1_n_n : DotDims S320000x18 S18x128 S320000x128 where
  lhsContracting := [1]
  rhsContracting := [0]
  lhsNonContracting := [0]
  rhsNonContracting := [1]
  lhsBatch := []
  rhsBatch := []
  wf := dot_S320000x18_S18x128_S320000x128_1_0_0_1_n_n_wf
def dot_S320000x128_S128x1_S320000x1_1_0_0_1_n_n : DotDims S320000x128 S128x1 S320000x1 where
  lhsContracting := [1]
  rhsContracting := [0]
  lhsNonContracting := [0]
  rhsNonContracting := [1]
  lhsBatch := []
  rhsBatch := []
  wf := dot_S320000x128_S128x1_S320000x1_1_0_0_1_n_n_wf

class Facts : Prop extends Facts₀ where

variable [Facts]
-- ==== Proof.KFrameDefsBits.lean ====
import proofs.«110032_j62122406969661_2_alg».proof.Proof.Gen.Kernel.Launch
import proofs.«110032_j62122406969661_2_alg».proof.Proof.Gen.Kernel.Skeleton
import proofs.«110032_j62122406969661_2_alg».proof.Proof.Gen.Kernel.Points
import Idealize.ShloMosaic.Lib.Pipeline.FrameBody
import Idealize.ShloMosaic.Lib.Ring
import Idealize.ShloMosaic.Lib.Tactic

/-! The region-entry contents, the windows' blocks, the body's access rectangles and what the body leaves in each
    output window's staging buffer, as closed terms over the input blocks. Definitions only. -/

set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the nine stretches of host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S4000x256 := Rect.unit (s := S4000x256) ![0, 0] S4000x256.size inb_S4000x256_S4000x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S4000x4 := Rect.unit (s := S4000x4) ![0, 0] S4000x4.size inb_S4000x4_S4000x4_0_0
abbrev r0_5 : Rect S1x15 := Rect.unit (s := S1x15) ![0, 0] S1x15.size inb_S1x15_S1x15_0_0
abbrev r0_6 : Rect S18x128 := Rect.unit (s := S18x128) ![0, 0] S18x128.size inb_S18x128_S18x128_0_0
abbrev r0_7 : Rect S128x1 := Rect.unit (s := S128x1) ![0, 0] S128x1.size inb_S128x1_S128x1_0_0
abbrev r0_8 : Rect S1x1 := Rect.unit (s := S1x1) ![0, 0] S1x1.size inb_S1x1_S1x1_0_0
abbrev r0_9 : Rect S4000x128 := Rect.unit (s := S4000x128) ![0, 0] S4000x128.size inb_S4000x128_S4000x128_0_0

/-! ## What the body leaves in each output window's buffer -/

/-- Window 17's staging buffer after the body, from the input windows' blocks: its one store as a piece
    (`View.canon`; the payloads are the skeleton's). -/
def out0_17 (x0 : Vec F S4000x256 .bf16) (x1 : Vec F S4000x4 .f32) (x2 : Vec F S1x15 .f32) (x3 : Vec F S256x128 .bf16) (x4 : Vec F S1x128 .f32) (x5 : Vec F S128x128 .bf16) (x6 : Vec F S1x128 .f32) (x7 : Vec F S18x128 .bf16) (x8 : Vec F S1x128 .f32) (x9 : Vec F S128x128 .bf16) (x10 : Vec F S1x128 .f32) (x11 : Vec F S128x128 .bf16) (x12 : Vec F S1x128 .f32) (x13 : Vec F S128x128 .bf16) (x14 : Vec F S1x128 .f32) (x15 : Vec F S128x1 .bf16) (x16 : Vec F S1x1 .f32) : Vec F S4000x128 .f32 :=
  View.canon [⟨r0_9, k0_pay1 (k0_pay5 (k0_pay2 (View.ld x0 r0_0) (View.ld x3 r0_1) (View.ld x4 r0_2) (View.ld x5 r0_3) (View.ld x6 r0_2)) (k0_pay3 (View.ld x1 r0_4) (View.ld x2 r0_5) (View.ld x7 r0_6)) (View.ld x8 r0_2) (View.ld x9 r0_3) (View.ld x10 r0_2) (View.ld x11 r0_3) (View.ld x12 r0_2) (View.ld x13 r0_3) (View.ld x14 r0_2)) (k0_pay6 (k0_pay2 (View.ld x0 r0_0) (View.ld x3 r0_1) (View.ld x4 r0_2) (View.ld x5 r0_3) (View.ld x6 r0_2)) (k0_pay3 (View.ld x1 r0_4) (View.ld x2 r0_5) (View.ld x7 r0_6)) (View.ld x8 r0_2) (View.ld x9 r0_3) (View.ld x10 r0_2) (View.ld x11 r0_3) (View.ld x12 r0_2) (View.ld x13 r0_3) (View.ld x14 r0_2) (View.ld x15 r0_7)) (k0_pay7 (View.ld x16 r0_8))⟩]

/-- Window 18's staging buffer after the body, from the input windows' blocks: its one store as a piece. -/
def out0_18 (x0 : Vec F S4000x256 .bf16) (x1 : Vec F S4000x4 .f32) (x2 : Vec F S1x15 .f32) (x3 : Vec F S256x128 .bf16) (x4 : Vec F S1x128 .f32) (x5 : Vec F S128x128 .bf16) (x6 : Vec F S1x128 .f32) (x7 : Vec F S18x128 .bf16) (x8 : Vec F S1x128 .f32) (x9 : Vec F S128x128 .bf16) (x10 : Vec F S1x128 .f32) (x11 : Vec F S128x128 .bf16) (x12 : Vec F S1x128 .f32) (x13 : Vec F S128x128 .bf16) (x14 : Vec F S1x128 .f32) (x15 : Vec F S128x1 .bf16) (x16 : Vec F S1x1 .f32) : Vec F S4000x128 .f32 :=
  View.canon [⟨r0_9, k0_pay2 (View.ld x0 r0_0) (View.ld x3 r0_1) (View.ld x4 r0_2) (View.ld x5 r0_3) (View.ld x6 r0_2)⟩]

/-- Window 19's staging buffer after the body, from the input windows' blocks: its one store as a piece. -/
def out0_19 (x0 : Vec F S4000x256 .bf16) (x1 : Vec F S4000x4 .f32) (x2 : Vec F S1x15 .f32) (x3 : Vec F S256x128 .bf16) (x4 : Vec F S1x128 .f32) (x5 : Vec F S128x128 .bf16) (x6 : Vec F S1x128 .f32) (x7 : Vec F S18x128 .bf16) (x8 : Vec F S1x128 .f32) (x9 : Vec F S128x128 .bf16) (x10 : Vec F S1x128 .f32) (x11 : Vec F S128x128 .bf16) (x12 : Vec F S1x128 .f32) (x13 : Vec F S128x128 .bf16) (x14 : Vec F S1x128 .f32) (x15 : Vec F S128x1 .bf16) (x16 : Vec F S1x1 .f32) : Vec F S4000x128 .f32 :=
  View.canon [⟨r0_9, k0_pay4 (k0_pay3 (View.ld x1 r0_4) (View.ld x2 r0_5) (View.ld x7 r0_6)) (View.ld x8 r0_2) (View.ld x9 r0_3) (View.ld x10 r0_2)⟩]

end Cert.Kernel.HandFrame

end
-- ==== Proof.KFrameBits.lean ====
import proofs.«110032_j62122406969661_2_alg».proof.Proof.KFrameDefsBits

/-! The frame of the program: @main runs its nine stretches of host operations and then its one region, terminates,
    faults nowhere and leaves its argument arrays unchanged; and every array of the region ends at what the proof data
    names (`run_main`). The kernel body only loads whole blocks and stores one whole block into each output, so what
    each output buffer holds after the body is a closed term over the input blocks (`out0_17`, `out0_18`, `out0_19`). -/

-- membership in a rectangle of these extents recurses once per coordinate of the long axes
set_option maxRecDepth 16384

noncomputable section

namespace Cert.Kernel.HandFrame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main up to the region, at the variants `𝒱₀`: the stretches of host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`): unfetched, the block index
    has not moved; the window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`): unfetched, the block index
    has not moved; the window is uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`): unfetched, the block index
    has not moved; the window is uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`): unfetched, the block index
    has not moved; the window is uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`): unfetched, the block index
    has not moved; the window is uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`): unfetched, the block index
    has not moved; the window is uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`): unfetched, the block index
    has not moved; the window is uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s (`hA`) and whose body leaves the block in place (`hafter`): unfetched, the block index
    has not moved; the window is uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof
    data whose array is `V`'s (`hA`) and whose body leaves the block in place (`hafter`): unfetched, the block index
    has not moved; the window is uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for any proof
    data whose array is `V`'s (`hA`) and whose body leaves the block in place (`hafter`): unfetched, the block index
    has not moved; the window is uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to the
    library's `FramePost` read at the argument arrays — no window stages an argument array, so each is in the post's
    second clause, then unchanged by `V_main_argK` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-! ## The stores cover the output buffers -/

/-- Window 17's one store is of the whole buffer, so it covers it. -/
theorem cover0_17 (p0 : Vec F S4000x128 .f32) (y : S4000x128.Idx) :
    ∃ pc ∈ ([⟨r0_9, p0⟩] : List (View.Piece (Elt F) S4000x128 .f32)), y ∈ pc.1.set :=
  View.cover_of_tiled [⟨r0_9, p0⟩] S4000x128.size (by rfl) y
/-- Window 18's one store is of the whole buffer, so it covers it. -/
theorem cover0_18 (p0 : Vec F S4000x128 .f32) (y : S4000x128.Idx) :
    ∃ pc ∈ ([⟨r0_9, p0⟩] : List (View.Piece (Elt F) S4000x128 .f32)), y ∈ pc.1.set :=
  View.cover_of_tiled [⟨r0_9, p0⟩] S4000x128.size (by rfl) y
/-- Window 19's one store is of the whole buffer, so it covers it. -/
theorem cover0_19 (p0 : Vec F S4000x128 .f32) (y : S4000x128.Idx) :
    ∃ pc ∈ ([⟨r0_9, p0⟩] : List (View.Piece (Elt F) S4000x128 .f32)), y ∈ pc.1.set :=
  View.cover_of_tiled [⟨r0_9, p0⟩] S4000x128.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons, run statement by statement through both parts. -/
theorem sound_kernel (c : Dev nD) (E : Set ℕ) (i : grid0.Coords) (arg1 : Memref sig .tc .vmem S4000x256 .bf16) (harg1 : arg1.IsWhole) (arg2 : Memref sig .tc .vmem S4000x4 .f32) (harg2 : arg2.IsWhole) (arg3 : Memref sig .tc .vmem S1x15 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S18x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x1 .bf16) (harg16 : arg16.IsWhole) (arg17 : Memref sig .tc .vmem S1x1 .f32) (harg17 : arg17.IsWhole) (arg18 : Memref sig .tc .vmem S4000x128 .f32) (harg18 : arg18.IsWhole) (arg19 : Memref sig .tc .vmem S4000x128 .f32) (harg19 : arg19.IsWhole) (arg20 : Memref sig .tc .vmem S4000x128 .f32) (harg20 : arg20.IsWhole)
    (x0 : Vec F S4000x256 .bf16) (x1 : Vec F S4000x4 .f32) (x2 : Vec F S1x15 .f32) (x3 : Vec F S256x128 .bf16) (x4 : Vec F S1x128 .f32) (x5 : Vec F S128x128 .bf16) (x6 : Vec F S1x128 .f32) (x7 : Vec F S18x128 .bf16) (x8 : Vec F S1x128 .f32) (x9 : Vec F S128x128 .bf16) (x10 : Vec F S1x128 .f32) (x11 : Vec F S128x128 .bf16) (x12 : Vec F S1x128 .f32) (x13 : Vec F S128x128 .bf16) (x14 : Vec F S1x128 .f32) (x15 : Vec F S128x1 .bf16) (x16 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__fused_kernel_eq_skeleton]; unfold cc0__fused_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover0_17 _)
  isplitl [H18]
  · iexists _; isplitr
    swap; · iexact H18
    ipureintro
    try dsimp only
    exact View.read_writes_eq_canon _ _ _ (cover0_18 _)
  iexists _; isplitr
  swap; · iexact H19
  ipureintro
  try dsimp only
  exact View.read_writes_eq_canon _ _ _ (cover0_19 _)

/-! ## The pipeline's proof data -/

/-- The proof data of the one pipeline on core `c`: the arrays as the region finds them (`V`); after the body at
    point `t` each input's buffer at its block and each output's at `out0_W` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 20, h⟩ => absurd h (Nat.not_lt.2 (Nat.le_add_left _ _))
  Φ _ := Pipeline.ΦA spec0 c
  q _ := fullShare
  owed _ := 0

/-- The proof data's arrays are the region-entry contents: the definition projected, so that `V` — a fold over
    @main's long host prefix — is never unfolded to check it. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- The body at any point: the inputs' memrefs hold their blocks (`before0_W`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.Kernel.HandFrame.run_main' depends on axioms: [propext, Classical.choice, Quot.sound] -/
#guard_msgs in #print axioms run_main

/-- The frame: `Cert.frame_Kernel`'s statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.Kernel.HandFrame

end
-- ==== Proof.KFrameDefsIdeal.lean ====
import proofs.«110032_j62122406969661_2_alg».proof.Proof.Gen.KernelIdeal.Launch
import proofs.«110032_j62122406969661_2_alg».proof.Proof.Gen.KernelIdeal.Skeleton
import proofs.«110032_j62122406969661_2_alg».proof.Proof.Gen.KernelIdeal.Points
import Idealize.ShloMosaic.Lib.Pipeline.FrameBody
import Idealize.ShloMosaic.Lib.Ring
import Idealize.ShloMosaic.Lib.Tactic

/-! The region-entry contents, the windows' blocks, the body's access rectangles and what the body leaves in each
    output window's staging buffer, as closed terms over the input blocks. Definitions only. -/

set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the nine stretches of host operations, in order. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S4000x256 := Rect.unit (s := S4000x256) ![0, 0] S4000x256.size inb_S4000x256_S4000x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S128x128 := Rect.unit (s := S128x128) ![0, 0] S128x128.size inb_S128x128_S128x128_0_0
abbrev r0_4 : Rect S4000x4 := Rect.unit (s := S4000x4) ![0, 0] S4000x4.size inb_S4000x4_S4000x4_0_0
abbrev r0_5 : Rect S1x15 := Rect.unit (s := S1x15) ![0, 0] S1x15.size inb_S1x15_S1x15_0_0
abbrev r0_6 : Rect S18x128 := Rect.unit (s := S18x128) ![0, 0] S18x128.size inb_S18x128_S18x128_0_0
abbrev r0_7 : Rect S128x1 := Rect.unit (s := S128x1) ![0, 0] S128x1.size inb_S128x1_S128x1_0_0
abbrev r0_8 : Rect S1x1 := Rect.unit (s := S1x1) ![0, 0] S1x1.size inb_S1x1_S1x1_0_0
abbrev r0_9 : Rect S4000x128 := Rect.unit (s := S4000x128) ![0, 0] S4000x128.size inb_S4000x128_S4000x128_0_0

/-! ## What the body leaves in each output window's buffer -/

/-- Window 17's staging buffer after the body, from the input windows' blocks: its one store as a piece
    (`View.canon`; the payloads are the skeleton's). -/
def out0_17 (x0 : Vec F S4000x256 .bf16) (x1 : Vec F S4000x4 .f32) (x2 : Vec F S1x15 .f32) (x3 : Vec F S256x128 .bf16) (x4 : Vec F S1x128 .f32) (x5 : Vec F S128x128 .bf16) (x6 : Vec F S1x128 .f32) (x7 : Vec F S18x128 .bf16) (x8 : Vec F S1x128 .f32) (x9 : Vec F S128x128 .bf16) (x10 : Vec F S1x128 .f32) (x11 : Vec F S128x128 .bf16) (x12 : Vec F S1x128 .f32) (x13 : Vec F S128x128 .bf16) (x14 : Vec F S1x128 .f32) (x15 : Vec F S128x1 .bf16) (x16 : Vec F S1x1 .f32) : Vec F S4000x128 .f32 :=
  View.canon [⟨r0_9, k0_pay1 (k0_pay5 (k0_pay2 (View.ld x0 r0_0) (View.ld x3 r0_1) (View.ld x4 r0_2) (View.ld x5 r0_3) (View.ld x6 r0_2)) (k0_pay3 (View.ld x1 r0_4) (View.ld x2 r0_5) (View.ld x7 r0_6)) (View.ld x8 r0_2) (View.ld x9 r0_3) (View.ld x10 r0_2) (View.ld x11 r0_3) (View.ld x12 r0_2) (View.ld x13 r0_3) (View.ld x14 r0_2)) (k0_pay6 (k0_pay2 (View.ld x0 r0_0) (View.ld x3 r0_1) (View.ld x4 r0_2) (View.ld x5 r0_3) (View.ld x6 r0_2)) (k0_pay3 (View.ld x1 r0_4) (View.ld x2 r0_5) (View.ld x7 r0_6)) (View.ld x8 r0_2) (View.ld x9 r0_3) (View.ld x10 r0_2) (View.ld x11 r0_3) (View.ld x12 r0_2) (View.ld x13 r0_3) (View.ld x14 r0_2) (View.ld x15 r0_7)) (k0_pay7 (View.ld x16 r0_8))⟩]

/-- Window 18's staging buffer after the body, from the input windows' blocks: its one store as a piece. -/
def out0_18 (x0 : Vec F S4000x256 .bf16) (x1 : Vec F S4000x4 .f32) (x2 : Vec F S1x15 .f32) (x3 : Vec F S256x128 .bf16) (x4 : Vec F S1x128 .f32) (x5 : Vec F S128x128 .bf16) (x6 : Vec F S1x128 .f32) (x7 : Vec F S18x128 .bf16) (x8 : Vec F S1x128 .f32) (x9 : Vec F S128x128 .bf16) (x10 : Vec F S1x128 .f32) (x11 : Vec F S128x128 .bf16) (x12 : Vec F S1x128 .f32) (x13 : Vec F S128x128 .bf16) (x14 : Vec F S1x128 .f32) (x15 : Vec F S128x1 .bf16) (x16 : Vec F S1x1 .f32) : Vec F S4000x128 .f32 :=
  View.canon [⟨r0_9, k0_pay2 (View.ld x0 r0_0) (View.ld x3 r0_1) (View.ld x4 r0_2) (View.ld x5 r0_3) (View.ld x6 r0_2)⟩]

/-- Window 19's staging buffer after the body, from the input windows' blocks: its one store as a piece. -/
def out0_19 (x0 : Vec F S4000x256 .bf16) (x1 : Vec F S4000x4 .f32) (x2 : Vec F S1x15 .f32) (x3 : Vec F S256x128 .bf16) (x4 : Vec F S1x128 .f32) (x5 : Vec F S128x128 .bf16) (x6 : Vec F S1x128 .f32) (x7 : Vec F S18x128 .bf16) (x8 : Vec F S1x128 .f32) (x9 : Vec F S128x128 .bf16) (x10 : Vec F S1x128 .f32) (x11 : Vec F S128x128 .bf16) (x12 : Vec F S1x128 .f32) (x13 : Vec F S128x128 .bf16) (x14 : Vec F S1x128 .f32) (x15 : Vec F S128x1 .bf16) (x16 : Vec F S1x1 .f32) : Vec F S4000x128 .f32 :=
  View.canon [⟨r0_9, k0_pay4 (k0_pay3 (View.ld x1 r0_4) (View.ld x2 r0_5) (View.ld x7 r0_6)) (View.ld x8 r0_2) (View.ld x9 r0_3) (View.ld x10 r0_2)⟩]

end Cert.KernelIdeal.HandFrame

end
-- ==== Proof.KFrameIdeal.lean ====
import proofs.«110032_j62122406969661_2_alg».proof.Proof.KFrameDefsIdeal

/-! The frame of the program: @main runs its nine stretches of host operations and then its one region, terminates,
    faults nowhere and leaves its argument arrays unchanged; and every array of the region ends at what the proof data
    names (`run_main`). The kernel body only loads whole blocks and stores one whole block into each output, so what
    each output buffer holds after the body is a closed term over the input blocks (`out0_17`, `out0_18`, `out0_19`). -/

-- membership in a rectangle of these extents recurses once per coordinate of the long axes
set_option maxRecDepth 16384

noncomputable section

namespace Cert.KernelIdeal.HandFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- @main up to the region, at the variants `𝒱₀`: the stretches of host operations then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))
/-- No host operation before the region writes `main_arg16`: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
    repeat' apply And.intro
    all_goals exact StableHlo.devRef_ne_of_ne (by decide)))

/-! ## The windows' blocks -/

/-- Input window 0's current staging buffer holds its block at every point, fetched there or not, for any proof
    data whose array is `V`'s (`hA`) and whose body leaves the block in place (`hafter`): unfetched, the block index
    has not moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is `V`'s (`hA`) and whose body leaves the block in place (`hafter`): unfetched, the block index
    has not moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is `V`'s (`hA`) and whose body leaves the block in place (`hafter`): unfetched, the block index
    has not moved; the window is uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is `V`'s (`hA`) and whose body leaves the block in place (`hafter`): unfetched, the block index
    has not moved; the window is uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is `V`'s (`hA`) and whose body leaves the block in place (`hafter`): unfetched, the block index
    has not moved; the window is uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is `V`'s (`hA`) and whose body leaves the block in place (`hafter`): unfetched, the block index
    has not moved; the window is uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is `V`'s (`hA`) and whose body leaves the block in place (`hafter`): unfetched, the block index
    has not moved; the window is uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is `V`'s (`hA`) and whose body leaves the block in place (`hafter`): unfetched, the block index
    has not moved; the window is uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is `V`'s (`hA`) and whose body leaves the block in place (`hafter`): unfetched, the block index
    has not moved; the window is uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is `V`'s (`hA`) and whose body leaves the block in place (`hafter`): unfetched, the block index
    has not moved; the window is uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is `V`'s (`hA`) and whose body leaves the block in place (`hafter`): unfetched, the block index
    has not moved; the window is uncut and never idle. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is `V`'s (`hA`) and whose body leaves the block in place (`hafter`): unfetched, the block index
    has not moved; the window is uncut and never idle. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is `V`'s (`hA`) and whose body leaves the block in place (`hafter`): unfetched, the block index
    has not moved; the window is uncut and never idle. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is `V`'s (`hA`) and whose body leaves the block in place (`hafter`): unfetched, the block index
    has not moved; the window is uncut and never idle. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is `V`'s (`hA`) and whose body leaves the block in place (`hafter`): unfetched, the block index
    has not moved; the window is uncut and never idle. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof
    data whose array is `V`'s (`hA`) and whose body leaves the block in place (`hafter`): unfetched, the block index
    has not moved; the window is uncut and never idle. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
/-- Input window 16's current staging buffer holds its block at every point, fetched there or not, for any proof
    data whose array is `V`'s (`hA`) and whose body leaves the block in place (`hafter`): unfetched, the block index
    has not moved; the window is uncut and never idle. -/
theorem before0_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents (`hA`), a run to the
    library's `FramePost` read at the argument arrays — no window stages an argument array, so each is in the post's
    second clause, then unchanged by `V_main_argK` — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩) h

/-! ## The stores cover the output buffers -/

/-- Window 17's one store is of the whole buffer, so it covers it. -/
theorem cover0_17 (p0 : Vec F S4000x128 .f32) (y : S4000x128.Idx) :
    ∃ pc ∈ ([⟨r0_9, p0⟩] : List (View.Piece (Elt F) S4000x128 .f32)), y ∈ pc.1.set :=
  View.cover_of_tiled [⟨r0_9, p0⟩] S4000x128.size (by rfl) y
/-- Window 18's one store is of the whole buffer, so it covers it. -/
theorem cover0_18 (p0 : Vec F S4000x128 .f32) (y : S4000x128.Idx) :
    ∃ pc ∈ ([⟨r0_9, p0⟩] : List (View.Piece (Elt F) S4000x128 .f32)), y ∈ pc.1.set :=
  View.cover_of_tiled [⟨r0_9, p0⟩] S4000x128.size (by rfl) y
/-- Window 19's one store is of the whole buffer, so it covers it. -/
theorem cover0_19 (p0 : Vec F S4000x128 .f32) (y : S4000x128.Idx) :
    ∃ pc ∈ ([⟨r0_9, p0⟩] : List (View.Piece (Elt F) S4000x128 .f32)), y ∈ pc.1.set :=
  View.cover_of_tiled [⟨r0_9, p0⟩] S4000x128.size (by rfl) y

/-! ## The body's triple -/

set_option maxHeartbeats 4000000 in
/-- The kernel body on whole staging memrefs, the inputs' at read contents `xW` and the outputs' at anything, runs to
    the continuation holding the inputs' as they were and each output's at `out0_W` of the inputs': the printed functions
    are their skeletons, run statement by statement through both parts. -/
theorem sound_kernel (c : Dev nD) (E : Set ℕ) (i : grid0.Coords) (arg1 : Memref sig .tc .vmem S4000x256 .bf16) (harg1 : arg1.IsWhole) (arg2 : Memref sig .tc .vmem S4000x4 .f32) (harg2 : arg2.IsWhole) (arg3 : Memref sig .tc .vmem S1x15 .f32) (harg3 : arg3.IsWhole) (arg4 : Memref sig .tc .vmem S256x128 .bf16) (harg4 : arg4.IsWhole) (arg5 : Memref sig .tc .vmem S1x128 .f32) (harg5 : arg5.IsWhole) (arg6 : Memref sig .tc .vmem S128x128 .bf16) (harg6 : arg6.IsWhole) (arg7 : Memref sig .tc .vmem S1x128 .f32) (harg7 : arg7.IsWhole) (arg8 : Memref sig .tc .vmem S18x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S128x128 .bf16) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x1 .bf16) (harg16 : arg16.IsWhole) (arg17 : Memref sig .tc .vmem S1x1 .f32) (harg17 : arg17.IsWhole) (arg18 : Memref sig .tc .vmem S4000x128 .f32) (harg18 : arg18.IsWhole) (arg19 : Memref sig .tc .vmem S4000x128 .f32) (harg19 : arg19.IsWhole) (arg20 : Memref sig .tc .vmem S4000x128 .f32) (harg20 : arg20.IsWhole)
    (x0 : Vec F S4000x256 .bf16) (x1 : Vec F S4000x4 .f32) (x2 : Vec F S1x15 .f32) (x3 : Vec F S256x128 .bf16) (x4 : Vec F S1x128 .f32) (x5 : Vec F S128x128 .bf16) (x6 : Vec F S1x128 .f32) (x7 : Vec F S18x128 .bf16) (x8 : Vec F S1x128 .f32) (x9 : Vec F S128x128 .bf16) (x10 : Vec F S1x128 .f32) (x11 : Vec F S128x128 .bf16) (x12 : Vec F S1x128 .f32) (x13 : Vec F S128x128 .bf16) (x14 : Vec F S1x128 .f32) (x15 : Vec F S128x1 .bf16) (x16 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare (out0_17 x0 x1 x2 x3 x4 x5 x6 x7 x8 x9 x10 x11 x12 x13 x14 x15 x16) ∗ owns (c : Thread nD τ) arg19 fullShare (out0_18 x0 x1 x2 x3 x4 x5 x6 x7 x8 x9 x10 x11 x12 x13 x14 x15 x16) ∗ owns (c : Thread nD τ) arg20 fullShare (out0_19 x0 x1 x2 x3 x4 x5 x6 x7 x8 x9 x10 x11 x12 x13 x14 x15 x16)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__fused_kernel_eq_skeleton]; unfold cc0__fused_kernel_skel
  simp only [k0_part1_eq_skeleton]; unfold k0_part1_skel
  simp only [k0_part2_eq_skeleton]; unfold k0_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, ⟨%d19, %f19, -, H19⟩, Hk⟩
  subst hf0 hf1 hf2 hf3 hf4 hf5 hf6 hf7 hf8 hf9 hf10 hf11 hf12 hf13 hf14 hf15 hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    try dsimp only
    exact View.read_writes_eq_canon _ _ _ (cover0_17 _)
  isplitl [H18]
  · iexists _; isplitr
    swap; · iexact H18
    ipureintro
    try dsimp only
    exact View.read_writes_eq_canon _ _ _ (cover0_18 _)
  iexists _; isplitr
  swap; · iexact H19
  ipureintro
  try dsimp only
  exact View.read_writes_eq_canon _ _ _ (cover0_19 _)

/-! ## The pipeline's proof data -/

/-- The proof data of the one pipeline on core `c`: the arrays as the region finds them (`V`); after the body at
    point `t` each input's buffer at its block and each output's at `out0_W` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨18, _⟩ => out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨19, _⟩ => out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
    | ⟨_ + 20, h⟩ => absurd h (Nat.not_lt.2 (Nat.le_add_left _ _))
  Φ _ := Pipeline.ΦA spec0 c
  q _ := fullShare
  owed _ := 0

/-- The proof data's arrays are the region-entry contents: the definition projected, so that `V` — a fold over
    @main's long host prefix — is never unfolded to check it. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_18 (c : Dev nD) (t : Fin cfg0.N) : (dats m 0 c).after 18 t = out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]
theorem after0_19 (c : Dev nD) (t : Fin cfg0.N) : (dats m 0 c).after 19 t = out0_19 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t))

/-- The body at any point: the inputs' memrefs hold their blocks (`before0_W`), so `sound_kernel` applies; the invariant
    and the core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply (sound_kernel c Set.univ (grid0.coords t) _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  isplitl [H19]; · iexists _; iexact H19
  iintro ⟨H0, H1, H2, H3, H4, H5, H6, H7, H8, H9, H10, H11, H12, H13, H14, H15, H16, H17, H18, H19⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  iexact H19

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- info: 'Cert.KernelIdeal.HandFrame.run_main' depends on axioms: [propext, Classical.choice, Quot.sound] -/
#guard_msgs in #print axioms run_main

/-- The frame: `Cert.frame_KernelIdeal`'s statement at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (dats m) (A_eq m) (run_main m ρ)

end Cert.KernelIdeal.HandFrame

end
-- ==== Proof.Spec.lean ====
/-
  The arithmetic both programs perform on one edge, as functions of that edge's rows over the extended reals.

  An affine layer sends a row x of K entries to the row j ↦ (∑ k, x k · W k j) + b j. The gate is
  silu x = x · logistic x. A two-layer perceptron is an affine layer, the gate entry by entry, and a second affine
  layer. One edge's "chemical" row is the perceptron of its 256 gathered features; its "positional" row is the
  perceptron of 18 features, the first three given and the other fifteen the exponentials exp (r · s i) of one
  scalar r against fifteen scales; its output row is a third perceptron of the chemical row, times the positional
  row entry by entry, times one scalar gate: the logistic of an affine functional of that product.

  The only law needed between the two programs' arrangements: a sum over 18 terms is the sum over the first 3
  plus the sum over the last 15 (addition of extended reals is commutative and associative, so no finiteness is
  needed anywhere).
-/
import Idealize.ShloMosaic.PureOps.Ideal
import Idealize.ShloMosaic.Lib.ValueIdx

noncomputable section

open scoped BigOperators

namespace Cert.Spec

open Idealize.ShloMosaic

/-- An affine layer on one row. -/
def lin {K J : Nat} (x : Fin K → EReal) (W : Fin K → Fin J → EReal) (b : Fin J → EReal) : Fin J → EReal :=
  fun j => (∑ k : Fin K, x k * W k j) + b j

/-- The gate x · logistic x. -/
def silu (x : EReal) : EReal := x * Ideal.logistic x

/-- Affine layer, gate, affine layer. -/
def mlp {K H J : Nat} (x : Fin K → EReal) (W1 : Fin K → Fin H → EReal) (b1 : Fin H → EReal)
    (W2 : Fin H → Fin J → EReal) (b2 : Fin J → EReal) : Fin J → EReal :=
  lin (fun k => silu (lin x W1 b1 k)) W2 b2

/-- The eighteen positional features of one edge: three given, then fifteen exponentials of the scaled radius. -/
def posFeat (p : Fin 3 → EReal) (r : EReal) (sc : Fin 15 → EReal) : Fin 18 → EReal :=
  Fin.append p (fun i => Ideal.exp (r * sc i))

/-- The first positional layer with its contraction split after the third feature. -/
def posLinSplit {H : Nat} (p : Fin 3 → EReal) (r : EReal) (sc : Fin 15 → EReal) (W : Fin 18 → Fin H → EReal)
    (b : Fin H → EReal) : Fin H → EReal :=
  fun k => ((∑ i : Fin 3, p i * W (Fin.castAdd 15 i) k) + (∑ i : Fin 15, Ideal.exp (r * sc i) * W (Fin.natAdd 3 i) k)) + b k

/-- Splitting the contraction changes nothing. -/
theorem posLinSplit_eq {H : Nat} (p : Fin 3 → EReal) (r : EReal) (sc : Fin 15 → EReal) (W : Fin 18 → Fin H → EReal)
    (b : Fin H → EReal) : posLinSplit p r sc W b = lin (posFeat p r sc) W b := by
  funext k
  unfold posLinSplit lin posFeat
  refine congrArg (· + b k) ?_
  rw [Fin.sum_univ_add (a := 3) (b := 15)]
  refine congrArg₂ (· + ·) (Finset.sum_congr rfl fun i _ => ?_) (Finset.sum_congr rfl fun i _ => ?_)
  · rw [Fin.append_left]
  · rw [Fin.append_right]

/-- The positional row of one edge (split form of the first layer). -/
def posRow {H J : Nat} (p : Fin 3 → EReal) (r : EReal) (sc : Fin 15 → EReal) (W1 : Fin 18 → Fin H → EReal)
    (b1 : Fin H → EReal) (W2 : Fin H → Fin J → EReal) (b2 : Fin J → EReal) : Fin J → EReal :=
  lin (fun k => silu (posLinSplit p r sc W1 b1 k)) W2 b2

theorem posRow_eq {H J : Nat} (p : Fin 3 → EReal) (r : EReal) (sc : Fin 15 → EReal) (W1 : Fin 18 → Fin H → EReal)
    (b1 : Fin H → EReal) (W2 : Fin H → Fin J → EReal) (b2 : Fin J → EReal) :
    posRow p r sc W1 b1 W2 b2 = mlp (posFeat p r sc) W1 b1 W2 b2 := by
  unfold posRow mlp
  rw [posLinSplit_eq]

/-- The ungated output row: a perceptron of the chemical row, times the positional row. -/
def preOut {H J : Nat} (chem : Fin J → EReal) (pos : Fin J → EReal) (W1 : Fin J → Fin H → EReal) (b1 : Fin H → EReal)
    (W2 : Fin H → Fin J → EReal) (b2 : Fin J → EReal) : Fin J → EReal :=
  fun j => mlp chem W1 b1 W2 b2 j * pos j

/-- The output row: the ungated row times the logistic of an affine functional of it. -/
def outRow {J : Nat} (pre : Fin J → EReal) (wa : Fin J → EReal) (ba : EReal) : Fin J → EReal :=
  fun j => pre j * Ideal.logistic ((∑ k : Fin J, pre k * wa k) + ba)

end Cert.Spec

end
-- ==== Proof.KPayload.lean ====
/-
  The kernel body's arithmetic, one entry at a time, at the exact values.

  A block holds 4000 edges. Every operation of the body acts on each edge's row separately: a matrix product into
  a zero accumulator is, at entry (p, c), the sum over k of l (p, k) · r (k, c); a bias row spread over the block adds
  its entry c; the gate acts entry by entry; a change of float format is the identity. So each stored block, read at
  (p, q), is a function of row p of the streamed blocks and of the whole weight blocks: the perceptron of the
  gathered features, the positional perceptron with its first contraction split after three features, and the
  gated product of the two.
-/
import proofs.«110032_j62122406969661_2_alg».proof.Proof.Gen.KernelIdeal.Skeleton
import proofs.«110032_j62122406969661_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Cert.KernelIdeal Cert.KernelIdeal.Gen Idealize.ShloMosaic Idealize.ShloMosaic.ValueIdx

/-! Layout operations read at an entry. -/

/-- A one-column block spread along the columns reads its column entry. -/
theorem bcastCol {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Columns o, o+1, … of a block. -/
theorem sliceCols {a b b' : ℕ} {α : Type} (o : ℕ) (x : (⟨2, ![a, b]⟩ : Shape).Idx → α)
    (h : (⟨2, ![a, b]⟩ : Shape).Slices ![0, o] ⟨2, ![a, b']⟩) (p : Fin a) (c : Fin b') (hc : o + c.val < b) :
    extractStridedSlice ⟨2, ![a, b']⟩ ![0, o] x h (ix2 p c) = x (ix2 p ⟨o + c.val, hc⟩) := by
  refine extractStridedSlice_apply _ x h (ix2 p c) (ix2 p ⟨o + c.val, hc⟩) fun ax => ?_
  match ax with
  | ⟨0, _⟩ => show p.val = 0 + p.val; omega
  | ⟨1, _⟩ => rfl

/-- Rows o, o+1, … of a block. -/
theorem sliceRows {a a' b : ℕ} {α : Type} (o : ℕ) (x : (⟨2, ![a, b]⟩ : Shape).Idx → α)
    (h : (⟨2, ![a, b]⟩ : Shape).Slices ![o, 0] ⟨2, ![a', b]⟩) (p : Fin a') (c : Fin b) (hp : o + p.val < a) :
    extractStridedSlice ⟨2, ![a', b]⟩ ![o, 0] x h (ix2 p c) = x (ix2 ⟨o + p.val, hp⟩ c) := by
  refine extractStridedSlice_apply _ x h (ix2 p c) (ix2 ⟨o + p.val, hp⟩ c) fun ax => ?_
  match ax with
  | ⟨0, _⟩ => rfl
  | ⟨1, _⟩ => show c.val = 0 + c.val; omega

/-! The matrix product of a 4000×256 block with a 256×128 block into a zero accumulator, entry by entry. -/
theorem lhs0_256 (i : (⟨2, ![4000, 128]⟩ : Shape).Idx) (q : dot_S4000x256_S256x128_S4000x128_1_0_0_1_n_n.contr.Idx) : (dot_S4000x256_S256x128_S4000x128_1_0_0_1_n_n.lhsIdx i q 0).val = (i 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
theorem lhs1_256 (i : (⟨2, ![4000, 128]⟩ : Shape).Idx) (q : dot_S4000x256_S256x128_S4000x128_1_0_0_1_n_n.contr.Idx) : (dot_S4000x256_S256x128_S4000x128_1_0_0_1_n_n.lhsIdx i q 1).val = (q ⟨0, by decide⟩).val :=
  dot_S4000x256_S256x128_S4000x128_1_0_0_1_n_n.lhsIdx_val_of_single rfl i q
theorem rhs0_256 (i : (⟨2, ![4000, 128]⟩ : Shape).Idx) (q : dot_S4000x256_S256x128_S4000x128_1_0_0_1_n_n.contr.Idx) : (dot_S4000x256_S256x128_S4000x128_1_0_0_1_n_n.rhsIdx i q 0).val = (q ⟨0, by decide⟩).val :=
  dot_S4000x256_S256x128_S4000x128_1_0_0_1_n_n.rhsIdx_val_of_single rfl i q
theorem rhs1_256 (i : (⟨2, ![4000, 128]⟩ : Shape).Idx) (q : dot_S4000x256_S256x128_S4000x128_1_0_0_1_n_n.contr.Idx) : (dot_S4000x256_S256x128_S4000x128_1_0_0_1_n_n.rhsIdx i q 1).val = (i 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl
/-- Entry (p, c) of the product is the sum over k of l (p, k) · r (k, c). -/
theorem mm_256 (l : FVec Ideal S4000x256 .bf16) (r : FVec Ideal S256x128 .bf16) (p : Fin 4000) (c : Fin 128) :
    matmul dot_S4000x256_S256x128_S4000x128_1_0_0_1_n_n none l r (constant (F := Ideal) S4000x128 .f32 0x00000000#32) (ix2 p c)
      = ∑ k : Fin 256, l (ix2 p k) * r (ix2 k c) := by
  simp only [matmul]
  rw [Ideal.matmul_constant_zero_apply, ← Equiv.sum_comp (ValueIdx.contrEquiv1 dot_S4000x256_S256x128_S4000x128_1_0_0_1_n_n 256 rfl rfl).symm]
  refine Finset.sum_congr rfl fun k _ => ?_
  have hk := ValueIdx.contrEquiv1_symm_val dot_S4000x256_S256x128_S4000x128_1_0_0_1_n_n 256 rfl rfl k
  have el : dot_S4000x256_S256x128_S4000x128_1_0_0_1_n_n.lhsIdx (ix2 p c) ((ValueIdx.contrEquiv1 dot_S4000x256_S256x128_S4000x128_1_0_0_1_n_n 256 rfl rfl).symm k) = ix2 p k := funext fun a => Fin.ext (by
    match a with
    | ⟨0, _⟩ => exact lhs0_256 _ _
    | ⟨1, _⟩ => exact (lhs1_256 _ _).trans hk)
  have er : dot_S4000x256_S256x128_S4000x128_1_0_0_1_n_n.rhsIdx (ix2 p c) ((ValueIdx.contrEquiv1 dot_S4000x256_S256x128_S4000x128_1_0_0_1_n_n 256 rfl rfl).symm k) = ix2 k c := funext fun a => Fin.ext (by
    match a with
    | ⟨0, _⟩ => exact (rhs0_256 _ _).trans hk
    | ⟨1, _⟩ => exact rhs1_256 _ _)
  rw [el, er]

/-! The matrix product of a 4000×128 block with a 128×128 block into a zero accumulator, entry by entry. -/
theorem lhs0_128 (i : (⟨2, ![4000, 128]⟩ : Shape).Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs1_128 (i : (⟨2, ![4000, 128]⟩ : Shape).Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem rhs0_128 (i : (⟨2, ![4000, 128]⟩ : Shape).Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem rhs1_128 (i : (⟨2, ![4000, 128]⟩ : Shape).Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl
/-- Entry (p, c) of the product is the sum over k of l (p, k) · r (k, c). -/
theorem mm_128 (l : FVec Ideal S4000x128 .bf16) (r : FVec Ideal S128x128 .bf16) (p : Fin 4000) (c : Fin 128) :
    matmul dot_S4000x128_S128x128_S4000x128_1_0_0_1_n_n none l r (constant (F := Ideal) S4000x128 .f32 0x00000000#32) (ix2 p c)
      = ∑ k : Fin 128, l (ix2 p k) * r (ix2 k c) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p c) ((ValueIdx.contrEquiv1 dot_S4000x128_S128x128_S4000x128_1_0_0_1_n_n 128 rfl rfl).symm k) = ix2 p k := funext fun a => Fin.ext (by
    match a with
    | ⟨0, _⟩ => exact lhs0_128 _ _
    | ⟨1, _⟩ => exact (lhs1_128 _ _).trans hk)
  have er : dot_S4000x128_S128x128_S4000x128_1_0_0_1_n_n.rhsIdx (ix2 p c) ((ValueIdx.contrEquiv1 dot_S4000x128_S128x128_S4000x128_1_0_0_1_n_n 128 rfl rfl).symm k) = ix2 k c := funext fun a => Fin.ext (by
    match a with
    | ⟨0, _⟩ => exact (rhs0_128 _ _).trans hk
    | ⟨1, _⟩ => exact rhs1_128 _ _)
  rw [el, er]

/-! The matrix product of a 4000×3 block with a 3×128 block into a zero accumulator, entry by entry. -/
theorem lhs0_3 (i : (⟨2, ![4000, 128]⟩ : Shape).Idx) (q : dot_S4000x3_S3x128_S4000x128_1_0_0_1_n_n.contr.Idx) : (dot_S4000x3_S3x128_S4000x128_1_0_0_1_n_n.lhsIdx i q 0).val = (i 0).val := by
  unfold DotDims.lhsIdx
  rw [dif_neg (show ¬(0 : Fin S4000x3.rank) ∈ dot_S4000x3_S3x128_S4000x128_1_0_0_1_n_n.lhsBatch by decide), dif_pos (show (0 : Fin S4000x3.rank) ∈ dot_S4000x3_S3x128_S4000x128_1_0_0_1_n_n.lhsNonContracting by decide)]
  rfl
theorem lhs1_3 (i : (⟨2, ![4000, 128]⟩ : Shape).Idx) (q : dot_S4000x3_S3x128_S4000x128_1_0_0_1_n_n.contr.Idx) : (dot_S4000x3_S3x128_S4000x128_1_0_0_1_n_n.lhsIdx i q 1).val = (q ⟨0, by decide⟩).val :=
  dot_S4000x3_S3x128_S4000x128_1_0_0_1_n_n.lhsIdx_val_of_single rfl i q
theorem rhs0_3 (i : (⟨2, ![4000, 128]⟩ : Shape).Idx) (q : dot_S4000x3_S3x128_S4000x128_1_0_0_1_n_n.contr.Idx) : (dot_S4000x3_S3x128_S4000x128_1_0_0_1_n_n.rhsIdx i q 0).val = (q ⟨0, by decide⟩).val :=
  dot_S4000x3_S3x128_S4000x128_1_0_0_1_n_n.rhsIdx_val_of_single rfl i q
theorem rhs1_3 (i : (⟨2, ![4000, 128]⟩ : Shape).Idx) (q : dot_S4000x3_S3x128_S4000x128_1_0_0_1_n_n.contr.Idx) : (dot_S4000x3_S3x128_S4000x128_1_0_0_1_n_n.rhsIdx i q 1).val = (i 1).val := by
  unfold DotDims.rhsIdx
  rw [dif_neg (show ¬(1 : Fin S3x128.rank) ∈ dot_S4000x3_S3x128_S4000x128_1_0_0_1_n_n.rhsBatch by decide), dif_pos (show (1 : Fin S3x128.rank) ∈ dot_S4000x3_S3x128_S4000x128_1_0_0_1_n_n.rhsNonContracting by decide)]
  rfl
/-- Entry (p, c) of the product is the sum over k of l (p, k) · r (k, c). -/
theorem mm_3 (l : FVec Ideal S4000x3 .bf16) (r : FVec Ideal S3x128 .bf16) (p : Fin 4000) (c : Fin 128) :
    matmul dot_S4000x3_S3x128_S4000x128_1_0_0_1_n_n none l r (constant (F := Ideal) S4000x128 .f32 0x00000000#32) (ix2 p c)
      = ∑ k : Fin 3, l (ix2 p k) * r (ix2 k c) := by
  simp only [matmul]
  rw [Ideal.matmul_constant_zero_apply, ← Equiv.sum_comp (ValueIdx.contrEquiv1 dot_S4000x3_S3x128_S4000x128_1_0_0_1_n_n 3 rfl rfl).symm]
  refine Finset.sum_congr rfl fun k _ => ?_
  have hk := ValueIdx.contrEquiv1_symm_val dot_S4000x3_S3x128_S4000x128_1_0_0_1_n_n 3 rfl rfl k
  have el : dot_S4000x3_S3x128_S4000x128_1_0_0_1_n_n.lhsIdx (ix2 p c) ((ValueIdx.contrEquiv1 dot_S4000x3_S3x128_S4000x128_1_0_0_1_n_n 3 rfl rfl).symm k) = ix2 p k := funext fun a => Fin.ext (by
    match a with
    | ⟨0, _⟩ => exact lhs0_3 _ _
    | ⟨1, _⟩ => exact (lhs1_3 _ _).trans hk)
  have er : dot_S4000x3_S3x128_S4000x128_1_0_0_1_n_n.rhsIdx (ix2 p c) ((ValueIdx.contrEquiv1 dot_S4000x3_S3x128_S4000x128_1_0_0_1_n_n 3 rfl rfl).symm k) = ix2 k c := funext fun a => Fin.ext (by
    match a with
    | ⟨0, _⟩ => exact (rhs0_3 _ _).trans hk
    | ⟨1, _⟩ => exact rhs1_3 _ _)
  rw [el, er]

/-! The matrix product of a 4000×15 block with a 15×128 block into a zero accumulator, entry by entry. -/
theorem lhs0_15 (i : (⟨2, ![4000, 128]⟩ : Shape).Idx) (q : dot_S4000x15_S15x128_S4000x128_1_0_0_1_n_n.contr.Idx) : (dot_S4000x15_S15x128_S4000x128_1_0_0_1_n_n.lhsIdx i q 0).val = (i 0).val := by
  unfold DotDims.lhsIdx
  rw [dif_neg (show ¬(0 : Fin S4000x15.rank) ∈ dot_S4000x15_S15x128_S4000x128_1_0_0_1_n_n.lhsBatch by decide), dif_pos (show (0 : Fin S4000x15.rank) ∈ dot_S4000x15_S15x128_S4000x128_1_0_0_1_n_n.lhsNonContracting by decide)]
  rfl
theorem lhs1_15 (i : (⟨2, ![4000, 128]⟩ : Shape).Idx) (q : dot_S4000x15_S15x128_S4000x128_1_0_0_1_n_n.contr.Idx) : (dot_S4000x15_S15x128_S4000x128_1_0_0_1_n_n.lhsIdx i q 1).val = (q ⟨0, by decide⟩).val :=
  dot_S4000x15_S15x128_S4000x128_1_0_0_1_n_n.lhsIdx_val_of_single rfl i q
theorem rhs0_15 (i : (⟨2, ![4000, 128]⟩ : Shape).Idx) (q : dot_S4000x15_S15x128_S4000x128_1_0_0_1_n_n.contr.Idx) : (dot_S4000x15_S15x128_S4000x128_1_0_0_1_n_n.rhsIdx i q 0).val = (q ⟨0, by decide⟩).val :=
  dot_S4000x15_S15x128_S4000x128_1_0_0_1_n_n.rhsIdx_val_of_single rfl i q
theorem rhs1_15 (i : (⟨2, ![4000, 128]⟩ : Shape).Idx) (q : dot_S4000x15_S15x128_S4000x128_1_0_0_1_n_n.contr.Idx) : (dot_S4000x15_S15x128_S4000x128_1_0_0_1_n_n.rhsIdx i q 1).val = (i 1).val := by
  unfold DotDims.rhsIdx
  rw [dif_neg (show ¬(1 : Fin S15x128.rank) ∈ dot_S4000x15_S15x128_S4000x128_1_0_0_1_n_n.rhsBatch by decide), dif_pos (show (1 : Fin S15x128.rank) ∈ dot_S4000x15_S15x128_S4000x128_1_0_0_1_n_n.rhsNonContracting by decide)]
  rfl
/-- Entry (p, c) of the product is the sum over k of l (p, k) · r (k, c). -/
theorem mm_15 (l : FVec Ideal S4000x15 .bf16) (r : FVec Ideal S15x128 .bf16) (p : Fin 4000) (c : Fin 128) :
    matmul dot_S4000x15_S15x128_S4000x128_1_0_0_1_n_n none l r (constant (F := Ideal) S4000x128 .f32 0x00000000#32) (ix2 p c)
      = ∑ k : Fin 15, l (ix2 p k) * r (ix2 k c) := by
  simp only [matmul]
  rw [Ideal.matmul_constant_zero_apply, ← Equiv.sum_comp (ValueIdx.contrEquiv1 dot_S4000x15_S15x128_S4000x128_1_0_0_1_n_n 15 rfl rfl).symm]
  refine Finset.sum_congr rfl fun k _ => ?_
  have hk := ValueIdx.contrEquiv1_symm_val dot_S4000x15_S15x128_S4000x128_1_0_0_1_n_n 15 rfl rfl k
  have el : dot_S4000x15_S15x128_S4000x128_1_0_0_1_n_n.lhsIdx (ix2 p c) ((ValueIdx.contrEquiv1 dot_S4000x15_S15x128_S4000x128_1_0_0_1_n_n 15 rfl rfl).symm k) = ix2 p k := funext fun a => Fin.ext (by
    match a with
    | ⟨0, _⟩ => exact lhs0_15 _ _
    | ⟨1, _⟩ => exact (lhs1_15 _ _).trans hk)
  have er : dot_S4000x15_S15x128_S4000x128_1_0_0_1_n_n.rhsIdx (ix2 p c) ((ValueIdx.contrEquiv1 dot_S4000x15_S15x128_S4000x128_1_0_0_1_n_n 15 rfl rfl).symm k) = ix2 k c := funext fun a => Fin.ext (by
    match a with
    | ⟨0, _⟩ => exact (rhs0_15 _ _).trans hk
    | ⟨1, _⟩ => exact rhs1_15 _ _)
  rw [el, er]

/-! The matrix product of a 4000×128 block with a 128×1 block into a zero accumulator, entry by entry. -/
theorem lhs0_att (i : (⟨2, ![4000, 1]⟩ : Shape).Idx) (q : dot_S4000x128_S128x1_S4000x1_1_0_0_1_n_n.contr.Idx) : (dot_S4000x128_S128x1_S4000x1_1_0_0_1_n_n.lhsIdx i q 0).val = (i 0).val := by
  unfold DotDims.lhsIdx
  rw [dif_neg (show ¬(0 : Fin S4000x128.rank) ∈ dot_S4000x128_S128x1_S4000x1_1_0_0_1_n_n.lhsBatch by decide), dif_pos (show (0 : Fin S4000x128.rank) ∈ dot_S4000x128_S128x1_S4000x1_1_0_0_1_n_n.lhsNonContracting by decide)]
  rfl
theorem lhs1_att (i : (⟨2, ![4000, 1]⟩ : Shape).Idx) (q : dot_S4000x128_S128x1_S4000x1_1_0_0_1_n_n.contr.Idx) : (dot_S4000x128_S128x1_S4000x1_1_0_0_1_n_n.lhsIdx i q 1).val = (q ⟨0, by decide⟩).val :=
  dot_S4000x128_S128x1_S4000x1_1_0_0_1_n_n.lhsIdx_val_of_single rfl i q
theorem rhs0_att (i : (⟨2, ![4000, 1]⟩ : Shape).Idx) (q : dot_S4000x128_S128x1_S4000x1_1_0_0_1_n_n.contr.Idx) : (dot_S4000x128_S128x1_S4000x1_1_0_0_1_n_n.rhsIdx i q 0).val = (q ⟨0, by decide⟩).val :=
  dot_S4000x128_S128x1_S4000x1_1_0_0_1_n_n.rhsIdx_val_of_single rfl i q
theorem rhs1_att (i : (⟨2, ![4000, 1]⟩ : Shape).Idx) (q : dot_S4000x128_S128x1_S4000x1_1_0_0_1_n_n.contr.Idx) : (dot_S4000x128_S128x1_S4000x1_1_0_0_1_n_n.rhsIdx i q 1).val = (i 1).val := by
  unfold DotDims.rhsIdx
  rw [dif_neg (show ¬(1 : Fin S128x1.rank) ∈ dot_S4000x128_S128x1_S4000x1_1_0_0_1_n_n.rhsBatch by decide), dif_pos (show (1 : Fin S128x1.rank) ∈ dot_S4000x128_S128x1_S4000x1_1_0_0_1_n_n.rhsNonContracting by decide)]
  rfl
/-- Entry (p, c) of the product is the sum over k of l (p, k) · r (k, c). -/
theorem mm_att (l : FVec Ideal S4000x128 .bf16) (r : FVec Ideal S128x1 .bf16) (p : Fin 4000) (c : Fin 1) :
    matmul dot_S4000x128_S128x1_S4000x1_1_0_0_1_n_n none l r (constant (F := Ideal) S4000x1 .f32 0x00000000#32) (ix2 p c)
      = ∑ k : Fin 128, l (ix2 p k) * r (ix2 k c) := by
  simp only [matmul]
  rw [Ideal.matmul_constant_zero_apply, ← Equiv.sum_comp (ValueIdx.contrEquiv1 dot_S4000x128_S128x1_S4000x1_1_0_0_1_n_n 128 rfl rfl).symm]
  refine Finset.sum_congr rfl fun k _ => ?_
  have hk := ValueIdx.contrEquiv1_symm_val dot_S4000x128_S128x1_S4000x1_1_0_0_1_n_n 128 rfl rfl k
  have el : dot_S4000x128_S128x1_S4000x1_1_0_0_1_n_n.lhsIdx (ix2 p c) ((ValueIdx.contrEquiv1 dot_S4000x128_S128x1_S4000x1_1_0_0_1_n_n 128 rfl rfl).symm k) = ix2 p k := funext fun a => Fin.ext (by
    match a with
    | ⟨0, _⟩ => exact lhs0_att _ _
    | ⟨1, _⟩ => exact (lhs1_att _ _).trans hk)
  have er : dot_S4000x128_S128x1_S4000x1_1_0_0_1_n_n.rhsIdx (ix2 p c) ((ValueIdx.contrEquiv1 dot_S4000x128_S128x1_S4000x1_1_0_0_1_n_n 128 rfl rfl).symm k) = ix2 k c := funext fun a => Fin.ext (by
    match a with
    | ⟨0, _⟩ => exact (rhs0_att _ _).trans hk
    | ⟨1, _⟩ => exact rhs1_att _ _)
  rw [el, er]

/-- The gated first layer inside a perceptron payload, at an entry: the gate of the affine layer's entry. -/
theorem pay2_apply (v0 : Vec Ideal S4000x256 .bf16) (v2 : Vec Ideal S256x128 .bf16) (v5 : Vec Ideal S1x128 .f32)
    (v12 : Vec Ideal S128x128 .bf16) (v15 : Vec Ideal S1x128 .f32) (p : Fin 4000) (q : Fin 128) :
    k0_pay2 (F := Ideal) v0 v2 v5 v12 v15 (ix2 p q)
      = Cert.Spec.mlp (fun i : Fin 256 => v0 (ix2 p i)) (fun i k => v2 (ix2 i k)) (fun k => v5 (ix2 (0 : Fin 1) k))
          (fun k j => v12 (ix2 k j)) (fun j => v15 (ix2 (0 : Fin 1) j)) q := by
  unfold k0_pay2
  simp only [shapeCast_self]
  refine (addf_apply _ _ _).trans ?_
  refine (congrArg₂ (· + ·) (mm_128 _ _ p q) (broadcastTo_1b_ab_apply _ _ p q)).trans ?_
  unfold Cert.Spec.mlp Cert.Spec.lin
  refine congrArg (· + v15 (ix2 (0 : Fin 1) q)) (Finset.sum_congr rfl fun k _ => ?_)
  refine congrArg (· * v12 (ix2 k q)) ?_
  refine (truncf_apply (ψ := .bf16) _ bitsLt_bf16_f32 _).trans ?_
  refine (mulf_apply _ _ _).trans ?_
  have e : addf (matmul dot_S4000x256_S256x128_S4000x128_1_0_0_1_n_n none v0 v2 (constant (F := Ideal) S4000x128 .f32 0x00000000#32))
      (broadcastTo S4000x128 v5 broadcasts_S1x128_S4000x128) (ix2 p k)
      = (∑ i : Fin 256, v0 (ix2 p i) * v2 (ix2 i k)) + v5 (ix2 (0 : Fin 1) k) :=
    (addf_apply _ _ _).trans (congrArg₂ (· + ·) (mm_256 _ _ p k) (broadcastTo_1b_ab_apply _ _ p k))
  show _ * Ideal.logistic _ = _
  rw [e]
  rfl

/-- The first positional layer's two partial products, at an entry: three given features against the first three
    weight rows, plus fifteen exponentials of the scaled radius against the other fifteen. -/
theorem pay3_apply (v19 : Vec Ideal S4000x4 .f32) (v23 : Vec Ideal S1x15 .f32) (v29 : Vec Ideal S18x128 .bf16)
    (p : Fin 4000) (k : Fin 128) :
    k0_pay3 (F := Ideal) v19 v23 v29 (ix2 p k)
      = (∑ i : Fin 3, v19 (ix2 p (Fin.castAdd 1 i)) * v29 (ix2 (Fin.castAdd 15 i) k))
        + (∑ i : Fin 15, Ideal.exp (v19 (ix2 p (3 : Fin 4)) * v23 (ix2 (0 : Fin 1) i)) * v29 (ix2 (Fin.natAdd 3 i) k)) := by
  unfold k0_pay3
  simp only [shapeCast_self]
  refine (addf_apply _ _ _).trans ?_
  refine congrArg₂ (· + ·) ((mm_3 _ _ p k).trans (Finset.sum_congr rfl fun i _ => ?_))
    ((mm_15 _ _ p k).trans (Finset.sum_congr rfl fun i _ => ?_))
  · refine congrArg₂ (· * ·) ?_ ?_
    · refine (truncf_apply (ψ := .bf16) _ bitsLt_bf16_f32 _).trans ?_
      refine (sliceCols 0 v19 _ p i (by have := i.isLt; omega)).trans ?_
      exact congrArg (fun z => v19 (ix2 p z)) (Fin.ext (Nat.zero_add _))
    · refine (sliceRows 0 v29 _ i k (by have := i.isLt; omega)).trans ?_
      exact congrArg (fun z => v29 (ix2 z k)) (Fin.ext (Nat.zero_add _))
  · refine congrArg₂ (· * ·) ?_ ?_
    · refine (truncf_apply (ψ := .bf16) _ bitsLt_bf16_f32 _).trans ?_
      show Ideal.exp (_ * _) = _
      refine congrArg Ideal.exp (congrArg₂ (· * ·) ?_ (broadcastTo_1b_ab_apply _ _ p i))
      refine (bcastCol _ _ p i).trans ?_
      refine (sliceCols 3 v19 _ p (0 : Fin 1) (by decide)).trans ?_
      exact congrArg (fun z => v19 (ix2 p z)) (Fin.ext rfl)
    · refine (sliceRows 3 v29 _ i k (by have := i.isLt; omega)).trans ?_
      exact congrArg (fun z => v29 (ix2 z k)) (Fin.ext rfl)

/-- The positional perceptron's second half at an entry: bias, gate, second affine layer. -/
theorem pay4_apply (v37 : FVec Ideal S4000x128 .f32) (v38 : Vec Ideal S1x128 .f32) (v45 : Vec Ideal S128x128 .bf16)
    (v48 : Vec Ideal S1x128 .f32) (p : Fin 4000) (q : Fin 128) :
    k0_pay4 (F := Ideal) v37 v38 v45 v48 (ix2 p q)
      = Cert.Spec.lin (fun k : Fin 128 => Cert.Spec.silu (v37 (ix2 p k) + v38 (ix2 (0 : Fin 1) k)))
          (fun k j => v45 (ix2 k j)) (fun j => v48 (ix2 (0 : Fin 1) j)) q := by
  unfold k0_pay4
  simp only [shapeCast_self]
  refine (addf_apply _ _ _).trans ?_
  refine (congrArg₂ (· + ·) (mm_128 _ _ p q) (broadcastTo_1b_ab_apply _ _ p q)).trans ?_
  unfold Cert.Spec.lin
  refine congrArg (· + v48 (ix2 (0 : Fin 1) q)) (Finset.sum_congr rfl fun k _ => ?_)
  refine congrArg (· * v45 (ix2 k q)) ?_
  refine (truncf_apply (ψ := .bf16) _ bitsLt_bf16_f32 _).trans ?_
  refine (mulf_apply _ _ _).trans ?_
  have e : addf v37 (broadcastTo S4000x128 v38 broadcasts_S1x128_S4000x128) (ix2 p k)
      = v37 (ix2 p k) + v38 (ix2 (0 : Fin 1) k) :=
    (addf_apply _ _ _).trans (congrArg (v37 (ix2 p k) + ·) (broadcastTo_1b_ab_apply _ _ p k))
  show _ * Ideal.logistic _ = _
  rw [e]
  rfl

/-- One edge's positional row, from its block rows. -/
theorem pos_apply (v19 : Vec Ideal S4000x4 .f32) (v23 : Vec Ideal S1x15 .f32) (v29 : Vec Ideal S18x128 .bf16)
    (v38 : Vec Ideal S1x128 .f32) (v45 : Vec Ideal S128x128 .bf16) (v48 : Vec Ideal S1x128 .f32) (p : Fin 4000) (q : Fin 128) :
    k0_pay4 (F := Ideal) (k0_pay3 v19 v23 v29) v38 v45 v48 (ix2 p q)
      = Cert.Spec.posRow (fun i : Fin 3 => v19 (ix2 p (Fin.castAdd 1 i))) (v19 (ix2 p (3 : Fin 4)))
          (fun i : Fin 15 => v23 (ix2 (0 : Fin 1) i)) (fun (i : Fin 18) (k : Fin 128) => v29 (ix2 i k))
          (fun k => v38 (ix2 (0 : Fin 1) k)) (fun k j => v45 (ix2 k j)) (fun j => v48 (ix2 (0 : Fin 1) j)) q := by
  rw [pay4_apply]
  unfold Cert.Spec.posRow Cert.Spec.posLinSplit
  simp only [pay3_apply]

/-- The ungated output at an entry: the third perceptron of the chemical block's row times the positional entry. -/
theorem pay5_apply (v18 : FVec Ideal S4000x128 .f32) (v37 : FVec Ideal S4000x128 .f32) (v38 : Vec Ideal S1x128 .f32)
    (v45 : Vec Ideal S128x128 .bf16) (v48 : Vec Ideal S1x128 .f32) (v53 : Vec Ideal S128x128 .bf16) (v56 : Vec Ideal S1x128 .f32)
    (v63 : Vec Ideal S128x128 .bf16) (v66 : Vec Ideal S1x128 .f32) (p : Fin 4000) (q : Fin 128) :
    k0_pay5 (F := Ideal) v18 v37 v38 v45 v48 v53 v56 v63 v66 (ix2 p q)
      = Cert.Spec.mlp (fun i : Fin 128 => v18 (ix2 p i)) (fun i k => v53 (ix2 i k)) (fun k => v56 (ix2 (0 : Fin 1) k))
          (fun k j => v63 (ix2 k j)) (fun j => v66 (ix2 (0 : Fin 1) j)) q
        * k0_pay4 (F := Ideal) v37 v38 v45 v48 (ix2 p q) := by
  unfold k0_pay5
  simp only [shapeCast_self]
  refine (mulf_apply _ _ _).trans ?_
  refine congrArg (· * k0_pay4 (F := Ideal) v37 v38 v45 v48 (ix2 p q)) ?_
  refine (addf_apply _ _ _).trans ?_
  refine (congrArg₂ (· + ·) (mm_128 _ _ p q) (broadcastTo_1b_ab_apply _ _ p q)).trans ?_
  unfold Cert.Spec.mlp Cert.Spec.lin
  refine congrArg (· + v66 (ix2 (0 : Fin 1) q)) (Finset.sum_congr rfl fun k _ => ?_)
  refine congrArg (· * v63 (ix2 k q)) ?_
  refine (truncf_apply (ψ := .bf16) _ bitsLt_bf16_f32 _).trans ?_
  refine (mulf_apply _ _ _).trans ?_
  have e : addf (matmul dot_S4000x128_S128x128_S4000x128_1_0_0_1_n_n none (truncf .bf16 v18 bitsLt_bf16_f32) v53
        (constant (F := Ideal) S4000x128 .f32 0x00000000#32))
      (broadcastTo S4000x128 v56 broadcasts_S1x128_S4000x128) (ix2 p k)
      = (∑ i : Fin 128, v18 (ix2 p i) * v53 (ix2 i k)) + v56 (ix2 (0 : Fin 1) k) :=
    (addf_apply _ _ _).trans (congrArg₂ (· + ·) (mm_128 _ _ p k) (broadcastTo_1b_ab_apply _ _ p k))
  show _ * Ideal.logistic _ = _
  rw [e]
  rfl

/-- The gate's argument before its bias: the ungated row against the one weight column. -/
theorem pay6_apply (v18 : FVec Ideal S4000x128 .f32) (v37 : FVec Ideal S4000x128 .f32) (v38 : Vec Ideal S1x128 .f32)
    (v45 : Vec Ideal S128x128 .bf16) (v48 : Vec Ideal S1x128 .f32) (v53 : Vec Ideal S128x128 .bf16) (v56 : Vec Ideal S1x128 .f32)
    (v63 : Vec Ideal S128x128 .bf16) (v66 : Vec Ideal S1x128 .f32) (v72 : Vec Ideal S128x1 .bf16) (p : Fin 4000) :
    k0_pay6 (F := Ideal) v18 v37 v38 v45 v48 v53 v56 v63 v66 v72 (ix2 p (0 : Fin 1))
      = ∑ k : Fin 128, k0_pay5 (F := Ideal) v18 v37 v38 v45 v48 v53 v56 v63 v66 (ix2 p k) * v72 (ix2 k (0 : Fin 1)) := by
  unfold k0_pay6
  simp only [shapeCast_self]
  exact mm_att _ _ p 0

/-- The gated output at an entry. -/
theorem pay1_apply (v70 : FVec Ideal S4000x128 .f32) (v74 : FVec Ideal S4000x1 .f32) (v76 : FVec Ideal S1x1 .f32)
    (p : Fin 4000) (q : Fin 128) :
    k0_pay1 (F := Ideal) v70 v74 v76 (ix2 p q)
      = v70 (ix2 p q) * Ideal.logistic (v74 (ix2 p (0 : Fin 1)) + v76 (ix2 (0 : Fin 1) (0 : Fin 1))) := by
  unfold k0_pay1
  refine (mulf_apply _ _ _).trans ?_
  refine congrArg (v70 (ix2 p q) * ·) ?_
  refine (bcastCol _ _ p q).trans ?_
  show Ideal.logistic (_ + _) = _
  exact congrArg (fun z => Ideal.logistic (v74 (ix2 p (0 : Fin 1)) + z)) (broadcastTo_1b_ab_apply _ _ p (0 : Fin 1))

theorem pay7_eq (v75 : Vec Ideal S1x1 .f32) : k0_pay7 (F := Ideal) v75 = v75 := by
  unfold k0_pay7
  exact shapeCast_self _ _

/-- One edge's output row from its block rows: the ungated row (third perceptron of the chemical row, times the
    positional row) times the logistic of its affine functional. -/
theorem out_apply (v0 : Vec Ideal S4000x256 .bf16) (v2 : Vec Ideal S256x128 .bf16) (v5 : Vec Ideal S1x128 .f32)
    (v12 : Vec Ideal S128x128 .bf16) (v15 : Vec Ideal S1x128 .f32)
    (v19 : Vec Ideal S4000x4 .f32) (v23 : Vec Ideal S1x15 .f32) (v29 : Vec Ideal S18x128 .bf16)
    (v38 : Vec Ideal S1x128 .f32) (v45 : Vec Ideal S128x128 .bf16) (v48 : Vec Ideal S1x128 .f32)
    (v53 : Vec Ideal S128x128 .bf16) (v56 : Vec Ideal S1x128 .f32) (v63 : Vec Ideal S128x128 .bf16) (v66 : Vec Ideal S1x128 .f32)
    (v72 : Vec Ideal S128x1 .bf16) (v75 : Vec Ideal S1x1 .f32) (p : Fin 4000) (q : Fin 128) :
    k0_pay1 (F := Ideal)
        (k0_pay5 (k0_pay2 v0 v2 v5 v12 v15) (k0_pay3 v19 v23 v29) v38 v45 v48 v53 v56 v63 v66)
        (k0_pay6 (k0_pay2 v0 v2 v5 v12 v15) (k0_pay3 v19 v23 v29) v38 v45 v48 v53 v56 v63 v66 v72)
        (k0_pay7 v75) (ix2 p q)
      = Cert.Spec.outRow
          (Cert.Spec.preOut
            (Cert.Spec.mlp (fun i : Fin 256 => v0 (ix2 p i)) (fun i k => v2 (ix2 i k)) (fun k => v5 (ix2 (0 : Fin 1) k))
              (fun k j => v12 (ix2 k j)) (fun j => v15 (ix2 (0 : Fin 1) j)))
            (Cert.Spec.posRow (fun i : Fin 3 => v19 (ix2 p (Fin.castAdd 1 i))) (v19 (ix2 p (3 : Fin 4)))
              (fun i : Fin 15 => v23 (ix2 (0 : Fin 1) i)) (fun (i : Fin 18) (k : Fin 128) => v29 (ix2 i k))
              (fun k => v38 (ix2 (0 : Fin 1) k)) (fun k j => v45 (ix2 k j)) (fun j => v48 (ix2 (0 : Fin 1) j)))
            (fun i k => v53 (ix2 i k)) (fun k => v56 (ix2 (0 : Fin 1) k)) (fun k j => v63 (ix2 k j))
            (fun j => v66 (ix2 (0 : Fin 1) j)))
          (fun k => v72 (ix2 k (0 : Fin 1))) (v75 (ix2 (0 : Fin 1) (0 : Fin 1))) q := by
  rw [pay1_apply, pay7_eq, pay6_apply]
  unfold Cert.Spec.outRow Cert.Spec.preOut
  simp only [pay5_apply, pay2_apply, pos_apply]

end Cert.KernelIdeal.Pay

end
-- ==== Proof.KGDefs.lean ====
/-
  The three result arrays as functions of the window arrays, given row by row: entry (e, j) of each is edge e's
  row function (the perceptrons and the gated product of the specification) read at column j.
-/
import proofs.«110032_j62122406969661_2_alg».proof.KernelIdeal
import proofs.«110032_j62122406969661_2_alg».proof.Proof.Spec
import Idealize.ShloMosaic.Lib.ValueIdx

noncomputable section

open scoped BigOperators

namespace Cert.KernelIdeal.Val

open Cert.KernelIdeal Idealize.ShloMosaic Idealize.ShloMosaic.ValueIdx

/-- An array of 320000 rows of 128 given row by row. -/
def rows2 (f : Fin 320000 → Fin 128 → EReal) : S320000x128.Idx → EReal :=
  fun i => f ⟨(i 0).val, idx2_lt0 i⟩ ⟨(i 1).val, idx2_lt1 i⟩

theorem rows2_at (f : Fin 320000 → Fin 128 → EReal) (i : S320000x128.Idx) (e : Fin 320000) (j : Fin 128)
    (he : (i 0).val = e.val) (hj : (i 1).val = j.val) : rows2 f i = f e j := by
  unfold rows2
  have h1 : (⟨(i 0).val, idx2_lt0 i⟩ : Fin 320000) = e := Fin.ext he
  have h2 : (⟨(i 1).val, idx2_lt1 i⟩ : Fin 128) = j := Fin.ext hj
  rw [h1, h2]

theorem rows2_apply (f : Fin 320000 → Fin 128 → EReal) (e : Fin 320000) (j : Fin 128) : rows2 f (ix2 e j) = f e j :=
  rows2_at f (ix2 e j) e j rfl rfl

/-- The chemical array: each edge's perceptron of its gathered features. -/
def chemG (A0 : S320000x256.Idx → EReal) (A3 : S256x128.Idx → EReal) (A4 : S1x128.Idx → EReal) (A5 : S128x128.Idx → EReal)
    (A6 : S1x128.Idx → EReal) : S320000x128.Idx → EReal :=
  rows2 fun e j => Cert.Spec.mlp (fun i : Fin 256 => A0 (ix2 e i)) (fun i k => A3 (ix2 i k)) (fun k => A4 (ix2 (0 : Fin 1) k))
    (fun k j => A5 (ix2 k j)) (fun j => A6 (ix2 (0 : Fin 1) j)) j

/-- The positional array: each edge's positional perceptron of its three products and its radius. -/
def posG (A1 : S320000x4.Idx → EReal) (A2 : S1x15.Idx → EReal) (A7 : S18x128.Idx → EReal) (A8 : S1x128.Idx → EReal)
    (A9 : S128x128.Idx → EReal) (A10 : S1x128.Idx → EReal) : S320000x128.Idx → EReal :=
  rows2 fun e j => Cert.Spec.posRow (fun i : Fin 3 => A1 (ix2 e (Fin.castAdd 1 i))) (A1 (ix2 e (3 : Fin 4)))
    (fun i : Fin 15 => A2 (ix2 (0 : Fin 1) i)) (fun (i : Fin 18) (k : Fin 128) => A7 (ix2 i k))
    (fun k => A8 (ix2 (0 : Fin 1) k)) (fun k j => A9 (ix2 k j)) (fun j => A10 (ix2 (0 : Fin 1) j)) j

/-- The output array: each edge's gated product. -/
def outG (A0 : S320000x256.Idx → EReal) (A1 : S320000x4.Idx → EReal) (A2 : S1x15.Idx → EReal) (A3 : S256x128.Idx → EReal)
    (A4 : S1x128.Idx → EReal) (A5 : S128x128.Idx → EReal) (A6 : S1x128.Idx → EReal) (A7 : S18x128.Idx → EReal)
    (A8 : S1x128.Idx → EReal) (A9 : S128x128.Idx → EReal) (A10 : S1x128.Idx → EReal) (A11 : S128x128.Idx → EReal)
    (A12 : S1x128.Idx → EReal) (A13 : S128x128.Idx → EReal) (A14 : S1x128.Idx → EReal) (A15 : S128x1.Idx → EReal)
    (A16 : S1x1.Idx → EReal) : S320000x128.Idx → EReal :=
  rows2 fun e j => Cert.Spec.outRow
    (Cert.Spec.preOut
      (Cert.Spec.mlp (fun i : Fin 256 => A0 (ix2 e i)) (fun i k => A3 (ix2 i k)) (fun k => A4 (ix2 (0 : Fin 1) k))
        (fun k j => A5 (ix2 k j)) (fun j => A6 (ix2 (0 : Fin 1) j)))
      (Cert.Spec.posRow (fun i : Fin 3 => A1 (ix2 e (Fin.castAdd 1 i))) (A1 (ix2 e (3 : Fin 4)))
        (fun i : Fin 15 => A2 (ix2 (0 : Fin 1) i)) (fun (i : Fin 18) (k : Fin 128) => A7 (ix2 i k))
        (fun k => A8 (ix2 (0 : Fin 1) k)) (fun k j => A9 (ix2 k j)) (fun j => A10 (ix2 (0 : Fin 1) j)))
      (fun i k => A11 (ix2 i k)) (fun k => A12 (ix2 (0 : Fin 1) k)) (fun k j => A13 (ix2 k j))
      (fun j => A14 (ix2 (0 : Fin 1) j)))
    (fun k => A15 (ix2 k (0 : Fin 1))) (A16 (ix2 (0 : Fin 1) (0 : Fin 1))) j

end Cert.KernelIdeal.Val

end
-- ==== Proof.KValue.lean ====
/-
  From blocks to arrays: what the three result arrays hold after the last grid point.

  Grid point t handles edges 4000·t … 4000·t + 3999: the two streamed windows' blocks are those rows of the gathered
  features and of the positional inputs, every weight and bias window's block is its whole array, and the three
  result blocks are written back to those rows. Row p of block t is row 4000·t + p of the array, so what the body
  stores at (p, q) is the edge's row function read at column q, and the 80 blocks cover every row. Hence each result
  array is, entry (e, j), the row function of edge e at j.
-/
import proofs.«110032_j62122406969661_2_alg».proof.Proof.KFrameIdeal
import proofs.«110032_j62122406969661_2_alg».proof.Proof.KPayload
import proofs.«110032_j62122406969661_2_alg».proof.Proof.KGDefs
import Idealize.ShloMosaic.Lib.Pipeline.Value

set_option maxRecDepth 16384

noncomputable section

open scoped BigOperators

namespace Cert.KernelIdeal.Val

open Cert.KernelIdeal Cert.KernelIdeal.Gen Cert.KernelIdeal.HandFrame Cert.KernelIdeal.Pay
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The edge of row p of block t. -/
def rowAt (t : Fin cfg0.N) (p : Fin 4000) : Fin 320000 :=
  ⟨t.val * 4000 + p.val, by have h : t.val < 80 := lt_of_lt_of_eq t.isLt (show cfg0.N = 80 from N_0); have := p.isLt; omega⟩

/-- The streamed windows and the result windows step one block of rows per grid point. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_17.index t (0 : Fin 2) = t.val ∧ win0_17.index t (1 : Fin 2) = 0
    ∧ win0_18.index t (0 : Fin 2) = t.val ∧ win0_18.index t (1 : Fin 2) = 0
    ∧ win0_19.index t (0 : Fin 2) = t.val ∧ win0_19.index t (1 : Fin 2) = 0 :=
  (by decide +kernel : ∀ t : Fin grid0.N, _)

/-- The weight, bias and scale windows stay on their one block. -/
theorem idx_const : ∀ t : Fin cfg0.N,
    win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0
    ∧ win0_13.index t (0 : Fin 2) = 0 ∧ win0_13.index t (1 : Fin 2) = 0
    ∧ win0_14.index t (0 : Fin 2) = 0 ∧ win0_14.index t (1 : Fin 2) = 0
    ∧ win0_15.index t (0 : Fin 2) = 0 ∧ win0_15.index t (1 : Fin 2) = 0
    ∧ win0_16.index t (0 : Fin 2) = 0 ∧ win0_16.index t (1 : Fin 2) = 0 :=
  (by decide +kernel : ∀ t : Fin grid0.N, _)

/-! ## A window's block read through its array -/

theorem blk0 (c : Dev nD) (t : Fin cfg0.N) (p : Fin 4000) (i : Fin 256) :
    iblk m c 0 t (ix2 p i) = V m c main_v106 (ix2 (rowAt t p) i) := by
  show V m c main_v106 (((cfg0.win 0).blk t).view.emb (ix2 p i)) = V m c main_v106 (ix2 (rowAt t p) i)
  refine congrArg _ (funext fun a => Fin.ext ?_)
  have h := idx_facts t
  match a with
  | ⟨0, _⟩ => show win0_0.index t (0 : Fin 2) * 4000 + 1 * p.val = t.val * 4000 + p.val; omega
  | ⟨1, _⟩ => show win0_0.index t (1 : Fin 2) * 256 + 1 * i.val = i.val; omega

theorem blk1 (c : Dev nD) (t : Fin cfg0.N) (p : Fin 4000) (i : Fin 4) :
    iblk m c 1 t (ix2 p i) = V m c main_v107 (ix2 (rowAt t p) i) := by
  show V m c main_v107 (((cfg0.win 1).blk t).view.emb (ix2 p i)) = V m c main_v107 (ix2 (rowAt t p) i)
  refine congrArg _ (funext fun a => Fin.ext ?_)
  have h := idx_facts t
  match a with
  | ⟨0, _⟩ => show win0_1.index t (0 : Fin 2) * 4000 + 1 * p.val = t.val * 4000 + p.val; omega
  | ⟨1, _⟩ => show win0_1.index t (1 : Fin 2) * 4 + 1 * i.val = i.val; omega

theorem blk2 (c : Dev nD) (t : Fin cfg0.N) (y : S1x15.Idx) : iblk m c 2 t y = V m c main_v108 y := by
  show V m c main_v108 (((cfg0.win 2).blk t).view.emb y) = V m c main_v108 y
  refine congrArg _ (funext fun a => Fin.ext ?_)
  have h := idx_const t
  match a with
  | ⟨0, _⟩ => show win0_2.index t (0 : Fin 2) * 1 + 1 * (y 0).val = (y 0).val; omega
  | ⟨1, _⟩ => show win0_2.index t (1 : Fin 2) * 15 + 1 * (y 1).val = (y 1).val; omega

theorem blk3 (c : Dev nD) (t : Fin cfg0.N) (y : S256x128.Idx) : iblk m c 3 t y = V m c main_v109 y := by
  show V m c main_v109 (((cfg0.win 3).blk t).view.emb y) = V m c main_v109 y
  refine congrArg _ (funext fun a => Fin.ext ?_)
  have h := idx_const t
  match a with
  | ⟨0, _⟩ => show win0_3.index t (0 : Fin 2) * 256 + 1 * (y 0).val = (y 0).val; omega
  | ⟨1, _⟩ => show win0_3.index t (1 : Fin 2) * 128 + 1 * (y 1).val = (y 1).val; omega

theorem blk4 (c : Dev nD) (t : Fin cfg0.N) (y : S1x128.Idx) : iblk m c 4 t y = V m c main_v116 y := by
  show V m c main_v116 (((cfg0.win 4).blk t).view.emb y) = V m c main_v116 y
  refine congrArg _ (funext fun a => Fin.ext ?_)
  have h := idx_const t
  match a with
  | ⟨0, _⟩ => show win0_4.index t (0 : Fin 2) * 1 + 1 * (y 0).val = (y 0).val; omega
  | ⟨1, _⟩ => show win0_4.index t (1 : Fin 2) * 128 + 1 * (y 1).val = (y 1).val; omega

theorem blk5 (c : Dev nD) (t : Fin cfg0.N) (y : S128x128.Idx) : iblk m c 5 t y = V m c main_v110 y := by
  show V m c main_v110 (((cfg0.win 5).blk t).view.emb y) = V m c main_v110 y
  refine congrArg _ (funext fun a => Fin.ext ?_)
  have h := idx_const t
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem blk6 (c : Dev nD) (t : Fin cfg0.N) (y : S1x128.Idx) : iblk m c 6 t y = V m c main_v117 y := by
  show V m c main_v117 (((cfg0.win 6).blk t).view.emb y) = V m c main_v117 y
  refine congrArg _ (funext fun a => Fin.ext ?_)
  have h := idx_const t
  match a with
  | ⟨0, _⟩ => show win0_6.index t (0 : Fin 2) * 1 + 1 * (y 0).val = (y 0).val; omega
  | ⟨1, _⟩ => show win0_6.index t (1 : Fin 2) * 128 + 1 * (y 1).val = (y 1).val; omega

theorem blk7 (c : Dev nD) (t : Fin cfg0.N) (y : S18x128.Idx) : iblk m c 7 t y = V m c main_v111 y := by
  show V m c main_v111 (((cfg0.win 7).blk t).view.emb y) = V m c main_v111 y
  refine congrArg _ (funext fun a => Fin.ext ?_)
  have h := idx_const t
  match a with
  | ⟨0, _⟩ => show win0_7.index t (0 : Fin 2) * 18 + 1 * (y 0).val = (y 0).val; omega
  | ⟨1, _⟩ => show win0_7.index t (1 : Fin 2) * 128 + 1 * (y 1).val = (y 1).val; omega

theorem blk8 (c : Dev nD) (t : Fin cfg0.N) (y : S1x128.Idx) : iblk m c 8 t y = V m c main_v118 y := by
  show V m c main_v118 (((cfg0.win 8).blk t).view.emb y) = V m c main_v118 y
  refine congrArg _ (funext fun a => Fin.ext ?_)
  have h := idx_const t
  match a with
  | ⟨0, _⟩ => show win0_8.index t (0 : Fin 2) * 1 + 1 * (y 0).val = (y 0).val; omega
  | ⟨1, _⟩ => show win0_8.index t (1 : Fin 2) * 128 + 1 * (y 1).val = (y 1).val; omega

theorem blk9 (c : Dev nD) (t : Fin cfg0.N) (y : S128x128.Idx) : iblk m c 9 t y = V m c main_v112 y := by
  show V m c main_v112 (((cfg0.win 9).blk t).view.emb y) = V m c main_v112 y
  refine congrArg _ (funext fun a => Fin.ext ?_)
  have h := idx_const t
  match a with
  | ⟨0, _⟩ => show win0_9.index t (0 : Fin 2) * 128 + 1 * (y 0).val = (y 0).val; omega
  | ⟨1, _⟩ => show win0_9.index t (1 : Fin 2) * 128 + 1 * (y 1).val = (y 1).val; omega

theorem blk10 (c : Dev nD) (t : Fin cfg0.N) (y : S1x128.Idx) : iblk m c 10 t y = V m c main_v119 y := by
  show V m c main_v119 (((cfg0.win 10).blk t).view.emb y) = V m c main_v119 y
  refine congrArg _ (funext fun a => Fin.ext ?_)
  have h := idx_const t
  match a with
  | ⟨0, _⟩ => show win0_10.index t (0 : Fin 2) * 1 + 1 * (y 0).val = (y 0).val; omega
  | ⟨1, _⟩ => show win0_10.index t (1 : Fin 2) * 128 + 1 * (y 1).val = (y 1).val; omega

theorem blk11 (c : Dev nD) (t : Fin cfg0.N) (y : S128x128.Idx) : iblk m c 11 t y = V m c main_v113 y := by
  show V m c main_v113 (((cfg0.win 11).blk t).view.emb y) = V m c main_v113 y
  refine congrArg _ (funext fun a => Fin.ext ?_)
  have h := idx_const t
  match a with
  | ⟨0, _⟩ => show win0_11.index t (0 : Fin 2) * 128 + 1 * (y 0).val = (y 0).val; omega
  | ⟨1, _⟩ => show win0_11.index t (1 : Fin 2) * 128 + 1 * (y 1).val = (y 1).val; omega

theorem blk12 (c : Dev nD) (t : Fin cfg0.N) (y : S1x128.Idx) : iblk m c 12 t y = V m c main_v120 y := by
  show V m c main_v120 (((cfg0.win 12).blk t).view.emb y) = V m c main_v120 y
  refine congrArg _ (funext fun a => Fin.ext ?_)
  have h := idx_const t
  match a with
  | ⟨0, _⟩ => show win0_12.index t (0 : Fin 2) * 1 + 1 * (y 0).val = (y 0).val; omega
  | ⟨1, _⟩ => show win0_12.index t (1 : Fin 2) * 128 + 1 * (y 1).val = (y 1).val; omega

theorem blk13 (c : Dev nD) (t : Fin cfg0.N) (y : S128x128.Idx) : iblk m c 13 t y = V m c main_v114 y := by
  show V m c main_v114 (((cfg0.win 13).blk t).view.emb y) = V m c main_v114 y
  refine congrArg _ (funext fun a => Fin.ext ?_)
  have h := idx_const t
  match a with
  | ⟨0, _⟩ => show win0_13.index t (0 : Fin 2) * 128 + 1 * (y 0).val = (y 0).val; omega
  | ⟨1, _⟩ => show win0_13.index t (1 : Fin 2) * 128 + 1 * (y 1).val = (y 1).val; omega

theorem blk14 (c : Dev nD) (t : Fin cfg0.N) (y : S1x128.Idx) : iblk m c 14 t y = V m c main_v121 y := by
  show V m c main_v121 (((cfg0.win 14).blk t).view.emb y) = V m c main_v121 y
  refine congrArg _ (funext fun a => Fin.ext ?_)
  have h := idx_const t
  match a with
  | ⟨0, _⟩ => show win0_14.index t (0 : Fin 2) * 1 + 1 * (y 0).val = (y 0).val; omega
  | ⟨1, _⟩ => show win0_14.index t (1 : Fin 2) * 128 + 1 * (y 1).val = (y 1).val; omega

theorem blk15 (c : Dev nD) (t : Fin cfg0.N) (y : S128x1.Idx) : iblk m c 15 t y = V m c main_v115 y := by
  show V m c main_v115 (((cfg0.win 15).blk t).view.emb y) = V m c main_v115 y
  refine congrArg _ (funext fun a => Fin.ext ?_)
  have h := idx_const t
  match a with
  | ⟨0, _⟩ => show win0_15.index t (0 : Fin 2) * 128 + 1 * (y 0).val = (y 0).val; omega
  | ⟨1, _⟩ => show win0_15.index t (1 : Fin 2) * 1 + 1 * (y 1).val = (y 1).val; omega

theorem blk16 (c : Dev nD) (t : Fin cfg0.N) (y : S1x1.Idx) : iblk m c 16 t y = V m c main_v122 y := by
  show V m c main_v122 (((cfg0.win 16).blk t).view.emb y) = V m c main_v122 y
  refine congrArg _ (funext fun a => Fin.ext ?_)
  have h := idx_const t
  match a with
  | ⟨0, _⟩ => show win0_16.index t (0 : Fin 2) * 1 + 1 * (y 0).val = (y 0).val; omega
  | ⟨1, _⟩ => show win0_16.index t (1 : Fin 2) * 1 + 1 * (y 1).val = (y 1).val; omega

/-! ## What each grid point writes back -/

theorem flushed18 (c : Dev nD) (t : Fin cfg0.N) :
    (dats m 0 c).flushed 18 t = ((cfg0.win 18).blk t).view.read (Elt Ideal) (chemG (V m c main_v106) (V m c main_v109) (V m c main_v116) (V m c main_v110) (V m c main_v117)) := by
  show (cfg0.win 18).cut (grid0.coords t) ((dats m 0 c).after 18 t) = _
  rw [after0_18]
  unfold out0_18
  rw [View.canon_unit_zero hz]
  simp only [View.ld_unit_zero (S := S4000x256) hz, View.ld_unit_zero (S := S256x128) hz, View.ld_unit_zero (S := S1x128) hz, View.ld_unit_zero (S := S128x128) hz, View.ld_unit_zero (S := S4000x4) hz, View.ld_unit_zero (S := S1x15) hz, View.ld_unit_zero (S := S18x128) hz, View.ld_unit_zero (S := S128x1) hz, View.ld_unit_zero (S := S1x1) hz]
  funext y
  obtain ⟨p, q, rfl⟩ : ∃ (p : Fin 4000) (q : Fin 128), y = ix2 p q := ⟨y 0, y 1, eq_ix2 y⟩
  have hf := idx_facts t
  show k0_pay2 (F := Ideal) (iblk m c 0 t) (iblk m c 3 t) (iblk m c 4 t) (iblk m c 5 t) (iblk m c 6 t) (ix2 p q)
    = chemG (V m c main_v106) (V m c main_v109) (V m c main_v116) (V m c main_v110) (V m c main_v117) (((cfg0.win 18).blk t).view.emb (ix2 p q))
  refine (pay2_apply (iblk m c 0 t) (iblk m c 3 t) (iblk m c 4 t) (iblk m c 5 t) (iblk m c 6 t) p q).trans ?_
  refine Eq.symm ((rows2_at _ _ (rowAt t p) q ?_ ?_).trans ?_)
  · show win0_18.index t (0 : Fin 2) * 4000 + 1 * p.val = t.val * 4000 + p.val; omega
  · show win0_18.index t (1 : Fin 2) * 128 + 1 * q.val = q.val; omega
  · simp only [blk0, blk3, blk4, blk5, blk6]

theorem mem_blk18 (t : Fin cfg0.N) (i : S320000x128.Idx) :
    i ∈ ((cfg0.win 18).blk t).view.set ↔ ∀ a : Fin 2, win0_18.index t a * S4000x128.size a ≤ (i a).val ∧ (i a).val < win0_18.index t a * S4000x128.size a + S4000x128.size a := by
  show i ∈ ((View.whole main_v123_1).slice (win0_18.rect t)).set ↔ _
  rw [View.set_slice_whole, Rect.mem_set_unit]
  exact Iff.rfl

/-- Row e lies in the block of point e / 4000. -/
theorem cover18 (i : S320000x128.Idx) : ∃ t : Fin cfg0.N, (cfg0.win 18).flush t = true ∧ i ∈ ((cfg0.win 18).blk t).view.set := by
  have h0 : (i 0).val < 320000 := (i 0).isLt
  have h1 : (i 1).val < 128 := (i 1).isLt
  have hlt : (i 0).val / 4000 < cfg0.N := by rw [show cfg0.N = 80 from N_0]; omega
  refine ⟨⟨(i 0).val / 4000, hlt⟩, flush0_18 _, ?_⟩
  rw [mem_blk18]
  have hf := idx_facts ⟨(i 0).val / 4000, hlt⟩
  have ht : (⟨(i 0).val / 4000, hlt⟩ : Fin cfg0.N).val = (i 0).val / 4000 := rfl
  intro a
  match a with
  | ⟨0, _⟩ => show win0_18.index ⟨(i 0).val / 4000, hlt⟩ (0 : Fin 2) * 4000 ≤ (i 0).val ∧ (i 0).val < win0_18.index ⟨(i 0).val / 4000, hlt⟩ (0 : Fin 2) * 4000 + 4000; omega
  | ⟨1, _⟩ => show win0_18.index ⟨(i 0).val / 4000, hlt⟩ (1 : Fin 2) * 128 ≤ (i 1).val ∧ (i 1).val < win0_18.index ⟨(i 0).val / 4000, hlt⟩ (1 : Fin 2) * 128 + 128; omega

theorem final18 (c : Dev nD) : (dats m 0 c).arrAt 18 cfg0.N = chemG (V m c main_v106) (V m c main_v109) (V m c main_v116) (V m c main_v110) (V m c main_v117) :=
  (dats m 0 c).arrAt_eq_of_cover 18 _ (fun t _ => flushed18 m c t) cover18

theorem flushed19 (c : Dev nD) (t : Fin cfg0.N) :
    (dats m 0 c).flushed 19 t = ((cfg0.win 19).blk t).view.read (Elt Ideal) (posG (V m c main_v107) (V m c main_v108) (V m c main_v111) (V m c main_v118) (V m c main_v112) (V m c main_v119)) := by
  show (cfg0.win 19).cut (grid0.coords t) ((dats m 0 c).after 19 t) = _
  rw [after0_19]
  unfold out0_19
  rw [View.canon_unit_zero hz]
  simp only [View.ld_unit_zero (S := S4000x256) hz, View.ld_unit_zero (S := S256x128) hz, View.ld_unit_zero (S := S1x128) hz, View.ld_unit_zero (S := S128x128) hz, View.ld_unit_zero (S := S4000x4) hz, View.ld_unit_zero (S := S1x15) hz, View.ld_unit_zero (S := S18x128) hz, View.ld_unit_zero (S := S128x1) hz, View.ld_unit_zero (S := S1x1) hz]
  funext y
  obtain ⟨p, q, rfl⟩ : ∃ (p : Fin 4000) (q : Fin 128), y = ix2 p q := ⟨y 0, y 1, eq_ix2 y⟩
  have hf := idx_facts t
  show k0_pay4 (F := Ideal) (k0_pay3 (iblk m c 1 t) (iblk m c 2 t) (iblk m c 7 t)) (iblk m c 8 t) (iblk m c 9 t) (iblk m c 10 t) (ix2 p q)
    = posG (V m c main_v107) (V m c main_v108) (V m c main_v111) (V m c main_v118) (V m c main_v112) (V m c main_v119) (((cfg0.win 19).blk t).view.emb (ix2 p q))
  refine (pos_apply (iblk m c 1 t) (iblk m c 2 t) (iblk m c 7 t) (iblk m c 8 t) (iblk m c 9 t) (iblk m c 10 t) p q).trans ?_
  refine Eq.symm ((rows2_at _ _ (rowAt t p) q ?_ ?_).trans ?_)
  · show win0_19.index t (0 : Fin 2) * 4000 + 1 * p.val = t.val * 4000 + p.val; omega
  · show win0_19.index t (1 : Fin 2) * 128 + 1 * q.val = q.val; omega
  · simp only [blk1, blk2, blk7, blk8, blk9, blk10]

theorem mem_blk19 (t : Fin cfg0.N) (i : S320000x128.Idx) :
    i ∈ ((cfg0.win 19).blk t).view.set ↔ ∀ a : Fin 2, win0_19.index t a * S4000x128.size a ≤ (i a).val ∧ (i a).val < win0_19.index t a * S4000x128.size a + S4000x128.size a := by
  show i ∈ ((View.whole main_v123_2).slice (win0_19.rect t)).set ↔ _
  rw [View.set_slice_whole, Rect.mem_set_unit]
  exact Iff.rfl

/-- Row e lies in the block of point e / 4000. -/
theorem cover19 (i : S320000x128.Idx) : ∃ t : Fin cfg0.N, (cfg0.win 19).flush t = true ∧ i ∈ ((cfg0.win 19).blk t).view.set := by
  have h0 : (i 0).val < 320000 := (i 0).isLt
  have h1 : (i 1).val < 128 := (i 1).isLt
  have hlt : (i 0).val / 4000 < cfg0.N := by rw [show cfg0.N = 80 from N_0]; omega
  refine ⟨⟨(i 0).val / 4000, hlt⟩, flush0_19 _, ?_⟩
  rw [mem_blk19]
  have hf := idx_facts ⟨(i 0).val / 4000, hlt⟩
  have ht : (⟨(i 0).val / 4000, hlt⟩ : Fin cfg0.N).val = (i 0).val / 4000 := rfl
  intro a
  match a with
  | ⟨0, _⟩ => show win0_19.index ⟨(i 0).val / 4000, hlt⟩ (0 : Fin 2) * 4000 ≤ (i 0).val ∧ (i 0).val < win0_19.index ⟨(i 0).val / 4000, hlt⟩ (0 : Fin 2) * 4000 + 4000; omega
  | ⟨1, _⟩ => show win0_19.index ⟨(i 0).val / 4000, hlt⟩ (1 : Fin 2) * 128 ≤ (i 1).val ∧ (i 1).val < win0_19.index ⟨(i 0).val / 4000, hlt⟩ (1 : Fin 2) * 128 + 128; omega

theorem final19 (c : Dev nD) : (dats m 0 c).arrAt 19 cfg0.N = posG (V m c main_v107) (V m c main_v108) (V m c main_v111) (V m c main_v118) (V m c main_v112) (V m c main_v119) :=
  (dats m 0 c).arrAt_eq_of_cover 19 _ (fun t _ => flushed19 m c t) cover19

theorem flushed17 (c : Dev nD) (t : Fin cfg0.N) :
    (dats m 0 c).flushed 17 t = ((cfg0.win 17).blk t).view.read (Elt Ideal) (outG (V m c main_v106) (V m c main_v107) (V m c main_v108) (V m c main_v109) (V m c main_v116) (V m c main_v110) (V m c main_v117) (V m c main_v111) (V m c main_v118) (V m c main_v112) (V m c main_v119) (V m c main_v113) (V m c main_v120) (V m c main_v114) (V m c main_v121) (V m c main_v115) (V m c main_v122)) := by
  show (cfg0.win 17).cut (grid0.coords t) ((dats m 0 c).after 17 t) = _
  rw [after0_17]
  unfold out0_17
  rw [View.canon_unit_zero hz]
  simp only [View.ld_unit_zero (S := S4000x256) hz, View.ld_unit_zero (S := S256x128) hz, View.ld_unit_zero (S := S1x128) hz, View.ld_unit_zero (S := S128x128) hz, View.ld_unit_zero (S := S4000x4) hz, View.ld_unit_zero (S := S1x15) hz, View.ld_unit_zero (S := S18x128) hz, View.ld_unit_zero (S := S128x1) hz, View.ld_unit_zero (S := S1x1) hz]
  funext y
  obtain ⟨p, q, rfl⟩ : ∃ (p : Fin 4000) (q : Fin 128), y = ix2 p q := ⟨y 0, y 1, eq_ix2 y⟩
  have hf := idx_facts t
  show k0_pay1 (F := Ideal)
      (k0_pay5 (k0_pay2 (iblk m c 0 t) (iblk m c 3 t) (iblk m c 4 t) (iblk m c 5 t) (iblk m c 6 t)) (k0_pay3 (iblk m c 1 t) (iblk m c 2 t) (iblk m c 7 t)) (iblk m c 8 t) (iblk m c 9 t) (iblk m c 10 t) (iblk m c 11 t) (iblk m c 12 t) (iblk m c 13 t) (iblk m c 14 t))
      (k0_pay6 (k0_pay2 (iblk m c 0 t) (iblk m c 3 t) (iblk m c 4 t) (iblk m c 5 t) (iblk m c 6 t)) (k0_pay3 (iblk m c 1 t) (iblk m c 2 t) (iblk m c 7 t)) (iblk m c 8 t) (iblk m c 9 t) (iblk m c 10 t) (iblk m c 11 t) (iblk m c 12 t) (iblk m c 13 t) (iblk m c 14 t) (iblk m c 15 t))
      (k0_pay7 (iblk m c 16 t)) (ix2 p q)
    = outG (V m c main_v106) (V m c main_v107) (V m c main_v108) (V m c main_v109) (V m c main_v116) (V m c main_v110) (V m c main_v117) (V m c main_v111) (V m c main_v118) (V m c main_v112) (V m c main_v119) (V m c main_v113) (V m c main_v120) (V m c main_v114) (V m c main_v121) (V m c main_v115) (V m c main_v122) (((cfg0.win 17).blk t).view.emb (ix2 p q))
  refine (out_apply (iblk m c 0 t) (iblk m c 3 t) (iblk m c 4 t) (iblk m c 5 t) (iblk m c 6 t) (iblk m c 1 t) (iblk m c 2 t) (iblk m c 7 t) (iblk m c 8 t) (iblk m c 9 t) (iblk m c 10 t) (iblk m c 11 t) (iblk m c 12 t) (iblk m c 13 t) (iblk m c 14 t) (iblk m c 15 t) (iblk m c 16 t) p q).trans ?_
  refine Eq.symm ((rows2_at _ _ (rowAt t p) q ?_ ?_).trans ?_)
  · show win0_17.index t (0 : Fin 2) * 4000 + 1 * p.val = t.val * 4000 + p.val; omega
  · show win0_17.index t (1 : Fin 2) * 128 + 1 * q.val = q.val; omega
  · simp only [blk0, blk1, blk2, blk3, blk4, blk5, blk6, blk7, blk8, blk9, blk10, blk11, blk12, blk13, blk14, blk15, blk16]

theorem mem_blk17 (t : Fin cfg0.N) (i : S320000x128.Idx) :
    i ∈ ((cfg0.win 17).blk t).view.set ↔ ∀ a : Fin 2, win0_17.index t a * S4000x128.size a ≤ (i a).val ∧ (i a).val < win0_17.index t a * S4000x128.size a + S4000x128.size a := by
  show i ∈ ((View.whole main_v123_0).slice (win0_17.rect t)).set ↔ _
  rw [View.set_slice_whole, Rect.mem_set_unit]
  exact Iff.rfl

/-- Row e lies in the block of point e / 4000. -/
theorem cover17 (i : S320000x128.Idx) : ∃ t : Fin cfg0.N, (cfg0.win 17).flush t = true ∧ i ∈ ((cfg0.win 17).blk t).view.set := by
  have h0 : (i 0).val < 320000 := (i 0).isLt
  have h1 : (i 1).val < 128 := (i 1).isLt
  have hlt : (i 0).val / 4000 < cfg0.N := by rw [show cfg0.N = 80 from N_0]; omega
  refine ⟨⟨(i 0).val / 4000, hlt⟩, flush0_17 _, ?_⟩
  rw [mem_blk17]
  have hf := idx_facts ⟨(i 0).val / 4000, hlt⟩
  have ht : (⟨(i 0).val / 4000, hlt⟩ : Fin cfg0.N).val = (i 0).val / 4000 := rfl
  intro a
  match a with
  | ⟨0, _⟩ => show win0_17.index ⟨(i 0).val / 4000, hlt⟩ (0 : Fin 2) * 4000 ≤ (i 0).val ∧ (i 0).val < win0_17.index ⟨(i 0).val / 4000, hlt⟩ (0 : Fin 2) * 4000 + 4000; omega
  | ⟨1, _⟩ => show win0_17.index ⟨(i 0).val / 4000, hlt⟩ (1 : Fin 2) * 128 ≤ (i 1).val ∧ (i 1).val < win0_17.index ⟨(i 0).val / 4000, hlt⟩ (1 : Fin 2) * 128 + 128; omega

theorem final17 (c : Dev nD) : (dats m 0 c).arrAt 17 cfg0.N = outG (V m c main_v106) (V m c main_v107) (V m c main_v108) (V m c main_v109) (V m c main_v116) (V m c main_v110) (V m c main_v117) (V m c main_v111) (V m c main_v118) (V m c main_v112) (V m c main_v119) (V m c main_v113) (V m c main_v120) (V m c main_v114) (V m c main_v121) (V m c main_v115) (V m c main_v122) :=
  (dats m 0 c).arrAt_eq_of_cover 17 _ (fun t _ => flushed17 m c t) cover17

/-! ## The run, read -/

/-- Every weakly fair execution terminates with the three result arrays at the row functions of the window arrays,
    the fourth result as the host left it, and the arguments unchanged. -/
theorem run : θ_run defs (onTc (τ := τ) (main (F := Ideal))) ⟨m, fun _ => 0, ρ⟩ fun r => ∀ c : Dev nD,
      r.2.mem ((c.tc : Thread nD τ).loc main_v123_0) = outG (V m c main_v106) (V m c main_v107) (V m c main_v108) (V m c main_v109) (V m c main_v116) (V m c main_v110) (V m c main_v117) (V m c main_v111) (V m c main_v118) (V m c main_v112) (V m c main_v119) (V m c main_v113) (V m c main_v120) (V m c main_v114) (V m c main_v121) (V m c main_v115) (V m c main_v122)
      ∧ r.2.mem ((c.tc : Thread nD τ).loc main_v123_1) = chemG (V m c main_v106) (V m c main_v109) (V m c main_v116) (V m c main_v110) (V m c main_v117)
      ∧ r.2.mem ((c.tc : Thread nD τ).loc main_v123_2) = posG (V m c main_v107) (V m c main_v108) (V m c main_v111) (V m c main_v118) (V m c main_v112) (V m c main_v119)
      ∧ r.2.mem ((c.tc : Thread nD τ).loc main_v26) = V m c main_v26
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun r h c => ⟨((h c).1 17).trans (final17 m c), ((h c).1 18).trans (final18 m c),
      ((h c).1 19).trans (final19 m c),
      (h c).2 main_v26 (Pipeline.mem_restRefs_of main_v26 (by decide) (by decide)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c)⟩)
    (run_main m ρ)

end Cert.KernelIdeal.Val

end
-- ==== Proof.HostTerms.lean ====
/-
  The reference program's host chain as small named pure terms, at the ideal float values.

  Each definition is a few of the printed program's operation functions composed, with the intermediate tensors it
  reads as parameters: the two rows of the edge table, the index wrap shared by every gather, the edge vectors and
  their lengths, the inverse-power weighted edge vectors, the per-node edge count and sums, the per-node unit vectors
  and their stack, the per-edge products of the stacks, the concatenated node features and the radial table. A
  program's buffer is then a short composition of these, not a closed term of the whole program.
-/
import proofs.«110032_j62122406969661_2_alg».proof.Proof.Gen.ReferenceIdeal
import Idealize.ShloMosaic.PureOps.Ideal

noncomputable section

namespace Cert.HostTerms

open Cert.ReferenceIdeal Cert.ReferenceIdeal.Gen Idealize.ShloMosaic

/-- A tensor of 32-bit floats of shape `s`, at the ideal values. -/
abbrev Fv (s : Shape) : Type := (⟨s, .f32⟩ : BufTy).Contents (Elt Ideal)
/-- A tensor of 32-bit integers of shape `s`. -/
abbrev Iv (s : Shape) : Type := (⟨s, .i32⟩ : BufTy).Contents (Elt Ideal)
/-- A tensor of booleans of shape `s`. -/
abbrev Bv (s : Shape) : Type := (⟨s, .i1⟩ : BufTy).Contents (Elt Ideal)

/-- Row 0 of the edge table as a vector of node words (`main_v1`: the slice, reshaped). -/
def rowWords (edges : Iv S2x320000) : Iv S320000 :=
  shapeCast S320000 ((extractStridedSlice S1x320000 ![0, 0] · slices_S2x320000_S1x320000_0_0 : Iv S2x320000 → Iv S1x320000) edges)
    shapeCasts_S1x320000_S320000

/-- Row 1 of the edge table as a vector of node words (`main_v3`). -/
def colWords (edges : Iv S2x320000) : Iv S320000 :=
  shapeCast S320000 ((extractStridedSlice S1x320000 ![1, 0] · slices_S2x320000_S1x320000_1_0 : Iv S2x320000 → Iv S1x320000) edges)
    shapeCasts_S1x320000_S320000

/-- The index column every gather reads: a negative word moved up by the node count 20000, then spread to a
    column (`main_v9` from `main_v1`; the same term at `main_v16`, `main_v90`, `main_v97`, `main_v106`, `main_v113`). -/
def wrapIdx (r : Iv S320000) : Iv S320000x1 :=
  (broadcastInDim S320000x1 ![0] bcast_S320000_S320000x1_0 : Iv S320000 → Iv S320000x1)
    ((select : Bv S320000 → Iv S320000 → Iv S320000 → Iv S320000)
      ((cmpi .slt : Iv S320000 → Iv S320000 → Bv S320000) r
        ((broadcastInDim S320000 ![] bcast_S_S320000 : Iv S_ → Iv S320000) (constantI S_ 32 0#32)))
      ((addi : Iv S320000 → Iv S320000 → Iv S320000) r
        ((broadcastInDim S320000 ![] bcast_S_S320000 : Iv S_ → Iv S320000) (constantI S_ 32 20000#32)))
      r)

/-- The edge vectors: the coordinates gathered at row 0's nodes minus those at row 1's (`main_v18`). -/
def coordDiff (coord : Fv S20000x3) (r c : Iv S320000) : Fv S320000x3 :=
  (subf (F := Ideal) (φ := .f32) : Fv S320000x3 → Fv S320000x3 → Fv S320000x3)
    (Host.gather gather_S20000x3_S320000x1_S320000x3_1_0_n_n_0_1_13 coord (wrapIdx r))
    (Host.gather gather_S20000x3_S320000x1_S320000x3_1_0_n_n_0_1_13 coord (wrapIdx c))

/-- The squared length of each edge vector, as a column (`main_v21`: the row sums of `d · d`, spread). -/
def sqNorm1 (d : Fv S320000x3) : Fv S320000x1 :=
  (broadcastInDim S320000x1 ![0] bcast_S320000_S320000x1_0 : Fv S320000 → Fv S320000x1)
    (Host.reduceAdd (F := Ideal) (φ := .f32) ((mulf (F := Ideal) (φ := .f32) : Fv S320000x3 → Fv S320000x3 → Fv S320000x3) d d) (constant (F := Ideal) S_ .f32 0x00000000#32)
      reducesTo_S320000x3_S320000_d1 h_S_)

/-- The length of each edge vector, as a column (`main_v27`: @norm's body — the square, the row sum, its spread,
    the square root). -/
def dnorm (d : Fv S320000x3) : Fv S320000x1 :=
  (Host.sqrt (F := Ideal) (φ := .f32) : Fv S320000x1 → Fv S320000x1) (sqNorm1 d)

/-- The edge vectors over their length plus 1e-8 (`main_v31`). -/
def coordDiffN (d : Fv S320000x3) : Fv S320000x3 :=
  (Host.divf (F := Ideal) (φ := .f32) : Fv S320000x3 → Fv S320000x3 → Fv S320000x3) d
    ((broadcastInDim S320000x3 ![0, 1] bcast_S320000x1_S320000x3_0_1 : Fv S320000x1 → Fv S320000x3)
      ((addf (F := Ideal) (φ := .f32) : Fv S320000x1 → Fv S320000x1 → Fv S320000x1) (dnorm d)
        ((broadcastInDim S320000x1 ![] bcast_S_S320000x1 : Fv S_ → Fv S320000x1) (constant (F := Ideal) S_ .f32 0x322BCC77#32))))

/-- The edge vectors scaled by their length to the power whose float bits are `w` (`main_v42`, `main_v56`,
    `main_v70` at `w` the bits of −3, −4, −5). -/
def ordered (d : Fv S320000x3) (w : BitVec 32) : Fv S320000x3 :=
  (mulf (F := Ideal) (φ := .f32) : Fv S320000x3 → Fv S320000x3 → Fv S320000x3)
    ((broadcastInDim S320000x3 ![0, 1] bcast_S320000x1_S320000x3_0_1 : Fv S320000x1 → Fv S320000x3)
      ((Host.powf (F := Ideal) (φ := .f32) : Fv S320000x1 → Fv S320000x1 → Fv S320000x1) (dnorm d)
        ((broadcastInDim S320000x1 ![] bcast_S_S320000x1 : Fv S_ → Fv S320000x1) (constant (F := Ideal) S_ .f32 w))))
    d

/-- Per node, the number of edges whose row-0 word is that node, at least 1, as a column (`main_v38` from
    `main_v1`: ones added into zeros at the words, the maximum with one, spread). -/
def countDen (r : Iv S320000) : Fv S20000x1 :=
  (broadcastInDim S20000x1 ![0] bcast_S20000_S20000x1_0 : Fv S20000 → Fv S20000x1)
    ((maximumf (F := Ideal) (φ := .f32) : Fv S20000 → Fv S20000 → Fv S20000)
      (Host.scatterAdd (F := Ideal) (φ := .f32) scatter_S20000_S320000x1_S320000_n_0_0_1
        ((broadcastInDim S20000 ![] bcast_S_S20000 : Fv S_ → Fv S20000) (constant (F := Ideal) S_ .f32 0x00000000#32))
        ((broadcastInDim S320000x1 ![0] bcast_S320000_S320000x1_0 : Iv S320000 → Iv S320000x1) r)
        ((broadcastInDim S320000 ![] bcast_S_S320000 : Fv S_ → Fv S320000) (constant (F := Ideal) S_ .f32 0x3F800000#32)))
      ((broadcastInDim S20000 ![] bcast_S_S20000 : Fv S_ → Fv S20000) (constant (F := Ideal) S_ .f32 0x3F800000#32)))

/-- Per node, the sum of the rows of `o` over the edges whose row-0 word is that node (`main_v45`, `main_v59`,
    `main_v73`: `o` added into zeros at the words). -/
def rowSum3 (r : Iv S320000) (o : Fv S320000x3) : Fv S20000x3 :=
  Host.scatterAdd (F := Ideal) (φ := .f32) scatter_S20000x3_S320000x1_S320000x3_1_0_0_1
    ((broadcastInDim S20000x3 ![] bcast_S_S20000x3 : Fv S_ → Fv S20000x3) (constant (F := Ideal) S_ .f32 0x00000000#32))
    ((broadcastInDim S320000x1 ![0] bcast_S320000_S320000x1_0 : Iv S320000 → Iv S320000x1) r)
    o

/-- The length of each node vector, as a column (@norm_0's body). -/
def nodeNorm (a : Fv S20000x3) : Fv S20000x1 :=
  (Host.sqrt (F := Ideal) (φ := .f32) : Fv S20000x1 → Fv S20000x1)
    ((broadcastInDim S20000x1 ![0] bcast_S20000_S20000x1_0 : Fv S20000 → Fv S20000x1)
      (Host.reduceAdd (F := Ideal) (φ := .f32) ((mulf (F := Ideal) (φ := .f32) : Fv S20000x3 → Fv S20000x3 → Fv S20000x3) a a) (constant (F := Ideal) S_ .f32 0x00000000#32)
        reducesTo_S20000x3_S20000_d1 h_S_))

/-- A node vector over its length plus 1e-8. -/
def nodeUnit (a : Fv S20000x3) : Fv S20000x3 :=
  (Host.divf (F := Ideal) (φ := .f32) : Fv S20000x3 → Fv S20000x3 → Fv S20000x3) a
    ((broadcastInDim S20000x3 ![0, 1] bcast_S20000x1_S20000x3_0_1 : Fv S20000x1 → Fv S20000x3)
      ((addf (F := Ideal) (φ := .f32) : Fv S20000x1 → Fv S20000x1 → Fv S20000x1) (nodeNorm a)
        ((broadcastInDim S20000x1 ![] bcast_S_S20000x1 : Fv S_ → Fv S20000x1) (constant (F := Ideal) S_ .f32 0x322BCC77#32))))

/-- The per-node sums `s` over the counts `den`, made unit (`main_v52` from `main_v45` and `main_v38`; likewise
    `main_v66`, `main_v80`). -/
def nforce (s : Fv S20000x3) (den : Fv S20000x1) : Fv S20000x3 :=
  nodeUnit ((Host.divf (F := Ideal) (φ := .f32) : Fv S20000x3 → Fv S20000x3 → Fv S20000x3) s
    ((broadcastInDim S20000x3 ![0, 1] bcast_S20000x1_S20000x3_0_1 : Fv S20000x1 → Fv S20000x3) den))

/-- The three unit vectors of each node stacked as the rows of a 3×3 block (`main_v84`). -/
def nvecs (n2 n3 n4 : Fv S20000x3) : Fv S20000x3x3 :=
  ((fun a b c => concatenate S20000x3x3 1 [⟨S20000x1x3, a⟩, ⟨S20000x1x3, b⟩, ⟨S20000x1x3, c⟩]
      concatenates_S20000x1x3_S20000x1x3_S20000x1x3_S20000x3x3_d1) :
      Fv S20000x1x3 → Fv S20000x1x3 → Fv S20000x1x3 → Fv S20000x3x3)
    ((broadcastInDim S20000x1x3 ![0, 2] bcast_S20000x3_S20000x1x3_0_2 : Fv S20000x3 → Fv S20000x1x3) n2)
    ((broadcastInDim S20000x1x3 ![0, 2] bcast_S20000x3_S20000x1x3_0_2 : Fv S20000x3 → Fv S20000x1x3) n3)
    ((broadcastInDim S20000x1x3 ![0, 2] bcast_S20000x3_S20000x1x3_0_2 : Fv S20000x3 → Fv S20000x1x3) n4)

/-- Per edge, the three inner products of the two end nodes' stacked vectors, row by row (`main_v100`). -/
def nprod (nv : Fv S20000x3x3) (r c : Iv S320000) : Fv S320000x3 :=
  Host.reduceAdd (F := Ideal) (φ := .f32)
    ((mulf (F := Ideal) (φ := .f32) : Fv S320000x3x3 → Fv S320000x3x3 → Fv S320000x3x3)
      (Host.gather gather_S20000x3x3_S320000x1_S320000x3x3_12_0_n_n_0_1_133 nv (wrapIdx r))
      (Host.gather gather_S20000x3x3_S320000x1_S320000x3x3_12_0_n_n_0_1_133 nv (wrapIdx c)))
    (constant (F := Ideal) S_ .f32 0x00000000#32) reducesTo_S320000x3x3_S320000x3_d2 h_S_

/-- Per edge, the two end nodes' feature rows side by side (`main_v115`). -/
def chemIn (h : Fv S20000x128) (r c : Iv S320000) : Fv S320000x256 :=
  ((fun a b => concatenate S320000x256 1 [⟨S320000x128, a⟩, ⟨S320000x128, b⟩]
      concatenates_S320000x128_S320000x128_S320000x256_d1) : Fv S320000x128 → Fv S320000x128 → Fv S320000x256)
    (Host.gather gather_S20000x128_S320000x1_S320000x128_1_0_n_n_0_1_1128 h (wrapIdx r))
    (Host.gather gather_S20000x128_S320000x1_S320000x128_1_0_n_n_0_1_1128 h (wrapIdx c))

/-- The fifteen radial features of each edge: the exponential of the squared length times each entry of the scale
    table (`main_v26` from `main_v21`, the table `main_cst` by its literal words). -/
def radial (q : Fv S320000x1) : Fv S320000x15 :=
  (Host.exp (F := Ideal) (φ := .f32) : Fv S320000x15 → Fv S320000x15)
    ((mulf (F := Ideal) (φ := .f32) : Fv S320000x15 → Fv S320000x15 → Fv S320000x15)
      ((broadcastInDim S320000x15 ![0, 1] bcast_S320000x1_S320000x15_0_1 : Fv S320000x1 → Fv S320000x15) q)
      ((broadcastInDim S320000x15 ![0, 1] bcast_S1x15_S320000x15_0_1 : Fv S1x15 → Fv S320000x15)
        ((broadcastInDim S1x15 ![1] bcast_S15_S1x15_1 : Fv S15 → Fv S1x15)
          (fun i => FloatOps.ofBits (F := Ideal) .f32 (lit0 (S15.rowMajor i))))))

/-- Per edge, the three products then the fifteen radial features (`main_v116`). -/
def posIn18 (np : Fv S320000x3) (rad : Fv S320000x15) : Fv S320000x18 :=
  ((fun a b => concatenate S320000x18 1 [⟨S320000x3, a⟩, ⟨S320000x15, b⟩]
      concatenates_S320000x3_S320000x15_S320000x18_d1) : Fv S320000x3 → Fv S320000x15 → Fv S320000x18)
    np rad

end Cert.HostTerms

end
-- ==== Proof.KerHostTerms.lean ====
import proofs.«110032_j62122406969661_2_alg».proof.Proof.KFrameDefsIdeal
import Idealize.ShloMosaic.Lib.StableHlo.Run
import Idealize.ShloMosaic.Lib.ValueLayout
import proofs.«110032_j62122406969661_2_alg».proof.Proof.HostTerms
import Idealize.ShloMosaic.PureOps.Ideal

/-! The host prefix of the kernel program read as small pure terms: what each array the region's windows read holds
    when the region is entered (`V m c main_vN`), as a term over the argument arrays. At the ideal reading of the
    floats. -/

set_option maxRecDepth 16384

noncomputable section

namespace Cert.KerHostTerms

open Cert.KernelIdeal Cert.KernelIdeal.Gen Cert.KernelIdeal.HandFrame
open Idealize.ShloMosaic Idealize.ShloMosaic.TcCoe Idealize.ShloMosaic.ValueIdx
open Idealize.SL Idealize.SL.Sem
open Cert.HostTerms (Fv Iv Bv rowWords colWords wrapIdx coordDiff sqNorm1 dnorm coordDiffN ordered nforce nvecs nprod chemIn)

variable (m : (ℓ : Loc nD τ sig) → Buf (Elt Ideal) ℓ)

/-- The region-entry contents as the fold over the host operations listed one by one. -/
macro "open_prefix" : tactic =>
  `(tactic| (dsimp only [V]; simp only [hostOps0, hostOps0_1, hostOps0_2, hostOps0_3, hostOps0_4, hostOps0_5, hostOps0_6, hostOps0_7, hostOps0_8, List.flatten_cons, List.flatten_nil, List.append_nil, List.cons_append, List.nil_append]))

/-! ## The small operands: the scale table, the biases, the weights -/

/-- The scale table's 15 entries, as the printed literal. -/
abbrev scaleTable : (⟨S15, .f32⟩ : BufTy).Contents (Elt Ideal) := fun i => FloatOps.ofBits (F := Ideal) .f32 (lit0 (S15.rowMajor i))

/-- Window 2's array is the scale table as one row. -/
theorem V_main_v108 (c : Dev nD) : (V m c main_v108 : S1x15.Idx → Elt Ideal .f32) = shapeCast S1x15 scaleTable shapeCasts_S15_S1x15 := by
  open_prefix; after_results_simp; rfl

theorem V_main_v108_apply (c : Dev nD) (i : Fin 15) : (V m c main_v108 : S1x15.Idx → Elt Ideal .f32) (ix2 (0 : Fin 1) i) = scaleTable (ix1 i) := by
  rw [V_main_v108]; exact shapeCast_a_1a_apply _ _ 0 i

/-- Window 4's array is `main_arg4` as one row. -/
theorem V_main_v116 (c : Dev nD) : (V m c main_v116 : S1x128.Idx → Elt Ideal .f32) = shapeCast S1x128 (m ((c : Thread nD τ).loc main_arg4)) shapeCasts_S128_S1x128 := by
  open_prefix; after_results_simp; rfl

theorem V_main_v116_apply (c : Dev nD) (k : Fin 128) : (V m c main_v116 : S1x128.Idx → Elt Ideal .f32) (ix2 (0 : Fin 1) k) = (m ((c : Thread nD τ).loc main_arg4)) (ix1 k) := by
  rw [V_main_v116]; exact shapeCast_a_1a_apply _ _ 0 k

/-- Window 6's array is `main_arg6` as one row. -/
theorem V_main_v117 (c : Dev nD) : (V m c main_v117 : S1x128.Idx → Elt Ideal .f32) = shapeCast S1x128 (m ((c : Thread nD τ).loc main_arg6)) shapeCasts_S128_S1x128 := by
  open_prefix; after_results_simp; rfl

theorem V_main_v117_apply (c : Dev nD) (k : Fin 128) : (V m c main_v117 : S1x128.Idx → Elt Ideal .f32) (ix2 (0 : Fin 1) k) = (m ((c : Thread nD τ).loc main_arg6)) (ix1 k) := by
  rw [V_main_v117]; exact shapeCast_a_1a_apply _ _ 0 k

/-- Window 8's array is `main_arg8` as one row. -/
theorem V_main_v118 (c : Dev nD) : (V m c main_v118 : S1x128.Idx → Elt Ideal .f32) = shapeCast S1x128 (m ((c : Thread nD τ).loc main_arg8)) shapeCasts_S128_S1x128 := by
  open_prefix; after_results_simp; rfl

theorem V_main_v118_apply (c : Dev nD) (k : Fin 128) : (V m c main_v118 : S1x128.Idx → Elt Ideal .f32) (ix2 (0 : Fin 1) k) = (m ((c : Thread nD τ).loc main_arg8)) (ix1 k) := by
  rw [V_main_v118]; exact shapeCast_a_1a_apply _ _ 0 k

/-- Window 10's array is `main_arg10` as one row. -/
theorem V_main_v119 (c : Dev nD) : (V m c main_v119 : S1x128.Idx → Elt Ideal .f32) = shapeCast S1x128 (m ((c : Thread nD τ).loc main_arg10)) shapeCasts_S128_S1x128 := by
  open_prefix; after_results_simp; rfl

theorem V_main_v119_apply (c : Dev nD) (k : Fin 128) : (V m c main_v119 : S1x128.Idx → Elt Ideal .f32) (ix2 (0 : Fin 1) k) = (m ((c : Thread nD τ).loc main_arg10)) (ix1 k) := by
  rw [V_main_v119]; exact shapeCast_a_1a_apply _ _ 0 k

/-- Window 12's array is `main_arg12` as one row. -/
theorem V_main_v120 (c : Dev nD) : (V m c main_v120 : S1x128.Idx → Elt Ideal .f32) = shapeCast S1x128 (m ((c : Thread nD τ).loc main_arg12)) shapeCasts_S128_S1x128 := by
  open_prefix; after_results_simp; rfl

theorem V_main_v120_apply (c : Dev nD) (k : Fin 128) : (V m c main_v120 : S1x128.Idx → Elt Ideal .f32) (ix2 (0 : Fin 1) k) = (m ((c : Thread nD τ).loc main_arg12)) (ix1 k) := by
  rw [V_main_v120]; exact shapeCast_a_1a_apply _ _ 0 k

/-- Window 14's array is `main_arg14` as one row. -/
theorem V_main_v121 (c : Dev nD) : (V m c main_v121 : S1x128.Idx → Elt Ideal .f32) = shapeCast S1x128 (m ((c : Thread nD τ).loc main_arg14)) shapeCasts_S128_S1x128 := by
  open_prefix; after_results_simp; rfl

theorem V_main_v121_apply (c : Dev nD) (k : Fin 128) : (V m c main_v121 : S1x128.Idx → Elt Ideal .f32) (ix2 (0 : Fin 1) k) = (m ((c : Thread nD τ).loc main_arg14)) (ix1 k) := by
  rw [V_main_v121]; exact shapeCast_a_1a_apply _ _ 0 k

/-- Window 16's array is `main_arg16` as one row. -/
theorem V_main_v122 (c : Dev nD) : (V m c main_v122 : S1x1.Idx → Elt Ideal .f32) = shapeCast S1x1 (m ((c : Thread nD τ).loc main_arg16)) shapeCasts_S1_S1x1 := by
  open_prefix; after_results_simp; rfl

theorem V_main_v122_apply (c : Dev nD) : (V m c main_v122 : S1x1.Idx → Elt Ideal .f32) (ix2 (0 : Fin 1) (0 : Fin 1)) = (m ((c : Thread nD τ).loc main_arg16)) (ix1 (0 : Fin 1)) := by
  rw [V_main_v122]; exact shapeCast_a_1a_apply _ _ 0 0

/-- Window 3's array is `main_arg3` narrowed to bf16, which at the ideal reading is `main_arg3`. -/
theorem V_main_v109 (c : Dev nD) : @Eq (S256x128.Idx → Elt Ideal .bf16) (V m c main_v109) (truncf (F := Ideal) (s := S256x128) (φ := .f32) .bf16 (m ((c : Thread nD τ).loc main_arg3)) bitsLt_bf16_f32) := by
  open_prefix; after_results_simp

theorem V_main_v109_apply (c : Dev nD) (y : S256x128.Idx) : @Eq (Elt Ideal .bf16) ((V m c main_v109 : S256x128.Idx → Elt Ideal .bf16) y) (((m ((c : Thread nD τ).loc main_arg3)) : S256x128.Idx → Elt Ideal .f32) y) := by
  rw [V_main_v109]; rfl

/-- Window 5's array is `main_arg5` narrowed to bf16, which at the ideal reading is `main_arg5`. -/
theorem V_main_v110 (c : Dev nD) : @Eq (S128x128.Idx → Elt Ideal .bf16) (V m c main_v110) (truncf (F := Ideal) (s := S128x128) (φ := .f32) .bf16 (m ((c : Thread nD τ).loc main_arg5)) bitsLt_bf16_f32) := by
  open_prefix; after_results_simp

theorem V_main_v110_apply (c : Dev nD) (y : S128x128.Idx) : @Eq (Elt Ideal .bf16) ((V m c main_v110 : S128x128.Idx → Elt Ideal .bf16) y) (((m ((c : Thread nD τ).loc main_arg5)) : S128x128.Idx → Elt Ideal .f32) y) := by
  rw [V_main_v110]; rfl

/-- Window 7's array is `main_arg7` narrowed to bf16, which at the ideal reading is `main_arg7`. -/
theorem V_main_v111 (c : Dev nD) : @Eq (S18x128.Idx → Elt Ideal .bf16) (V m c main_v111) (truncf (F := Ideal) (s := S18x128) (φ := .f32) .bf16 (m ((c : Thread nD τ).loc main_arg7)) bitsLt_bf16_f32) := by
  open_prefix; after_results_simp

theorem V_main_v111_apply (c : Dev nD) (y : S18x128.Idx) : @Eq (Elt Ideal .bf16) ((V m c main_v111 : S18x128.Idx → Elt Ideal .bf16) y) (((m ((c : Thread nD τ).loc main_arg7)) : S18x128.Idx → Elt Ideal .f32) y) := by
  rw [V_main_v111]; rfl

/-- Window 9's array is `main_arg9` narrowed to bf16, which at the ideal reading is `main_arg9`. -/
theorem V_main_v112 (c : Dev nD) : @Eq (S128x128.Idx → Elt Ideal .bf16) (V m c main_v112) (truncf (F := Ideal) (s := S128x128) (φ := .f32) .bf16 (m ((c : Thread nD τ).loc main_arg9)) bitsLt_bf16_f32) := by
  open_prefix; after_results_simp

theorem V_main_v112_apply (c : Dev nD) (y : S128x128.Idx) : @Eq (Elt Ideal .bf16) ((V m c main_v112 : S128x128.Idx → Elt Ideal .bf16) y) (((m ((c : Thread nD τ).loc main_arg9)) : S128x128.Idx → Elt Ideal .f32) y) := by
  rw [V_main_v112]; rfl

/-- Window 11's array is `main_arg11` narrowed to bf16, which at the ideal reading is `main_arg11`. -/
theorem V_main_v113 (c : Dev nD) : @Eq (S128x128.Idx → Elt Ideal .bf16) (V m c main_v113) (truncf (F := Ideal) (s := S128x128) (φ := .f32) .bf16 (m ((c : Thread nD τ).loc main_arg11)) bitsLt_bf16_f32) := by
  open_prefix; after_results_simp

theorem V_main_v113_apply (c : Dev nD) (y : S128x128.Idx) : @Eq (Elt Ideal .bf16) ((V m c main_v113 : S128x128.Idx → Elt Ideal .bf16) y) (((m ((c : Thread nD τ).loc main_arg11)) : S128x128.Idx → Elt Ideal .f32) y) := by
  rw [V_main_v113]; rfl

/-- Window 13's array is `main_arg13` narrowed to bf16, which at the ideal reading is `main_arg13`. -/
theorem V_main_v114 (c : Dev nD) : @Eq (S128x128.Idx → Elt Ideal .bf16) (V m c main_v114) (truncf (F := Ideal) (s := S128x128) (φ := .f32) .bf16 (m ((c : Thread nD τ).loc main_arg13)) bitsLt_bf16_f32) := by
  open_prefix; after_results_simp

theorem V_main_v114_apply (c : Dev nD) (y : S128x128.Idx) : @Eq (Elt Ideal .bf16) ((V m c main_v114 : S128x128.Idx → Elt Ideal .bf16) y) (((m ((c : Thread nD τ).loc main_arg13)) : S128x128.Idx → Elt Ideal .f32) y) := by
  rw [V_main_v114]; rfl

/-- Window 15's array is `main_arg15` narrowed to bf16, which at the ideal reading is `main_arg15`. -/
theorem V_main_v115 (c : Dev nD) : @Eq (S128x1.Idx → Elt Ideal .bf16) (V m c main_v115) (truncf (F := Ideal) (s := S128x1) (φ := .f32) .bf16 (m ((c : Thread nD τ).loc main_arg15)) bitsLt_bf16_f32) := by
  open_prefix; after_results_simp

theorem V_main_v115_apply (c : Dev nD) (y : S128x1.Idx) : @Eq (Elt Ideal .bf16) ((V m c main_v115 : S128x1.Idx → Elt Ideal .bf16) y) (((m ((c : Thread nD τ).loc main_arg15)) : S128x1.Idx → Elt Ideal .f32) y) := by
  rw [V_main_v115]; rfl

/-! ## The edge vectors, normalised; the node features of each edge's two ends -/

/-- `main_v26`: the edge vectors over their length plus 1e-8. -/
theorem V_main_v26 (c : Dev nD) : @Eq (Fv S320000x3) (V m c main_v26)
    (coordDiffN (coordDiff (m ((c : Thread nD τ).loc main_arg1)) (rowWords (m ((c : Thread nD τ).loc main_arg2))) (colWords (m ((c : Thread nD τ).loc main_arg2))))) := by
  open_prefix; after_results_simp; rfl

/-- Window 0's array: per edge, the two end nodes' feature rows side by side; the narrowing to bf16 is the identity at
    the ideal reading. -/
theorem V_main_v106 (c : Dev nD) : @Eq (S320000x256.Idx → Elt Ideal .bf16) (V m c main_v106)
    (chemIn (m ((c : Thread nD τ).loc main_arg0)) (rowWords (m ((c : Thread nD τ).loc main_arg2))) (colWords (m ((c : Thread nD τ).loc main_arg2)))) := by
  open_prefix; after_results_simp; rfl

end Cert.KerHostTerms

end
-- ==== Proof.LibRowOps.lean ====
/-
  Rows gathered and rows scattered, read at an index.

  A graph propagation step `h ↦ segment_sum (h[row] * norm[:, None], col)` lowers to one `stablehlo.gather` that
  copies whole rows of an `[N, F]` array — row `e` of the `[E, F]` result is the operand's row named by start index
  `e`, read signed and clamped into `[0, N − 1]` — and one accumulating `stablehlo.scatter` that adds row `e` of the
  `[E, F]` updates onto the operand's row named by scatter index `e`, read signed and NOT clamped (an update whose
  row is outside `[0, N)` is dropped). This module states those dimension numbers once for every `N`, `E`, `F`
  (`rowGather`, `rowScatter`) and reads both operations at an index `(n, f)`:

  * `rowGather_operandIdx`: result element `(e, f)` reads the operand at `(clampRow idx e, f)`;
  * `rowScatter_resultIdx`: update element `(e, f)` lands on `(n, f')` exactly when start index `e` reads `n` and
    `f = f'`;
  * `scatterAdd_rows_apply`: at the ideal values the accumulating scatter at `(n, f)` is the operand there plus the
    sum, over the updates' rows `e` whose start index reads `n`, of the update at `(e, f)`.

  The column `f` passes through both untouched and the rows chosen depend on the index arrays alone: that is what
  lets a propagation step commute with a product by a matrix on the feature axis.
-/
import Idealize.ShloMosaic.PureOps.Ideal
import Idealize.ShloMosaic.Lib.ValueIdx

noncomputable section

open scoped BigOperators

namespace Cert.Lib.RowOps

open Idealize.ShloMosaic Idealize.ShloMosaic.ValueIdx

variable {N E F : Nat}

/-- The dimension numbers of `x[idx]` for an operand `[N, F]` and start indices `[E, 1]`: whole rows, result `[E, F]`. -/
abbrev rowGather (N E F : Nat)
    (wf : GatherDims.WF ⟨2, ![N, F]⟩ ⟨2, ![E, 1]⟩ ⟨2, ![E, F]⟩ [1] [0] [] [0] [] 1 ![1, F]) :
    GatherDims ⟨2, ![N, F]⟩ ⟨2, ![E, 1]⟩ ⟨2, ![E, F]⟩ where
  offsetDims := [1]
  collapsedSliceDims := [0]
  operandBatchingDims := []
  startIndicesBatchingDims := []
  startIndexMap := [0]
  indexVectorDim := 1
  sliceSizes := ![1, F]
  wf := wf

/-- The dimension numbers of `x.at[idx].add(u)` for an operand `[N, F]`, scatter indices `[E, 1]`, updates `[E, F]`. -/
abbrev rowScatter (N E F : Nat)
    (wf : ScatterDims.WF ⟨2, ![N, F]⟩ ⟨2, ![E, 1]⟩ ⟨2, ![E, F]⟩ [1] [0] [0] 1) :
    ScatterDims ⟨2, ![N, F]⟩ ⟨2, ![E, 1]⟩ ⟨2, ![E, F]⟩ where
  updateWindowDims := [1]
  insertedWindowDims := [0]
  scatterDimsToOperandDims := [0]
  indexVectorDim := 1
  wf := wf

/-- The operand row start index `e` names: the index word read signed, clamped into `[0, N − 1]`. -/
def clampRow (hN : 0 < N) {w : Nat} (idx : IVec ⟨2, ![E, 1]⟩ w) (e : Fin E) : Fin N :=
  ⟨min (idx (ix2 e 0)).toInt.toNat (N - 1), by omega⟩

/-- A row gather's result element `(e, f)` reads the operand at `(clampRow idx e, f)`. -/
theorem rowGather_operandIdx (hN : 0 < N)
    (wf : GatherDims.WF ⟨2, ![N, F]⟩ ⟨2, ![E, 1]⟩ ⟨2, ![E, F]⟩ [1] [0] [] [0] [] 1 ![1, F])
    {w : Nat} (idx : IVec ⟨2, ![E, 1]⟩ w) (e : Fin E) (f : Fin F) :
    (rowGather N E F wf).operandIdx (ix2 e f) idx = ix2 (clampRow hN idx e) f := by
  funext a
  refine Fin.ext ?_
  match a with
  | ⟨0, _⟩ =>
    show (rowGather N E F wf).start (ix2 e f) idx 0 + (rowGather N E F wf).batchCoord (ix2 e f) 0
        + (rowGather N E F wf).offCoord (ix2 e f) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E F wf).startIndexMap from List.mem_singleton.mpr rfl)]
    have hsi : (rowGather N E F wf).siIdx (ix2 e f) ⟨List.idxOf (0 : Fin 2) (rowGather N E F wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E F wf).start (ix2 e f) idx 1 + (rowGather N E F wf).batchCoord (ix2 e f) 1
        + (rowGather N E F wf).offCoord (ix2 e f) 1 = f.val
    have hs : (rowGather N E F wf).start (ix2 e f) idx 1 = 0 := by
      unfold GatherDims.start
      rw [dif_neg (show (1 : Fin 2) ∉ ([0] : List (Fin 2)) from by decide)]
    have ho : (rowGather N E F wf).offCoord (ix2 e f) 1 = f.val := by
      unfold GatherDims.offCoord
      rw [dif_pos ((GatherDims.mem_sKept _ _).mpr ⟨show (1 : Fin 2) ∉ ([0] : List (Fin 2)) from by decide, List.not_mem_nil⟩)]
      rfl
    rw [GatherDims.batchCoord_eq_zero _ _ _ List.not_mem_nil, hs, ho]
    omega

/-- A row scatter's update element `(e, f)` lands on `(n, f')` exactly when scatter index `e` reads `n` and the columns agree. -/
theorem rowScatter_resultIdx
    (wf : ScatterDims.WF ⟨2, ![N, F]⟩ ⟨2, ![E, 1]⟩ ⟨2, ![E, F]⟩ [1] [0] [0] 1)
    {w : Nat} (idx : IVec ⟨2, ![E, 1]⟩ w) (e : Fin E) (f : Fin F) (n : Fin N) (f' : Fin F) :
    (rowScatter N E F wf).resultIdx? (ix2 e f) idx = some (ix2 n f')
      ↔ ((idx (ix2 e 0)).toInt = (n.val : Int) ∧ f = f') := by
  have hs0 : (rowScatter N E F wf).start (ix2 e f) idx 0 = (idx (ix2 e 0)).toInt := by
    unfold ScatterDims.start
    rw [dif_pos (show (0 : Fin 2) ∈ (rowScatter N E F wf).scatterDimsToOperandDims from List.mem_singleton.mpr rfl)]
    refine congrArg (fun k => (idx k).toInt) ?_
    funext b; refine Fin.ext ?_
    match b with
    | ⟨0, _⟩ => rfl
    | ⟨1, _⟩ => rfl
  have hs1 : (rowScatter N E F wf).start (ix2 e f) idx 1 = 0 := by
    unfold ScatterDims.start
    rw [dif_neg (show (1 : Fin 2) ∉ ([0] : List (Fin 2)) from by decide)]
  have hw0 : (rowScatter N E F wf).window (ix2 e f) 0 = 0 := by
    have hk : (0 : Fin 2) ∉ (rowScatter N E F wf).sKept :=
      (show (0 : Fin 2) ∉ (List.finRange 2).filter (· ∉ ([0] : List (Fin 2))) from by decide)
    unfold ScatterDims.window
    rw [dif_neg hk]
  have hw1 : (rowScatter N E F wf).window (ix2 e f) 1 = f.val := by
    have hk : (1 : Fin 2) ∈ (rowScatter N E F wf).sKept :=
      (show (1 : Fin 2) ∈ (List.finRange 2).filter (· ∉ ([0] : List (Fin 2))) from by decide)
    unfold ScatterDims.window
    rw [dif_pos hk]
    rfl
  unfold ScatterDims.resultIdx?
  split
  · rename_i h
    rw [Option.some.injEq]
    constructor
    · intro heq
      have h0 := congrArg (fun i => (i 0).val) heq
      have h1 := congrArg (fun i => (i 1).val) heq
      have g0 := (h 0).1
      simp only [hs0, hw0] at h0 g0
      simp only [hs1, hw1] at h1
      refine ⟨?_, Fin.ext ?_⟩
      · show (idx (ix2 e 0)).toInt = (n.val : Int)
        have : ((idx (ix2 e 0)).toInt + ((0 : Nat) : Int)).toNat = n.val := h0
        omega
      · have : ((0 : Int) + (f.val : Int)).toNat = f'.val := h1
        omega
    · rintro ⟨hi, rfl⟩
      funext a
      refine Fin.ext ?_
      match a with
      | ⟨0, _⟩ =>
        show ((rowScatter N E F wf).start (ix2 e f) idx 0 + ((rowScatter N E F wf).window (ix2 e f) 0 : Int)).toNat = n.val
        rw [hs0, hw0, hi]; omega
      | ⟨1, _⟩ =>
        show ((rowScatter N E F wf).start (ix2 e f) idx 1 + ((rowScatter N E F wf).window (ix2 e f) 1 : Int)).toNat = f.val
        rw [hs1, hw1]; omega
  · rename_i h
    constructor
    · intro heq; exact absurd heq (by simp)
    · rintro ⟨hi, rfl⟩
      exfalso
      apply h
      intro a
      match a with
      | ⟨0, _⟩ =>
        show 0 ≤ (rowScatter N E F wf).start (ix2 e f) idx 0 + ((rowScatter N E F wf).window (ix2 e f) 0 : Int)
          ∧ (rowScatter N E F wf).start (ix2 e f) idx 0 + ((rowScatter N E F wf).window (ix2 e f) 0 : Int) < (N : Int)
        rw [hs0, hw0, hi]
        have := n.isLt
        omega
      | ⟨1, _⟩ =>
        show 0 ≤ (rowScatter N E F wf).start (ix2 e f) idx 1 + ((rowScatter N E F wf).window (ix2 e f) 1 : Int)
          ∧ (rowScatter N E F wf).start (ix2 e f) idx 1 + ((rowScatter N E F wf).window (ix2 e f) 1 : Int) < (F : Int)
        rw [hs1, hw1]
        have := f.isLt
        omega

/-- At the ideal values an accumulating row scatter read at `(n, f)`: the operand there plus the sum, over the rows `e`
    of the updates whose scatter index reads `n`, of the update at `(e, f)`. -/
theorem scatterAdd_rows_apply
    (wf : ScatterDims.WF ⟨2, ![N, F]⟩ ⟨2, ![E, 1]⟩ ⟨2, ![E, F]⟩ [1] [0] [0] 1)
    (x : (⟨2, ![N, F]⟩ : Shape).Idx → EReal) {w : Nat} (idx : IVec ⟨2, ![E, 1]⟩ w)
    (upd : (⟨2, ![E, F]⟩ : Shape).Idx → EReal) (n : Fin N) (f : Fin F) :
    Ideal.hostScatterAdd (rowScatter N E F wf) x idx upd (ix2 n f)
      = x (ix2 n f) + ∑ e ∈ Finset.univ.filter (fun e : Fin E => (idx (ix2 e 0)).toInt = (n.val : Int)), upd (ix2 e f) := by
  unfold Ideal.hostScatterAdd
  refine congrArg (x (ix2 n f) + ·) ?_
  rw [Finset.sum_filter, sum_idx2, Finset.sum_filter]
  refine Finset.sum_congr rfl fun e _ => ?_
  simp only [rowScatter_resultIdx]
  by_cases hP : (idx (ix2 e 0)).toInt = (n.val : Int)
  · simp only [hP, true_and, if_true, Finset.sum_ite_eq', Finset.mem_univ]
  · simp only [hP, false_and, if_false, Finset.sum_const_zero]

end Cert.Lib.RowOps

end
-- ==== Proof.LibRowScatterBridge.lean ====
/-
  The host's accumulating scatter of rows read at one index at the exact instance, stated over variable extents and
  operands and over any dimension record equal to the row record, so that a program's row scatter at its own literal
  extents is an instance of it.
-/
import proofs.«110032_j62122406969661_2_alg».proof.Proof.LibRowOps

noncomputable section

open scoped BigOperators

namespace Cert.Lib.RowOps

open Idealize.ShloMosaic Idealize.ShloMosaic.ValueIdx

/-- The host's accumulating scatter of the rows of an E by F array onto the rows of an N by F array, at (n, f): the
    element there plus the sum, over the rows e whose index read signed is n, of the update at (e, f). -/
theorem hostScatterAdd_rows {N E F w : Nat}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatter N E F wf)
    (x : FVec Ideal ⟨2, ![N, F]⟩ .f32) (idx : IVec ⟨2, ![E, 1]⟩ w) (upd : FVec Ideal ⟨2, ![E, F]⟩ .f32)
    (n : Fin N) (f : Fin F) :
    Host.scatterAdd (F := Ideal) d x idx upd (ix2 n f)
      = x (ix2 n f) + ∑ e ∈ Finset.univ.filter (fun e : Fin E => (idx (ix2 e 0)).toInt = (n.val : Int)), upd (ix2 e f) := by
  subst hd
  simp only [Host.scatterAdd, Ideal.hostScatterAdd_def]
  exact scatterAdd_rows_apply wf x idx upd n f

end Cert.Lib.RowOps

end
-- ==== Proof.LibNodeAverage.lean ====
/-
  The pieces of an average over the edges at a node, read at an index.

  Both programs form, for every node `n`, the sum of the rows of the edges whose index word reads `n` and the number
  of those edges, by accumulating scatters onto arrays filled with the zero word; they then take the larger of the
  number and one, spread that one-column array along the rows and divide. This module reads each piece at an index,
  for any extents:

  * a scalar word spread over any shape reads that word's value everywhere (`splat_apply`);
  * a one-column array spread along the rows reads its entry `(n, 0)` at `(n, q)` (`spreadCol_apply`);
  * an accumulating row scatter onto a spread word `z` reads, at `(n, f)`, the value of `z` plus the sum of the
    updates' entries `(e, f)` over the rows `e` whose index word reads `n` (`scatterOntoSplat_rows`);
  * when the updates are themselves a spread word `o`, every term of that sum is the value of `o`
    (`scatterSplatOntoSplat_rows`): a sum of ones is how the edges are counted.

  Words are kept as words (`Ideal.ofBits .f32 z`): nothing here evaluates a float literal.
-/
import Idealize.ShloMosaic.PureOps.Ideal
import Idealize.ShloMosaic.Lib.ValueIdx
import Idealize.ShloMosaic.Lib.IdealHost
import Idealize.ShloMosaic.Lib.Pipeline.Value
import proofs.«110032_j62122406969661_2_alg».proof.Proof.LibRowOps
import proofs.«110032_j62122406969661_2_alg».proof.Proof.LibRowScatterBridge

noncomputable section

open scoped BigOperators

namespace Cert.Lib.RowOps

open Idealize.ShloMosaic Idealize.ShloMosaic.ValueIdx

/-- A scalar word spread over any shape reads the extended real the word encodes, at every index. -/
theorem splat_apply {T : Shape} (h : (⟨0, ![]⟩ : Shape).BroadcastsInDim T ![]) (z : BitVec 32) (j : T.Idx) :
    broadcastInDim T ![] h (constant (F := Ideal) ⟨0, ![]⟩ .f32 z) j = Ideal.ofBits .f32 z :=
  (broadcastInDim_scalar_apply h (constant (F := Ideal) ⟨0, ![]⟩ .f32 z) j).trans
    (constant_apply (s := ⟨0, ![]⟩) (φ := .f32) z ix0)

/-- A one-column array spread along the rows: entry `(n, q)` of the result is entry `(n, 0)` of the column. -/
theorem spreadCol_apply {N F : Nat} {α : Type}
    (h : (⟨2, ![N, 1]⟩ : Shape).BroadcastsInDim ⟨2, ![N, F]⟩ ![0, 1])
    (Y : (⟨2, ![N, 1]⟩ : Shape).Idx → α) (n : Fin N) (q : Fin F) :
    broadcastInDim ⟨2, ![N, F]⟩ ![0, 1] h Y (ix2 n q) = Y (ix2 n (0 : Fin 1)) :=
  broadcastInDim_apply ![0, 1] h Y (ix2 n q) (ix2 n (0 : Fin 1)) (fun c => match c with
    | ⟨0, _⟩ => by
      -- axis 0 of the column has extent N: it keeps the row (also when N = 1, where the row is 0)
      show n.val = if N = 1 then 0 else n.val
      by_cases hN : N = 1
      · rw [if_pos hN]; have := n.isLt; omega
      · rw [if_neg hN]
    | ⟨1, _⟩ => by
      -- axis 1 of the column has extent 1: it reads coordinate 0
      show 0 = if (1 : Nat) = 1 then 0 else q.val
      rw [if_pos rfl])

/-- An accumulating row scatter onto an array filled with the word `z`: at `(n, f)` the value of `z` plus the sum,
    over the rows `e` of the updates whose index word reads `n`, of the updates' entry `(e, f)`, the updates being
    described by their rows `ur`. -/
theorem scatterOntoSplat_rows {N E F w : Nat}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatter N E F wf)
    (hb : (⟨0, ![]⟩ : Shape).BroadcastsInDim ⟨2, ![N, F]⟩ ![]) (z : BitVec 32)
    (idx : IVec ⟨2, ![E, 1]⟩ w) (U : FVec Ideal ⟨2, ![E, F]⟩ .f32)
    (ur : Fin E → Fin F → EReal) (hU : ∀ e f, U (ix2 e f) = ur e f) (n : Fin N) (f : Fin F) :
    Host.scatterAdd (F := Ideal) d (broadcastInDim ⟨2, ![N, F]⟩ ![] hb (constant (F := Ideal) ⟨0, ![]⟩ .f32 z)) idx U (ix2 n f)
      = Ideal.ofBits .f32 z
        + ∑ e ∈ Finset.univ.filter (fun e : Fin E => (idx (ix2 e 0)).toInt = (n.val : Int)), ur e f := by
  refine (hostScatterAdd_rows d wf hd _ idx U n f).trans ?_
  rw [splat_apply hb z (ix2 n f)]
  exact congrArg (Ideal.ofBits .f32 z + ·) (Finset.sum_congr rfl fun e _ => hU e f)

/-- The same with the updates an array filled with the word `o`: every term of the sum is the value of `o`. With
    `o` the word of one this is how the edges at node `n` are counted. -/
theorem scatterSplatOntoSplat_rows {N E F w : Nat}
    (d : ScatterDims ⟨2, ![N, F]⟩ ⟨2, ![E, 1]⟩ ⟨2, ![E, F]⟩)
    (wf : ScatterDims.WF ⟨2, ![N, F]⟩ ⟨2, ![E, 1]⟩ ⟨2, ![E, F]⟩ [1] [0] [0] 1) (hd : d = rowScatter N E F wf)
    (hb : (⟨0, ![]⟩ : Shape).BroadcastsInDim ⟨2, ![N, F]⟩ ![]) (z : BitVec 32)
    (hu : (⟨0, ![]⟩ : Shape).BroadcastsInDim ⟨2, ![E, F]⟩ ![]) (o : BitVec 32)
    (idx : IVec ⟨2, ![E, 1]⟩ w) (n : Fin N) (f : Fin F) :
    Host.scatterAdd (F := Ideal) d (broadcastInDim ⟨2, ![N, F]⟩ ![] hb (constant (F := Ideal) ⟨0, ![]⟩ .f32 z)) idx
        (broadcastInDim ⟨2, ![E, F]⟩ ![] hu (constant (F := Ideal) ⟨0, ![]⟩ .f32 o)) (ix2 n f)
      = Ideal.ofBits .f32 z
        + ∑ _e ∈ Finset.univ.filter (fun e : Fin E => (idx (ix2 e 0)).toInt = (n.val : Int)), Ideal.ofBits .f32 o :=
  scatterOntoSplat_rows d wf hd hb z idx _ (fun _ _ => Ideal.ofBits .f32 o) (fun e f => splat_apply hu o (ix2 e f)) n f

end Cert.Lib.RowOps

end
-- ==== Proof.LibCountScatter.lean ====
/-
  An accumulating scatter of entries onto a flat array, read at an index.

  A segment count `zeros(N).at[idx].add(ones(E))` (and any segment sum of a flat array of updates) lowers to one
  accumulating `stablehlo.scatter` whose operand has ONE axis: entry `e` of the `[E]` updates is added onto the operand's
  entry named by scatter index `e` of the `[E, 1]` index column, the index word read signed and NOT clamped (an update
  whose index is outside `[0, N)` is dropped). The updates have no window axis and the operand's only axis is the
  inserted one. This module states those dimension numbers once for every `N`, `E` (`entryScatter`) and reads the
  operation at an index `n`:

  * `entryScatter_resultIdx`: update element `e` lands on `n` exactly when scatter index `e` reads `n`;
  * `scatterAdd_entries_apply`: at the ideal values the accumulating scatter at `n` is the operand there plus the
    sum, over the entries `e` whose scatter index reads `n`, of the update at `e`;
  * `hostScatterAdd_entries`: the same for the host operation, over any dimension record equal to `entryScatter`;
  * `scatterSplatOntoSplat_entries`: with the operand filled with a word `z` and the updates filled with a word `o`, the
    value of `z` plus one copy of the value of `o` for every entry whose index reads `n`: with `o` the word of one, the
    number of such entries.

  The filtered set of entries is the same set a row scatter of an `[E, F]` array through the same index column sums
  over: that is what lets a count made by a flat scatter be compared with a count made by a column of a row scatter.
-/
import Idealize.ShloMosaic.PureOps.Ideal
import Idealize.ShloMosaic.Lib.ValueIdx
import Idealize.ShloMosaic.Lib.IdealHost

noncomputable section

open scoped BigOperators

namespace Cert.Lib.CountScatter

open Idealize.ShloMosaic Idealize.ShloMosaic.ValueIdx

variable {N E : Nat}

/-- The dimension numbers of `x.at[idx].add(u)` for a flat operand `[N]`, scatter indices `[E, 1]`, flat updates `[E]`. -/
abbrev entryScatter (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An entry scatter's update element `e` lands on `n` exactly when scatter index `e` reads `n`. -/
theorem entryScatter_resultIdx
    (wf : ScatterDims.WF ⟨1, ![N]⟩ ⟨2, ![E, 1]⟩ ⟨1, ![E]⟩ [] [0] [0] 1)
    {w : Nat} (idx : IVec ⟨2, ![E, 1]⟩ w) (e : Fin E) (n : Fin N) :
    (entryScatter N E wf).resultIdx? (ix1 e) idx = some (ix1 n)
      ↔ (idx (ix2 e 0)).toInt = (n.val : Int) := by
  -- the start on the operand's axis is the index word of entry e, read signed
  have hs0 : (entryScatter N E wf).start (ix1 e) idx 0 = (idx (ix2 e 0)).toInt := by
    unfold ScatterDims.start
    rw [dif_pos (show (0 : Fin 1) ∈ (entryScatter N E wf).scatterDimsToOperandDims from List.mem_singleton.mpr rfl)]
    refine congrArg (fun k => (idx k).toInt) ?_
    funext b; refine Fin.ext ?_
    match b with
    | ⟨0, _⟩ => rfl
    | ⟨1, _⟩ => rfl
  -- the operand's axis is inserted: no window coordinate
  have hw0 : (entryScatter N E wf).window (ix1 e) 0 = 0 := by
    have hk : (0 : Fin 1) ∉ (entryScatter N E wf).sKept :=
      (show (0 : Fin 1) ∉ (List.finRange 1).filter (· ∉ ([0] : List (Fin 1))) from by decide)
    unfold ScatterDims.window
    rw [dif_neg hk]
  unfold ScatterDims.resultIdx?
  split
  · rename_i h
    rw [Option.some.injEq]
    constructor
    · intro heq
      have h0 := congrArg (fun i => (i 0).val) heq
      have g0 := (h 0).1
      simp only [hs0, hw0] at h0 g0
      have : ((idx (ix2 e 0)).toInt + ((0 : Nat) : Int)).toNat = n.val := h0
      omega
    · intro hi
      funext a
      refine Fin.ext ?_
      match a with
      | ⟨0, _⟩ =>
        show ((entryScatter N E wf).start (ix1 e) idx 0 + ((entryScatter N E wf).window (ix1 e) 0 : Int)).toNat = n.val
        rw [hs0, hw0, hi]; omega
  · rename_i h
    constructor
    · intro heq; exact absurd heq (by simp)
    · intro hi
      exfalso
      apply h
      intro a
      match a with
      | ⟨0, _⟩ =>
        show 0 ≤ (entryScatter N E wf).start (ix1 e) idx 0 + ((entryScatter N E wf).window (ix1 e) 0 : Int)
          ∧ (entryScatter N E wf).start (ix1 e) idx 0 + ((entryScatter N E wf).window (ix1 e) 0 : Int) < (N : Int)
        rw [hs0, hw0, hi]
        have := n.isLt
        omega

/-- At the ideal values an accumulating entry scatter read at `n`: the operand there plus the sum, over the entries
    `e` of the updates whose scatter index reads `n`, of the update at `e`. -/
theorem scatterAdd_entries_apply
    (wf : ScatterDims.WF ⟨1, ![N]⟩ ⟨2, ![E, 1]⟩ ⟨1, ![E]⟩ [] [0] [0] 1)
    (x : (⟨1, ![N]⟩ : Shape).Idx → EReal) {w : Nat} (idx : IVec ⟨2, ![E, 1]⟩ w)
    (upd : (⟨1, ![E]⟩ : Shape).Idx → EReal) (n : Fin N) :
    Ideal.hostScatterAdd (entryScatter N E wf) x idx upd (ix1 n)
      = x (ix1 n) + ∑ e ∈ Finset.univ.filter (fun e : Fin E => (idx (ix2 e 0)).toInt = (n.val : Int)), upd (ix1 e) := by
  unfold Ideal.hostScatterAdd
  refine congrArg (x (ix1 n) + ·) ?_
  rw [Finset.sum_filter, sum_idx1, Finset.sum_filter]
  refine Finset.sum_congr rfl fun e _ => ?_
  simp only [entryScatter_resultIdx]

/-- The host's accumulating scatter of the entries of a flat E array onto a flat N array, at n: the element there plus
    the sum, over the entries e whose index read signed is n, of the update at e. The dimension numbers are taken as
    any record `d` equal to `entryScatter N E wf`, so that a printed record is matched by `rfl`. -/
theorem hostScatterAdd_entries {w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = entryScatter N E wf)
    (x : FVec Ideal ⟨1, ![N]⟩ .f32) (idx : IVec ⟨2, ![E, 1]⟩ w) (upd : FVec Ideal ⟨1, ![E]⟩ .f32) (n : Fin N) :
    Host.scatterAdd (F := Ideal) d x idx upd (ix1 n)
      = x (ix1 n) + ∑ e ∈ Finset.univ.filter (fun e : Fin E => (idx (ix2 e 0)).toInt = (n.val : Int)), upd (ix1 e) := by
  subst hd
  simp only [Host.scatterAdd, Ideal.hostScatterAdd_def]
  exact scatterAdd_entries_apply wf x idx upd n

/-- The operand filled with the word `z` and the updates filled with the word `o`: at `n` the value of `z` plus one copy
    of the value of `o` for every entry whose index word reads `n`. With `o` the word of one this counts those entries. -/
theorem scatterSplatOntoSplat_entries {w : Nat}
    (d : ScatterDims ⟨1, ![N]⟩ ⟨2, ![E, 1]⟩ ⟨1, ![E]⟩)
    (wf : ScatterDims.WF ⟨1, ![N]⟩ ⟨2, ![E, 1]⟩ ⟨1, ![E]⟩ [] [0] [0] 1) (hd : d = entryScatter N E wf)
    (hb : (⟨0, ![]⟩ : Shape).BroadcastsInDim ⟨1, ![N]⟩ ![]) (z : BitVec 32)
    (hu : (⟨0, ![]⟩ : Shape).BroadcastsInDim ⟨1, ![E]⟩ ![]) (o : BitVec 32)
    (idx : IVec ⟨2, ![E, 1]⟩ w) (n : Fin N) :
    Host.scatterAdd (F := Ideal) d (broadcastInDim ⟨1, ![N]⟩ ![] hb (constant (F := Ideal) ⟨0, ![]⟩ .f32 z)) idx
        (broadcastInDim ⟨1, ![E]⟩ ![] hu (constant (F := Ideal) ⟨0, ![]⟩ .f32 o)) (ix1 n)
      = Ideal.ofBits .f32 z
        + ∑ _e ∈ Finset.univ.filter (fun e : Fin E => (idx (ix2 e 0)).toInt = (n.val : Int)), Ideal.ofBits .f32 o := by
  refine (hostScatterAdd_entries d wf hd _ idx _ n).trans ?_
  have hz : broadcastInDim ⟨1, ![N]⟩ ![] hb (constant (F := Ideal) ⟨0, ![]⟩ .f32 z) (ix1 n) = Ideal.ofBits .f32 z :=
    (broadcastInDim_scalar_apply hb (constant (F := Ideal) ⟨0, ![]⟩ .f32 z) (ix1 n)).trans
      (constant_apply (s := ⟨0, ![]⟩) (φ := .f32) z ix0)
  rw [hz]
  refine congrArg (Ideal.ofBits .f32 z + ·) (Finset.sum_congr rfl fun e _ => ?_)
  exact (broadcastInDim_scalar_apply hu (constant (F := Ideal) ⟨0, ![]⟩ .f32 o) (ix1 e)).trans
    (constant_apply (s := ⟨0, ![]⟩) (φ := .f32) o ix0)

end Cert.Lib.CountScatter

end
-- ==== Proof.NodeSums.lean ====
/-
  Four segment sums made by one scatter of a wide payload, and the same four made by four scatters.

  For every node `n` both programs form the number of edges whose index word reads `n` and, for three `E × 3` arrays of
  edge rows `o2`, `o3`, `o4`, the sum of the rows of those edges. One program lays a column of ones and the three arrays
  side by side into an `E × 10` payload, adds its rows onto an `N × 10` array of zeros with ONE accumulating row scatter,
  and cuts the result back into the column `0` (the count) and the column blocks `1–3`, `4–6`, `7–9` (the three sums). The
  other program makes the count by an accumulating scatter of a flat array of ones onto a flat array of zeros, and each
  sum by its own `E × 3` row scatter.

  An accumulating row scatter leaves every column to itself: at `(n, c)` it is the operand's entry plus the sum, over the
  edges `e` whose index word reads `n`, of the payload's entry `(e, c)`. Column `c` of the payload is column `c` of the piece
  whose span holds `c`, so the cut at offset `1` is the row scatter of `o2`, at `4` of `o3`, at `7` of `o4`, and column `0` is the
  zero word's value plus one copy of the value of the word of one per edge at `n` — which is also what the flat scatter
  of ones reads at `n`. Taking the larger of that count and one, entry by entry, commutes with standing the flat array
  up as a one-column array.

  `concatCols_apply0` … `concatCols_apply3` read the four-piece concatenation at a column, `sliceCols_apply` a block of
  columns, `spreadEntry_apply` a flat array stood up as a column; `rowSum_o2`, `rowSum_o3`, `rowSum_o4` and `count_max_one`
  are the four equalities of arrays, their two sides written as the two programs compose them.
-/
import Idealize.ShloMosaic.PureOps.Ideal
import Idealize.ShloMosaic.Lib.ValueIdx
import Idealize.ShloMosaic.Lib.IdealHost
import Idealize.ShloMosaic.Lib.Pipeline.Value
import proofs.«110032_j62122406969661_2_alg».proof.KernelIdeal
import proofs.«110032_j62122406969661_2_alg».proof.ReferenceIdeal
import proofs.«110032_j62122406969661_2_alg».proof.Proof.LibRowOps
import proofs.«110032_j62122406969661_2_alg».proof.Proof.LibRowScatterBridge
import proofs.«110032_j62122406969661_2_alg».proof.Proof.LibNodeAverage
import proofs.«110032_j62122406969661_2_alg».proof.Proof.LibCountScatter

noncomputable section

open scoped BigOperators

namespace Cert.NodeSums

open Idealize.ShloMosaic Idealize.ShloMosaic.ValueIdx Cert.Lib.RowOps Cert.Lib.CountScatter

/-! ## The pieces read at an index, for any extents -/

section Pieces
variable {E N : Nat} {α : Type}

/-- Column `0` of `[a0 | a1 | a2 | a3]` (widths 1, 3, 3, 3) is the one column of `a0`. -/
theorem concatCols_apply0
    (a0 : (⟨2, ![E, 1]⟩ : Shape).Idx → α) (a1 a2 a3 : (⟨2, ![E, 3]⟩ : Shape).Idx → α)
    (h : Shape.Concatenates [⟨2, ![E, 1]⟩, ⟨2, ![E, 3]⟩, ⟨2, ![E, 3]⟩, ⟨2, ![E, 3]⟩] ⟨2, ![E, 10]⟩ 1) (e : Fin E) :
    concatenate ⟨2, ![E, 10]⟩ 1 [⟨⟨2, ![E, 1]⟩, a0⟩, ⟨⟨2, ![E, 3]⟩, a1⟩, ⟨⟨2, ![E, 3]⟩, a2⟩, ⟨⟨2, ![E, 3]⟩, a3⟩] h
        (ix2 e (0 : Fin 10)) = a0 (ix2 e (0 : Fin 1)) :=
  concatenate_apply_piece (t := ⟨2, ![E, 10]⟩) 1 [⟨⟨2, ![E, 1]⟩, a0⟩, ⟨⟨2, ![E, 3]⟩, a1⟩, ⟨⟨2, ![E, 3]⟩, a2⟩, ⟨⟨2, ![E, 3]⟩, a3⟩] h
    (ix2 e (0 : Fin 10)) 0 (by show (0 : Nat) < 4; omega) ⟨2, ![E, 1]⟩ a0 rfl rfl 0 rfl (ix2 e (0 : Fin 1))
    (fun b hb => match b with
      | ⟨0, _⟩ => rfl
      | ⟨1, _⟩ => absurd rfl hb)
    rfl

/-- Column `1 + f` of `[a0 | a1 | a2 | a3]` is column `f` of `a1`. -/
theorem concatCols_apply1
    (a0 : (⟨2, ![E, 1]⟩ : Shape).Idx → α) (a1 a2 a3 : (⟨2, ![E, 3]⟩ : Shape).Idx → α)
    (h : Shape.Concatenates [⟨2, ![E, 1]⟩, ⟨2, ![E, 3]⟩, ⟨2, ![E, 3]⟩, ⟨2, ![E, 3]⟩] ⟨2, ![E, 10]⟩ 1) (e : Fin E) (f : Fin 3) :
    concatenate ⟨2, ![E, 10]⟩ 1 [⟨⟨2, ![E, 1]⟩, a0⟩, ⟨⟨2, ![E, 3]⟩, a1⟩, ⟨⟨2, ![E, 3]⟩, a2⟩, ⟨⟨2, ![E, 3]⟩, a3⟩] h
        (ix2 e (⟨1 + f.val, by omega⟩ : Fin 10)) = a1 (ix2 e f) :=
  concatenate_apply_piece (t := ⟨2, ![E, 10]⟩) 1 [⟨⟨2, ![E, 1]⟩, a0⟩, ⟨⟨2, ![E, 3]⟩, a1⟩, ⟨⟨2, ![E, 3]⟩, a2⟩, ⟨⟨2, ![E, 3]⟩, a3⟩] h
    (ix2 e (⟨1 + f.val, by omega⟩ : Fin 10)) 1 (by show (1 : Nat) < 4; omega) ⟨2, ![E, 3]⟩ a1 rfl rfl 1 rfl (ix2 e f)
    (fun b hb => match b with
      | ⟨0, _⟩ => rfl
      | ⟨1, _⟩ => absurd rfl hb)
    rfl

/-- Column `4 + f` of `[a0 | a1 | a2 | a3]` is column `f` of `a2`. -/
theorem concatCols_apply2
    (a0 : (⟨2, ![E, 1]⟩ : Shape).Idx → α) (a1 a2 a3 : (⟨2, ![E, 3]⟩ : Shape).Idx → α)
    (h : Shape.Concatenates [⟨2, ![E, 1]⟩, ⟨2, ![E, 3]⟩, ⟨2, ![E, 3]⟩, ⟨2, ![E, 3]⟩] ⟨2, ![E, 10]⟩ 1) (e : Fin E) (f : Fin 3) :
    concatenate ⟨2, ![E, 10]⟩ 1 [⟨⟨2, ![E, 1]⟩, a0⟩, ⟨⟨2, ![E, 3]⟩, a1⟩, ⟨⟨2, ![E, 3]⟩, a2⟩, ⟨⟨2, ![E, 3]⟩, a3⟩] h
        (ix2 e (⟨4 + f.val, by omega⟩ : Fin 10)) = a2 (ix2 e f) :=
  concatenate_apply_piece (t := ⟨2, ![E, 10]⟩) 1 [⟨⟨2, ![E, 1]⟩, a0⟩, ⟨⟨2, ![E, 3]⟩, a1⟩, ⟨⟨2, ![E, 3]⟩, a2⟩, ⟨⟨2, ![E, 3]⟩, a3⟩] h
    (ix2 e (⟨4 + f.val, by omega⟩ : Fin 10)) 2 (by show (2 : Nat) < 4; omega) ⟨2, ![E, 3]⟩ a2 rfl rfl 4 rfl (ix2 e f)
    (fun b hb => match b with
      | ⟨0, _⟩ => rfl
      | ⟨1, _⟩ => absurd rfl hb)
    rfl

/-- Column `7 + f` of `[a0 | a1 | a2 | a3]` is column `f` of `a3`. -/
theorem concatCols_apply3
    (a0 : (⟨2, ![E, 1]⟩ : Shape).Idx → α) (a1 a2 a3 : (⟨2, ![E, 3]⟩ : Shape).Idx → α)
    (h : Shape.Concatenates [⟨2, ![E, 1]⟩, ⟨2, ![E, 3]⟩, ⟨2, ![E, 3]⟩, ⟨2, ![E, 3]⟩] ⟨2, ![E, 10]⟩ 1) (e : Fin E) (f : Fin 3) :
    concatenate ⟨2, ![E, 10]⟩ 1 [⟨⟨2, ![E, 1]⟩, a0⟩, ⟨⟨2, ![E, 3]⟩, a1⟩, ⟨⟨2, ![E, 3]⟩, a2⟩, ⟨⟨2, ![E, 3]⟩, a3⟩] h
        (ix2 e (⟨7 + f.val, by omega⟩ : Fin 10)) = a3 (ix2 e f) :=
  concatenate_apply_piece (t := ⟨2, ![E, 10]⟩) 1 [⟨⟨2, ![E, 1]⟩, a0⟩, ⟨⟨2, ![E, 3]⟩, a1⟩, ⟨⟨2, ![E, 3]⟩, a2⟩, ⟨⟨2, ![E, 3]⟩, a3⟩] h
    (ix2 e (⟨7 + f.val, by omega⟩ : Fin 10)) 3 (by show (3 : Nat) < 4; omega) ⟨2, ![E, 3]⟩ a3 rfl rfl 7 rfl (ix2 e f)
    (fun b hb => match b with
      | ⟨0, _⟩ => rfl
      | ⟨1, _⟩ => absurd rfl hb)
    rfl

/-- A block of `G` whole columns from column `off` on: entry `(n, g)` of the block is entry `(n, off + g)` of the array. -/
theorem sliceCols_apply {F G : Nat} (off : Nat) (x : (⟨2, ![N, F]⟩ : Shape).Idx → α)
    (h : (⟨2, ![N, F]⟩ : Shape).Slices ![0, off] ⟨2, ![N, G]⟩) (n : Fin N) (g : Fin G) (hlt : off + g.val < F) :
    extractStridedSlice ⟨2, ![N, G]⟩ ![0, off] x h (ix2 n g) = x (ix2 n (⟨off + g.val, hlt⟩ : Fin F)) :=
  extractStridedSlice_apply ![0, off] x h (ix2 n g) (ix2 n (⟨off + g.val, hlt⟩ : Fin F)) (fun a => match a with
    | ⟨0, _⟩ => by show n.val = 0 + n.val; omega
    | ⟨1, _⟩ => rfl)

/-- A flat array stood up as a one-column array: entry `(n, 0)` of the column is entry `n` of the flat array. -/
theorem spreadEntry_apply (h : (⟨1, ![N]⟩ : Shape).BroadcastsInDim ⟨2, ![N, 1]⟩ ![0])
    (Y : (⟨1, ![N]⟩ : Shape).Idx → α) (n : Fin N) :
    broadcastInDim ⟨2, ![N, 1]⟩ ![0] h Y (ix2 n (0 : Fin 1)) = Y (ix1 n) :=
  broadcastInDim_apply ![0] h Y (ix2 n (0 : Fin 1)) (ix1 n) (fun a => match a with
    | ⟨0, _⟩ => by
      -- the flat array's axis has extent N: it keeps the row (also when N = 1, where the row is 0)
      show n.val = if N = 1 then 0 else n.val
      by_cases hN : N = 1
      · rw [if_pos hN]; have := n.isLt; omega
      · rw [if_neg hN])

end Pieces

/-! ## The two programs' terms -/

section Programs
variable [Cert.KernelIdeal.Facts₀] [Cert.ReferenceIdeal.Facts₀]

/-- Columns 1–3 of the fused scatter are the row scatter of `o2` onto zeros. -/
theorem rowSum_o2 (r : IVec Cert.KernelIdeal.S320000 32) (o2 o3 o4 : FVec Ideal Cert.KernelIdeal.S320000x3 .f32) :
    (extractStridedSlice Cert.KernelIdeal.S20000x3 ![0, 1]
        (Host.scatterAdd (F := Ideal) Cert.KernelIdeal.scatter_S20000x10_S320000x1_S320000x10_1_0_0_1
          (broadcastInDim Cert.KernelIdeal.S20000x10 ![] Cert.KernelIdeal.Facts₀.bcast_S_S20000x10 (constant (F := Ideal) Cert.KernelIdeal.S_ .f32 0x00000000#32))
          (broadcastInDim Cert.KernelIdeal.S320000x1 ![0] Cert.KernelIdeal.Facts₀.bcast_S320000_S320000x1_0 r)
          (concatenate Cert.KernelIdeal.S320000x10 1 [⟨Cert.KernelIdeal.S320000x1, (broadcastInDim Cert.KernelIdeal.S320000x1 ![] Cert.KernelIdeal.Facts₀.bcast_S_S320000x1 (constant (F := Ideal) Cert.KernelIdeal.S_ .f32 0x3F800000#32))⟩, ⟨Cert.KernelIdeal.S320000x3, o2⟩, ⟨Cert.KernelIdeal.S320000x3, o3⟩, ⟨Cert.KernelIdeal.S320000x3, o4⟩] Cert.KernelIdeal.Facts₀.concatenates_S320000x1_S320000x3_S320000x3_S320000x3_S320000x10_d1))
        Cert.KernelIdeal.Facts₀.slices_S20000x10_S20000x3_0_1)
    = (Host.scatterAdd (F := Ideal) Cert.ReferenceIdeal.scatter_S20000x3_S320000x1_S320000x3_1_0_0_1
        (broadcastInDim Cert.ReferenceIdeal.S20000x3 ![] Cert.ReferenceIdeal.Facts₀.bcast_S_S20000x3 (constant (F := Ideal) Cert.ReferenceIdeal.S_ .f32 0x00000000#32))
        (broadcastInDim Cert.ReferenceIdeal.S320000x1 ![0] Cert.ReferenceIdeal.Facts₀.bcast_S320000_S320000x1_0 r) o2) := by
  funext j
  obtain ⟨n, f, rfl⟩ : ∃ (n : Fin 20000) (f : Fin 3), j = ix2 n f := ⟨j 0, j 1, eq_ix2 j⟩
  have hc : 1 + f.val < 10 := by have := f.isLt; omega
  -- both scatters at their index: the zero word's value plus the sum over the edges at n
  have hL := hostScatterAdd_rows (d := Cert.KernelIdeal.scatter_S20000x10_S320000x1_S320000x10_1_0_0_1) Cert.KernelIdeal.Facts₀.scatter_S20000x10_S320000x1_S320000x10_1_0_0_1_wf rfl
    (broadcastInDim Cert.KernelIdeal.S20000x10 ![] Cert.KernelIdeal.Facts₀.bcast_S_S20000x10 (constant (F := Ideal) Cert.KernelIdeal.S_ .f32 0x00000000#32)) (broadcastInDim Cert.KernelIdeal.S320000x1 ![0] Cert.KernelIdeal.Facts₀.bcast_S320000_S320000x1_0 r)
    (concatenate Cert.KernelIdeal.S320000x10 1 [⟨Cert.KernelIdeal.S320000x1, (broadcastInDim Cert.KernelIdeal.S320000x1 ![] Cert.KernelIdeal.Facts₀.bcast_S_S320000x1 (constant (F := Ideal) Cert.KernelIdeal.S_ .f32 0x3F800000#32))⟩, ⟨Cert.KernelIdeal.S320000x3, o2⟩, ⟨Cert.KernelIdeal.S320000x3, o3⟩, ⟨Cert.KernelIdeal.S320000x3, o4⟩] Cert.KernelIdeal.Facts₀.concatenates_S320000x1_S320000x3_S320000x3_S320000x3_S320000x10_d1) n (⟨1 + f.val, hc⟩ : Fin 10)
  have hR := hostScatterAdd_rows (d := Cert.ReferenceIdeal.scatter_S20000x3_S320000x1_S320000x3_1_0_0_1) Cert.ReferenceIdeal.Facts₀.scatter_S20000x3_S320000x1_S320000x3_1_0_0_1_wf rfl
    (broadcastInDim Cert.ReferenceIdeal.S20000x3 ![] Cert.ReferenceIdeal.Facts₀.bcast_S_S20000x3 (constant (F := Ideal) Cert.ReferenceIdeal.S_ .f32 0x00000000#32)) (broadcastInDim Cert.ReferenceIdeal.S320000x1 ![0] Cert.ReferenceIdeal.Facts₀.bcast_S320000_S320000x1_0 r) o2 n f
  refine (sliceCols_apply (N := 20000) (F := 10) (G := 3) 1 _ _ n f hc).trans (hL.trans (Eq.trans ?_ hR.symm))
  -- the same zero, the same edges, and column 1 + f of the payload is column f of o2
  refine congrArg₂ (· + ·) ((splat_apply _ _ _).trans (splat_apply _ _ _).symm) (Finset.sum_congr rfl fun e _ => ?_)
  exact concatCols_apply1 _ o2 o3 o4 _ e f

/-- Columns 4–6 of the fused scatter are the row scatter of `o3` onto zeros. -/
theorem rowSum_o3 (r : IVec Cert.KernelIdeal.S320000 32) (o2 o3 o4 : FVec Ideal Cert.KernelIdeal.S320000x3 .f32) :
    (extractStridedSlice Cert.KernelIdeal.S20000x3 ![0, 4]
        (Host.scatterAdd (F := Ideal) Cert.KernelIdeal.scatter_S20000x10_S320000x1_S320000x10_1_0_0_1
          (broadcastInDim Cert.KernelIdeal.S20000x10 ![] Cert.KernelIdeal.Facts₀.bcast_S_S20000x10 (constant (F := Ideal) Cert.KernelIdeal.S_ .f32 0x00000000#32))
          (broadcastInDim Cert.KernelIdeal.S320000x1 ![0] Cert.KernelIdeal.Facts₀.bcast_S320000_S320000x1_0 r)
          (concatenate Cert.KernelIdeal.S320000x10 1 [⟨Cert.KernelIdeal.S320000x1, (broadcastInDim Cert.KernelIdeal.S320000x1 ![] Cert.KernelIdeal.Facts₀.bcast_S_S320000x1 (constant (F := Ideal) Cert.KernelIdeal.S_ .f32 0x3F800000#32))⟩, ⟨Cert.KernelIdeal.S320000x3, o2⟩, ⟨Cert.KernelIdeal.S320000x3, o3⟩, ⟨Cert.KernelIdeal.S320000x3, o4⟩] Cert.KernelIdeal.Facts₀.concatenates_S320000x1_S320000x3_S320000x3_S320000x3_S320000x10_d1))
        Cert.KernelIdeal.Facts₀.slices_S20000x10_S20000x3_0_4)
    = (Host.scatterAdd (F := Ideal) Cert.ReferenceIdeal.scatter_S20000x3_S320000x1_S320000x3_1_0_0_1
        (broadcastInDim Cert.ReferenceIdeal.S20000x3 ![] Cert.ReferenceIdeal.Facts₀.bcast_S_S20000x3 (constant (F := Ideal) Cert.ReferenceIdeal.S_ .f32 0x00000000#32))
        (broadcastInDim Cert.ReferenceIdeal.S320000x1 ![0] Cert.ReferenceIdeal.Facts₀.bcast_S320000_S320000x1_0 r) o3) := by
  funext j
  obtain ⟨n, f, rfl⟩ : ∃ (n : Fin 20000) (f : Fin 3), j = ix2 n f := ⟨j 0, j 1, eq_ix2 j⟩
  have hc : 4 + f.val < 10 := by have := f.isLt; omega
  -- both scatters at their index: the zero word's value plus the sum over the edges at n
  have hL := hostScatterAdd_rows (d := Cert.KernelIdeal.scatter_S20000x10_S320000x1_S320000x10_1_0_0_1) Cert.KernelIdeal.Facts₀.scatter_S20000x10_S320000x1_S320000x10_1_0_0_1_wf rfl
    (broadcastInDim Cert.KernelIdeal.S20000x10 ![] Cert.KernelIdeal.Facts₀.bcast_S_S20000x10 (constant (F := Ideal) Cert.KernelIdeal.S_ .f32 0x00000000#32)) (broadcastInDim Cert.KernelIdeal.S320000x1 ![0] Cert.KernelIdeal.Facts₀.bcast_S320000_S320000x1_0 r)
    (concatenate Cert.KernelIdeal.S320000x10 1 [⟨Cert.KernelIdeal.S320000x1, (broadcastInDim Cert.KernelIdeal.S320000x1 ![] Cert.KernelIdeal.Facts₀.bcast_S_S320000x1 (constant (F := Ideal) Cert.KernelIdeal.S_ .f32 0x3F800000#32))⟩, ⟨Cert.KernelIdeal.S320000x3, o2⟩, ⟨Cert.KernelIdeal.S320000x3, o3⟩, ⟨Cert.KernelIdeal.S320000x3, o4⟩] Cert.KernelIdeal.Facts₀.concatenates_S320000x1_S320000x3_S320000x3_S320000x3_S320000x10_d1) n (⟨4 + f.val, hc⟩ : Fin 10)
  have hR := hostScatterAdd_rows (d := Cert.ReferenceIdeal.scatter_S20000x3_S320000x1_S320000x3_1_0_0_1) Cert.ReferenceIdeal.Facts₀.scatter_S20000x3_S320000x1_S320000x3_1_0_0_1_wf rfl
    (broadcastInDim Cert.ReferenceIdeal.S20000x3 ![] Cert.ReferenceIdeal.Facts₀.bcast_S_S20000x3 (constant (F := Ideal) Cert.ReferenceIdeal.S_ .f32 0x00000000#32)) (broadcastInDim Cert.ReferenceIdeal.S320000x1 ![0] Cert.ReferenceIdeal.Facts₀.bcast_S320000_S320000x1_0 r) o3 n f
  refine (sliceCols_apply (N := 20000) (F := 10) (G := 3) 4 _ _ n f hc).trans (hL.trans (Eq.trans ?_ hR.symm))
  -- the same zero, the same edges, and column 4 + f of the payload is column f of o3
  refine congrArg₂ (· + ·) ((splat_apply _ _ _).trans (splat_apply _ _ _).symm) (Finset.sum_congr rfl fun e _ => ?_)
  exact concatCols_apply2 _ o2 o3 o4 _ e f

/-- Columns 7–9 of the fused scatter are the row scatter of `o4` onto zeros. -/
theorem rowSum_o4 (r : IVec Cert.KernelIdeal.S320000 32) (o2 o3 o4 : FVec Ideal Cert.KernelIdeal.S320000x3 .f32) :
    (extractStridedSlice Cert.KernelIdeal.S20000x3 ![0, 7]
        (Host.scatterAdd (F := Ideal) Cert.KernelIdeal.scatter_S20000x10_S320000x1_S320000x10_1_0_0_1
          (broadcastInDim Cert.KernelIdeal.S20000x10 ![] Cert.KernelIdeal.Facts₀.bcast_S_S20000x10 (constant (F := Ideal) Cert.KernelIdeal.S_ .f32 0x00000000#32))
          (broadcastInDim Cert.KernelIdeal.S320000x1 ![0] Cert.KernelIdeal.Facts₀.bcast_S320000_S320000x1_0 r)
          (concatenate Cert.KernelIdeal.S320000x10 1 [⟨Cert.KernelIdeal.S320000x1, (broadcastInDim Cert.KernelIdeal.S320000x1 ![] Cert.KernelIdeal.Facts₀.bcast_S_S320000x1 (constant (F := Ideal) Cert.KernelIdeal.S_ .f32 0x3F800000#32))⟩, ⟨Cert.KernelIdeal.S320000x3, o2⟩, ⟨Cert.KernelIdeal.S320000x3, o3⟩, ⟨Cert.KernelIdeal.S320000x3, o4⟩] Cert.KernelIdeal.Facts₀.concatenates_S320000x1_S320000x3_S320000x3_S320000x3_S320000x10_d1))
        Cert.KernelIdeal.Facts₀.slices_S20000x10_S20000x3_0_7)
    = (Host.scatterAdd (F := Ideal) Cert.ReferenceIdeal.scatter_S20000x3_S320000x1_S320000x3_1_0_0_1
        (broadcastInDim Cert.ReferenceIdeal.S20000x3 ![] Cert.ReferenceIdeal.Facts₀.bcast_S_S20000x3 (constant (F := Ideal) Cert.ReferenceIdeal.S_ .f32 0x00000000#32))
        (broadcastInDim Cert.ReferenceIdeal.S320000x1 ![0] Cert.ReferenceIdeal.Facts₀.bcast_S320000_S320000x1_0 r) o4) := by
  funext j
  obtain ⟨n, f, rfl⟩ : ∃ (n : Fin 20000) (f : Fin 3), j = ix2 n f := ⟨j 0, j 1, eq_ix2 j⟩
  have hc : 7 + f.val < 10 := by have := f.isLt; omega
  -- both scatters at their index: the zero word's value plus the sum over the edges at n
  have hL := hostScatterAdd_rows (d := Cert.KernelIdeal.scatter_S20000x10_S320000x1_S320000x10_1_0_0_1) Cert.KernelIdeal.Facts₀.scatter_S20000x10_S320000x1_S320000x10_1_0_0_1_wf rfl
    (broadcastInDim Cert.KernelIdeal.S20000x10 ![] Cert.KernelIdeal.Facts₀.bcast_S_S20000x10 (constant (F := Ideal) Cert.KernelIdeal.S_ .f32 0x00000000#32)) (broadcastInDim Cert.KernelIdeal.S320000x1 ![0] Cert.KernelIdeal.Facts₀.bcast_S320000_S320000x1_0 r)
    (concatenate Cert.KernelIdeal.S320000x10 1 [⟨Cert.KernelIdeal.S320000x1, (broadcastInDim Cert.KernelIdeal.S320000x1 ![] Cert.KernelIdeal.Facts₀.bcast_S_S320000x1 (constant (F := Ideal) Cert.KernelIdeal.S_ .f32 0x3F800000#32))⟩, ⟨Cert.KernelIdeal.S320000x3, o2⟩, ⟨Cert.KernelIdeal.S320000x3, o3⟩, ⟨Cert.KernelIdeal.S320000x3, o4⟩] Cert.KernelIdeal.Facts₀.concatenates_S320000x1_S320000x3_S320000x3_S320000x3_S320000x10_d1) n (⟨7 + f.val, hc⟩ : Fin 10)
  have hR := hostScatterAdd_rows (d := Cert.ReferenceIdeal.scatter_S20000x3_S320000x1_S320000x3_1_0_0_1) Cert.ReferenceIdeal.Facts₀.scatter_S20000x3_S320000x1_S320000x3_1_0_0_1_wf rfl
    (broadcastInDim Cert.ReferenceIdeal.S20000x3 ![] Cert.ReferenceIdeal.Facts₀.bcast_S_S20000x3 (constant (F := Ideal) Cert.ReferenceIdeal.S_ .f32 0x00000000#32)) (broadcastInDim Cert.ReferenceIdeal.S320000x1 ![0] Cert.ReferenceIdeal.Facts₀.bcast_S320000_S320000x1_0 r) o4 n f
  refine (sliceCols_apply (N := 20000) (F := 10) (G := 3) 7 _ _ n f hc).trans (hL.trans (Eq.trans ?_ hR.symm))
  -- the same zero, the same edges, and column 7 + f of the payload is column f of o4
  refine congrArg₂ (· + ·) ((splat_apply _ _ _).trans (splat_apply _ _ _).symm) (Finset.sum_congr rfl fun e _ => ?_)
  exact concatCols_apply3 _ o2 o3 o4 _ e f

/-- The larger of the count and one: the fused scatter's column 0 against one, and the flat scatter of ones against
    one stood up as a column. Both read, at node n, the larger of one and the zero word's value plus one copy of the
    value of the word of one per edge whose index word reads n. -/
theorem count_max_one (r : IVec Cert.KernelIdeal.S320000 32) (o2 o3 o4 : FVec Ideal Cert.KernelIdeal.S320000x3 .f32) :
    maximumf (F := Ideal)
      (extractStridedSlice Cert.KernelIdeal.S20000x1 ![0, 0]
        (Host.scatterAdd (F := Ideal) Cert.KernelIdeal.scatter_S20000x10_S320000x1_S320000x10_1_0_0_1
          (broadcastInDim Cert.KernelIdeal.S20000x10 ![] Cert.KernelIdeal.Facts₀.bcast_S_S20000x10 (constant (F := Ideal) Cert.KernelIdeal.S_ .f32 0x00000000#32))
          (broadcastInDim Cert.KernelIdeal.S320000x1 ![0] Cert.KernelIdeal.Facts₀.bcast_S320000_S320000x1_0 r)
          (concatenate Cert.KernelIdeal.S320000x10 1 [⟨Cert.KernelIdeal.S320000x1, (broadcastInDim Cert.KernelIdeal.S320000x1 ![] Cert.KernelIdeal.Facts₀.bcast_S_S320000x1 (constant (F := Ideal) Cert.KernelIdeal.S_ .f32 0x3F800000#32))⟩, ⟨Cert.KernelIdeal.S320000x3, o2⟩, ⟨Cert.KernelIdeal.S320000x3, o3⟩, ⟨Cert.KernelIdeal.S320000x3, o4⟩] Cert.KernelIdeal.Facts₀.concatenates_S320000x1_S320000x3_S320000x3_S320000x3_S320000x10_d1))
        Cert.KernelIdeal.Facts₀.slices_S20000x10_S20000x1_0_0)
      (broadcastInDim Cert.KernelIdeal.S20000x1 ![] Cert.KernelIdeal.Facts₀.bcast_S_S20000x1 (constant (F := Ideal) Cert.KernelIdeal.S_ .f32 0x3F800000#32))
    = broadcastInDim Cert.ReferenceIdeal.S20000x1 ![0] Cert.ReferenceIdeal.Facts₀.bcast_S20000_S20000x1_0
        (maximumf (F := Ideal)
          (Host.scatterAdd (F := Ideal) Cert.ReferenceIdeal.scatter_S20000_S320000x1_S320000_n_0_0_1
          (broadcastInDim Cert.ReferenceIdeal.S20000 ![] Cert.ReferenceIdeal.Facts₀.bcast_S_S20000 (constant (F := Ideal) Cert.ReferenceIdeal.S_ .f32 0x00000000#32))
          (broadcastInDim Cert.ReferenceIdeal.S320000x1 ![0] Cert.ReferenceIdeal.Facts₀.bcast_S320000_S320000x1_0 r)
          (broadcastInDim Cert.ReferenceIdeal.S320000 ![] Cert.ReferenceIdeal.Facts₀.bcast_S_S320000 (constant (F := Ideal) Cert.ReferenceIdeal.S_ .f32 0x3F800000#32)))
          (broadcastInDim Cert.ReferenceIdeal.S20000 ![] Cert.ReferenceIdeal.Facts₀.bcast_S_S20000 (constant (F := Ideal) Cert.ReferenceIdeal.S_ .f32 0x3F800000#32))) := by
  funext j
  obtain ⟨n, rfl⟩ : ∃ n : Fin 20000, j = ix2 n (0 : Fin 1) :=
    ⟨j 0, (eq_ix2 j).trans (congrArg (ix2 (j 0)) (Fin.ext (Nat.lt_one_iff.mp (idx2_lt1 j))))⟩
  refine Eq.trans ?_ (spreadEntry_apply (N := 20000) _ _ n).symm
  rw [maximumf_apply, maximumf_apply]
  have hc : 0 + (0 : Fin 1).val < 10 := by decide
  have hL := hostScatterAdd_rows (d := Cert.KernelIdeal.scatter_S20000x10_S320000x1_S320000x10_1_0_0_1) Cert.KernelIdeal.Facts₀.scatter_S20000x10_S320000x1_S320000x10_1_0_0_1_wf rfl
    (broadcastInDim Cert.KernelIdeal.S20000x10 ![] Cert.KernelIdeal.Facts₀.bcast_S_S20000x10 (constant (F := Ideal) Cert.KernelIdeal.S_ .f32 0x00000000#32)) (broadcastInDim Cert.KernelIdeal.S320000x1 ![0] Cert.KernelIdeal.Facts₀.bcast_S320000_S320000x1_0 r)
    (concatenate Cert.KernelIdeal.S320000x10 1 [⟨Cert.KernelIdeal.S320000x1, (broadcastInDim Cert.KernelIdeal.S320000x1 ![] Cert.KernelIdeal.Facts₀.bcast_S_S320000x1 (constant (F := Ideal) Cert.KernelIdeal.S_ .f32 0x3F800000#32))⟩, ⟨Cert.KernelIdeal.S320000x3, o2⟩, ⟨Cert.KernelIdeal.S320000x3, o3⟩, ⟨Cert.KernelIdeal.S320000x3, o4⟩] Cert.KernelIdeal.Facts₀.concatenates_S320000x1_S320000x3_S320000x3_S320000x3_S320000x10_d1) n (⟨0 + (0 : Fin 1).val, hc⟩ : Fin 10)
  have hR := scatterSplatOntoSplat_entries (d := Cert.ReferenceIdeal.scatter_S20000_S320000x1_S320000_n_0_0_1) Cert.ReferenceIdeal.Facts₀.scatter_S20000_S320000x1_S320000_n_0_0_1_wf rfl
    Cert.ReferenceIdeal.Facts₀.bcast_S_S20000 0x00000000#32 Cert.ReferenceIdeal.Facts₀.bcast_S_S320000 0x3F800000#32 (broadcastInDim Cert.ReferenceIdeal.S320000x1 ![0] Cert.ReferenceIdeal.Facts₀.bcast_S320000_S320000x1_0 r) n
  refine congrArg₂ max ?_ ((splat_apply _ _ _).trans (splat_apply _ _ _).symm)
  refine (sliceCols_apply (N := 20000) (F := 10) (G := 1) 0 _ _ n (0 : Fin 1) hc).trans (hL.trans (Eq.trans ?_ hR.symm))
  -- the same zero, the same edges, and column 0 of the payload is the word of one
  refine congrArg₂ (· + ·) (splat_apply _ _ _) (Finset.sum_congr rfl fun e _ => ?_)
  exact (concatCols_apply0 _ o2 o3 o4 _ e).trans (splat_apply _ _ _)

end Programs

end Cert.NodeSums

end
-- ==== Proof.NodeBridge.lean ====
/-
  The node sums made by one scatter of a wide payload, named, and set against the node sums made one by one.

  One program adds the rows of an `E × 10` payload — a column of ones beside three `E × 3` arrays of edge rows `o2`,
  `o3`, `o4` — onto an `N × 10` array of zeros with a single accumulating row scatter (`fusedSum`), reads the number of
  edges at each node off column `0`, takes the larger of that number and one (`fusedDen`), and reads the three sums of
  rows off the column blocks `1–3`, `4–6`, `7–9`. The other program makes the count by a flat scatter of ones and each sum
  by its own row scatter (`countDen`, `rowSum3`). A row scatter leaves every column to itself, so the column blocks of the
  one scatter are the three row scatters and its column `0` counts the same edges (`sum_o2`, `sum_o3`, `sum_o4`, `den`).
  Whatever is then computed from the sums and the count alone — the averages made unit, stacked, and their inner
  products along the edges — is therefore the same in both programs (`nprod_fused`).
-/
import proofs.«110032_j62122406969661_2_alg».proof.Proof.Gen.KernelIdeal
import proofs.«110032_j62122406969661_2_alg».proof.Proof.Gen.ReferenceIdeal
import proofs.«110032_j62122406969661_2_alg».proof.Proof.HostTerms
import proofs.«110032_j62122406969661_2_alg».proof.Proof.NodeSums

noncomputable section

namespace Cert.NodeBridge

open Idealize.ShloMosaic

/-- The one scatter: the rows of `[ones | o2 | o3 | o4]` (an `E × 10` payload) added onto an `N × 10` array of zeros at
    the nodes the index words `r` name. -/
def fusedSum (r : IVec Cert.KernelIdeal.S320000 32) (o2 o3 o4 : FVec Ideal Cert.KernelIdeal.S320000x3 .f32) : FVec Ideal Cert.KernelIdeal.S20000x10 .f32 :=
  Host.scatterAdd (F := Ideal) Cert.KernelIdeal.scatter_S20000x10_S320000x1_S320000x10_1_0_0_1
    (broadcastInDim Cert.KernelIdeal.S20000x10 ![] Cert.KernelIdeal.Facts₀.bcast_S_S20000x10 (constant (F := Ideal) Cert.KernelIdeal.S_ .f32 0x00000000#32))
    (broadcastInDim Cert.KernelIdeal.S320000x1 ![0] Cert.KernelIdeal.Facts₀.bcast_S320000_S320000x1_0 r)
    (concatenate Cert.KernelIdeal.S320000x10 1 [⟨Cert.KernelIdeal.S320000x1, (broadcastInDim Cert.KernelIdeal.S320000x1 ![] Cert.KernelIdeal.Facts₀.bcast_S_S320000x1 (constant (F := Ideal) Cert.KernelIdeal.S_ .f32 0x3F800000#32))⟩, ⟨Cert.KernelIdeal.S320000x3, o2⟩, ⟨Cert.KernelIdeal.S320000x3, o3⟩, ⟨Cert.KernelIdeal.S320000x3, o4⟩] Cert.KernelIdeal.Facts₀.concatenates_S320000x1_S320000x3_S320000x3_S320000x3_S320000x10_d1)

/-- The count column of a fused sum `S`, at least one: column `0` of `S` against the word of one, entry by entry. -/
def fusedDen (S : FVec Ideal Cert.KernelIdeal.S20000x10 .f32) : FVec Ideal Cert.KernelIdeal.S20000x1 .f32 :=
  maximumf (F := Ideal)
    (extractStridedSlice Cert.KernelIdeal.S20000x1 ![0, 0] S Cert.KernelIdeal.Facts₀.slices_S20000x10_S20000x1_0_0)
    (broadcastInDim Cert.KernelIdeal.S20000x1 ![] Cert.KernelIdeal.Facts₀.bcast_S_S20000x1 (constant (F := Ideal) Cert.KernelIdeal.S_ .f32 0x3F800000#32))

/-- Columns 1–3 of the fused sum are the sum of the rows of `o2` at each node. -/
theorem sum_o2 (r : IVec Cert.KernelIdeal.S320000 32) (o2 o3 o4 : FVec Ideal Cert.KernelIdeal.S320000x3 .f32) :
    (extractStridedSlice Cert.KernelIdeal.S20000x3 ![0, 1] (fusedSum r o2 o3 o4) Cert.KernelIdeal.Facts₀.slices_S20000x10_S20000x3_0_1) = Cert.HostTerms.rowSum3 r o2 :=
  Cert.NodeSums.rowSum_o2 r o2 o3 o4

/-- Columns 4–6 of the fused sum are the sum of the rows of `o3` at each node. -/
theorem sum_o3 (r : IVec Cert.KernelIdeal.S320000 32) (o2 o3 o4 : FVec Ideal Cert.KernelIdeal.S320000x3 .f32) :
    (extractStridedSlice Cert.KernelIdeal.S20000x3 ![0, 4] (fusedSum r o2 o3 o4) Cert.KernelIdeal.Facts₀.slices_S20000x10_S20000x3_0_4) = Cert.HostTerms.rowSum3 r o3 :=
  Cert.NodeSums.rowSum_o3 r o2 o3 o4

/-- Columns 7–9 of the fused sum are the sum of the rows of `o4` at each node. -/
theorem sum_o4 (r : IVec Cert.KernelIdeal.S320000 32) (o2 o3 o4 : FVec Ideal Cert.KernelIdeal.S320000x3 .f32) :
    (extractStridedSlice Cert.KernelIdeal.S20000x3 ![0, 7] (fusedSum r o2 o3 o4) Cert.KernelIdeal.Facts₀.slices_S20000x10_S20000x3_0_7) = Cert.HostTerms.rowSum3 r o4 :=
  Cert.NodeSums.rowSum_o4 r o2 o3 o4

/-- The fused sum's count column, at least one, is the count the flat scatter of ones makes, at least one. -/
theorem den (r : IVec Cert.KernelIdeal.S320000 32) (o2 o3 o4 : FVec Ideal Cert.KernelIdeal.S320000x3 .f32) :
    fusedDen (fusedSum r o2 o3 o4) = Cert.HostTerms.countDen r :=
  Cert.NodeSums.count_max_one r o2 o3 o4

/-- The inner products, along the edges `(r', c')`, of the stacked unit averages: computed from the column blocks and
    the count column of the fused sum, and computed from the three row sums and the flat count. -/
theorem nprod_fused (r : IVec Cert.KernelIdeal.S320000 32) (o2 o3 o4 : FVec Ideal Cert.KernelIdeal.S320000x3 .f32)
    (r' c' : IVec Cert.KernelIdeal.S320000 32) :
    Cert.HostTerms.nprod (Cert.HostTerms.nvecs
        (Cert.HostTerms.nforce (extractStridedSlice Cert.KernelIdeal.S20000x3 ![0, 1] (fusedSum r o2 o3 o4) Cert.KernelIdeal.Facts₀.slices_S20000x10_S20000x3_0_1) (fusedDen (fusedSum r o2 o3 o4)))
        (Cert.HostTerms.nforce (extractStridedSlice Cert.KernelIdeal.S20000x3 ![0, 4] (fusedSum r o2 o3 o4) Cert.KernelIdeal.Facts₀.slices_S20000x10_S20000x3_0_4) (fusedDen (fusedSum r o2 o3 o4)))
        (Cert.HostTerms.nforce (extractStridedSlice Cert.KernelIdeal.S20000x3 ![0, 7] (fusedSum r o2 o3 o4) Cert.KernelIdeal.Facts₀.slices_S20000x10_S20000x3_0_7) (fusedDen (fusedSum r o2 o3 o4)))) r' c'
    = Cert.HostTerms.nprod (Cert.HostTerms.nvecs
        (Cert.HostTerms.nforce (Cert.HostTerms.rowSum3 r o2) (Cert.HostTerms.countDen r))
        (Cert.HostTerms.nforce (Cert.HostTerms.rowSum3 r o3) (Cert.HostTerms.countDen r))
        (Cert.HostTerms.nforce (Cert.HostTerms.rowSum3 r o4) (Cert.HostTerms.countDen r))) r' c' := by
  rw [sum_o2 r o2 o3 o4, sum_o3 r o2 o3 o4, sum_o4 r o2 o3 o4, den r o2 o3 o4]

end Cert.NodeBridge

end
-- ==== Proof.KerPosTerm.lean ====
/-
  The kernel program's position input, as named terms, at the ideal float values.

  When the region is entered, the array `main_v107` holds, per edge, three inner products beside the squared length
  of the edge vector. The host operations before the region make the three per-node sums of weighted edge vectors and
  the per-node edge count by ONE accumulating scatter of a ten-column payload, and read them back off its column
  blocks; everything after that — the sums over the count made unit, stacked, gathered at the two ends of each edge
  and multiplied — is the same chain of operations as in the reference program. So the array is the named terms of
  the reference's chain applied to the column blocks and the count column of the fused sum. The two sides are read
  off by one rewriting pass in which the named terms are unfolded too, so that they meet as the same term.
-/
import proofs.«110032_j62122406969661_2_alg».proof.Proof.KFrameDefsIdeal
import proofs.«110032_j62122406969661_2_alg».proof.Proof.HostTerms
import proofs.«110032_j62122406969661_2_alg».proof.Proof.NodeBridge
import Idealize.ShloMosaic.Lib.StableHlo.Run
import Idealize.ShloMosaic.PureOps.Ideal

set_option maxRecDepth 16384

noncomputable section

namespace Cert.KerPosTerm

open Cert.KernelIdeal Cert.KernelIdeal.Gen Cert.KernelIdeal.HandFrame
open Idealize.ShloMosaic Idealize.ShloMosaic.TcCoe Idealize.ShloMosaic.StableHlo
open Idealize.SL Idealize.SL.Sem

/-! ## The concatenations, closed

A concatenation's shape evidence depends on its list of operands, so a rewriting pass does not enter the list. The
three concatenations on the way to `main_v107` are therefore named, as functions of their operands. -/

section Cat
variable {F : FTy → Type} [FloatOps F]

/-- A column beside three 3-column blocks: the ten-column payload of the one scatter. -/
def cat10 (a : (⟨S320000x1, .f32⟩ : BufTy).Contents (Elt F)) (b c d : (⟨S320000x3, .f32⟩ : BufTy).Contents (Elt F)) : (⟨S320000x10, .f32⟩ : BufTy).Contents (Elt F) :=
  concatenate S320000x10 1 [⟨S320000x1, a⟩, ⟨S320000x3, b⟩, ⟨S320000x3, c⟩, ⟨S320000x3, d⟩] concatenates_S320000x1_S320000x3_S320000x3_S320000x3_S320000x10_d1
/-- Three rows stacked into a 3×3 block per node. -/
def cat3x3 (a b c : (⟨S20000x1x3, .f32⟩ : BufTy).Contents (Elt F)) : (⟨S20000x3x3, .f32⟩ : BufTy).Contents (Elt F) :=
  concatenate S20000x3x3 1 [⟨S20000x1x3, a⟩, ⟨S20000x1x3, b⟩, ⟨S20000x1x3, c⟩] concatenates_S20000x1x3_S20000x1x3_S20000x1x3_S20000x3x3_d1
/-- A 3-column block beside a column. -/
def cat4 (a : (⟨S320000x3, .f32⟩ : BufTy).Contents (Elt F)) (b : (⟨S320000x1, .f32⟩ : BufTy).Contents (Elt F)) : (⟨S320000x4, .f32⟩ : BufTy).Contents (Elt F) :=
  concatenate S320000x4 1 [⟨S320000x3, a⟩, ⟨S320000x1, b⟩] concatenates_S320000x3_S320000x1_S320000x4_d1

theorem cat_v40' (hxs hy) (V : Valuation τ sig (Elt F)) :
    (StableHlo.nary (τ := τ) (Val := Elt F) ![main_v39, main_v30, main_v34, main_v38] main_v40 (fun u => concatenate S320000x10 1 [⟨S320000x1, u 0⟩, ⟨S320000x3, u 1⟩, ⟨S320000x3, u 2⟩, ⟨S320000x3, u 3⟩] concatenates_S320000x1_S320000x3_S320000x3_S320000x3_S320000x10_d1) hxs hy).result V (no_index (Proc.devRef .tc main_v40))
      = cat10 (V (Proc.devRef .tc main_v39)) (V (Proc.devRef .tc main_v30)) (V (Proc.devRef .tc main_v34)) (V (Proc.devRef .tc main_v38)) := by
  rw [nary_result]; rfl
theorem cat_v74' (hxs hy) (V : Valuation τ sig (Elt F)) :
    (StableHlo.nary (τ := τ) (Val := Elt F) ![main_v71, main_v72, main_v73] main_v74 (fun u => concatenate S20000x3x3 1 [⟨S20000x1x3, u 0⟩, ⟨S20000x1x3, u 1⟩, ⟨S20000x1x3, u 2⟩] concatenates_S20000x1x3_S20000x1x3_S20000x1x3_S20000x3x3_d1) hxs hy).result V (no_index (Proc.devRef .tc main_v74))
      = cat3x3 (V (Proc.devRef .tc main_v71)) (V (Proc.devRef .tc main_v72)) (V (Proc.devRef .tc main_v73)) := by
  rw [nary_result]; rfl
theorem cat_v107' (ha hb hy) (V : Valuation τ sig (Elt F)) :
    (StableHlo.binary (τ := τ) main_v90 main_v21 main_v107 ((fun a b => concatenate S320000x4 1 [⟨S320000x3, a⟩, ⟨S320000x1, b⟩] concatenates_S320000x3_S320000x1_S320000x4_d1) : (⟨S320000x3, .f32⟩ : BufTy).Contents (Elt F) → (⟨S320000x1, .f32⟩ : BufTy).Contents (Elt F) → (⟨S320000x4, .f32⟩ : BufTy).Contents (Elt F)) ha hb hy).result V (no_index (Proc.devRef .tc main_v107))
      = cat4 (V (Proc.devRef .tc main_v90)) (V (Proc.devRef .tc main_v21)) := by
  rw [binary_result]; rfl

/-- The reshape into `main_v1`, its result in the form `rowWords` has. -/
theorem reshape_v1' (hx hy) (V : Valuation τ sig (Elt F)) :
    (StableHlo.reshape (τ := τ) (Val := Elt F) main_v0 main_v1 rfl shapeCasts_S1x320000_S320000 hx hy).result V (no_index (Proc.devRef .tc main_v1))
      = shapeCast S320000 (V (Proc.devRef .tc main_v0)) shapeCasts_S1x320000_S320000 := by
  rw [reshape_result]; rfl
/-- The reshape into `main_v3`, likewise. -/
theorem reshape_v3' (hx hy) (V : Valuation τ sig (Elt F)) :
    (StableHlo.reshape (τ := τ) (Val := Elt F) main_v2 main_v3 rfl shapeCasts_S1x320000_S320000 hx hy).result V (no_index (Proc.devRef .tc main_v3))
      = shapeCast S320000 (V (Proc.devRef .tc main_v2)) shapeCasts_S1x320000_S320000 := by
  rw [reshape_result]; rfl

end Cat

/-! ## The two programs' gather records are the same records -/

theorem gather13_eq : Cert.KernelIdeal.gather_S20000x3_S320000x1_S320000x3_1_0_n_n_0_1_13
    = Cert.ReferenceIdeal.gather_S20000x3_S320000x1_S320000x3_1_0_n_n_0_1_13 := rfl
theorem gather133_eq : Cert.KernelIdeal.gather_S20000x3x3_S320000x1_S320000x3x3_12_0_n_n_0_1_133
    = Cert.ReferenceIdeal.gather_S20000x3x3_S320000x1_S320000x3x3_12_0_n_n_0_1_133 := rfl

/-! ## The named terms that end in a concatenation, through the closed ones -/

theorem nvecs_cat (n2 n3 n4 : Cert.HostTerms.Fv S20000x3) :
    Cert.HostTerms.nvecs n2 n3 n4 = cat3x3 (F := Ideal)
      (broadcastInDim S20000x1x3 ![0, 2] bcast_S20000x3_S20000x1x3_0_2 n2)
      (broadcastInDim S20000x1x3 ![0, 2] bcast_S20000x3_S20000x1x3_0_2 n3)
      (broadcastInDim S20000x1x3 ![0, 2] bcast_S20000x3_S20000x1x3_0_2 n4) := rfl

theorem fusedSum_cat (r : IVec S320000 32) (o2 o3 o4 : FVec Ideal S320000x3 .f32) :
    Cert.NodeBridge.fusedSum r o2 o3 o4
      = Host.scatterAdd (F := Ideal) scatter_S20000x10_S320000x1_S320000x10_1_0_0_1
          (broadcastInDim S20000x10 ![] bcast_S_S20000x10 (constant (F := Ideal) S_ .f32 0x00000000#32))
          (broadcastInDim S320000x1 ![0] bcast_S320000_S320000x1_0 r)
          (cat10 (F := Ideal) (broadcastInDim S320000x1 ![] bcast_S_S320000x1 (constant (F := Ideal) S_ .f32 0x3F800000#32)) o2 o3 o4) := rfl

/-- The region-entry contents as the fold over the host operations listed one by one. -/
macro "open_hostops" : tactic =>
  `(tactic| (dsimp only [V]; simp only [hostOps0, hostOps0_1, hostOps0_2, hostOps0_3, hostOps0_4, hostOps0_5, hostOps0_6, hostOps0_7, hostOps0_8, List.flatten_cons, List.flatten_nil, List.append_nil, List.cons_append, List.nil_append]))

/-- The fold at one buffer against a composition of the named terms, by one rewriting pass: each operation's result
    at its own buffer is its function's value, at any other buffer what was there; the named terms are unfolded, the
    typed references' transports (along `rfl`) removed, the kernel program's gather records read as the reference's. The
    reshapes and the concatenations are rewritten first, by their own lemmas. -/
macro "ker_terms_simp" : tactic =>
  `(tactic| (simp (disch := decide) only [after_cons, after_nil,
      ↓reshape_v1', ↓reshape_v3', ↓cat_v40', ↓cat_v74', ↓cat_v107',
      nullary_result', unary_result', binary_result', ternary_result',
      nullary_result_ne', unary_result_ne', binary_result_ne', ternary_result_ne', reshape_result_ne', nary_result_ne',
      cast_eq, gather13_eq, gather133_eq, nvecs_cat, fusedSum_cat,
      Cert.HostTerms.rowWords, Cert.HostTerms.colWords, Cert.HostTerms.wrapIdx, Cert.HostTerms.coordDiff,
      Cert.HostTerms.sqNorm1, Cert.HostTerms.dnorm, Cert.HostTerms.ordered, Cert.HostTerms.nodeNorm,
      Cert.HostTerms.nodeUnit, Cert.HostTerms.nforce, Cert.HostTerms.nprod, Cert.NodeBridge.fusedDen]))

variable (m : (ℓ : Loc nD τ sig) → Buf (Elt Ideal) ℓ) (c : Dev nD)

/-- Device `c`'s buffers as launched. -/
local notation "W" => (fun (b : DevRef τ sig) => m (c, b))

set_option maxHeartbeats 4000000 in
/-- `main_v107` at the region's entry, its two blocks through the closed concatenation. -/
theorem v107_W : @Eq (Cert.HostTerms.Fv S320000x4) (V m c main_v107)
    (cat4 (F := Ideal)
      (Cert.HostTerms.nprod (Cert.HostTerms.nvecs (Cert.HostTerms.nforce (extractStridedSlice Cert.KernelIdeal.S20000x3 ![0, 1] (Cert.NodeBridge.fusedSum (Cert.HostTerms.rowWords (W (main_arg2 : DevRef τ sig))) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0400000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0800000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0A00000#32)) Cert.KernelIdeal.Facts₀.slices_S20000x10_S20000x3_0_1) (Cert.NodeBridge.fusedDen (Cert.NodeBridge.fusedSum (Cert.HostTerms.rowWords (W (main_arg2 : DevRef τ sig))) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0400000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0800000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0A00000#32)))) (Cert.HostTerms.nforce (extractStridedSlice Cert.KernelIdeal.S20000x3 ![0, 4] (Cert.NodeBridge.fusedSum (Cert.HostTerms.rowWords (W (main_arg2 : DevRef τ sig))) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0400000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0800000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0A00000#32)) Cert.KernelIdeal.Facts₀.slices_S20000x10_S20000x3_0_4) (Cert.NodeBridge.fusedDen (Cert.NodeBridge.fusedSum (Cert.HostTerms.rowWords (W (main_arg2 : DevRef τ sig))) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0400000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0800000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0A00000#32)))) (Cert.HostTerms.nforce (extractStridedSlice Cert.KernelIdeal.S20000x3 ![0, 7] (Cert.NodeBridge.fusedSum (Cert.HostTerms.rowWords (W (main_arg2 : DevRef τ sig))) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0400000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0800000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0A00000#32)) Cert.KernelIdeal.Facts₀.slices_S20000x10_S20000x3_0_7) (Cert.NodeBridge.fusedDen (Cert.NodeBridge.fusedSum (Cert.HostTerms.rowWords (W (main_arg2 : DevRef τ sig))) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0400000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0800000#32) (Cert.HostTerms.ordered (Cert.HostTerms.coordDiff (W (main_arg1 : DevRef τ sig)) (Cert.HostTerms.rowWords (W (main_arg2 : DevRef τ sig))) (Cert.HostTerms.colWords (W (main_arg2 : DevRef τ sig)))) 0xC0A00000#32))))) (Cert.HostTerms.rowWords (W (main_arg2 : DevRef τ sig))) (Cert.HostTerms.colWords (W (main_arg2 : DevRef τ sig))))
      (Cert.HostTerms.sqNorm1 (Cert.HostTerms.coordDiff (W (main_arg1 : DevRef τ sig)) (Cert.HostTerms.rowWords (W (main_arg2 : DevRef τ sig))) (Cert.HostTerms.colWords (W (main_arg2 : DevRef τ sig)))))) := by
  open_hostops
  ker_terms_simp

/-- `main_v107` at the region's entry: per edge, the three inner products of the two end nodes' stacked unit averages —
    made from the column blocks and the count column of the fused sum — beside the squared length of the edge vector. -/
theorem V_main_v107 : @Eq (Cert.HostTerms.Fv S320000x4) (V m c main_v107)
    (concatenate Cert.KernelIdeal.S320000x4 1
      [⟨Cert.KernelIdeal.S320000x3, Cert.HostTerms.nprod (Cert.HostTerms.nvecs (Cert.HostTerms.nforce (extractStridedSlice Cert.KernelIdeal.S20000x3 ![0, 1] (Cert.NodeBridge.fusedSum (Cert.HostTerms.rowWords (m ((c : Thread nD τ).loc main_arg2))) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0400000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0800000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0A00000#32)) Cert.KernelIdeal.Facts₀.slices_S20000x10_S20000x3_0_1) (Cert.NodeBridge.fusedDen (Cert.NodeBridge.fusedSum (Cert.HostTerms.rowWords (m ((c : Thread nD τ).loc main_arg2))) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0400000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0800000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0A00000#32)))) (Cert.HostTerms.nforce (extractStridedSlice Cert.KernelIdeal.S20000x3 ![0, 4] (Cert.NodeBridge.fusedSum (Cert.HostTerms.rowWords (m ((c : Thread nD τ).loc main_arg2))) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0400000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0800000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0A00000#32)) Cert.KernelIdeal.Facts₀.slices_S20000x10_S20000x3_0_4) (Cert.NodeBridge.fusedDen (Cert.NodeBridge.fusedSum (Cert.HostTerms.rowWords (m ((c : Thread nD τ).loc main_arg2))) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0400000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0800000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0A00000#32)))) (Cert.HostTerms.nforce (extractStridedSlice Cert.KernelIdeal.S20000x3 ![0, 7] (Cert.NodeBridge.fusedSum (Cert.HostTerms.rowWords (m ((c : Thread nD τ).loc main_arg2))) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0400000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0800000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0A00000#32)) Cert.KernelIdeal.Facts₀.slices_S20000x10_S20000x3_0_7) (Cert.NodeBridge.fusedDen (Cert.NodeBridge.fusedSum (Cert.HostTerms.rowWords (m ((c : Thread nD τ).loc main_arg2))) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0400000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0800000#32) (Cert.HostTerms.ordered (Cert.HostTerms.coordDiff (m ((c : Thread nD τ).loc main_arg1)) (Cert.HostTerms.rowWords (m ((c : Thread nD τ).loc main_arg2))) (Cert.HostTerms.colWords (m ((c : Thread nD τ).loc main_arg2)))) 0xC0A00000#32))))) (Cert.HostTerms.rowWords (m ((c : Thread nD τ).loc main_arg2))) (Cert.HostTerms.colWords (m ((c : Thread nD τ).loc main_arg2)))⟩,
       ⟨Cert.KernelIdeal.S320000x1, Cert.HostTerms.sqNorm1 (Cert.HostTerms.coordDiff (m ((c : Thread nD τ).loc main_arg1)) (Cert.HostTerms.rowWords (m ((c : Thread nD τ).loc main_arg2))) (Cert.HostTerms.colWords (m ((c : Thread nD τ).loc main_arg2))))⟩]
      Cert.KernelIdeal.Facts₀.concatenates_S320000x3_S320000x1_S320000x4_d1) :=
  v107_W m c

end Cert.KerPosTerm

end
-- ==== Proof.RefRun.lean ====
/-
  The run of the reference program's @main.

  @main is a straight line of 227 host operations: 180 of its own and, at each of its seven calls, the callee's
  operations over that call's buffer record — @norm and @norm_0 five each (the square, the zero, the sum along the
  last axis, its broadcast to a column, the square root), @silu nine (the negation, its exponential, the one and its
  broadcast, the sum, the one and its broadcast again, the quotient, the product with the argument). In program order
  they are the list `ops`. @main is `seq ops` by computation: sequencing of programs computes, so a callee's body
  stands where it is called and a last step followed by the empty return is that step. Each operation touches
  TensorCore buffers only, and the signature scopes no buffer and no semaphore; hence every weakly fair execution of
  @main terminates with every TensorCore buffer at the fold `after ops` of the operations' results over the launch
  contents (`run_main`).
-/
import proofs.«110032_j62122406969661_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 227 operations in program order, each call's operations at its call site over that call's record:
    `main_call0` (@norm of the edge vectors `main_v18`), `main_call1` … `main_call3` (@norm_0 of `main_v47`, `main_v61`,
    `main_v75`: per node, the mean over its edges of the edge vector scaled by the −3rd, −4th, −5th power of its
    length), `main_call4` … `main_call6` (@silu of the three affine images `main_v120`, `main_v129`, `main_v138`). -/
abbrev ops : List (HloOp τ sig (Elt F)) :=
  [ StableHlo.nullary main_cst (fun i => FloatOps.ofBits .f32 (lit0 (S15.rowMajor i))),
    StableHlo.unary main_arg2 main_v0 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v0 main_v1 rfl shapeCasts_S1x320000_S320000,
    StableHlo.unary main_arg2 main_v2 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v2 main_v3 rfl shapeCasts_S1x320000_S320000,
    StableHlo.nullary main_c (constantI S_ 32 0#32),
    StableHlo.unary main_c main_v4 (broadcastInDim S320000 ![] bcast_S_S320000 : (⟨S_, .i32⟩ : BufTy).Contents (Elt F) → (⟨S320000, .i32⟩ : BufTy).Contents (Elt F)),
    StableHlo.binary main_v1 main_v4 main_v5 (cmpi .slt : (⟨S320000, .i32⟩ : BufTy).Contents (Elt F) → (⟨S320000, .i32⟩ : BufTy).Contents (Elt F) → (⟨S320000, .i1⟩ : BufTy).Contents (Elt F)),
    StableHlo.nullary main_c_0 (constantI S_ 32 20000#32),
    StableHlo.unary main_c_0 main_v6 (broadcastInDim S320000 ![] bcast_S_S320000 : (⟨S_, .i32⟩ : BufTy).Contents (Elt F) → (⟨S320000, .i32⟩ : BufTy).Contents (Elt F)),
    StableHlo.binary main_v1 main_v6 main_v7 (addi : (⟨S320000, .i32⟩ : BufTy).Contents (Elt F) → (⟨S320000, .i32⟩ : BufTy).Contents (Elt F) → (⟨S320000, .i32⟩ : BufTy).Contents (Elt F)),
    StableHlo.ternary main_v5 main_v7 main_v1 main_v8 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v8 main_v9 (broadcastInDim S320000x1 ![0] bcast_S320000_S320000x1_0 : (⟨S320000, .i32⟩ : BufTy).Contents (Elt F) → (⟨S320000x1, .i32⟩ : BufTy).Contents (Elt F)),
    StableHlo.binary main_arg1 main_v9 main_v10 ((fun x i => Host.gather gather_S20000x3_S320000x1_S320000x3_1_0_n_n_0_1_13 x i) : (⟨S20000x3, .f32⟩ : BufTy).Contents (Elt F) → (⟨S320000x1, .i32⟩ : BufTy).Contents (Elt F) → (⟨S320000x3, .f32⟩ : BufTy).Contents (Elt F)),
    StableHlo.nullary main_c_1 (constantI S_ 32 0#32),
    StableHlo.unary main_c_1 main_v11 (broadcastInDim S320000 ![] bcast_S_S320000 : (⟨S_, .i32⟩ : BufTy).Contents (Elt F) → (⟨S320000, .i32⟩ : BufTy).Contents (Elt F)),
    StableHlo.binary main_v3 main_v11 main_v12 (cmpi .slt : (⟨S320000, .i32⟩ : BufTy).Contents (Elt F) → (⟨S320000, .i32⟩ : BufTy).Contents (Elt F) → (⟨S320000, .i1⟩ : BufTy).Contents (Elt F)),
    StableHlo.nullary main_c_2 (constantI S_ 32 20000#32),
    StableHlo.unary main_c_2 main_v13 (broadcastInDim S320000 ![] bcast_S_S320000 : (⟨S_, .i32⟩ : BufTy).Contents (Elt F) → (⟨S320000, .i32⟩ : BufTy).Contents (Elt F)),
    StableHlo.binary main_v3 main_v13 main_v14 (addi : (⟨S320000, .i32⟩ : BufTy).Contents (Elt F) → (⟨S320000, .i32⟩ : BufTy).Contents (Elt F) → (⟨S320000, .i32⟩ : BufTy).Contents (Elt F)),
    StableHlo.ternary main_v12 main_v14 main_v3 main_v15 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v15 main_v16 (broadcastInDim S320000x1 ![0] bcast_S320000_S320000x1_0 : (⟨S320000, .i32⟩ : BufTy).Contents (Elt F) → (⟨S320000x1, .i32⟩ : BufTy).Contents (Elt F)),
    StableHlo.binary main_arg1 main_v16 main_v17 ((fun x i => Host.gather gather_S20000x3_S320000x1_S320000x3_1_0_n_n_0_1_13 x i) : (⟨S20000x3, .f32⟩ : BufTy).Contents (Elt F) → (⟨S320000x1, .i32⟩ : BufTy).Contents (Elt F) → (⟨S320000x3, .f32⟩ : BufTy).Contents (Elt F)),
    StableHlo.binary main_v10 main_v17 main_v18 (subf : (⟨S320000x3, .f32⟩ : BufTy).Contents (Elt F) → (⟨S320000x3, .f32⟩ : BufTy).Contents (Elt F) → (⟨S320000x3, .f32⟩ : BufTy).Contents (Elt F)),
    StableHlo.binary main_v18 main_v18 main_v19 (mulf : (⟨S320000x3, .f32⟩ : BufTy).Contents (Elt F) → (⟨S320000x3, .f32⟩ : BufTy).Contents (Elt F) → (⟨S320000x3, .f32⟩ : BufTy).Contents (Elt F)),
    StableHlo.nullary main_cst_3 (constant S_ .f32 0x00000000#32),
    StableHlo.binary main_v19 main_cst_3 main_v20 ((fun x v => Host.reduceAdd x v reducesTo_S320000x3_S320000_d1 h_S_) : (⟨S320000x3, .f32⟩ : BufTy).Contents (Elt F) → (⟨S_, .f32⟩ : BufTy).Contents (Elt F) → (⟨S320000, .f32⟩ : BufTy).Contents (Elt F)),
    StableHlo.unary main_v20 main_v21 (broadcastInDim S320000x1 ![0] bcast_S320000_S320000x1_0 : (⟨S320000, .f32⟩ : BufTy).Contents (Elt F) → (⟨S320000x1, .f32⟩ : BufTy).Contents (Elt F)),
    StableHlo.unary main_cst main_v22 (broadcastInDim S1x15 ![1] bcast_S15_S1x15_1 : (⟨S15, .f32⟩ : BufTy).Contents (Elt F) → (⟨S1x15, .f32⟩ : BufTy).Contents (Elt F)),
    StableHlo.unary main_v21 main_v23 (broadcastInDim S320000x15 ![0, 1] bcast_S320000x1_S320000x15_0_1 : (⟨S320000x1, .f32⟩ : BufTy).Contents (Elt F) → (⟨S320000x15, .f32⟩ : BufTy).Contents (Elt F)),
    StableHlo.unary main_v22 main_v24 (broadcastInDim S320000x15 ![0, 1] bcast_S1x15_S320000x15_0_1 : (⟨S1x15, .f32⟩ : BufTy).Contents (Elt F) → (⟨S320000x15, .f32⟩ : BufTy).Contents (Elt F)),
    StableHlo.binary main_v23 main_v24 main_v25 (mulf : (⟨S320000x15, .f32⟩ : BufTy).Contents (Elt F) → (⟨S320000x15, .f32⟩ : BufTy).Contents (Elt F) → (⟨S320000x15, .f32⟩ : BufTy).Contents (Elt F)),
    StableHlo.unary main_v25 main_v26 (Host.exp : (⟨S320000x15, .f32⟩ : BufTy).Contents (Elt F) → (⟨S320000x15, .f32⟩ : BufTy).Contents (Elt F)),
    StableHlo.TRef.binary (.of main_v18 : StableHlo.TRef sig ⟨S320000x3, .f32⟩) (.of main_v18 : StableHlo.TRef sig ⟨S320000x3, .f32⟩) main_call0.v0 mulf,
    StableHlo.TRef.nullary main_call0.cst (constant S_ .f32 0x00000000#32),
    StableHlo.TRef.binary main_call0.v0 main_call0.cst main_call0.v1 (fun x v => Host.reduceAdd x v reducesTo_S320000x3_S320000_d1 h_S_),
    StableHlo.TRef.unary main_call0.v1 main_call0.v2 (broadcastInDim S320000x1 ![0] bcast_S320000_S320000x1_0),
    StableHlo.TRef.unary main_call0.v2 main_call0.v3 Host.sqrt,
    StableHlo.nullary main_cst_4 (constant S_ .f32 0x322BCC77#32),
    StableHlo.unary main_cst_4 main_v28 (broadcastInDim S320000x1 ![] bcast_S_S320000x1 : (⟨S_, .f32⟩ : BufTy).Contents (Elt F) → (⟨S320000x1, .f32⟩ : BufTy).Contents (Elt F)),
    StableHlo.binary main_v27 main_v28 main_v29 (addf : (⟨S320000x1, .f32⟩ : BufTy).Contents (Elt F) → (⟨S320000x1, .f32⟩ : BufTy).Contents (Elt F) → (⟨S320000x1, .f32⟩ : BufTy).Contents (Elt F)),
    StableHlo.unary main_v29 main_v30 (broadcastInDim S320000x3 ![0, 1] bcast_S320000x1_S320000x3_0_1 : (⟨S320000x1, .f32⟩ : BufTy).Contents (Elt F) → (⟨S320000x3, .f32⟩ : BufTy).Contents (Elt F)),
    StableHlo.binary main_v18 main_v30 main_v31 (Host.divf : (⟨S320000x3, .f32⟩ : BufTy).Contents (Elt F) → (⟨S320000x3, .f32⟩ : BufTy).Contents (Elt F) → (⟨S320000x3, .f32⟩ : BufTy).Contents (Elt F)),
    StableHlo.nullary main_cst_5 (constant S_ .f32 0x3F800000#32),
    StableHlo.unary main_cst_5 main_v32 (broadcastInDim S320000 ![] bcast_S_S320000 : (⟨S_, .f32⟩ : BufTy).Contents (Elt F) → (⟨S320000, .f32⟩ : BufTy).Contents (Elt F)),
    StableHlo.nullary main_cst_6 (constant S_ .f32 0x00000000#32),
    StableHlo.unary main_cst_6 main_v33 (broadcastInDim S20000 ![] bcast_S_S20000 : (⟨S_, .f32⟩ : BufTy).Contents (Elt F) → (⟨S20000, .f32⟩ : BufTy).Contents (Elt F)),
    StableHlo.unary main_v1 main_v34 (broadcastInDim S320000x1 ![0] bcast_S320000_S320000x1_0 : (⟨S320000, .i32⟩ : BufTy).Contents (Elt F) → (⟨S320000x1, .i32⟩ : BufTy).Contents (Elt F)),
    StableHlo.ternary main_v33 main_v34 main_v32 main_v35 ((fun x i u => Host.scatterAdd scatter_S20000_S320000x1_S320000_n_0_0_1 x i u) : (⟨S20000, .f32⟩ : BufTy).Contents (Elt F) → (⟨S320000x1, .i32⟩ : BufTy).Contents (Elt F) → (⟨S320000, .f32⟩ : BufTy).Contents (Elt F) → (⟨S20000, .f32⟩ : BufTy).Contents (Elt F)),
    StableHlo.nullary main_cst_7 (constant S_ .f32 0x3F800000#32),
    StableHlo.unary main_cst_7 main_v36 (broadcastInDim S20000 ![] bcast_S_S20000 : (⟨S_, .f32⟩ : BufTy).Contents (Elt F) → (⟨S20000, .f32⟩ : BufTy).Contents (Elt F)),
    StableHlo.binary main_v35 main_v36 main_v37 (maximumf : (⟨S20000, .f32⟩ : BufTy).Contents (Elt F) → (⟨S20000, .f32⟩ : BufTy).Contents (Elt F) → (⟨S20000, .f32⟩ : BufTy).Contents (Elt F)),
    StableHlo.unary main_v37 main_v38 (broadcastInDim S20000x1 ![0] bcast_S20000_S20000x1_0 : (⟨S20000, .f32⟩ : BufTy).Contents (Elt F) → (⟨S20000x1, .f32⟩ : BufTy).Contents (Elt F)),
    StableHlo.nullary main_cst_8 (constant S_ .f32 0xC0400000#32),
    StableHlo.unary main_cst_8 main_v39 (broadcastInDim S320000x1 ![] bcast_S_S320000x1 : (⟨S_, .f32⟩ : BufTy).Contents (Elt F) → (⟨S320000x1, .f32⟩ : BufTy).Contents (Elt F)),
    StableHlo.binary main_v27 main_v39 main_v40 (Host.powf : (⟨S320000x1, .f32⟩ : BufTy).Contents (Elt F) → (⟨S320000x1, .f32⟩ : BufTy).Contents (Elt F) → (⟨S320000x1, .f32⟩ : BufTy).Contents (Elt F)),
    StableHlo.unary main_v40 main_v41 (broadcastInDim S320000x3 ![0, 1] bcast_S320000x1_S320000x3_0_1 : (⟨S320000x1, .f32⟩ : BufTy).Contents (Elt F) → (⟨S320000x3, .f32⟩ : BufTy).Contents (Elt F)),
    StableHlo.binary main_v41 main_v18 main_v42 (mulf : (⟨S320000x3, .f32⟩ : BufTy).Contents (Elt F) → (⟨S320000x3, .f32⟩ : BufTy).Contents (Elt F) → (⟨S320000x3, .f32⟩ : BufTy).Contents (Elt F)),
    StableHlo.nullary main_cst_9 (constant S_ .f32 0x00000000#32),
    StableHlo.unary main_cst_9 main_v43 (broadcastInDim S20000x3 ![] bcast_S_S20000x3 : (⟨S_, .f32⟩ : BufTy).Contents (Elt F) → (⟨S20000x3, .f32⟩ : BufTy).Contents (Elt F)),
    StableHlo.unary main_v1 main_v44 (broadcastInDim S320000x1 ![0] bcast_S320000_S320000x1_0 : (⟨S320000, .i32⟩ : BufTy).Contents (Elt F) → (⟨S320000x1, .i32⟩ : BufTy).Contents (Elt F)),
    StableHlo.ternary main_v43 main_v44 main_v42 main_v45 ((fun x i u => Host.scatterAdd scatter_S20000x3_S320000x1_S320000x3_1_0_0_1 x i u) : (⟨S20000x3, .f32⟩ : BufTy).Contents (Elt F) → (⟨S320000x1, .i32⟩ : BufTy).Contents (Elt F) → (⟨S320000x3, .f32⟩ : BufTy).Contents (Elt F) → (⟨S20000x3, .f32⟩ : BufTy).Contents (Elt F)),
    StableHlo.unary main_v38 main_v46 (broadcastInDim S20000x3 ![0, 1] bcast_S20000x1_S20000x3_0_1 : (⟨S20000x1, .f32⟩ : BufTy).Contents (Elt F) → (⟨S20000x3, .f32⟩ : BufTy).Contents (Elt F)),
    StableHlo.binary main_v45 main_v46 main_v47 (Host.divf : (⟨S20000x3, .f32⟩ : BufTy).Contents (Elt F) → (⟨S20000x3, .f32⟩ : BufTy).Contents (Elt F) → (⟨S20000x3, .f32⟩ : BufTy).Contents (Elt F)),
    StableHlo.TRef.binary (.of main_v47 : StableHlo.TRef sig ⟨S20000x3, .f32⟩) (.of main_v47 : StableHlo.TRef sig ⟨S20000x3, .f32⟩) main_call1.v0 mulf,
    StableHlo.TRef.nullary main_call1.cst (constant S_ .f32 0x00000000#32),
    StableHlo.TRef.binary main_call1.v0 main_call1.cst main_call1.v1 (fun x v => Host.reduceAdd x v reducesTo_S20000x3_S20000_d1 h_S_),
    StableHlo.TRef.unary main_call1.v1 main_call1.v2 (broadcastInDim S20000x1 ![0] bcast_S20000_S20000x1_0),
    StableHlo.TRef.unary main_call1.v2 main_call1.v3 Host.sqrt,
    StableHlo.nullary main_cst_10 (constant S_ .f32 0x322BCC77#32),
    StableHlo.unary main_cst_10 main_v49 (broadcastInDim S20000x1 ![] bcast_S_S20000x1 : (⟨S_, .f32⟩ : BufTy).Contents (Elt F) → (⟨S20000x1, .f32⟩ : BufTy).Contents (Elt F)),
    StableHlo.binary main_v48 main_v49 main_v50 (addf : (⟨S20000x1, .f32⟩ : BufTy).Contents (Elt F) → (⟨S20000x1, .f32⟩ : BufTy).Contents (Elt F) → (⟨S20000x1, .f32⟩ : BufTy).Contents (Elt F)),
    StableHlo.unary main_v50 main_v51 (broadcastInDim S20000x3 ![0, 1] bcast_S20000x1_S20000x3_0_1 : (⟨S20000x1, .f32⟩ : BufTy).Contents (Elt F) → (⟨S20000x3, .f32⟩ : BufTy).Contents (Elt F)),
    StableHlo.binary main_v47 main_v51 main_v52 (Host.divf : (⟨S20000x3, .f32⟩ : BufTy).Contents (Elt F) → (⟨S20000x3, .f32⟩ : BufTy).Contents (Elt F) → (⟨S20000x3, .f32⟩ : BufTy).Contents (Elt F)),
    StableHlo.nullary main_cst_11 (constant S_ .f32 0xC0800000#32),
    StableHlo.unary main_cst_11 main_v53 (broadcastInDim S320000x1 ![] bcast_S_S320000x1 : (⟨S_, .f32⟩ : BufTy).Contents (Elt F) → (⟨S320000x1, .f32⟩ : BufTy).Contents (Elt F)),
    StableHlo.binary main_v27 main_v53 main_v54 (Host.powf : (⟨S320000x1, .f32⟩ : BufTy).Contents (Elt F) → (⟨S320000x1, .f32⟩ : BufTy).Contents (Elt F) → (⟨S320000x1, .f32⟩ : BufTy).Contents (Elt F)),
    StableHlo.unary main_v54 main_v55 (broadcastInDim S320000x3 ![0, 1] bcast_S320000x1_S320000x3_0_1 : (⟨S320000x1, .f32⟩ : BufTy).Contents (Elt F) → (⟨S320000x3, .f32⟩ : BufTy).Contents (Elt F)),
    StableHlo.binary main_v55 main_v18 main_v56 (mulf : (⟨S320000x3, .f32⟩ : BufTy).Contents (Elt F) → (⟨S320000x3, .f32⟩ : BufTy).Contents (Elt F) → (⟨S320000x3, .f32⟩ : BufTy).Contents (Elt F)),
    StableHlo.nullary main_cst_12 (constant S_ .f32 0x00000000#32),
    StableHlo.unary main_cst_12 main_v57 (broadcastInDim S20000x3 ![] bcast_S_S20000x3 : (⟨S_, .f32⟩ : BufTy).Contents (Elt F) → (⟨S20000x3, .f32⟩ : BufTy).Contents (Elt F)),
    StableHlo.unary main_v1 main_v58 (broadcastInDim S320000x1 ![0] bcast_S320000_S320000x1_0 : (⟨S320000, .i32⟩ : BufTy).Contents (Elt F) → (⟨S320000x1, .i32⟩ : BufTy).Contents (Elt F)),
    StableHlo.ternary main_v57 main_v58 main_v56 main_v59 ((fun x i u => Host.scatterAdd scatter_S20000x3_S320000x1_S320000x3_1_0_0_1 x i u) : (⟨S20000x3, .f32⟩ : BufTy).Contents (Elt F) → (⟨S320000x1, .i32⟩ : BufTy).Contents (Elt F) → (⟨S320000x3, .f32⟩ : BufTy).Contents (Elt F) → (⟨S20000x3, .f32⟩ : BufTy).Contents (Elt F)),
    StableHlo.unary main_v38 main_v60 (broadcastInDim S20000x3 ![0, 1] bcast_S20000x1_S20000x3_0_1 : (⟨S20000x1, .f32⟩ : BufTy).Contents (Elt F) → (⟨S20000x3, .f32⟩ : BufTy).Contents (Elt F)),
    StableHlo.binary main_v59 main_v60 main_v61 (Host.divf : (⟨S20000x3, .f32⟩ : BufTy).Contents (Elt F) → (⟨S20000x3, .f32⟩ : BufTy).Contents (Elt F) → (⟨S20000x3, .f32⟩ : BufTy).Contents (Elt F)),
    StableHlo.TRef.binary (.of main_v61 : StableHlo.TRef sig ⟨S20000x3, .f32⟩) (.of main_v61 : StableHlo.TRef sig ⟨S20000x3, .f32⟩) main_call2.v0 mulf,
    StableHlo.TRef.nullary main_call2.cst (constant S_ .f32 0x00000000#32),
    StableHlo.TRef.binary main_call2.v0 main_call2.cst main_call2.v1 (fun x v => Host.reduceAdd x v reducesTo_S20000x3_S20000_d1 h_S_),
    StableHlo.TRef.unary main_call2.v1 main_call2.v2 (broadcastInDim S20000x1 ![0] bcast_S20000_S20000x1_0),
    StableHlo.TRef.unary main_call2.v2 main_call2.v3 Host.sqrt,
    StableHlo.nullary main_cst_13 (constant S_ .f32 0x322BCC77#32),
    StableHlo.unary main_cst_13 main_v63 (broadcastInDim S20000x1 ![] bcast_S_S20000x1 : (⟨S_, .f32⟩ : BufTy).Contents (Elt F) → (⟨S20000x1, .f32⟩ : BufTy).Contents (Elt F)),
    StableHlo.binary main_v62 main_v63 main_v64 (addf : (⟨S20000x1, .f32⟩ : BufTy).Contents (Elt F) → (⟨S20000x1, .f32⟩ : BufTy).Contents (Elt F) → (⟨S20000x1, .f32⟩ : BufTy).Contents (Elt F)),
    StableHlo.unary main_v64 main_v65 (broadcastInDim S20000x3 ![0, 1] bcast_S20000x1_S20000x3_0_1 : (⟨S20000x1, .f32⟩ : BufTy).Contents (Elt F) → (⟨S20000x3, .f32⟩ : BufTy).Contents (Elt F)),
    StableHlo.binary main_v61 main_v65 main_v66 (Host.divf : (⟨S20000x3, .f32⟩ : BufTy).Contents (Elt F) → (⟨S20000x3, .f32⟩ : BufTy).Contents (Elt F) → (⟨S20000x3, .f32⟩ : BufTy).Contents (Elt F)),
    StableHlo.nullary main_cst_14 (constant S_ .f32 0xC0A00000#32),
    StableHlo.unary main_cst_14 main_v67 (broadcastInDim S320000x1 ![] bcast_S_S320000x1 : (⟨S_, .f32⟩ : BufTy).Contents (Elt F) → (⟨S320000x1, .f32⟩ : BufTy).Contents (Elt F)),
    StableHlo.binary main_v27 main_v67 main_v68 (Host.powf : (⟨S320000x1, .f32⟩ : BufTy).Contents (Elt F) → (⟨S320000x1, .f32⟩ : BufTy).Contents (Elt F) → (⟨S320000x1, .f32⟩ : BufTy).Contents (Elt F)),
    StableHlo.unary main_v68 main_v69 (broadcastInDim S320000x3 ![0, 1] bcast_S320000x1_S320000x3_0_1 : (⟨S320000x1, .f32⟩ : BufTy).Contents (Elt F) → (⟨S320000x3, .f32⟩ : BufTy).Contents (Elt F)),
    StableHlo.binary main_v69 main_v18 main_v70 (mulf : (⟨S320000x3, .f32⟩ : BufTy).Contents (Elt F) → (⟨S320000x3, .f32⟩ : BufTy).Contents (Elt F) → (⟨S320000x3, .f32⟩ : BufTy).Contents (Elt F)),
    StableHlo.nullary main_cst_15 (constant S_ .f32 0x00000000#32),
    StableHlo.unary main_cst_15 main_v71 (broadcastInDim S20000x3 ![] bcast_S_S20000x3 : (⟨S_, .f32⟩ : BufTy).Contents (Elt F) → (⟨S20000x3, .f32⟩ : BufTy).Contents (Elt F)),
    StableHlo.unary main_v1 main_v72 (broadcastInDim S320000x1 ![0] bcast_S320000_S320000x1_0 : (⟨S320000, .i32⟩ : BufTy).Contents (Elt F) → (⟨S320000x1, .i32⟩ : BufTy).Contents (Elt F)),
    StableHlo.ternary main_v71 main_v72 main_v70 main_v73 ((fun x i u => Host.scatterAdd scatter_S20000x3_S320000x1_S320000x3_1_0_0_1 x i u) : (⟨S20000x3, .f32⟩ : BufTy).Contents (Elt F) → (⟨S320000x1, .i32⟩ : BufTy).Contents (Elt F) → (⟨S320000x3, .f32⟩ : BufTy).Contents (Elt F) → (⟨S20000x3, .f32⟩ : BufTy).Contents (Elt F)),
    StableHlo.unary main_v38 main_v74 (broadcastInDim S20000x3 ![0, 1] bcast_S20000x1_S20000x3_0_1 : (⟨S20000x1, .f32⟩ : BufTy).Contents (Elt F) → (⟨S20000x3, .f32⟩ : BufTy).Contents (Elt F)),
    StableHlo.binary main_v73 main_v74 main_v75 (Host.divf : (⟨S20000x3, .f32⟩ : BufTy).Contents (Elt F) → (⟨S20000x3, .f32⟩ : BufTy).Contents (Elt F) → (⟨S20000x3, .f32⟩ : BufTy).Contents (Elt F)),
    StableHlo.TRef.binary (.of main_v75 : StableHlo.TRef sig ⟨S20000x3, .f32⟩) (.of main_v75 : StableHlo.TRef sig ⟨S20000x3, .f32⟩) main_call3.v0 mulf,
    StableHlo.TRef.nullary main_call3.cst (constant S_ .f32 0x00000000#32),
    StableHlo.TRef.binary main_call3.v0 main_call3.cst main_call3.v1 (fun x v => Host.reduceAdd x v reducesTo_S20000x3_S20000_d1 h_S_),
    StableHlo.TRef.unary main_call3.v1 main_call3.v2 (broadcastInDim S20000x1 ![0] bcast_S20000_S20000x1_0),
    StableHlo.TRef.unary main_call3.v2 main_call3.v3 Host.sqrt,
    StableHlo.nullary main_cst_16 (constant S_ .f32 0x322BCC77#32),
    StableHlo.unary main_cst_16 main_v77 (broadcastInDim S20000x1 ![] bcast_S_S20000x1 : (⟨S_, .f32⟩ : BufTy).Contents (Elt F) → (⟨S20000x1, .f32⟩ : BufTy).Contents (Elt F)),
    StableHlo.binary main_v76 main_v77 main_v78 (addf : (⟨S20000x1, .f32⟩ : BufTy).Contents (Elt F) → (⟨S20000x1, .f32⟩ : BufTy).Contents (Elt F) → (⟨S20000x1, .f32⟩ : BufTy).Contents (Elt F)),
    StableHlo.unary main_v78 main_v79 (broadcastInDim S20000x3 ![0, 1] bcast_S20000x1_S20000x3_0_1 : (⟨S20000x1, .f32⟩ : BufTy).Contents (Elt F) → (⟨S20000x3, .f32⟩ : BufTy).Contents (Elt F)),
    StableHlo.binary main_v75 main_v79 main_v80 (Host.divf : (⟨S20000x3, .f32⟩ : BufTy).Contents (Elt F) → (⟨S20000x3, .f32⟩ : BufTy).Contents (Elt F) → (⟨S20000x3, .f32⟩ : BufTy).Contents (Elt F)),
    StableHlo.unary main_v52 main_v81 (broadcastInDim S20000x1x3 ![0, 2] bcast_S20000x3_S20000x1x3_0_2 : (⟨S20000x3, .f32⟩ : BufTy).Contents (Elt F) → (⟨S20000x1x3, .f32⟩ : BufTy).Contents (Elt F)),
    StableHlo.unary main_v66 main_v82 (broadcastInDim S20000x1x3 ![0, 2] bcast_S20000x3_S20000x1x3_0_2 : (⟨S20000x3, .f32⟩ : BufTy).Contents (Elt F) → (⟨S20000x1x3, .f32⟩ : BufTy).Contents (Elt F)),
    StableHlo.unary main_v80 main_v83 (broadcastInDim S20000x1x3 ![0, 2] bcast_S20000x3_S20000x1x3_0_2 : (⟨S20000x3, .f32⟩ : BufTy).Contents (Elt F) → (⟨S20000x1x3, .f32⟩ : BufTy).Contents (Elt F)),
    StableHlo.nary ![main_v81, main_v82, main_v83] main_v84 (fun u => concatenate S20000x3x3 1 [⟨S20000x1x3, u 0⟩, ⟨S20000x1x3, u 1⟩, ⟨S20000x1x3, u 2⟩] concatenates_S20000x1x3_S20000x1x3_S20000x1x3_S20000x3x3_d1),
    StableHlo.nullary main_c_17 (constantI S_ 32 0#32),
    StableHlo.unary main_c_17 main_v85 (broadcastInDim S320000 ![] bcast_S_S320000 : (⟨S_, .i32⟩ : BufTy).Contents (Elt F) → (⟨S320000, .i32⟩ : BufTy).Contents (Elt F)),
    StableHlo.binary main_v1 main_v85 main_v86 (cmpi .slt : (⟨S320000, .i32⟩ : BufTy).Contents (Elt F) → (⟨S320000, .i32⟩ : BufTy).Contents (Elt F) → (⟨S320000, .i1⟩ : BufTy).Contents (Elt F)),
    StableHlo.nullary main_c_18 (constantI S_ 32 20000#32),
    StableHlo.unary main_c_18 main_v87 (broadcastInDim S320000 ![] bcast_S_S320000 : (⟨S_, .i32⟩ : BufTy).Contents (Elt F) → (⟨S320000, .i32⟩ : BufTy).Contents (Elt F)),
    StableHlo.binary main_v1 main_v87 main_v88 (addi : (⟨S320000, .i32⟩ : BufTy).Contents (Elt F) → (⟨S320000, .i32⟩ : BufTy).Contents (Elt F) → (⟨S320000, .i32⟩ : BufTy).Contents (Elt F)),
    StableHlo.ternary main_v86 main_v88 main_v1 main_v89 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v89 main_v90 (broadcastInDim S320000x1 ![0] bcast_S320000_S320000x1_0 : (⟨S320000, .i32⟩ : BufTy).Contents (Elt F) → (⟨S320000x1, .i32⟩ : BufTy).Contents (Elt F)),
    StableHlo.binary main_v84 main_v90 main_v91 ((fun x i => Host.gather gather_S20000x3x3_S320000x1_S320000x3x3_12_0_n_n_0_1_133 x i) : (⟨S20000x3x3, .f32⟩ : BufTy).Contents (Elt F) → (⟨S320000x1, .i32⟩ : BufTy).Contents (Elt F) → (⟨S320000x3x3, .f32⟩ : BufTy).Contents (Elt F)),
    StableHlo.nullary main_c_19 (constantI S_ 32 0#32),
    StableHlo.unary main_c_19 main_v92 (broadcastInDim S320000 ![] bcast_S_S320000 : (⟨S_, .i32⟩ : BufTy).Contents (Elt F) → (⟨S320000, .i32⟩ : BufTy).Contents (Elt F)),
    StableHlo.binary main_v3 main_v92 main_v93 (cmpi .slt : (⟨S320000, .i32⟩ : BufTy).Contents (Elt F) → (⟨S320000, .i32⟩ : BufTy).Contents (Elt F) → (⟨S320000, .i1⟩ : BufTy).Contents (Elt F)),
    StableHlo.nullary main_c_20 (constantI S_ 32 20000#32),
    StableHlo.unary main_c_20 main_v94 (broadcastInDim S320000 ![] bcast_S_S320000 : (⟨S_, .i32⟩ : BufTy).Contents (Elt F) → (⟨S320000, .i32⟩ : BufTy).Contents (Elt F)),
    StableHlo.binary main_v3 main_v94 main_v95 (addi : (⟨S320000, .i32⟩ : BufTy).Contents (Elt F) → (⟨S320000, .i32⟩ : BufTy).Contents (Elt F) → (⟨S320000, .i32⟩ : BufTy).Contents (Elt F)),
    StableHlo.ternary main_v93 main_v95 main_v3 main_v96 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v96 main_v97 (broadcastInDim S320000x1 ![0] bcast_S320000_S320000x1_0 : (⟨S320000, .i32⟩ : BufTy).Contents (Elt F) → (⟨S320000x1, .i32⟩ : BufTy).Contents (Elt F)),
    StableHlo.binary main_v84 main_v97 main_v98 ((fun x i => Host.gather gather_S20000x3x3_S320000x1_S320000x3x3_12_0_n_n_0_1_133 x i) : (⟨S20000x3x3, .f32⟩ : BufTy).Contents (Elt F) → (⟨S320000x1, .i32⟩ : BufTy).Contents (Elt F) → (⟨S320000x3x3, .f32⟩ : BufTy).Contents (Elt F)),
    StableHlo.binary main_v91 main_v98 main_v99 (mulf : (⟨S320000x3x3, .f32⟩ : BufTy).Contents (Elt F) → (⟨S320000x3x3, .f32⟩ : BufTy).Contents (Elt F) → (⟨S320000x3x3, .f32⟩ : BufTy).Contents (Elt F)),
    StableHlo.nullary main_cst_21 (constant S_ .f32 0x00000000#32),
    StableHlo.binary main_v99 main_cst_21 main_v100 ((fun x v => Host.reduceAdd x v reducesTo_S320000x3x3_S320000x3_d2 h_S_) : (⟨S320000x3x3, .f32⟩ : BufTy).Contents (Elt F) → (⟨S_, .f32⟩ : BufTy).Contents (Elt F) → (⟨S320000x3, .f32⟩ : BufTy).Contents (Elt F)),
    StableHlo.nullary main_c_22 (constantI S_ 32 0#32),
    StableHlo.unary main_c_22 main_v101 (broadcastInDim S320000 ![] bcast_S_S320000 : (⟨S_, .i32⟩ : BufTy).Contents (Elt F) → (⟨S320000, .i32⟩ : BufTy).Contents (Elt F)),
    StableHlo.binary main_v1 main_v101 main_v102 (cmpi .slt : (⟨S320000, .i32⟩ : BufTy).Contents (Elt F) → (⟨S320000, .i32⟩ : BufTy).Contents (Elt F) → (⟨S320000, .i1⟩ : BufTy).Contents (Elt F)),
    StableHlo.nullary main_c_23 (constantI S_ 32 20000#32),
    StableHlo.unary main_c_23 main_v103 (broadcastInDim S320000 ![] bcast_S_S320000 : (⟨S_, .i32⟩ : BufTy).Contents (Elt F) → (⟨S320000, .i32⟩ : BufTy).Contents (Elt F)),
    StableHlo.binary main_v1 main_v103 main_v104 (addi : (⟨S320000, .i32⟩ : BufTy).Contents (Elt F) → (⟨S320000, .i32⟩ : BufTy).Contents (Elt F) → (⟨S320000, .i32⟩ : BufTy).Contents (Elt F)),
    StableHlo.ternary main_v102 main_v104 main_v1 main_v105 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v105 main_v106 (broadcastInDim S320000x1 ![0] bcast_S320000_S320000x1_0 : (⟨S320000, .i32⟩ : BufTy).Contents (Elt F) → (⟨S320000x1, .i32⟩ : BufTy).Contents (Elt F)),
    StableHlo.binary main_arg0 main_v106 main_v107 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.nullary main_c_24 (constantI S_ 32 0#32),
    StableHlo.unary main_c_24 main_v108 (broadcastInDim S320000 ![] bcast_S_S320000 : (⟨S_, .i32⟩ : BufTy).Contents (Elt F) → (⟨S320000, .i32⟩ : BufTy).Contents (Elt F)),
    StableHlo.binary main_v3 main_v108 main_v109 (cmpi .slt : (⟨S320000, .i32⟩ : BufTy).Contents (Elt F) → (⟨S320000, .i32⟩ : BufTy).Contents (Elt F) → (⟨S320000, .i1⟩ : BufTy).Contents (Elt F)),
    StableHlo.nullary main_c_25 (constantI S_ 32 20000#32),
    StableHlo.unary main_c_25 main_v110 (broadcastInDim S320000 ![] bcast_S_S320000 : (⟨S_, .i32⟩ : BufTy).Contents (Elt F) → (⟨S320000, .i32⟩ : BufTy).Contents (Elt F)),
    StableHlo.binary main_v3 main_v110 main_v111 (addi : (⟨S320000, .i32⟩ : BufTy).Contents (Elt F) → (⟨S320000, .i32⟩ : BufTy).Contents (Elt F) → (⟨S320000, .i32⟩ : BufTy).Contents (Elt F)),
    StableHlo.ternary main_v109 main_v111 main_v3 main_v112 (select : (⟨S320000, .i1⟩ : BufTy).Contents (Elt F) → (⟨S320000, .i32⟩ : BufTy).Contents (Elt F) → (⟨S320000, .i32⟩ : BufTy).Contents (Elt F) → (⟨S320000, .i32⟩ : BufTy).Contents (Elt F)),
    StableHlo.unary main_v112 main_v113 (broadcastInDim S320000x1 ![0] bcast_S320000_S320000x1_0 : (⟨S320000, .i32⟩ : BufTy).Contents (Elt F) → (⟨S320000x1, .i32⟩ : BufTy).Contents (Elt F)),
    StableHlo.binary main_arg0 main_v113 main_v114 ((fun x i => Host.gather gather_S20000x128_S320000x1_S320000x128_1_0_n_n_0_1_1128 x i) : (⟨S20000x128, .f32⟩ : BufTy).Contents (Elt F) → (⟨S320000x1, .i32⟩ : BufTy).Contents (Elt F) → (⟨S320000x128, .f32⟩ : BufTy).Contents (Elt F)),
    StableHlo.binary main_v107 main_v114 main_v115 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)),
    StableHlo.binary main_v100 main_v26 main_v116 ((fun a b => concatenate S320000x18 1 [⟨S320000x3, a⟩, ⟨S320000x15, b⟩] concatenates_S320000x3_S320000x15_S320000x18_d1) : (⟨S320000x3, .f32⟩ : BufTy).Contents (Elt F) → (⟨S320000x15, .f32⟩ : BufTy).Contents (Elt F) → (⟨S320000x18, .f32⟩ : BufTy).Contents (Elt F)),
    StableHlo.binary main_v115 main_arg3 main_v117 ((fun l r => Host.dotGeneral dot_S320000x256_S256x128_S320000x128_1_0_0_1_n_n none l r) : (⟨S320000x256, .f32⟩ : BufTy).Contents (Elt F) → (⟨S256x128, .f32⟩ : BufTy).Contents (Elt F) → (⟨S320000x128, .f32⟩ : BufTy).Contents (Elt F)),
    StableHlo.unary main_arg4 main_v118 (broadcastInDim S1x128 ![1] bcast_S128_S1x128_1 : (⟨S128, .f32⟩ : BufTy).Contents (Elt F) → (⟨S1x128, .f32⟩ : BufTy).Contents (Elt F)),
    StableHlo.unary main_v118 main_v119 (broadcastInDim S320000x128 ![0, 1] bcast_S1x128_S320000x128_0_1 : (⟨S1x128, .f32⟩ : BufTy).Contents (Elt F) → (⟨S320000x128, .f32⟩ : BufTy).Contents (Elt F)),
    StableHlo.binary main_v117 main_v119 main_v120 (addf : (⟨S320000x128, .f32⟩ : BufTy).Contents (Elt F) → (⟨S320000x128, .f32⟩ : BufTy).Contents (Elt F) → (⟨S320000x128, .f32⟩ : BufTy).Contents (Elt F)),
    StableHlo.TRef.unary (.of main_v120 : StableHlo.TRef sig ⟨S320000x128, .f32⟩) main_call4.v0 Host.negf,
    StableHlo.TRef.unary main_call4.v0 main_call4.v1 Host.exp,
    StableHlo.TRef.nullary main_call4.cst (constant S_ .f32 0x3F800000#32),
    StableHlo.TRef.unary main_call4.cst main_call4.v2 (broadcastInDim S320000x128 ![] bcast_S_S320000x128),
    StableHlo.TRef.binary main_call4.v2 main_call4.v1 main_call4.v3 addf,
    StableHlo.TRef.nullary main_call4.cst_0 (constant S_ .f32 0x3F800000#32),
    StableHlo.TRef.unary main_call4.cst_0 main_call4.v4 (broadcastInDim S320000x128 ![] bcast_S_S320000x128),
    StableHlo.TRef.binary main_call4.v4 main_call4.v3 main_call4.v5 Host.divf,
    StableHlo.TRef.binary (.of main_v120 : StableHlo.TRef sig ⟨S320000x128, .f32⟩) main_call4.v5 main_call4.v6 mulf,
    StableHlo.binary main_v121 main_arg5 main_v122 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg6 main_v123 (broadcastInDim S1x128 ![1] bcast_S128_S1x128_1 : (⟨S128, .f32⟩ : BufTy).Contents (Elt F) → (⟨S1x128, .f32⟩ : BufTy).Contents (Elt F)),
    StableHlo.unary main_v123 main_v124 (broadcastInDim S320000x128 ![0, 1] bcast_S1x128_S320000x128_0_1 : (⟨S1x128, .f32⟩ : BufTy).Contents (Elt F) → (⟨S320000x128, .f32⟩ : BufTy).Contents (Elt F)),
    StableHlo.binary main_v122 main_v124 main_v125 (addf : (⟨S320000x128, .f32⟩ : BufTy).Contents (Elt F) → (⟨S320000x128, .f32⟩ : BufTy).Contents (Elt F) → (⟨S320000x128, .f32⟩ : BufTy).Contents (Elt F)),
    StableHlo.binary main_v116 main_arg7 main_v126 ((fun l r => Host.dotGeneral dot_S320000x18_S18x128_S320000x128_1_0_0_1_n_n none l r) : (⟨S320000x18, .f32⟩ : BufTy).Contents (Elt F) → (⟨S18x128, .f32⟩ : BufTy).Contents (Elt F) → (⟨S320000x128, .f32⟩ : BufTy).Contents (Elt F)),
    StableHlo.unary main_arg8 main_v127 (broadcastInDim S1x128 ![1] bcast_S128_S1x128_1 : (⟨S128, .f32⟩ : BufTy).Contents (Elt F) → (⟨S1x128, .f32⟩ : BufTy).Contents (Elt F)),
    StableHlo.unary main_v127 main_v128 (broadcastInDim S320000x128 ![0, 1] bcast_S1x128_S320000x128_0_1 : (⟨S1x128, .f32⟩ : BufTy).Contents (Elt F) → (⟨S320000x128, .f32⟩ : BufTy).Contents (Elt F)),
    StableHlo.binary main_v126 main_v128 main_v129 (addf : (⟨S320000x128, .f32⟩ : BufTy).Contents (Elt F) → (⟨S320000x128, .f32⟩ : BufTy).Contents (Elt F) → (⟨S320000x128, .f32⟩ : BufTy).Contents (Elt F)),
    StableHlo.TRef.unary (.of main_v129 : StableHlo.TRef sig ⟨S320000x128, .f32⟩) main_call5.v0 Host.negf,
    StableHlo.TRef.unary main_call5.v0 main_call5.v1 Host.exp,
    StableHlo.TRef.nullary main_call5.cst (constant S_ .f32 0x3F800000#32),
    StableHlo.TRef.unary main_call5.cst main_call5.v2 (broadcastInDim S320000x128 ![] bcast_S_S320000x128),
    StableHlo.TRef.binary main_call5.v2 main_call5.v1 main_call5.v3 addf,
    StableHlo.TRef.nullary main_call5.cst_0 (constant S_ .f32 0x3F800000#32),
    StableHlo.TRef.unary main_call5.cst_0 main_call5.v4 (broadcastInDim S320000x128 ![] bcast_S_S320000x128),
    StableHlo.TRef.binary main_call5.v4 main_call5.v3 main_call5.v5 Host.divf,
    StableHlo.TRef.binary (.of main_v129 : StableHlo.TRef sig ⟨S320000x128, .f32⟩) main_call5.v5 main_call5.v6 mulf,
    StableHlo.binary main_v130 main_arg9 main_v131 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg10 main_v132 (broadcastInDim S1x128 ![1] bcast_S128_S1x128_1 : (⟨S128, .f32⟩ : BufTy).Contents (Elt F) → (⟨S1x128, .f32⟩ : BufTy).Contents (Elt F)),
    StableHlo.unary main_v132 main_v133 (broadcastInDim S320000x128 ![0, 1] bcast_S1x128_S320000x128_0_1 : (⟨S1x128, .f32⟩ : BufTy).Contents (Elt F) → (⟨S320000x128, .f32⟩ : BufTy).Contents (Elt F)),
    StableHlo.binary main_v131 main_v133 main_v134 (addf : (⟨S320000x128, .f32⟩ : BufTy).Contents (Elt F) → (⟨S320000x128, .f32⟩ : BufTy).Contents (Elt F) → (⟨S320000x128, .f32⟩ : BufTy).Contents (Elt F)),
    StableHlo.binary main_v125 main_arg11 main_v135 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg12 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S320000x128 ![0, 1] bcast_S1x128_S320000x128_0_1 : (⟨S1x128, .f32⟩ : BufTy).Contents (Elt F) → (⟨S320000x128, .f32⟩ : BufTy).Contents (Elt F)),
    StableHlo.binary main_v135 main_v137 main_v138 (addf : (⟨S320000x128, .f32⟩ : BufTy).Contents (Elt F) → (⟨S320000x128, .f32⟩ : BufTy).Contents (Elt F) → (⟨S320000x128, .f32⟩ : BufTy).Contents (Elt F)),
    StableHlo.TRef.unary (.of main_v138 : StableHlo.TRef sig ⟨S320000x128, .f32⟩) main_call6.v0 Host.negf,
    StableHlo.TRef.unary main_call6.v0 main_call6.v1 Host.exp,
    StableHlo.TRef.nullary main_call6.cst (constant S_ .f32 0x3F800000#32),
    StableHlo.TRef.unary main_call6.cst main_call6.v2 (broadcastInDim S320000x128 ![] bcast_S_S320000x128),
    StableHlo.TRef.binary main_call6.v2 main_call6.v1 main_call6.v3 addf,
    StableHlo.TRef.nullary main_call6.cst_0 (constant S_ .f32 0x3F800000#32),
    StableHlo.TRef.unary main_call6.cst_0 main_call6.v4 (broadcastInDim S320000x128 ![] bcast_S_S320000x128),
    StableHlo.TRef.binary main_call6.v4 main_call6.v3 main_call6.v5 Host.divf,
    StableHlo.TRef.binary (.of main_v138 : StableHlo.TRef sig ⟨S320000x128, .f32⟩) main_call6.v5 main_call6.v6 mulf,
    StableHlo.binary main_v139 main_arg13 main_v140 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    StableHlo.unary main_arg14 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S320000x128 ![0, 1] bcast_S1x128_S320000x128_0_1 : (⟨S1x128, .f32⟩ : BufTy).Contents (Elt F) → (⟨S320000x128, .f32⟩ : BufTy).Contents (Elt F)),
    StableHlo.binary main_v140 main_v142 main_v143 (addf : (⟨S320000x128, .f32⟩ : BufTy).Contents (Elt F) → (⟨S320000x128, .f32⟩ : BufTy).Contents (Elt F) → (⟨S320000x128, .f32⟩ : BufTy).Contents (Elt F)),
    StableHlo.binary main_v143 main_v134 main_v144 (mulf : (⟨S320000x128, .f32⟩ : BufTy).Contents (Elt F) → (⟨S320000x128, .f32⟩ : BufTy).Contents (Elt F) → (⟨S320000x128, .f32⟩ : BufTy).Contents (Elt F)),
    StableHlo.binary main_v144 main_arg15 main_v145 ((fun l r => Host.dotGeneral dot_S320000x128_S128x1_S320000x1_1_0_0_1_n_n none l r) : (⟨S320000x128, .f32⟩ : BufTy).Contents (Elt F) → (⟨S128x1, .f32⟩ : BufTy).Contents (Elt F) → (⟨S320000x1, .f32⟩ : BufTy).Contents (Elt F)),
    StableHlo.unary main_arg16 main_v146 (broadcastInDim S1x1 ![1] bcast_S1_S1x1_1 : (⟨S1, .f32⟩ : BufTy).Contents (Elt F) → (⟨S1x1, .f32⟩ : BufTy).Contents (Elt F)),
    StableHlo.unary main_v146 main_v147 (broadcastInDim S320000x1 ![0, 1] bcast_S1x1_S320000x1_0_1 : (⟨S1x1, .f32⟩ : BufTy).Contents (Elt F) → (⟨S320000x1, .f32⟩ : BufTy).Contents (Elt F)),
    StableHlo.binary main_v145 main_v147 main_v148 (addf : (⟨S320000x1, .f32⟩ : BufTy).Contents (Elt F) → (⟨S320000x1, .f32⟩ : BufTy).Contents (Elt F) → (⟨S320000x1, .f32⟩ : BufTy).Contents (Elt F)),
    StableHlo.unary main_v148 main_v149 (Host.negf : (⟨S320000x1, .f32⟩ : BufTy).Contents (Elt F) → (⟨S320000x1, .f32⟩ : BufTy).Contents (Elt F)),
    StableHlo.unary main_v149 main_v150 (Host.exp : (⟨S320000x1, .f32⟩ : BufTy).Contents (Elt F) → (⟨S320000x1, .f32⟩ : BufTy).Contents (Elt F)),
    StableHlo.nullary main_cst_26 (constant S_ .f32 0x3F800000#32),
    StableHlo.unary main_cst_26 main_v151 (broadcastInDim S320000x1 ![] bcast_S_S320000x1 : (⟨S_, .f32⟩ : BufTy).Contents (Elt F) → (⟨S320000x1, .f32⟩ : BufTy).Contents (Elt F)),
    StableHlo.binary main_v151 main_v150 main_v152 (addf : (⟨S320000x1, .f32⟩ : BufTy).Contents (Elt F) → (⟨S320000x1, .f32⟩ : BufTy).Contents (Elt F) → (⟨S320000x1, .f32⟩ : BufTy).Contents (Elt F)),
    StableHlo.nullary main_cst_27 (constant S_ .f32 0x3F800000#32),
    StableHlo.unary main_cst_27 main_v153 (broadcastInDim S320000x1 ![] bcast_S_S320000x1 : (⟨S_, .f32⟩ : BufTy).Contents (Elt F) → (⟨S320000x1, .f32⟩ : BufTy).Contents (Elt F)),
    StableHlo.binary main_v153 main_v152 main_v154 (Host.divf : (⟨S320000x1, .f32⟩ : BufTy).Contents (Elt F) → (⟨S320000x1, .f32⟩ : BufTy).Contents (Elt F) → (⟨S320000x1, .f32⟩ : BufTy).Contents (Elt F)),
    StableHlo.unary main_v154 main_v155 (broadcastInDim S320000x128 ![0, 1] bcast_S320000x1_S320000x128_0_1 : (⟨S320000x1, .f32⟩ : BufTy).Contents (Elt F) → (⟨S320000x128, .f32⟩ : BufTy).Contents (Elt F)),
    StableHlo.binary main_v144 main_v155 main_v156 (mulf : (⟨S320000x128, .f32⟩ : BufTy).Contents (Elt F) → (⟨S320000x128, .f32⟩ : BufTy).Contents (Elt F) → (⟨S320000x128, .f32⟩ : BufTy).Contents (Elt F)) ]

-- both sides are one chain of 227 steps, compared step by step: the comparison nests once per step
set_option maxRecDepth 8192 in
/-- @main is that straight line. Unfolding the four windows and the three functions' bodies at their calls, and the
    records at their fields, both sides are the same chain of `hlo` steps: sequencing computes through a callee's
    final return and through the return that ends `seq`. -/
theorem main_eq (c : Dev nD) : main (F := F) c = seq ops := rfl

/-- The signature scopes no TensorCore buffer … -/
theorem scopedRefs_eq : (Finset.univ.filter fun b : Ref sig .tc => b.isScoped) = ∅ := by decide
/-- … and no semaphore: the program is tensor values only. -/
theorem scopedSems_eq : (Finset.univ.filter fun sm : SemLoc sig => sm.isScoped .tc) = ∅ := by decide

/-- Every operation touches TensorCore references only: one fact per operation, in order, each its builder's. -/
theorem ops_sub : (ops : List (HloOp τ sig (Elt F))).Forall fun op => op.bufs ⊆ tcRefs τ sig :=
  ⟨nullary_bufs_sub .., unary_bufs_sub .., reshape_bufs_sub .., unary_bufs_sub .., reshape_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    binary_bufs_sub .., nullary_bufs_sub .., binary_bufs_sub .., unary_bufs_sub .., unary_bufs_sub .., unary_bufs_sub ..,
    unary_bufs_sub .., binary_bufs_sub .., unary_bufs_sub .., binary_bufs_sub .., nullary_bufs_sub .., binary_bufs_sub ..,
    unary_bufs_sub .., unary_bufs_sub .., nullary_bufs_sub .., unary_bufs_sub .., binary_bufs_sub .., unary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., binary_bufs_sub .., unary_bufs_sub .., binary_bufs_sub .., nullary_bufs_sub .., unary_bufs_sub ..,
    unary_bufs_sub .., ternary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    binary_bufs_sub .., nullary_bufs_sub .., unary_bufs_sub .., unary_bufs_sub .., ternary_bufs_sub .., unary_bufs_sub ..,
    binary_bufs_sub .., binary_bufs_sub .., nullary_bufs_sub .., binary_bufs_sub .., unary_bufs_sub .., unary_bufs_sub ..,
    nullary_bufs_sub .., unary_bufs_sub .., binary_bufs_sub .., unary_bufs_sub .., binary_bufs_sub .., nullary_bufs_sub ..,
    unary_bufs_sub .., binary_bufs_sub .., unary_bufs_sub .., binary_bufs_sub .., nullary_bufs_sub .., unary_bufs_sub ..,
    unary_bufs_sub .., ternary_bufs_sub .., unary_bufs_sub .., binary_bufs_sub .., binary_bufs_sub .., nullary_bufs_sub ..,
    binary_bufs_sub .., unary_bufs_sub .., unary_bufs_sub .., nullary_bufs_sub .., unary_bufs_sub .., binary_bufs_sub ..,
    unary_bufs_sub .., binary_bufs_sub .., unary_bufs_sub .., unary_bufs_sub .., unary_bufs_sub .., nary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    binary_bufs_sub .., nullary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., binary_bufs_sub .., binary_bufs_sub .., binary_bufs_sub ..,
    unary_bufs_sub .., unary_bufs_sub .., binary_bufs_sub .., unary_bufs_sub .., unary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., binary_bufs_sub .., binary_bufs_sub .., binary_bufs_sub .., unary_bufs_sub .., unary_bufs_sub ..,
    binary_bufs_sub .., unary_bufs_sub .., unary_bufs_sub .., nullary_bufs_sub .., unary_bufs_sub .., binary_bufs_sub ..,
    nullary_bufs_sub .., unary_bufs_sub .., binary_bufs_sub .., unary_bufs_sub .., binary_bufs_sub ..⟩

/-- For any float values, from any memory with zero counters: every weakly fair execution of @main on the
    TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.RefHostTerms.lean ====
/-
  The reference program's buffers as compositions of the named host terms, at the ideal float values.

  Each buffer a certificate needs is read off the fold of the 227 host operations over the launch contents by one
  rewriting pass (an operation's result at its own buffer is its function's value, elsewhere what was there) in which
  the named terms are unfolded too, so that the two sides meet as the same term and nothing of full size is compared
  by computation. The three dense results are stated one step at a time, over the contents of the buffers they read.
  The seventeen argument buffers are written by no operation and keep their launch contents.
-/
import proofs.«110032_j62122406969661_2_alg».proof.Proof.RefRun
import proofs.«110032_j62122406969661_2_alg».proof.Proof.HostTerms

noncomputable section

namespace Cert.RefHostTerms

open Cert.ReferenceIdeal Cert.ReferenceIdeal.Gen Cert.ReferenceIdeal.HandRun Cert.HostTerms
open Idealize.ShloMosaic Idealize.ShloMosaic.TcCoe Idealize.SL.Sem Idealize.ShloMosaic.StableHlo

/-! ## The dense stages as named terms -/

/-- `x · σ(x)` elementwise (@silu's body: the negation, its exponential, one plus it, one over that, the product). -/
def siluT (x : Fv S320000x128) : Fv S320000x128 :=
  (mulf (F := Ideal) (φ := .f32) : Fv S320000x128 → Fv S320000x128 → Fv S320000x128) x
    ((Host.divf (F := Ideal) (φ := .f32) : Fv S320000x128 → Fv S320000x128 → Fv S320000x128)
      ((broadcastInDim S320000x128 ![] bcast_S_S320000x128 : Fv S_ → Fv S320000x128) (constant (F := Ideal) S_ .f32 0x3F800000#32))
      ((addf (F := Ideal) (φ := .f32) : Fv S320000x128 → Fv S320000x128 → Fv S320000x128)
        ((broadcastInDim S320000x128 ![] bcast_S_S320000x128 : Fv S_ → Fv S320000x128) (constant (F := Ideal) S_ .f32 0x3F800000#32))
        ((Host.exp (F := Ideal) (φ := .f32) : Fv S320000x128 → Fv S320000x128)
          ((Host.negf (F := Ideal) (φ := .f32) : Fv S320000x128 → Fv S320000x128) x))))

/-- A bias vector as every row of an edge-by-128 matrix. -/
def biasRows (b : Fv S128) : Fv S320000x128 :=
  (broadcastInDim S320000x128 ![0, 1] bcast_S1x128_S320000x128_0_1 : Fv S1x128 → Fv S320000x128)
    ((broadcastInDim S1x128 ![1] bcast_S128_S1x128_1 : Fv S128 → Fv S1x128) b)

/-- The affine map of 256 features to 128. -/
def lin256 (x : Fv S320000x256) (w : Fv S256x128) (b : Fv S128) : Fv S320000x128 :=
  (addf (F := Ideal) (φ := .f32) : Fv S320000x128 → Fv S320000x128 → Fv S320000x128)
    (Host.dotGeneral (F := Ideal) (φ₁ := .f32) (φ₂ := .f32) dot_S320000x256_S256x128_S320000x128_1_0_0_1_n_n none x w) (biasRows b)

/-- The affine map of 128 features to 128. -/
def lin128 (x : Fv S320000x128) (w : Fv S128x128) (b : Fv S128) : Fv S320000x128 :=
  (addf (F := Ideal) (φ := .f32) : Fv S320000x128 → Fv S320000x128 → Fv S320000x128)
    (Host.dotGeneral (F := Ideal) (φ₁ := .f32) (φ₂ := .f32) dot_S320000x128_S128x128_S320000x128_1_0_0_1_n_n none x w) (biasRows b)

/-- The affine map of 18 features to 128. -/
def lin18 (x : Fv S320000x18) (w : Fv S18x128) (b : Fv S128) : Fv S320000x128 :=
  (addf (F := Ideal) (φ := .f32) : Fv S320000x128 → Fv S320000x128 → Fv S320000x128)
    (Host.dotGeneral (F := Ideal) (φ₁ := .f32) (φ₂ := .f32) dot_S320000x18_S18x128_S320000x128_1_0_0_1_n_n none x w) (biasRows b)

/-- The affine map of 128 features to one. -/
def lin1 (x : Fv S320000x128) (w : Fv S128x1) (b : Fv S1) : Fv S320000x1 :=
  (addf (F := Ideal) (φ := .f32) : Fv S320000x1 → Fv S320000x1 → Fv S320000x1)
    (Host.dotGeneral (F := Ideal) (φ₁ := .f32) (φ₂ := .f32) dot_S320000x128_S128x1_S320000x1_1_0_0_1_n_n none x w)
    ((broadcastInDim S320000x1 ![0, 1] bcast_S1x1_S320000x1_0_1 : Fv S1x1 → Fv S320000x1)
      ((broadcastInDim S1x1 ![1] bcast_S1_S1x1_1 : Fv S1 → Fv S1x1) b))

/-- `σ(z)` elementwise on a column: one over one plus the exponential of the negation. -/
def gate1 (z : Fv S320000x1) : Fv S320000x1 :=
  (Host.divf (F := Ideal) (φ := .f32) : Fv S320000x1 → Fv S320000x1 → Fv S320000x1)
    ((broadcastInDim S320000x1 ![] bcast_S_S320000x1 : Fv S_ → Fv S320000x1) (constant (F := Ideal) S_ .f32 0x3F800000#32))
    ((addf (F := Ideal) (φ := .f32) : Fv S320000x1 → Fv S320000x1 → Fv S320000x1)
      ((broadcastInDim S320000x1 ![] bcast_S_S320000x1 : Fv S_ → Fv S320000x1) (constant (F := Ideal) S_ .f32 0x3F800000#32))
      ((Host.exp (F := Ideal) (φ := .f32) : Fv S320000x1 → Fv S320000x1)
        ((Host.negf (F := Ideal) (φ := .f32) : Fv S320000x1 → Fv S320000x1) z)))

/-- `main_v125` from `main_v115`: affine, `x · σ(x)`, affine. -/
def refChem (x : Fv S320000x256) (w3 : Fv S256x128) (b4 : Fv S128) (w5 : Fv S128x128) (b6 : Fv S128) : Fv S320000x128 :=
  lin128 (siluT (lin256 x w3 b4)) w5 b6

/-- `main_v134` from `main_v116`: affine, `x · σ(x)`, affine. -/
def refPos (p : Fv S320000x18) (w7 : Fv S18x128) (b8 : Fv S128) (w9 : Fv S128x128) (b10 : Fv S128) : Fv S320000x128 :=
  lin128 (siluT (lin18 p w7 b8)) w9 b10

/-- `main_v144`: the first result through affine, `x · σ(x)`, affine, times the second. -/
def refMix (ch ps : Fv S320000x128) (w11 : Fv S128x128) (b12 : Fv S128) (w13 : Fv S128x128) (b14 : Fv S128) : Fv S320000x128 :=
  (mulf (F := Ideal) (φ := .f32) : Fv S320000x128 → Fv S320000x128 → Fv S320000x128)
    (lin128 (siluT (lin128 ch w11 b12)) w13 b14) ps

/-- `main_v156` from `main_v125` and `main_v134`: the mix, times `σ` of its affine image in one feature, spread along the rows. -/
def refOut (ch ps : Fv S320000x128) (w11 : Fv S128x128) (b12 : Fv S128) (w13 : Fv S128x128) (b14 : Fv S128)
    (w15 : Fv S128x1) (b16 : Fv S1) : Fv S320000x128 :=
  (mulf (F := Ideal) (φ := .f32) : Fv S320000x128 → Fv S320000x128 → Fv S320000x128)
    (refMix ch ps w11 b12 w13 b14)
    ((broadcastInDim S320000x128 ![0, 1] bcast_S320000x1_S320000x128_0_1 : Fv S320000x1 → Fv S320000x128)
      (gate1 (lin1 (refMix ch ps w11 b12 w13 b14) w15 b16)))

/-! ## Results of the operations whose general result is not in the named terms' form -/

/-- The reshape into `main_v1`, its result in the form `rowWords` has. -/
theorem reshape_v1' {F : FTy → Type} [FloatOps F] (hx hy) (V : Valuation τ sig (Elt F)) :
    (StableHlo.reshape (τ := τ) (Val := Elt F) main_v0 main_v1 rfl shapeCasts_S1x320000_S320000 hx hy).result V (no_index (Proc.devRef .tc main_v1))
      = shapeCast S320000 (V (Proc.devRef .tc main_v0)) shapeCasts_S1x320000_S320000 := by
  rw [reshape_result]; rfl
/-- The reshape into `main_v3`, likewise. -/
theorem reshape_v3' {F : FTy → Type} [FloatOps F] (hx hy) (V : Valuation τ sig (Elt F)) :
    (StableHlo.reshape (τ := τ) (Val := Elt F) main_v2 main_v3 rfl shapeCasts_S1x320000_S320000 hx hy).result V (no_index (Proc.devRef .tc main_v3))
      = shapeCast S320000 (V (Proc.devRef .tc main_v2)) shapeCasts_S1x320000_S320000 := by
  rw [reshape_result]; rfl

/-! ## The concatenations, closed

A concatenation's shape evidence depends on its list of operands, so a rewriting pass does not enter the list. The
three concatenations of the program are therefore named, as functions of their operands: their operations' results
and the named terms that end in one are both stated through these. -/

section Cat
variable {F : FTy → Type} [FloatOps F]

/-- Two 128-column blocks side by side. -/
def cat256 (a b : (⟨S320000x128, .f32⟩ : BufTy).Contents (Elt F)) : (⟨S320000x256, .f32⟩ : BufTy).Contents (Elt F) :=
  concatenate S320000x256 1 [⟨S320000x128, a⟩, ⟨S320000x128, b⟩] concatenates_S320000x128_S320000x128_S320000x256_d1
/-- A 3-column block and a 15-column block side by side. -/
def cat18 (a : (⟨S320000x3, .f32⟩ : BufTy).Contents (Elt F)) (b : (⟨S320000x15, .f32⟩ : BufTy).Contents (Elt F)) :
    (⟨S320000x18, .f32⟩ : BufTy).Contents (Elt F) :=
  concatenate S320000x18 1 [⟨S320000x3, a⟩, ⟨S320000x15, b⟩] concatenates_S320000x3_S320000x15_S320000x18_d1
/-- Three rows stacked into a 3×3 block per node. -/
def cat3x3 (a b c : (⟨S20000x1x3, .f32⟩ : BufTy).Contents (Elt F)) : (⟨S20000x3x3, .f32⟩ : BufTy).Contents (Elt F) :=
  concatenate S20000x3x3 1 [⟨S20000x1x3, a⟩, ⟨S20000x1x3, b⟩, ⟨S20000x1x3, c⟩] concatenates_S20000x1x3_S20000x1x3_S20000x1x3_S20000x3x3_d1

theorem cat_v115' (ha hb hy) (V : Valuation τ sig (Elt F)) :
    (StableHlo.binary (τ := τ) main_v107 main_v114 main_v115 ((fun a b => concatenate S320000x256 1 [⟨S320000x128, a⟩, ⟨S320000x128, b⟩] concatenates_S320000x128_S320000x128_S320000x256_d1) : (⟨S320000x128, .f32⟩ : BufTy).Contents (Elt F) → (⟨S320000x128, .f32⟩ : BufTy).Contents (Elt F) → (⟨S320000x256, .f32⟩ : BufTy).Contents (Elt F)) ha hb hy).result V (no_index (Proc.devRef .tc main_v115))
      = cat256 (V (Proc.devRef .tc main_v107)) (V (Proc.devRef .tc main_v114)) := by
  rw [binary_result]; rfl
theorem cat_v116' (ha hb hy) (V : Valuation τ sig (Elt F)) :
    (StableHlo.binary (τ := τ) main_v100 main_v26 main_v116 ((fun a b => concatenate S320000x18 1 [⟨S320000x3, a⟩, ⟨S320000x15, b⟩] concatenates_S320000x3_S320000x15_S320000x18_d1) : (⟨S320000x3, .f32⟩ : BufTy).Contents (Elt F) → (⟨S320000x15, .f32⟩ : BufTy).Contents (Elt F) → (⟨S320000x18, .f32⟩ : BufTy).Contents (Elt F)) ha hb hy).result V (no_index (Proc.devRef .tc main_v116))
      = cat18 (V (Proc.devRef .tc main_v100)) (V (Proc.devRef .tc main_v26)) := by
  rw [binary_result]; rfl
theorem cat_v84' (hxs hy) (V : Valuation τ sig (Elt F)) :
    (StableHlo.nary (τ := τ) (Val := Elt F) ![main_v81, main_v82, main_v83] main_v84 (fun u => concatenate S20000x3x3 1 [⟨S20000x1x3, u 0⟩, ⟨S20000x1x3, u 1⟩, ⟨S20000x1x3, u 2⟩] concatenates_S20000x1x3_S20000x1x3_S20000x1x3_S20000x3x3_d1) hxs hy).result V (no_index (Proc.devRef .tc main_v84))
      = cat3x3 (V (Proc.devRef .tc main_v81)) (V (Proc.devRef .tc main_v82)) (V (Proc.devRef .tc main_v83)) := by
  rw [nary_result]; rfl

end Cat

theorem chemIn_cat (h : Fv S20000x128) (r c : Iv S320000) :
    chemIn h r c = cat256 (F := Ideal) (Host.gather gather_S20000x128_S320000x1_S320000x128_1_0_n_n_0_1_1128 h (wrapIdx r))
      (Host.gather gather_S20000x128_S320000x1_S320000x128_1_0_n_n_0_1_1128 h (wrapIdx c)) := rfl
theorem posIn18_cat (np : Fv S320000x3) (rad : Fv S320000x15) : posIn18 np rad = cat18 (F := Ideal) np rad := rfl
theorem nvecs_cat (n2 n3 n4 : Fv S20000x3) :
    nvecs n2 n3 n4 = cat3x3 (F := Ideal)
      ((broadcastInDim S20000x1x3 ![0, 2] bcast_S20000x3_S20000x1x3_0_2 : Fv S20000x3 → Fv S20000x1x3) n2)
      ((broadcastInDim S20000x1x3 ![0, 2] bcast_S20000x3_S20000x1x3_0_2 : Fv S20000x3 → Fv S20000x1x3) n3)
      ((broadcastInDim S20000x1x3 ![0, 2] bcast_S20000x3_S20000x1x3_0_2 : Fv S20000x3 → Fv S20000x1x3) n4) := rfl

section Table
variable {F : FTy → Type} [FloatOps F]

/-- The fifteen radial scales, by their literal words (`main_cst`). -/
def scaleTable : (⟨S15, .f32⟩ : BufTy).Contents (Elt F) := fun i => FloatOps.ofBits .f32 (lit0 (S15.rowMajor i))

theorem cst_table' (hy) (V : Valuation τ sig (Elt F)) :
    (StableHlo.nullary (τ := τ) main_cst (fun i => FloatOps.ofBits .f32 (lit0 (S15.rowMajor i))) hy).result V (no_index (Proc.devRef .tc main_cst))
      = scaleTable := by
  rw [nullary_result]; rfl

end Table

theorem radial_table (q : Fv S320000x1) :
    radial q = (Host.exp (F := Ideal) (φ := .f32) : Fv S320000x15 → Fv S320000x15)
      ((mulf (F := Ideal) (φ := .f32) : Fv S320000x15 → Fv S320000x15 → Fv S320000x15)
        ((broadcastInDim S320000x15 ![0, 1] bcast_S320000x1_S320000x15_0_1 : Fv S320000x1 → Fv S320000x15) q)
        ((broadcastInDim S320000x15 ![0, 1] bcast_S1x15_S320000x15_0_1 : Fv S1x15 → Fv S320000x15)
          ((broadcastInDim S1x15 ![1] bcast_S15_S1x15_1 : Fv S15 → Fv S1x15) (scaleTable (F := Ideal))))) := rfl

/-- The fold at one buffer against a composition of the named terms, by one rewriting pass: each operation's result
    at its own buffer is its function's value, at any other buffer what was there; the named terms are unfolded and
    the typed references' transports, which are along `rfl`, removed. The operations whose general result is not in
    the named terms' form (the two reshapes, the three concatenations, the scale table) are rewritten first, by their
    own lemmas. -/
macro "ref_terms_simp" : tactic =>
  `(tactic| (simp (disch := decide) only [after_cons, after_nil,
      ↓reshape_v1', ↓reshape_v3', ↓cat_v84', ↓cat_v115', ↓cat_v116', ↓cst_table',
      nullary_result', unary_result', binary_result', ternary_result',
      nullary_result_ne', unary_result_ne', binary_result_ne', ternary_result_ne', reshape_result_ne', nary_result_ne',
      cast_eq, chemIn_cat, posIn18_cat, nvecs_cat, radial_table,
      rowWords, colWords, wrapIdx, coordDiff, sqNorm1, dnorm, coordDiffN, ordered, countDen, rowSum3, nodeNorm,
      nodeUnit, nforce, nprod,
      siluT, biasRows, lin256, lin128, lin18, lin1, gate1, refChem, refPos, refMix, refOut]))

/-! ## What the line writes, and the arguments it leaves -/

section Frame
variable {F : FTy → Type} [FloatOps F]

/-- The 227 buffers the operations write, in order: every buffer but the seventeen arguments, each once. -/
abbrev written : List (Ref sig .tc) :=
  [ main_cst, main_v0, main_v1, main_v2, main_v3, main_c, main_v4, main_v5,
    main_c_0, main_v6, main_v7, main_v8, main_v9, main_v10, main_c_1, main_v11,
    main_v12, main_c_2, main_v13, main_v14, main_v15, main_v16, main_v17, main_v18,
    main_v19, main_cst_3, main_v20, main_v21, main_v22, main_v23, main_v24, main_v25,
    main_v26, main_call0.v0.ref, main_call0.cst.ref, main_call0.v1.ref, main_call0.v2.ref, main_call0.v3.ref, main_cst_4, main_v28,
    main_v29, main_v30, main_v31, main_cst_5, main_v32, main_cst_6, main_v33, main_v34,
    main_v35, main_cst_7, main_v36, main_v37, main_v38, main_cst_8, main_v39, main_v40,
    main_v41, main_v42, main_cst_9, main_v43, main_v44, main_v45, main_v46, main_v47,
    main_call1.v0.ref, main_call1.cst.ref, main_call1.v1.ref, main_call1.v2.ref, main_call1.v3.ref, main_cst_10, main_v49, main_v50,
    main_v51, main_v52, main_cst_11, main_v53, main_v54, main_v55, main_v56, main_cst_12,
    main_v57, main_v58, main_v59, main_v60, main_v61, main_call2.v0.ref, main_call2.cst.ref, main_call2.v1.ref,
    main_call2.v2.ref, main_call2.v3.ref, main_cst_13, main_v63, main_v64, main_v65, main_v66, main_cst_14,
    main_v67, main_v68, main_v69, main_v70, main_cst_15, main_v71, main_v72, main_v73,
    main_v74, main_v75, main_call3.v0.ref, main_call3.cst.ref, main_call3.v1.ref, main_call3.v2.ref, main_call3.v3.ref, main_cst_16,
    main_v77, main_v78, main_v79, main_v80, main_v81, main_v82, main_v83, main_v84,
    main_c_17, main_v85, main_v86, main_c_18, main_v87, main_v88, main_v89, main_v90,
    main_v91, main_c_19, main_v92, main_v93, main_c_20, main_v94, main_v95, main_v96,
    main_v97, main_v98, main_v99, main_cst_21, main_v100, main_c_22, main_v101, main_v102,
    main_c_23, main_v103, main_v104, main_v105, main_v106, main_v107, main_c_24, main_v108,
    main_v109, main_c_25, main_v110, main_v111, main_v112, main_v113, main_v114, main_v115,
    main_v116, main_v117, main_v118, main_v119, main_v120, main_call4.v0.ref, main_call4.v1.ref, main_call4.cst.ref,
    main_call4.v2.ref, main_call4.v3.ref, main_call4.cst_0.ref, main_call4.v4.ref, main_call4.v5.ref, main_call4.v6.ref, main_v122, main_v123,
    main_v124, main_v125, main_v126, main_v127, main_v128, main_v129, main_call5.v0.ref, main_call5.v1.ref,
    main_call5.cst.ref, main_call5.v2.ref, main_call5.v3.ref, main_call5.cst_0.ref, main_call5.v4.ref, main_call5.v5.ref, main_call5.v6.ref, main_v131,
    main_v132, main_v133, main_v134, main_v135, main_v136, main_v137, main_v138, main_call6.v0.ref,
    main_call6.v1.ref, main_call6.cst.ref, main_call6.v2.ref, main_call6.v3.ref, main_call6.cst_0.ref, main_call6.v4.ref, main_call6.v5.ref, main_call6.v6.ref,
    main_v140, main_v141, main_v142, main_v143, main_v144, main_v145, main_v146, main_v147,
    main_v148, main_v149, main_v150, main_cst_26, main_v151, main_v152, main_cst_27, main_v153,
    main_v154, main_v155, main_v156 ]

theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

set_option maxRecDepth 8192 in
/-- Each operation writes its one result buffer, which is on the list. -/
theorem ops_writes : (ops : List (HloOp τ sig (Elt F))).Forall fun op =>
    op.writes ⊆ (written.map (Proc.devRef (τ := τ) .tc)).toFinset :=
  ⟨single_sub_of_mem (y := main_cst) (by decide), single_sub_of_mem (y := main_v0) (by decide), single_sub_of_mem (y := main_v1) (by decide), single_sub_of_mem (y := main_v2) (by decide),
    single_sub_of_mem (y := main_v3) (by decide), single_sub_of_mem (y := main_c) (by decide), single_sub_of_mem (y := main_v4) (by decide), single_sub_of_mem (y := main_v5) (by decide),
    single_sub_of_mem (y := main_c_0) (by decide), single_sub_of_mem (y := main_v6) (by decide), single_sub_of_mem (y := main_v7) (by decide), single_sub_of_mem (y := main_v8) (by decide),
    single_sub_of_mem (y := main_v9) (by decide), single_sub_of_mem (y := main_v10) (by decide), single_sub_of_mem (y := main_c_1) (by decide), single_sub_of_mem (y := main_v11) (by decide),
    single_sub_of_mem (y := main_v12) (by decide), single_sub_of_mem (y := main_c_2) (by decide), single_sub_of_mem (y := main_v13) (by decide), single_sub_of_mem (y := main_v14) (by decide),
    single_sub_of_mem (y := main_v15) (by decide), single_sub_of_mem (y := main_v16) (by decide), single_sub_of_mem (y := main_v17) (by decide), single_sub_of_mem (y := main_v18) (by decide),
    single_sub_of_mem (y := main_v19) (by decide), single_sub_of_mem (y := main_cst_3) (by decide), single_sub_of_mem (y := main_v20) (by decide), single_sub_of_mem (y := main_v21) (by decide),
    single_sub_of_mem (y := main_v22) (by decide), single_sub_of_mem (y := main_v23) (by decide), single_sub_of_mem (y := main_v24) (by decide), single_sub_of_mem (y := main_v25) (by decide),
    single_sub_of_mem (y := main_v26) (by decide), single_sub_of_mem (y := main_call0.v0.ref) (by decide), single_sub_of_mem (y := main_call0.cst.ref) (by decide), single_sub_of_mem (y := main_call0.v1.ref) (by decide),
    single_sub_of_mem (y := main_call0.v2.ref) (by decide), single_sub_of_mem (y := main_call0.v3.ref) (by decide), single_sub_of_mem (y := main_cst_4) (by decide), single_sub_of_mem (y := main_v28) (by decide),
    single_sub_of_mem (y := main_v29) (by decide), single_sub_of_mem (y := main_v30) (by decide), single_sub_of_mem (y := main_v31) (by decide), single_sub_of_mem (y := main_cst_5) (by decide),
    single_sub_of_mem (y := main_v32) (by decide), single_sub_of_mem (y := main_cst_6) (by decide), single_sub_of_mem (y := main_v33) (by decide), single_sub_of_mem (y := main_v34) (by decide),
    single_sub_of_mem (y := main_v35) (by decide), single_sub_of_mem (y := main_cst_7) (by decide), single_sub_of_mem (y := main_v36) (by decide), single_sub_of_mem (y := main_v37) (by decide),
    single_sub_of_mem (y := main_v38) (by decide), single_sub_of_mem (y := main_cst_8) (by decide), single_sub_of_mem (y := main_v39) (by decide), single_sub_of_mem (y := main_v40) (by decide),
    single_sub_of_mem (y := main_v41) (by decide), single_sub_of_mem (y := main_v42) (by decide), single_sub_of_mem (y := main_cst_9) (by decide), single_sub_of_mem (y := main_v43) (by decide),
    single_sub_of_mem (y := main_v44) (by decide), single_sub_of_mem (y := main_v45) (by decide), single_sub_of_mem (y := main_v46) (by decide), single_sub_of_mem (y := main_v47) (by decide),
    single_sub_of_mem (y := main_call1.v0.ref) (by decide), single_sub_of_mem (y := main_call1.cst.ref) (by decide), single_sub_of_mem (y := main_call1.v1.ref) (by decide), single_sub_of_mem (y := main_call1.v2.ref) (by decide),
    single_sub_of_mem (y := main_call1.v3.ref) (by decide), single_sub_of_mem (y := main_cst_10) (by decide), single_sub_of_mem (y := main_v49) (by decide), single_sub_of_mem (y := main_v50) (by decide),
    single_sub_of_mem (y := main_v51) (by decide), single_sub_of_mem (y := main_v52) (by decide), single_sub_of_mem (y := main_cst_11) (by decide), single_sub_of_mem (y := main_v53) (by decide),
    single_sub_of_mem (y := main_v54) (by decide), single_sub_of_mem (y := main_v55) (by decide), single_sub_of_mem (y := main_v56) (by decide), single_sub_of_mem (y := main_cst_12) (by decide),
    single_sub_of_mem (y := main_v57) (by decide), single_sub_of_mem (y := main_v58) (by decide), single_sub_of_mem (y := main_v59) (by decide), single_sub_of_mem (y := main_v60) (by decide),
    single_sub_of_mem (y := main_v61) (by decide), single_sub_of_mem (y := main_call2.v0.ref) (by decide), single_sub_of_mem (y := main_call2.cst.ref) (by decide), single_sub_of_mem (y := main_call2.v1.ref) (by decide),
    single_sub_of_mem (y := main_call2.v2.ref) (by decide), single_sub_of_mem (y := main_call2.v3.ref) (by decide), single_sub_of_mem (y := main_cst_13) (by decide), single_sub_of_mem (y := main_v63) (by decide),
    single_sub_of_mem (y := main_v64) (by decide), single_sub_of_mem (y := main_v65) (by decide), single_sub_of_mem (y := main_v66) (by decide), single_sub_of_mem (y := main_cst_14) (by decide),
    single_sub_of_mem (y := main_v67) (by decide), single_sub_of_mem (y := main_v68) (by decide), single_sub_of_mem (y := main_v69) (by decide), single_sub_of_mem (y := main_v70) (by decide),
    single_sub_of_mem (y := main_cst_15) (by decide), single_sub_of_mem (y := main_v71) (by decide), single_sub_of_mem (y := main_v72) (by decide), single_sub_of_mem (y := main_v73) (by decide),
    single_sub_of_mem (y := main_v74) (by decide), single_sub_of_mem (y := main_v75) (by decide), single_sub_of_mem (y := main_call3.v0.ref) (by decide), single_sub_of_mem (y := main_call3.cst.ref) (by decide),
    single_sub_of_mem (y := main_call3.v1.ref) (by decide), single_sub_of_mem (y := main_call3.v2.ref) (by decide), single_sub_of_mem (y := main_call3.v3.ref) (by decide), single_sub_of_mem (y := main_cst_16) (by decide),
    single_sub_of_mem (y := main_v77) (by decide), single_sub_of_mem (y := main_v78) (by decide), single_sub_of_mem (y := main_v79) (by decide), single_sub_of_mem (y := main_v80) (by decide),
    single_sub_of_mem (y := main_v81) (by decide), single_sub_of_mem (y := main_v82) (by decide), single_sub_of_mem (y := main_v83) (by decide), single_sub_of_mem (y := main_v84) (by decide),
    single_sub_of_mem (y := main_c_17) (by decide), single_sub_of_mem (y := main_v85) (by decide), single_sub_of_mem (y := main_v86) (by decide), single_sub_of_mem (y := main_c_18) (by decide),
    single_sub_of_mem (y := main_v87) (by decide), single_sub_of_mem (y := main_v88) (by decide), single_sub_of_mem (y := main_v89) (by decide), single_sub_of_mem (y := main_v90) (by decide),
    single_sub_of_mem (y := main_v91) (by decide), single_sub_of_mem (y := main_c_19) (by decide), single_sub_of_mem (y := main_v92) (by decide), single_sub_of_mem (y := main_v93) (by decide),
    single_sub_of_mem (y := main_c_20) (by decide), single_sub_of_mem (y := main_v94) (by decide), single_sub_of_mem (y := main_v95) (by decide), single_sub_of_mem (y := main_v96) (by decide),
    single_sub_of_mem (y := main_v97) (by decide), single_sub_of_mem (y := main_v98) (by decide), single_sub_of_mem (y := main_v99) (by decide), single_sub_of_mem (y := main_cst_21) (by decide),
    single_sub_of_mem (y := main_v100) (by decide), single_sub_of_mem (y := main_c_22) (by decide), single_sub_of_mem (y := main_v101) (by decide), single_sub_of_mem (y := main_v102) (by decide),
    single_sub_of_mem (y := main_c_23) (by decide), single_sub_of_mem (y := main_v103) (by decide), single_sub_of_mem (y := main_v104) (by decide), single_sub_of_mem (y := main_v105) (by decide),
    single_sub_of_mem (y := main_v106) (by decide), single_sub_of_mem (y := main_v107) (by decide), single_sub_of_mem (y := main_c_24) (by decide), single_sub_of_mem (y := main_v108) (by decide),
    single_sub_of_mem (y := main_v109) (by decide), single_sub_of_mem (y := main_c_25) (by decide), single_sub_of_mem (y := main_v110) (by decide), single_sub_of_mem (y := main_v111) (by decide),
    single_sub_of_mem (y := main_v112) (by decide), single_sub_of_mem (y := main_v113) (by decide), single_sub_of_mem (y := main_v114) (by decide), single_sub_of_mem (y := main_v115) (by decide),
    single_sub_of_mem (y := main_v116) (by decide), single_sub_of_mem (y := main_v117) (by decide), single_sub_of_mem (y := main_v118) (by decide), single_sub_of_mem (y := main_v119) (by decide),
    single_sub_of_mem (y := main_v120) (by decide), single_sub_of_mem (y := main_call4.v0.ref) (by decide), single_sub_of_mem (y := main_call4.v1.ref) (by decide), single_sub_of_mem (y := main_call4.cst.ref) (by decide),
    single_sub_of_mem (y := main_call4.v2.ref) (by decide), single_sub_of_mem (y := main_call4.v3.ref) (by decide), single_sub_of_mem (y := main_call4.cst_0.ref) (by decide), single_sub_of_mem (y := main_call4.v4.ref) (by decide),
    single_sub_of_mem (y := main_call4.v5.ref) (by decide), single_sub_of_mem (y := main_call4.v6.ref) (by decide), single_sub_of_mem (y := main_v122) (by decide), single_sub_of_mem (y := main_v123) (by decide),
    single_sub_of_mem (y := main_v124) (by decide), single_sub_of_mem (y := main_v125) (by decide), single_sub_of_mem (y := main_v126) (by decide), single_sub_of_mem (y := main_v127) (by decide),
    single_sub_of_mem (y := main_v128) (by decide), single_sub_of_mem (y := main_v129) (by decide), single_sub_of_mem (y := main_call5.v0.ref) (by decide), single_sub_of_mem (y := main_call5.v1.ref) (by decide),
    single_sub_of_mem (y := main_call5.cst.ref) (by decide), single_sub_of_mem (y := main_call5.v2.ref) (by decide), single_sub_of_mem (y := main_call5.v3.ref) (by decide), single_sub_of_mem (y := main_call5.cst_0.ref) (by decide),
    single_sub_of_mem (y := main_call5.v4.ref) (by decide), single_sub_of_mem (y := main_call5.v5.ref) (by decide), single_sub_of_mem (y := main_call5.v6.ref) (by decide), single_sub_of_mem (y := main_v131) (by decide),
    single_sub_of_mem (y := main_v132) (by decide), single_sub_of_mem (y := main_v133) (by decide), single_sub_of_mem (y := main_v134) (by decide), single_sub_of_mem (y := main_v135) (by decide),
    single_sub_of_mem (y := main_v136) (by decide), single_sub_of_mem (y := main_v137) (by decide), single_sub_of_mem (y := main_v138) (by decide), single_sub_of_mem (y := main_call6.v0.ref) (by decide),
    single_sub_of_mem (y := main_call6.v1.ref) (by decide), single_sub_of_mem (y := main_call6.cst.ref) (by decide), single_sub_of_mem (y := main_call6.v2.ref) (by decide), single_sub_of_mem (y := main_call6.v3.ref) (by decide),
    single_sub_of_mem (y := main_call6.cst_0.ref) (by decide), single_sub_of_mem (y := main_call6.v4.ref) (by decide), single_sub_of_mem (y := main_call6.v5.ref) (by decide), single_sub_of_mem (y := main_call6.v6.ref) (by decide),
    single_sub_of_mem (y := main_v140) (by decide), single_sub_of_mem (y := main_v141) (by decide), single_sub_of_mem (y := main_v142) (by decide), single_sub_of_mem (y := main_v143) (by decide),
    single_sub_of_mem (y := main_v144) (by decide), single_sub_of_mem (y := main_v145) (by decide), single_sub_of_mem (y := main_v146) (by decide), single_sub_of_mem (y := main_v147) (by decide),
    single_sub_of_mem (y := main_v148) (by decide), single_sub_of_mem (y := main_v149) (by decide), single_sub_of_mem (y := main_v150) (by decide), single_sub_of_mem (y := main_cst_26) (by decide),
    single_sub_of_mem (y := main_v151) (by decide), single_sub_of_mem (y := main_v152) (by decide), single_sub_of_mem (y := main_cst_27) (by decide), single_sub_of_mem (y := main_v153) (by decide),
    single_sub_of_mem (y := main_v154) (by decide), single_sub_of_mem (y := main_v155) (by decide), single_sub_of_mem (y := main_v156) (by decide)⟩

/-- A buffer not on the list keeps its contents through the line. -/
theorem kept {r : Ref sig .tc} (hr : r ∉ written) (V : Valuation τ sig (Elt F)) :
    after (ops (F := F)) V (Proc.devRef .tc r) = V (Proc.devRef .tc r) :=
  after_of_writes_sub ops V ops_writes hr

end Frame

variable (m : (ℓ : Loc nD τ sig) → Buf (Elt Ideal) ℓ) (c : Dev nD)

/-- The launch contents of device `c`'s buffers. -/
local notation "L" => launchContents m c

/-- The seventeen argument buffers end at their launch contents. -/
theorem args_kept :
    after (ops (F := Ideal)) L (main_arg0 : DevRef τ sig) = m ((c.tc : Thread nD τ).loc main_arg0)
    ∧ after (ops (F := Ideal)) L (main_arg1 : DevRef τ sig) = m ((c.tc : Thread nD τ).loc main_arg1)
    ∧ after (ops (F := Ideal)) L (main_arg2 : DevRef τ sig) = m ((c.tc : Thread nD τ).loc main_arg2)
    ∧ after (ops (F := Ideal)) L (main_arg3 : DevRef τ sig) = m ((c.tc : Thread nD τ).loc main_arg3)
    ∧ after (ops (F := Ideal)) L (main_arg4 : DevRef τ sig) = m ((c.tc : Thread nD τ).loc main_arg4)
    ∧ after (ops (F := Ideal)) L (main_arg5 : DevRef τ sig) = m ((c.tc : Thread nD τ).loc main_arg5)
    ∧ after (ops (F := Ideal)) L (main_arg6 : DevRef τ sig) = m ((c.tc : Thread nD τ).loc main_arg6)
    ∧ after (ops (F := Ideal)) L (main_arg7 : DevRef τ sig) = m ((c.tc : Thread nD τ).loc main_arg7)
    ∧ after (ops (F := Ideal)) L (main_arg8 : DevRef τ sig) = m ((c.tc : Thread nD τ).loc main_arg8)
    ∧ after (ops (F := Ideal)) L (main_arg9 : DevRef τ sig) = m ((c.tc : Thread nD τ).loc main_arg9)
    ∧ after (ops (F := Ideal)) L (main_arg10 : DevRef τ sig) = m ((c.tc : Thread nD τ).loc main_arg10)
    ∧ after (ops (F := Ideal)) L (main_arg11 : DevRef τ sig) = m ((c.tc : Thread nD τ).loc main_arg11)
    ∧ after (ops (F := Ideal)) L (main_arg12 : DevRef τ sig) = m ((c.tc : Thread nD τ).loc main_arg12)
    ∧ after (ops (F := Ideal)) L (main_arg13 : DevRef τ sig) = m ((c.tc : Thread nD τ).loc main_arg13)
    ∧ after (ops (F := Ideal)) L (main_arg14 : DevRef τ sig) = m ((c.tc : Thread nD τ).loc main_arg14)
    ∧ after (ops (F := Ideal)) L (main_arg15 : DevRef τ sig) = m ((c.tc : Thread nD τ).loc main_arg15)
    ∧ after (ops (F := Ideal)) L (main_arg16 : DevRef τ sig) = m ((c.tc : Thread nD τ).loc main_arg16) :=
  ⟨kept (by decide) _, kept (by decide) _, kept (by decide) _, kept (by decide) _, kept (by decide) _, kept (by decide) _, kept (by decide) _, kept (by decide) _, kept (by decide) _, kept (by decide) _, kept (by decide) _, kept (by decide) _, kept (by decide) _, kept (by decide) _, kept (by decide) _, kept (by decide) _, kept (by decide) _⟩

/-! ## The buffers as named terms -/

set_option maxRecDepth 8192 in
set_option maxHeartbeats 4000000 in
theorem v31_L : (after (ops (F := Ideal)) L (main_v31 : DevRef τ sig))
      = coordDiffN (coordDiff (L (main_arg1 : DevRef τ sig)) (rowWords (L (main_arg2 : DevRef τ sig))) (colWords (L (main_arg2 : DevRef τ sig)))) := by
  ref_terms_simp

set_option maxRecDepth 8192 in
set_option maxHeartbeats 4000000 in
theorem v115_L : (after (ops (F := Ideal)) L (main_v115 : DevRef τ sig))
      = chemIn (L (main_arg0 : DevRef τ sig)) (rowWords (L (main_arg2 : DevRef τ sig))) (colWords (L (main_arg2 : DevRef τ sig))) := by
  ref_terms_simp

set_option maxRecDepth 8192 in
set_option maxHeartbeats 4000000 in
theorem v116_L : (after (ops (F := Ideal)) L (main_v116 : DevRef τ sig))
      = posIn18 (nprod (nvecs (nforce (rowSum3 (rowWords (L (main_arg2 : DevRef τ sig))) (ordered (coordDiff (L (main_arg1 : DevRef τ sig)) (rowWords (L (main_arg2 : DevRef τ sig))) (colWords (L (main_arg2 : DevRef τ sig)))) 0xC0400000#32)) (countDen (rowWords (L (main_arg2 : DevRef τ sig))))) (nforce (rowSum3 (rowWords (L (main_arg2 : DevRef τ sig))) (ordered (coordDiff (L (main_arg1 : DevRef τ sig)) (rowWords (L (main_arg2 : DevRef τ sig))) (colWords (L (main_arg2 : DevRef τ sig)))) 0xC0800000#32)) (countDen (rowWords (L (main_arg2 : DevRef τ sig))))) (nforce (rowSum3 (rowWords (L (main_arg2 : DevRef τ sig))) (ordered (coordDiff (L (main_arg1 : DevRef τ sig)) (rowWords (L (main_arg2 : DevRef τ sig))) (colWords (L (main_arg2 : DevRef τ sig)))) 0xC0A00000#32)) (countDen (rowWords (L (main_arg2 : DevRef τ sig)))))) (rowWords (L (main_arg2 : DevRef τ sig))) (colWords (L (main_arg2 : DevRef τ sig)))) (radial (sqNorm1 (coordDiff (L (main_arg1 : DevRef τ sig)) (rowWords (L (main_arg2 : DevRef τ sig))) (colWords (L (main_arg2 : DevRef τ sig)))))) := by
  ref_terms_simp

/-! ## The same over the memory `m`, with the recurring terms named -/

/-- Row 0 of device `c`'s edge table. -/
abbrev refRow : Iv S320000 := rowWords (m ((c.tc : Thread nD τ).loc main_arg2))
/-- Row 1 of it. -/
abbrev refCol : Iv S320000 := colWords (m ((c.tc : Thread nD τ).loc main_arg2))
/-- The edge vectors. -/
abbrev refD : Fv S320000x3 := coordDiff (m ((c.tc : Thread nD τ).loc main_arg1)) (refRow m c) (refCol m c)
/-- The per-node unit vector of the edge vectors weighted by their length to the power of float bits `w`. -/
abbrev refN (w : BitVec 32) : Fv S20000x3 := nforce (rowSum3 (refRow m c) (ordered (refD m c) w)) (countDen (refRow m c))
/-- The three of them stacked, at the powers −3, −4, −5. -/
abbrev refNV : Fv S20000x3x3 := nvecs (refN m c 0xC0400000#32) (refN m c 0xC0800000#32) (refN m c 0xC0A00000#32)

theorem v31_eq : (after (ops (F := Ideal)) L (main_v31 : DevRef τ sig)) = coordDiffN (refD m c) := v31_L m c

theorem v115_eq : (after (ops (F := Ideal)) L (main_v115 : DevRef τ sig)) = chemIn (m ((c.tc : Thread nD τ).loc main_arg0)) (refRow m c) (refCol m c) := v115_L m c

theorem v116_eq : (after (ops (F := Ideal)) L (main_v116 : DevRef τ sig))
      = posIn18 (nprod (refNV m c) (refRow m c) (refCol m c)) (radial (sqNorm1 (refD m c))) := v116_L m c

end Cert.RefHostTerms

end
-- ==== Proof.RefDenseSteps.lean ====
/-
  The reference program's three dense results, one step at a time, at the ideal float values: each as the named
  dense term of the contents of the buffers it reads — `main_v125` from `main_v115`, `main_v134` from `main_v116`,
  `main_v156` from those two — and of the weight and bias arguments. Both sides are read off the fold of the 227 host
  operations by the one rewriting pass, so they meet as the same term.
-/
import proofs.«110032_j62122406969661_2_alg».proof.Proof.RefHostTerms

noncomputable section

namespace Cert.RefHostTerms

open Cert.ReferenceIdeal Cert.ReferenceIdeal.Gen Cert.ReferenceIdeal.HandRun Cert.HostTerms
open Idealize.ShloMosaic Idealize.ShloMosaic.TcCoe Idealize.SL.Sem Idealize.ShloMosaic.StableHlo

variable (m : (ℓ : Loc nD τ sig) → Buf (Elt Ideal) ℓ) (c : Dev nD)

/-- The launch contents of device `c`'s buffers. -/
local notation "L" => launchContents m c

/-! ## Over the launch contents -/

set_option maxRecDepth 8192 in
set_option maxHeartbeats 4000000 in
theorem v125_L : (after (ops (F := Ideal)) L (main_v125 : DevRef τ sig))
      = refChem (after (ops (F := Ideal)) L (main_v115 : DevRef τ sig)) (L (main_arg3 : DevRef τ sig)) (L (main_arg4 : DevRef τ sig)) (L (main_arg5 : DevRef τ sig)) (L (main_arg6 : DevRef τ sig)) := by
  ref_terms_simp

set_option maxRecDepth 8192 in
set_option maxHeartbeats 4000000 in
theorem v134_L : (after (ops (F := Ideal)) L (main_v134 : DevRef τ sig))
      = refPos (after (ops (F := Ideal)) L (main_v116 : DevRef τ sig)) (L (main_arg7 : DevRef τ sig)) (L (main_arg8 : DevRef τ sig)) (L (main_arg9 : DevRef τ sig)) (L (main_arg10 : DevRef τ sig)) := by
  ref_terms_simp

set_option maxRecDepth 8192 in
set_option maxHeartbeats 4000000 in
theorem v156_L : (after (ops (F := Ideal)) L (main_v156 : DevRef τ sig))
      = refOut (after (ops (F := Ideal)) L (main_v125 : DevRef τ sig)) (after (ops (F := Ideal)) L (main_v134 : DevRef τ sig)) (L (main_arg11 : DevRef τ sig)) (L (main_arg12 : DevRef τ sig)) (L (main_arg13 : DevRef τ sig)) (L (main_arg14 : DevRef τ sig)) (L (main_arg15 : DevRef τ sig)) (L (main_arg16 : DevRef τ sig)) := by
  ref_terms_simp

/-! ## Over the memory `m` -/

theorem v125_eq : (after (ops (F := Ideal)) L (main_v125 : DevRef τ sig))
      = refChem (after (ops (F := Ideal)) L (main_v115 : DevRef τ sig)) (m ((c.tc : Thread nD τ).loc main_arg3)) (m ((c.tc : Thread nD τ).loc main_arg4)) (m ((c.tc : Thread nD τ).loc main_arg5)) (m ((c.tc : Thread nD τ).loc main_arg6)) := v125_L m c

theorem v134_eq : (after (ops (F := Ideal)) L (main_v134 : DevRef τ sig))
      = refPos (after (ops (F := Ideal)) L (main_v116 : DevRef τ sig)) (m ((c.tc : Thread nD τ).loc main_arg7)) (m ((c.tc : Thread nD τ).loc main_arg8)) (m ((c.tc : Thread nD τ).loc main_arg9)) (m ((c.tc : Thread nD τ).loc main_arg10)) := v134_L m c

theorem v156_eq : (after (ops (F := Ideal)) L (main_v156 : DevRef τ sig))
      = refOut (after (ops (F := Ideal)) L (main_v125 : DevRef τ sig)) (after (ops (F := Ideal)) L (main_v134 : DevRef τ sig)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) := v156_L m c

end Cert.RefHostTerms

end
-- ==== Proof.RefDenseOps.lean ====
/-
  The host operations of a dense layer, read at one index, over the extended reals and for any extents.

  A dense layer of the reference is: a product of an [E, K] array by a [K, J] matrix; a bias of J entries laid out
  as one row [1, J] and then repeated along the E rows; a sum entry by entry; and, between two such layers, the gate
  x ↦ x · (1 / (1 + exp (−x))), spelled with two arrays filled with the word of one. This module reads each of these
  at an index:

  * the product at (e, j) is the sum over the contracted coordinate k of A (e, k) · B (k, j) ('dot_apply');
  * a vector laid out as a one-row array reads its entry j at (0, j) ('rowOfVec_apply'); a one-row array repeated
    along the rows reads its entry (0, j) at (e, j) ('spreadRow_apply'); together, the bias at (e, j) is entry j of
    the vector ('bias_apply');
  * the gate's term at an index i is silu of the operand there ('gate_apply'), because the word 0x3F800000 is one
    and the logistic function is by definition 1 / (1 + exp (−x));
  * two arrays joined along the columns read the first at a column below its width and the second, the width less,
    from there on ('joinCols_apply_left', 'joinCols_apply_right').
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.StackMember
import proofs.«110032_j62122406969661_2_alg».proof.Proof.Spec
import proofs.«110032_j62122406969661_2_alg».proof.Proof.LibNodeAverage

set_option pp.maxSteps 5000
set_option pp.deepTerms false

noncomputable section

open scoped BigOperators

namespace Cert.RefDense

open Idealize.ShloMosaic Idealize.ShloMosaic.ValueIdx

/-! ## The product -/

/-- The product of an m×k array by a k×n matrix at (a, b): the sum over the contracted coordinate. -/
theorem dot_apply {m k n : Nat} {φ₁ φ₂ : FTy} (d : DotDims ⟨2, ![m, k]⟩ ⟨2, ![k, n]⟩ ⟨2, ![m, n]⟩)
    (hd : d = DotDims.plain m k n) (A : FVec Ideal ⟨2, ![m, k]⟩ φ₁) (B : FVec Ideal ⟨2, ![k, n]⟩ φ₂)
    (a : Fin m) (b : Fin n) :
    Host.dotGeneral d none A B (ix2 a b) = ∑ c : Fin k, A (ix2 a c) * B (ix2 c b) := by
  subst hd
  exact StackMember.dotGeneral_plain_apply none A B a b

/-! ## The bias -/

/-- A vector of K entries laid out as the one row of a [1, K] array: entry (0, j) is entry j. -/
theorem rowOfVec_apply {K : Nat} {α : Type}
    (h : (⟨1, ![K]⟩ : Shape).BroadcastsInDim ⟨2, ![1, K]⟩ ![1])
    (x : (⟨1, ![K]⟩ : Shape).Idx → α) (j : Fin K) :
    broadcastInDim ⟨2, ![1, K]⟩ ![1] h x (ix2 (0 : Fin 1) j) = x (ix1 j) :=
  broadcastInDim_apply ![1] h x (ix2 (0 : Fin 1) j) (ix1 j) (fun c => match c with
    | ⟨0, _⟩ => by
      -- the vector's one axis has extent K and is sent to axis 1: it keeps the column (0 when K = 1)
      show j.val = if K = 1 then 0 else j.val
      by_cases hK : K = 1
      · rw [if_pos hK]; have := j.isLt; omega
      · rw [if_neg hK])

/-- A one-row array repeated along E rows: entry (e, j) is entry (0, j) of the row. -/
theorem spreadRow_apply {E K : Nat} {α : Type}
    (h : (⟨2, ![1, K]⟩ : Shape).BroadcastsInDim ⟨2, ![E, K]⟩ ![0, 1])
    (Y : (⟨2, ![1, K]⟩ : Shape).Idx → α) (e : Fin E) (j : Fin K) :
    broadcastInDim ⟨2, ![E, K]⟩ ![0, 1] h Y (ix2 e j) = Y (ix2 (0 : Fin 1) j) :=
  broadcastInDim_apply ![0, 1] h Y (ix2 e j) (ix2 (0 : Fin 1) j) (fun c => match c with
    | ⟨0, _⟩ => by
      -- axis 0 of the row has extent 1: it reads coordinate 0
      show 0 = if (1 : Nat) = 1 then 0 else e.val
      rw [if_pos rfl]
    | ⟨1, _⟩ => by
      -- axis 1 of the row has extent K: it keeps the column (0 when K = 1)
      show j.val = if K = 1 then 0 else j.val
      by_cases hK : K = 1
      · rw [if_pos hK]; have := j.isLt; omega
      · rw [if_neg hK])

/-- The bias of a dense layer at (e, j): entry j of the bias vector. -/
theorem bias_apply {E K : Nat} {α : Type}
    (h1 : (⟨1, ![K]⟩ : Shape).BroadcastsInDim ⟨2, ![1, K]⟩ ![1])
    (h2 : (⟨2, ![1, K]⟩ : Shape).BroadcastsInDim ⟨2, ![E, K]⟩ ![0, 1])
    (x : (⟨1, ![K]⟩ : Shape).Idx → α) (e : Fin E) (j : Fin K) :
    broadcastInDim ⟨2, ![E, K]⟩ ![0, 1] h2 (broadcastInDim ⟨2, ![1, K]⟩ ![1] h1 x) (ix2 e j) = x (ix1 j) :=
  (spreadRow_apply h2 _ e j).trans (rowOfVec_apply h1 x j)

/-- One affine layer at (e, j): the row's product with the matrix's column, plus the bias's entry. -/
theorem affine_apply {E K J : Nat} (d : DotDims ⟨2, ![E, K]⟩ ⟨2, ![K, J]⟩ ⟨2, ![E, J]⟩)
    (hd : d = DotDims.plain E K J)
    (h1 : (⟨1, ![J]⟩ : Shape).BroadcastsInDim ⟨2, ![1, J]⟩ ![1])
    (h2 : (⟨2, ![1, J]⟩ : Shape).BroadcastsInDim ⟨2, ![E, J]⟩ ![0, 1])
    (X : FVec Ideal ⟨2, ![E, K]⟩ .f32) (W : FVec Ideal ⟨2, ![K, J]⟩ .f32) (b : FVec Ideal ⟨1, ![J]⟩ .f32)
    (e : Fin E) (j : Fin J) :
    addf (Host.dotGeneral d none X W) (broadcastInDim ⟨2, ![E, J]⟩ ![0, 1] h2 (broadcastInDim ⟨2, ![1, J]⟩ ![1] h1 b)) (ix2 e j)
      = Cert.Spec.lin (fun k => X (ix2 e k)) (fun k j => W (ix2 k j)) (fun j => b (ix1 j)) j := by
  rw [addf_apply, dot_apply d hd X W e j, bias_apply h1 h2 b e j]
  rfl

/-! ## The logistic function and the gate -/

/-- The quotient 1 / (1 + exp (−x)), both ones arrays filled with the word of one, at an index: the logistic function
    of the operand there. -/
theorem sigmoid_apply {T : Shape} (h : (⟨0, ![]⟩ : Shape).BroadcastsInDim T ![]) (x : FVec Ideal T .f32) (i : T.Idx) :
    Host.divf (broadcastInDim T ![] h (constant (F := Ideal) ⟨0, ![]⟩ .f32 0x3F800000#32))
      (addf (broadcastInDim T ![] h (constant (F := Ideal) ⟨0, ![]⟩ .f32 0x3F800000#32)) (Host.exp (Host.negf x))) i
      = Ideal.logistic (x i) := by
  show Ideal.div (broadcastInDim T ![] h (constant (F := Ideal) ⟨0, ![]⟩ .f32 0x3F800000#32) i)
      (broadcastInDim T ![] h (constant (F := Ideal) ⟨0, ![]⟩ .f32 0x3F800000#32) i + Ideal.exp (-(x i))) = _
  rw [Cert.Lib.RowOps.splat_apply h 0x3F800000#32 i, Ideal.ofBits_one_f32]
  rfl

/-- The gate's term at an index: x · (1 / (1 + exp (−x))), which is silu of the operand there. -/
theorem gate_apply {T : Shape} (h : (⟨0, ![]⟩ : Shape).BroadcastsInDim T ![]) (x : FVec Ideal T .f32) (i : T.Idx) :
    mulf x (Host.divf (broadcastInDim T ![] h (constant (F := Ideal) ⟨0, ![]⟩ .f32 0x3F800000#32))
      (addf (broadcastInDim T ![] h (constant (F := Ideal) ⟨0, ![]⟩ .f32 0x3F800000#32)) (Host.exp (Host.negf x)))) i
      = Cert.Spec.silu (x i) := by
  rw [mulf_apply, sigmoid_apply h x i]
  rfl

/-! ## Two affine layers with the gate between them -/

/-- Affine layer, gate, affine layer, at (e, j): the perceptron of row e. -/
theorem mlp_apply {E K H J : Nat}
    (d1 : DotDims ⟨2, ![E, K]⟩ ⟨2, ![K, H]⟩ ⟨2, ![E, H]⟩) (hd1 : d1 = DotDims.plain E K H)
    (d2 : DotDims ⟨2, ![E, H]⟩ ⟨2, ![H, J]⟩ ⟨2, ![E, J]⟩) (hd2 : d2 = DotDims.plain E H J)
    (h1a : (⟨1, ![H]⟩ : Shape).BroadcastsInDim ⟨2, ![1, H]⟩ ![1])
    (h2a : (⟨2, ![1, H]⟩ : Shape).BroadcastsInDim ⟨2, ![E, H]⟩ ![0, 1])
    (h1b : (⟨1, ![J]⟩ : Shape).BroadcastsInDim ⟨2, ![1, J]⟩ ![1])
    (h2b : (⟨2, ![1, J]⟩ : Shape).BroadcastsInDim ⟨2, ![E, J]⟩ ![0, 1])
    (hs : (⟨0, ![]⟩ : Shape).BroadcastsInDim ⟨2, ![E, H]⟩ ![])
    (X : FVec Ideal ⟨2, ![E, K]⟩ .f32) (W1 : FVec Ideal ⟨2, ![K, H]⟩ .f32) (b1 : FVec Ideal ⟨1, ![H]⟩ .f32)
    (W2 : FVec Ideal ⟨2, ![H, J]⟩ .f32) (b2 : FVec Ideal ⟨1, ![J]⟩ .f32) (Z G : FVec Ideal ⟨2, ![E, H]⟩ .f32)
    (hZ : Z = addf (Host.dotGeneral d1 none X W1)
      (broadcastInDim ⟨2, ![E, H]⟩ ![0, 1] h2a (broadcastInDim ⟨2, ![1, H]⟩ ![1] h1a b1)))
    (hG : G = mulf Z (Host.divf (broadcastInDim ⟨2, ![E, H]⟩ ![] hs (constant (F := Ideal) ⟨0, ![]⟩ .f32 0x3F800000#32))
      (addf (broadcastInDim ⟨2, ![E, H]⟩ ![] hs (constant (F := Ideal) ⟨0, ![]⟩ .f32 0x3F800000#32)) (Host.exp (Host.negf Z)))))
    (e : Fin E) (j : Fin J) :
    addf (Host.dotGeneral d2 none G W2)
        (broadcastInDim ⟨2, ![E, J]⟩ ![0, 1] h2b (broadcastInDim ⟨2, ![1, J]⟩ ![1] h1b b2)) (ix2 e j)
      = Cert.Spec.mlp (fun k => X (ix2 e k)) (fun k h => W1 (ix2 k h)) (fun h => b1 (ix1 h))
          (fun h j => W2 (ix2 h j)) (fun j => b2 (ix1 j)) j := by
  refine (affine_apply d2 hd2 h1b h2b G W2 b2 e j).trans ?_
  unfold Cert.Spec.mlp
  refine congrArg (fun x => Cert.Spec.lin x (fun h j => W2 (ix2 h j)) (fun j => b2 (ix1 j)) j) (funext fun h => ?_)
  rw [hG, gate_apply hs Z (ix2 e h), hZ, affine_apply d1 hd1 h1a h2a X W1 b1 e h]

/-! ## Two arrays joined along the columns -/

/-- Joined along the columns, a column below the first width reads the first array. -/
theorem joinCols_apply_left {E A B : Nat} {α : Type}
    (h : Shape.Concatenates [(⟨2, ![E, A]⟩ : Shape), ⟨2, ![E, B]⟩] ⟨2, ![E, A + B]⟩ 1)
    (x₁ : (⟨2, ![E, A]⟩ : Shape).Idx → α) (x₂ : (⟨2, ![E, B]⟩ : Shape).Idx → α) (e : Fin E) (c : Fin A) :
    concatenate ⟨2, ![E, A + B]⟩ 1 [⟨⟨2, ![E, A]⟩, x₁⟩, ⟨⟨2, ![E, B]⟩, x₂⟩] h (ix2 e (Fin.castAdd B c)) = x₁ (ix2 e c) :=
  concatenate_pair_apply_left 1 x₁ x₂ h (ix2 e (Fin.castAdd B c)) rfl (ix2 e c) (fun b => match b with
    | ⟨0, _⟩ => rfl
    | ⟨1, _⟩ => rfl)

/-- Joined along the columns, a column from the first width on reads the second array, the first width less. -/
theorem joinCols_apply_right {E A B : Nat} {α : Type}
    (h : Shape.Concatenates [(⟨2, ![E, A]⟩ : Shape), ⟨2, ![E, B]⟩] ⟨2, ![E, A + B]⟩ 1)
    (x₁ : (⟨2, ![E, A]⟩ : Shape).Idx → α) (x₂ : (⟨2, ![E, B]⟩ : Shape).Idx → α) (e : Fin E) (c : Fin B) :
    concatenate ⟨2, ![E, A + B]⟩ 1 [⟨⟨2, ![E, A]⟩, x₁⟩, ⟨⟨2, ![E, B]⟩, x₂⟩] h (ix2 e (Fin.natAdd A c)) = x₂ (ix2 e c) :=
  concatenate_pair_apply_right 1 x₁ x₂ h (ix2 e (Fin.natAdd A c)) rfl rfl (ix2 e c) (fun b => match b with
    | ⟨0, _⟩ => fun _ => rfl
    | ⟨1, _⟩ => fun hne => absurd rfl hne)
    (by show c.val + A = A + c.val; omega)

/-- The row of an array joined along the columns is the first array's row followed by the second's. -/
theorem joinCols_row {E A B : Nat} {α : Type}
    (h : Shape.Concatenates [(⟨2, ![E, A]⟩ : Shape), ⟨2, ![E, B]⟩] ⟨2, ![E, A + B]⟩ 1)
    (x₁ : (⟨2, ![E, A]⟩ : Shape).Idx → α) (x₂ : (⟨2, ![E, B]⟩ : Shape).Idx → α) (e : Fin E) :
    (fun c : Fin (A + B) => concatenate ⟨2, ![E, A + B]⟩ 1 [⟨⟨2, ![E, A]⟩, x₁⟩, ⟨⟨2, ![E, B]⟩, x₂⟩] h (ix2 e c))
      = Fin.append (fun c => x₁ (ix2 e c)) (fun c => x₂ (ix2 e c)) := by
  funext c
  refine Fin.addCases (fun a => ?_) (fun b => ?_) c
  · rw [Fin.append_left]; exact joinCols_apply_left h x₁ x₂ e a
  · rw [Fin.append_right]; exact joinCols_apply_right h x₁ x₂ e b

/-! ## The exponentials of a scaled column -/

/-- A one-column array repeated along the columns, times a vector repeated along the rows, exponentiated: at (e, i)
    the exponential of the column's entry e times the vector's entry i. -/
theorem expScaled_apply {E K : Nat}
    (hc : (⟨2, ![E, 1]⟩ : Shape).BroadcastsInDim ⟨2, ![E, K]⟩ ![0, 1])
    (h1 : (⟨1, ![K]⟩ : Shape).BroadcastsInDim ⟨2, ![1, K]⟩ ![1])
    (h2 : (⟨2, ![1, K]⟩ : Shape).BroadcastsInDim ⟨2, ![E, K]⟩ ![0, 1])
    (R : FVec Ideal ⟨2, ![E, 1]⟩ .f32) (SC : FVec Ideal ⟨1, ![K]⟩ .f32) (e : Fin E) (i : Fin K) :
    Host.exp (mulf (broadcastInDim ⟨2, ![E, K]⟩ ![0, 1] hc R)
      (broadcastInDim ⟨2, ![E, K]⟩ ![0, 1] h2 (broadcastInDim ⟨2, ![1, K]⟩ ![1] h1 SC))) (ix2 e i)
      = Ideal.exp (R (ix2 e (0 : Fin 1)) * SC (ix1 i)) := by
  show Ideal.exp (mulf (broadcastInDim ⟨2, ![E, K]⟩ ![0, 1] hc R)
      (broadcastInDim ⟨2, ![E, K]⟩ ![0, 1] h2 (broadcastInDim ⟨2, ![1, K]⟩ ![1] h1 SC)) (ix2 e i)) = _
  rw [mulf_apply, Cert.Lib.RowOps.spreadCol_apply hc R e i, bias_apply h1 h2 SC e i]

end Cert.RefDense

end
-- ==== Proof.RefDense.lean ====
/-
  The reference's dense layers, read at an index, over the extended reals.

  Per edge e the reference forms three rows of 128 entries. The chemical row is a perceptron (affine layer, gate,
  affine layer) of the edge's 256 gathered features. The positional row is a perceptron of 18 features: three given
  ones joined, along the columns, with the fifteen exponentials exp (r · s i) of the edge's radius r against fifteen
  scales. The output row is a third perceptron of the chemical row, times the positional row entry by entry, times
  one scalar per edge: the logistic function — spelled 1 / (1 + exp (−x)) — of an affine functional of that product,
  repeated along the columns.

  'refChem', 'refPos' and 'refOut' are those three arrays as the compositions of the reference's own host
  operations, over arbitrary operand arrays; 'refChem_apply', 'refPos_apply' and 'refOut_apply' read them at (e, j)
  as the row functions of the common specification.
-/
import proofs.«110032_j62122406969661_2_alg».proof.ReferenceIdeal
import proofs.«110032_j62122406969661_2_alg».proof.Proof.RefDenseOps

set_option pp.maxSteps 5000
set_option pp.deepTerms false

noncomputable section

open scoped BigOperators

namespace Cert.RefDense

open Idealize.ShloMosaic Idealize.ShloMosaic.ValueIdx Cert.ReferenceIdeal

variable [Cert.ReferenceIdeal.Facts₀]
open Cert.ReferenceIdeal.Facts₀

/-! ## The compositions -/

/-- The gate as the reference spells it: x · (1 / (1 + exp (−x))), the ones two arrays filled with the word of one. -/
def refSilu (x : FVec Ideal S320000x128 .f32) : FVec Ideal S320000x128 .f32 :=
  mulf x (Host.divf (broadcastInDim S320000x128 ![] bcast_S_S320000x128 (constant (F := Ideal) S_ .f32 0x3F800000#32))
    (addf (broadcastInDim S320000x128 ![] bcast_S_S320000x128 (constant (F := Ideal) S_ .f32 0x3F800000#32))
      (Host.exp (Host.negf x))))

/-- A bias of 128 entries as one row, repeated along the edges. -/
def refBias (b : FVec Ideal S128 .f32) : FVec Ideal S320000x128 .f32 :=
  broadcastInDim S320000x128 ![0, 1] bcast_S1x128_S320000x128_0_1 (broadcastInDim S1x128 ![1] bcast_S128_S1x128_1 b)

/-- The second affine layer of a perceptron, after the gate, from the first layer's result. -/
def refHead (Z : FVec Ideal S320000x128 .f32) (W2 : FVec Ideal S128x128 .f32) (b2 : FVec Ideal S128 .f32) :
    FVec Ideal S320000x128 .f32 :=
  addf (Host.dotGeneral dot_S320000x128_S128x128_S320000x128_1_0_0_1_n_n none (refSilu Z) W2) (refBias b2)

/-- The chemical array: the perceptron of the 256 gathered features. -/
def refChem (X : FVec Ideal S320000x256 .f32) (W1 : FVec Ideal S256x128 .f32) (b1 : FVec Ideal S128 .f32)
    (W2 : FVec Ideal S128x128 .f32) (b2 : FVec Ideal S128 .f32) : FVec Ideal S320000x128 .f32 :=
  refHead (addf (Host.dotGeneral dot_S320000x256_S256x128_S320000x128_1_0_0_1_n_n none X W1) (refBias b1)) W2 b2

/-- The fifteen exponentials of the scaled radius, per edge. -/
def refRadial (R : FVec Ideal S320000x1 .f32) (SC : FVec Ideal S15 .f32) : FVec Ideal S320000x15 .f32 :=
  Host.exp (mulf (broadcastInDim S320000x15 ![0, 1] bcast_S320000x1_S320000x15_0_1 R)
    (broadcastInDim S320000x15 ![0, 1] bcast_S1x15_S320000x15_0_1 (broadcastInDim S1x15 ![1] bcast_S15_S1x15_1 SC)))

/-- The eighteen positional features, per edge: the three given ones joined with the fifteen exponentials. -/
def refPosIn (P : FVec Ideal S320000x3 .f32) (R : FVec Ideal S320000x1 .f32) (SC : FVec Ideal S15 .f32) :
    FVec Ideal S320000x18 .f32 :=
  concatenate S320000x18 1 [⟨S320000x3, P⟩, ⟨S320000x15, refRadial R SC⟩] concatenates_S320000x3_S320000x15_S320000x18_d1

/-- The positional array: the perceptron of the eighteen positional features. -/
def refPos (P : FVec Ideal S320000x3 .f32) (R : FVec Ideal S320000x1 .f32) (SC : FVec Ideal S15 .f32)
    (W1 : FVec Ideal S18x128 .f32) (b1 : FVec Ideal S128 .f32) (W2 : FVec Ideal S128x128 .f32) (b2 : FVec Ideal S128 .f32) :
    FVec Ideal S320000x128 .f32 :=
  refHead (addf (Host.dotGeneral dot_S320000x18_S18x128_S320000x128_1_0_0_1_n_n none (refPosIn P R SC) W1) (refBias b1)) W2 b2

/-- The ungated output array: the perceptron of the chemical array, times the positional array. -/
def refPre (CH PS : FVec Ideal S320000x128 .f32) (W1 : FVec Ideal S128x128 .f32) (b1 : FVec Ideal S128 .f32)
    (W2 : FVec Ideal S128x128 .f32) (b2 : FVec Ideal S128 .f32) : FVec Ideal S320000x128 .f32 :=
  mulf (refHead (addf (Host.dotGeneral dot_S320000x128_S128x128_S320000x128_1_0_0_1_n_n none CH W1) (refBias b1)) W2 b2) PS

/-- The affine functional of a row whose logistic gates it: the row against a column of weights, plus one scalar. -/
def refGateArg (PRE : FVec Ideal S320000x128 .f32) (WA : FVec Ideal S128x1 .f32) (BA : FVec Ideal S1 .f32) :
    FVec Ideal S320000x1 .f32 :=
  addf (Host.dotGeneral dot_S320000x128_S128x1_S320000x1_1_0_0_1_n_n none PRE WA)
    (broadcastInDim S320000x1 ![0, 1] bcast_S1x1_S320000x1_0_1 (broadcastInDim S1x1 ![1] bcast_S1_S1x1_1 BA))

/-- The logistic function as the reference spells it on a column: 1 / (1 + exp (−x)). -/
def refSigmoid (x : FVec Ideal S320000x1 .f32) : FVec Ideal S320000x1 .f32 :=
  Host.divf (broadcastInDim S320000x1 ![] bcast_S_S320000x1 (constant (F := Ideal) S_ .f32 0x3F800000#32))
    (addf (broadcastInDim S320000x1 ![] bcast_S_S320000x1 (constant (F := Ideal) S_ .f32 0x3F800000#32))
      (Host.exp (Host.negf x)))

/-- A row array times its per-edge gate repeated along the columns. -/
def refGated (PRE : FVec Ideal S320000x128 .f32) (WA : FVec Ideal S128x1 .f32) (BA : FVec Ideal S1 .f32) :
    FVec Ideal S320000x128 .f32 :=
  mulf PRE (broadcastInDim S320000x128 ![0, 1] bcast_S320000x1_S320000x128_0_1 (refSigmoid (refGateArg PRE WA BA)))

/-- The output array. -/
def refOut (CH PS : FVec Ideal S320000x128 .f32) (W1 : FVec Ideal S128x128 .f32) (b1 : FVec Ideal S128 .f32)
    (W2 : FVec Ideal S128x128 .f32) (b2 : FVec Ideal S128 .f32) (WA : FVec Ideal S128x1 .f32) (BA : FVec Ideal S1 .f32) :
    FVec Ideal S320000x128 .f32 :=
  refGated (refPre CH PS W1 b1 W2 b2) WA BA

/-! ## Read at an index -/

/-- A perceptron whose first layer is any product with a K×128 matrix, at (e, j). -/
theorem refHead_apply {K : Nat} (d1 : DotDims ⟨2, ![320000, K]⟩ ⟨2, ![K, 128]⟩ ⟨2, ![320000, 128]⟩)
    (hd1 : d1 = DotDims.plain 320000 K 128)
    (X : FVec Ideal ⟨2, ![320000, K]⟩ .f32) (W1 : FVec Ideal ⟨2, ![K, 128]⟩ .f32) (b1 : FVec Ideal S128 .f32)
    (W2 : FVec Ideal S128x128 .f32) (b2 : FVec Ideal S128 .f32) (e : Fin 320000) (j : Fin 128) :
    refHead (addf (Host.dotGeneral d1 none X W1) (refBias b1)) W2 b2 (ix2 e j)
      = Cert.Spec.mlp (fun k => X (ix2 e k)) (fun k h => W1 (ix2 k h)) (fun h => b1 (ix1 h))
          (fun h j => W2 (ix2 h j)) (fun j => b2 (ix1 j)) j :=
  mlp_apply d1 hd1 dot_S320000x128_S128x128_S320000x128_1_0_0_1_n_n rfl bcast_S128_S1x128_1 bcast_S1x128_S320000x128_0_1
    bcast_S128_S1x128_1 bcast_S1x128_S320000x128_0_1 bcast_S_S320000x128 X W1 b1 W2 b2 _ _ rfl rfl e j

/-- (R1) The chemical array at (e, j): the perceptron of row e of the gathered features. -/
theorem refChem_apply (X : FVec Ideal S320000x256 .f32) (W1 : FVec Ideal S256x128 .f32) (b1 : FVec Ideal S128 .f32)
    (W2 : FVec Ideal S128x128 .f32) (b2 : FVec Ideal S128 .f32) (e : Fin 320000) (j : Fin 128) :
    refChem X W1 b1 W2 b2 (ix2 e j)
      = Cert.Spec.mlp (fun i => X (ix2 e i)) (fun i k => W1 (ix2 i k)) (fun k => b1 (ix1 k))
          (fun k j => W2 (ix2 k j)) (fun j => b2 (ix1 j)) j :=
  refHead_apply dot_S320000x256_S256x128_S320000x128_1_0_0_1_n_n rfl X W1 b1 W2 b2 e j

/-- The fifteen exponentials at (e, i). -/
theorem refRadial_apply (R : FVec Ideal S320000x1 .f32) (SC : FVec Ideal S15 .f32) (e : Fin 320000) (i : Fin 15) :
    refRadial R SC (ix2 e i) = Ideal.exp (R (ix2 e (0 : Fin 1)) * SC (ix1 i)) :=
  expScaled_apply bcast_S320000x1_S320000x15_0_1 bcast_S15_S1x15_1 bcast_S1x15_S320000x15_0_1 R SC e i

/-- Row e of the eighteen positional features. -/
theorem refPosIn_row (P : FVec Ideal S320000x3 .f32) (R : FVec Ideal S320000x1 .f32) (SC : FVec Ideal S15 .f32)
    (e : Fin 320000) :
    (fun c : Fin 18 => refPosIn P R SC (ix2 e c))
      = Cert.Spec.posFeat (fun i => P (ix2 e i)) (R (ix2 e (0 : Fin 1))) (fun i => SC (ix1 i)) := by
  refine (joinCols_row (A := 3) (B := 15) concatenates_S320000x3_S320000x15_S320000x18_d1 P (refRadial R SC) e).trans ?_
  unfold Cert.Spec.posFeat
  exact congrArg (Fin.append fun i => P (ix2 e i)) (funext fun i => refRadial_apply R SC e i)

/-- (R2) The positional array at (e, j): the perceptron of the eighteen positional features of edge e. -/
theorem refPos_apply (P : FVec Ideal S320000x3 .f32) (R : FVec Ideal S320000x1 .f32) (SC : FVec Ideal S15 .f32)
    (W1 : FVec Ideal S18x128 .f32) (b1 : FVec Ideal S128 .f32) (W2 : FVec Ideal S128x128 .f32) (b2 : FVec Ideal S128 .f32)
    (e : Fin 320000) (j : Fin 128) :
    refPos P R SC W1 b1 W2 b2 (ix2 e j)
      = Cert.Spec.mlp (Cert.Spec.posFeat (fun i => P (ix2 e i)) (R (ix2 e (0 : Fin 1))) (fun i => SC (ix1 i)))
          (fun i k => W1 (ix2 i k)) (fun k => b1 (ix1 k)) (fun k j => W2 (ix2 k j)) (fun j => b2 (ix1 j)) j := by
  refine (refHead_apply dot_S320000x18_S18x128_S320000x128_1_0_0_1_n_n rfl (refPosIn P R SC) W1 b1 W2 b2 e j).trans ?_
  rw [refPosIn_row P R SC e]

/-- The ungated output array at (e, j). -/
theorem refPre_apply (CH PS : FVec Ideal S320000x128 .f32) (W1 : FVec Ideal S128x128 .f32) (b1 : FVec Ideal S128 .f32)
    (W2 : FVec Ideal S128x128 .f32) (b2 : FVec Ideal S128 .f32) (e : Fin 320000) (j : Fin 128) :
    refPre CH PS W1 b1 W2 b2 (ix2 e j)
      = Cert.Spec.preOut (fun i => CH (ix2 e i)) (fun i => PS (ix2 e i)) (fun i k => W1 (ix2 i k)) (fun k => b1 (ix1 k))
          (fun k j => W2 (ix2 k j)) (fun j => b2 (ix1 j)) j := by
  unfold refPre Cert.Spec.preOut
  rw [mulf_apply, refHead_apply dot_S320000x128_S128x128_S320000x128_1_0_0_1_n_n rfl CH W1 b1 W2 b2 e j]

/-- The gate's argument at (e, 0): the affine functional of row e. -/
theorem refGateArg_apply (PRE : FVec Ideal S320000x128 .f32) (WA : FVec Ideal S128x1 .f32) (BA : FVec Ideal S1 .f32)
    (e : Fin 320000) :
    refGateArg PRE WA BA (ix2 e (0 : Fin 1))
      = (∑ k : Fin 128, PRE (ix2 e k) * WA (ix2 k (0 : Fin 1))) + BA (ix1 (0 : Fin 1)) :=
  affine_apply dot_S320000x128_S128x1_S320000x1_1_0_0_1_n_n rfl bcast_S1_S1x1_1 bcast_S1x1_S320000x1_0_1 PRE WA BA e 0

/-- A gated row array at (e, j), for any ungated array described by its rows. -/
theorem refGated_apply (PRE : FVec Ideal S320000x128 .f32) (WA : FVec Ideal S128x1 .f32) (BA : FVec Ideal S1 .f32)
    (pre : Fin 128 → EReal) (e : Fin 320000) (hpre : ∀ k, PRE (ix2 e k) = pre k) (j : Fin 128) :
    refGated PRE WA BA (ix2 e j)
      = Cert.Spec.outRow pre (fun k => WA (ix2 k (0 : Fin 1))) (BA (ix1 (0 : Fin 1))) j := by
  unfold refGated Cert.Spec.outRow
  rw [mulf_apply, Cert.Lib.RowOps.spreadCol_apply bcast_S320000x1_S320000x128_0_1 _ e j]
  unfold refSigmoid
  rw [sigmoid_apply bcast_S_S320000x1 _ (ix2 e (0 : Fin 1)), refGateArg_apply PRE WA BA e, hpre j]
  exact congrArg (fun s => pre j * Ideal.logistic (s + BA (ix1 (0 : Fin 1))))
    (Finset.sum_congr rfl fun k _ => by rw [hpre k])

/-- (R3) The output array at (e, j): the output row of edge e. -/
theorem refOut_apply (CH PS : FVec Ideal S320000x128 .f32) (W1 : FVec Ideal S128x128 .f32) (b1 : FVec Ideal S128 .f32)
    (W2 : FVec Ideal S128x128 .f32) (b2 : FVec Ideal S128 .f32) (WA : FVec Ideal S128x1 .f32) (BA : FVec Ideal S1 .f32)
    (e : Fin 320000) (j : Fin 128) :
    refOut CH PS W1 b1 W2 b2 WA BA (ix2 e j)
      = Cert.Spec.outRow
          (Cert.Spec.preOut (fun i => CH (ix2 e i)) (fun i => PS (ix2 e i)) (fun i k => W1 (ix2 i k)) (fun k => b1 (ix1 k))
            (fun k j => W2 (ix2 k j)) (fun j => b2 (ix1 j)))
          (fun k => WA (ix2 k (0 : Fin 1))) (BA (ix1 (0 : Fin 1))) j :=
  refGated_apply (refPre CH PS W1 b1 W2 b2) WA BA _ e (fun k => refPre_apply CH PS W1 b1 W2 b2 e k) j

end Cert.RefDense

end
-- ==== Proof.Bridge.lean ====
/-
  The reference's three dense arrays are the kernel's three whole-array functions.

  The reference's chemical, positional and output arrays, read at (e, j), are the perceptron rows and the gated
  product of the common specification over the reference's operand arrays. The kernel's side gives the same three
  arrays row by row over its own window arrays: the same weights; each bias as the one row of a [1, 128] array; the
  three given positional features and the radius as columns 0–2 and 3 of one [320000, 4] array; the fifteen scales as
  the one row of a [1, 15] array; and the first positional layer with its contraction split after the third feature.
  Wherever the window arrays agree entry by entry with the reference's operands, the arrays are equal: at each (e, j)
  both sides are the same row function, the split contraction being the whole one.

  The [320000, 4] array is itself two arrays joined along the columns; its columns 0–2 read the first array and its
  column 3 reads the second's only column.
-/
import proofs.«110032_j62122406969661_2_alg».proof.Proof.RefDense
import proofs.«110032_j62122406969661_2_alg».proof.Proof.KGDefs

noncomputable section

open scoped BigOperators

namespace Cert.Bridge

open Idealize.ShloMosaic Idealize.ShloMosaic.ValueIdx Cert.RefDense Cert.KernelIdeal.Val

/-- (B2') Two arrays of three and of one column joined along the columns: columns 0–2 read the first. -/
theorem join31_left {α : Type}
    (h : Shape.Concatenates [(⟨2, ![320000, 3]⟩ : Shape), ⟨2, ![320000, 1]⟩] ⟨2, ![320000, 4]⟩ 1)
    (NP : (⟨2, ![320000, 3]⟩ : Shape).Idx → α) (Q : (⟨2, ![320000, 1]⟩ : Shape).Idx → α) (e : Fin 320000) (i : Fin 3) :
    concatenate ⟨2, ![320000, 4]⟩ 1 [⟨⟨2, ![320000, 3]⟩, NP⟩, ⟨⟨2, ![320000, 1]⟩, Q⟩] h (ix2 e (Fin.castAdd 1 i))
      = NP (ix2 e i) :=
  joinCols_apply_left (A := 3) (B := 1) h NP Q e i

/-- (B2') Two arrays of three and of one column joined along the columns: column 3 reads the second's only column. -/
theorem join31_right {α : Type}
    (h : Shape.Concatenates [(⟨2, ![320000, 3]⟩ : Shape), ⟨2, ![320000, 1]⟩] ⟨2, ![320000, 4]⟩ 1)
    (NP : (⟨2, ![320000, 3]⟩ : Shape).Idx → α) (Q : (⟨2, ![320000, 1]⟩ : Shape).Idx → α) (e : Fin 320000) :
    concatenate ⟨2, ![320000, 4]⟩ 1 [⟨⟨2, ![320000, 3]⟩, NP⟩, ⟨⟨2, ![320000, 1]⟩, Q⟩] h (ix2 e (3 : Fin 4))
      = Q (ix2 e (0 : Fin 1)) :=
  joinCols_apply_right (A := 3) (B := 1) h NP Q e (0 : Fin 1)

variable [Cert.ReferenceIdeal.Facts₀]

/-- (B1) The reference's chemical array is the kernel's, the window arrays agreeing with the reference's operands. -/
theorem chem_bridge (X : FVec Ideal Cert.ReferenceIdeal.S320000x256 .f32) (W1 : FVec Ideal Cert.ReferenceIdeal.S256x128 .f32)
    (b1 : FVec Ideal Cert.ReferenceIdeal.S128 .f32) (W2 : FVec Ideal Cert.ReferenceIdeal.S128x128 .f32)
    (b2 : FVec Ideal Cert.ReferenceIdeal.S128 .f32)
    (A0 : Cert.KernelIdeal.S320000x256.Idx → EReal) (A3 : Cert.KernelIdeal.S256x128.Idx → EReal)
    (A4 : Cert.KernelIdeal.S1x128.Idx → EReal) (A5 : Cert.KernelIdeal.S128x128.Idx → EReal)
    (A6 : Cert.KernelIdeal.S1x128.Idx → EReal)
    (h0 : ∀ y, A0 y = X y) (h3 : ∀ y, A3 y = W1 y) (h4 : ∀ k : Fin 128, A4 (ix2 (0 : Fin 1) k) = b1 (ix1 k))
    (h5 : ∀ y, A5 y = W2 y) (h6 : ∀ k : Fin 128, A6 (ix2 (0 : Fin 1) k) = b2 (ix1 k)) :
    refChem X W1 b1 W2 b2 = chemG A0 A3 A4 A5 A6 := by
  funext i
  obtain ⟨e, j, rfl⟩ : ∃ (e : Fin 320000) (j : Fin 128), i = ix2 e j := ⟨i 0, i 1, eq_ix2 i⟩
  refine (refChem_apply X W1 b1 W2 b2 e j).trans ?_
  unfold chemG
  rw [rows2_apply]
  simp only [h0, h3, h4, h5, h6]

/-- (B2) The reference's positional array is the kernel's, the window arrays agreeing with the reference's operands. -/
theorem pos_bridge (P : FVec Ideal Cert.ReferenceIdeal.S320000x3 .f32) (R : FVec Ideal Cert.ReferenceIdeal.S320000x1 .f32)
    (SC : FVec Ideal Cert.ReferenceIdeal.S15 .f32) (W1 : FVec Ideal Cert.ReferenceIdeal.S18x128 .f32)
    (b1 : FVec Ideal Cert.ReferenceIdeal.S128 .f32) (W2 : FVec Ideal Cert.ReferenceIdeal.S128x128 .f32)
    (b2 : FVec Ideal Cert.ReferenceIdeal.S128 .f32)
    (A1 : Cert.KernelIdeal.S320000x4.Idx → EReal) (A2 : Cert.KernelIdeal.S1x15.Idx → EReal)
    (A7 : Cert.KernelIdeal.S18x128.Idx → EReal) (A8 : Cert.KernelIdeal.S1x128.Idx → EReal)
    (A9 : Cert.KernelIdeal.S128x128.Idx → EReal) (A10 : Cert.KernelIdeal.S1x128.Idx → EReal)
    (hP : ∀ (e : Fin 320000) (i : Fin 3), A1 (ix2 e (Fin.castAdd 1 i)) = P (ix2 e i))
    (hR : ∀ e : Fin 320000, A1 (ix2 e (3 : Fin 4)) = R (ix2 e (0 : Fin 1)))
    (hS : ∀ i : Fin 15, A2 (ix2 (0 : Fin 1) i) = SC (ix1 i))
    (h7 : ∀ y, A7 y = W1 y) (h8 : ∀ k : Fin 128, A8 (ix2 (0 : Fin 1) k) = b1 (ix1 k))
    (h9 : ∀ y, A9 y = W2 y) (h10 : ∀ k : Fin 128, A10 (ix2 (0 : Fin 1) k) = b2 (ix1 k)) :
    refPos P R SC W1 b1 W2 b2 = posG A1 A2 A7 A8 A9 A10 := by
  funext i
  obtain ⟨e, j, rfl⟩ : ∃ (e : Fin 320000) (j : Fin 128), i = ix2 e j := ⟨i 0, i 1, eq_ix2 i⟩
  refine (refPos_apply P R SC W1 b1 W2 b2 e j).trans ?_
  unfold posG
  rw [rows2_apply, Cert.Spec.posRow_eq]
  simp only [hP, hR, hS, h7, h8, h9, h10]

/-- (B3) The reference's output array is the kernel's, its chemical and positional operands being the kernel's
    arrays and the window arrays agreeing with the reference's weights. -/
theorem out_bridge (CH PS : FVec Ideal Cert.ReferenceIdeal.S320000x128 .f32)
    (W1 : FVec Ideal Cert.ReferenceIdeal.S128x128 .f32) (b1 : FVec Ideal Cert.ReferenceIdeal.S128 .f32)
    (W2 : FVec Ideal Cert.ReferenceIdeal.S128x128 .f32) (b2 : FVec Ideal Cert.ReferenceIdeal.S128 .f32)
    (WA : FVec Ideal Cert.ReferenceIdeal.S128x1 .f32) (BA : FVec Ideal Cert.ReferenceIdeal.S1 .f32)
    (A0 : Cert.KernelIdeal.S320000x256.Idx → EReal) (A1 : Cert.KernelIdeal.S320000x4.Idx → EReal)
    (A2 : Cert.KernelIdeal.S1x15.Idx → EReal) (A3 : Cert.KernelIdeal.S256x128.Idx → EReal)
    (A4 : Cert.KernelIdeal.S1x128.Idx → EReal) (A5 : Cert.KernelIdeal.S128x128.Idx → EReal)
    (A6 : Cert.KernelIdeal.S1x128.Idx → EReal) (A7 : Cert.KernelIdeal.S18x128.Idx → EReal)
    (A8 : Cert.KernelIdeal.S1x128.Idx → EReal) (A9 : Cert.KernelIdeal.S128x128.Idx → EReal)
    (A10 : Cert.KernelIdeal.S1x128.Idx → EReal) (A11 : Cert.KernelIdeal.S128x128.Idx → EReal)
    (A12 : Cert.KernelIdeal.S1x128.Idx → EReal) (A13 : Cert.KernelIdeal.S128x128.Idx → EReal)
    (A14 : Cert.KernelIdeal.S1x128.Idx → EReal) (A15 : Cert.KernelIdeal.S128x1.Idx → EReal)
    (A16 : Cert.KernelIdeal.S1x1.Idx → EReal)
    (hCH : CH = chemG A0 A3 A4 A5 A6) (hPS : PS = posG A1 A2 A7 A8 A9 A10)
    (h11 : ∀ y, A11 y = W1 y) (h12 : ∀ k : Fin 128, A12 (ix2 (0 : Fin 1) k) = b1 (ix1 k))
    (h13 : ∀ y, A13 y = W2 y) (h14 : ∀ k : Fin 128, A14 (ix2 (0 : Fin 1) k) = b2 (ix1 k))
    (h15 : ∀ y, A15 y = WA y) (h16 : A16 (ix2 (0 : Fin 1) (0 : Fin 1)) = BA (ix1 (0 : Fin 1))) :
    refOut CH PS W1 b1 W2 b2 WA BA = outG A0 A1 A2 A3 A4 A5 A6 A7 A8 A9 A10 A11 A12 A13 A14 A15 A16 := by
  funext i
  obtain ⟨e, j, rfl⟩ : ∃ (e : Fin 320000) (j : Fin 128), i = ix2 e j := ⟨i 0, i 1, eq_ix2 i⟩
  refine (refOut_apply CH PS W1 b1 W2 b2 WA BA e j).trans ?_
  have eCH : (fun i : Fin 128 => CH (ix2 e i))
      = Cert.Spec.mlp (fun i : Fin 256 => A0 (ix2 e i)) (fun i k => A3 (ix2 i k)) (fun k => A4 (ix2 (0 : Fin 1) k))
          (fun k j => A5 (ix2 k j)) (fun j => A6 (ix2 (0 : Fin 1) j)) := by
    funext c
    rw [hCH]
    unfold chemG
    rw [rows2_apply]
  have ePS : (fun i : Fin 128 => PS (ix2 e i))
      = Cert.Spec.posRow (fun i : Fin 3 => A1 (ix2 e (Fin.castAdd 1 i))) (A1 (ix2 e (3 : Fin 4)))
          (fun i : Fin 15 => A2 (ix2 (0 : Fin 1) i)) (fun (i : Fin 18) (k : Fin 128) => A7 (ix2 i k))
          (fun k => A8 (ix2 (0 : Fin 1) k)) (fun k j => A9 (ix2 k j)) (fun j => A10 (ix2 (0 : Fin 1) j)) := by
    funext c
    rw [hPS]
    unfold posG
    rw [rows2_apply]
  unfold outG
  rw [rows2_apply, eCH, ePS]
  simp only [h11, h12, h13, h14, h15, h16]

end Cert.Bridge

end
-- ==== Proof.Assemble.lean ====
/-
  Both programs' four results are the same arrays, core by core, when their launch memories agree on the arguments.

  The normalised coordinate differences are the same chain of host operations of the same two arguments. The
  chemical array is, on both sides, each edge's perceptron of its gathered features: the kernel's window arrays are
  the gathered features (a change of float format being the identity at the exact values), the weights, and the
  biases reshaped to single rows. The positional array is each edge's positional perceptron: the kernel's window
  holds the three products and the squared radius side by side and forms the fifteen exponentials inside the body,
  the reference forms them on the host and concatenates; the products themselves come from node sums that the kernel
  takes in one accumulating scatter of ten columns and the reference in four. The output array is the gated product
  of the two, the same function of equal arrays.
-/
import proofs.«110032_j62122406969661_2_alg».proof.Proof.KValue
import proofs.«110032_j62122406969661_2_alg».proof.Proof.KerHostTerms
import proofs.«110032_j62122406969661_2_alg».proof.Proof.KerPosTerm
import proofs.«110032_j62122406969661_2_alg».proof.Proof.RefDenseSteps
import proofs.«110032_j62122406969661_2_alg».proof.Proof.NodeBridge
import proofs.«110032_j62122406969661_2_alg».proof.Proof.Bridge

noncomputable section

namespace Cert.Assemble

open Idealize.ShloMosaic Idealize.ShloMosaic.TcCoe Idealize.ShloMosaic.ValueIdx Idealize.SL.Sem Idealize.ShloMosaic.StableHlo

/-- The two launch memories agree on the seventeen argument arrays, on core c. -/
def Agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The normalised coordinate differences: the same chain of host operations of the same arguments. -/
theorem cdn_eq (h : Agree m m' c) :
    after (Cert.ReferenceIdeal.HandRun.ops (F := Ideal)) (launchContents m' c) (Cert.ReferenceIdeal.main_v31 : DevRef Cert.ReferenceIdeal.τ Cert.ReferenceIdeal.sig)
      = Cert.KernelIdeal.HandFrame.V m c Cert.KernelIdeal.main_v26 := by
  obtain ⟨e0, e1, e2, -⟩ := h
  rw [Cert.RefHostTerms.v31_eq m' c, Cert.KerHostTerms.V_main_v26 m c]
  dsimp only [Cert.RefHostTerms.refD, Cert.RefHostTerms.refRow, Cert.RefHostTerms.refCol]
  rw [e1, e2]

/-! The two spellings of the reference's dense terms are one term. -/
theorem chemTerm_eq [Cert.ReferenceIdeal.Facts₀] (x : Cert.HostTerms.Fv Cert.ReferenceIdeal.S320000x256) (w3 : Cert.HostTerms.Fv Cert.ReferenceIdeal.S256x128) (b4 : Cert.HostTerms.Fv Cert.ReferenceIdeal.S128)
    (w5 : Cert.HostTerms.Fv Cert.ReferenceIdeal.S128x128) (b6 : Cert.HostTerms.Fv Cert.ReferenceIdeal.S128) :
    Cert.RefHostTerms.refChem x w3 b4 w5 b6 = Cert.RefDense.refChem x w3 b4 w5 b6 := rfl

/-- The chemical array: the reference's perceptron of the gathered features is the kernel's row function of its
    window arrays, which hold the same gathered features, the same weights, and the biases as single rows. -/
theorem chem_eq (h : Agree m m' c) :
    (after (Cert.ReferenceIdeal.HandRun.ops (F := Ideal)) (launchContents m' c) (Cert.ReferenceIdeal.main_v125 : DevRef Cert.ReferenceIdeal.τ Cert.ReferenceIdeal.sig)) = Cert.KernelIdeal.Val.chemG (Cert.KernelIdeal.HandFrame.V m c Cert.KernelIdeal.main_v106) (Cert.KernelIdeal.HandFrame.V m c Cert.KernelIdeal.main_v109) (Cert.KernelIdeal.HandFrame.V m c Cert.KernelIdeal.main_v116) (Cert.KernelIdeal.HandFrame.V m c Cert.KernelIdeal.main_v110) (Cert.KernelIdeal.HandFrame.V m c Cert.KernelIdeal.main_v117) := by
  obtain ⟨e0, e1, e2, e3, e4, e5, e6, -⟩ := h
  refine (Cert.RefHostTerms.v125_eq m' c).trans ?_
  refine (chemTerm_eq _ _ _ _ _).trans ?_
  refine Cert.Bridge.chem_bridge _ _ _ _ _ _ _ _ _ _ (fun y => ?_) (fun y => ?_) (fun k => ?_) (fun y => ?_) (fun k => ?_)
  · rw [Cert.KerHostTerms.V_main_v106 m c, Cert.RefHostTerms.v115_eq m' c]
    dsimp only [Cert.RefHostTerms.refRow, Cert.RefHostTerms.refCol]
    rw [e0, e2]
  · exact (Cert.KerHostTerms.V_main_v109_apply m c y).trans (by rw [e3])
  · exact (Cert.KerHostTerms.V_main_v116_apply m c k).trans (by rw [e4])
  · exact (Cert.KerHostTerms.V_main_v110_apply m c y).trans (by rw [e5])
  · exact (Cert.KerHostTerms.V_main_v117_apply m c k).trans (by rw [e6])

theorem posTerm_eq [Cert.ReferenceIdeal.Facts₀] (np : Cert.HostTerms.Fv Cert.ReferenceIdeal.S320000x3) (q : Cert.HostTerms.Fv Cert.ReferenceIdeal.S320000x1)
    (w7 : Cert.HostTerms.Fv Cert.ReferenceIdeal.S18x128) (b8 : Cert.HostTerms.Fv Cert.ReferenceIdeal.S128)
    (w9 : Cert.HostTerms.Fv Cert.ReferenceIdeal.S128x128) (b10 : Cert.HostTerms.Fv Cert.ReferenceIdeal.S128) :
    Cert.RefHostTerms.refPos (Cert.HostTerms.posIn18 np (Cert.HostTerms.radial q)) w7 b8 w9 b10
      = Cert.RefDense.refPos np q (Cert.RefHostTerms.scaleTable (F := Ideal)) w7 b8 w9 b10 := rfl

/-- The positional array: the kernel's window holds, side by side, the three products of normalised node vectors and
    the squared radius; its node sums come from one ten-column scatter whose column slices are the reference's four. -/
theorem pos_eq (h : Agree m m' c) :
    (after (Cert.ReferenceIdeal.HandRun.ops (F := Ideal)) (launchContents m' c) (Cert.ReferenceIdeal.main_v134 : DevRef Cert.ReferenceIdeal.τ Cert.ReferenceIdeal.sig)) = Cert.KernelIdeal.Val.posG (Cert.KernelIdeal.HandFrame.V m c Cert.KernelIdeal.main_v107) (Cert.KernelIdeal.HandFrame.V m c Cert.KernelIdeal.main_v108) (Cert.KernelIdeal.HandFrame.V m c Cert.KernelIdeal.main_v111) (Cert.KernelIdeal.HandFrame.V m c Cert.KernelIdeal.main_v118) (Cert.KernelIdeal.HandFrame.V m c Cert.KernelIdeal.main_v112) (Cert.KernelIdeal.HandFrame.V m c Cert.KernelIdeal.main_v119) := by
  obtain ⟨e0, e1, e2, e3, e4, e5, e6, e7, e8, e9, e10, -⟩ := h
  refine (Cert.RefHostTerms.v134_eq m' c).trans ?_
  rw [Cert.RefHostTerms.v116_eq m' c]
  refine (posTerm_eq _ _ _ _ _ _).trans ?_
  refine Cert.Bridge.pos_bridge _ _ _ _ _ _ _ _ _ _ _ _ _ (fun e i => ?_) (fun e => ?_) (fun i => ?_) (fun y => ?_) (fun k => ?_)
    (fun y => ?_) (fun k => ?_)
  · rw [Cert.KerPosTerm.V_main_v107 m c]
    refine (Cert.Bridge.join31_left _ _ _ e i).trans ?_
    rw [Cert.NodeBridge.nprod_fused]
    dsimp only [Cert.RefHostTerms.refNV, Cert.RefHostTerms.refN, Cert.RefHostTerms.refD, Cert.RefHostTerms.refRow, Cert.RefHostTerms.refCol]
    rw [e1, e2]
  · rw [Cert.KerPosTerm.V_main_v107 m c]
    refine (Cert.Bridge.join31_right _ _ _ e).trans ?_
    dsimp only [Cert.RefHostTerms.refD, Cert.RefHostTerms.refRow, Cert.RefHostTerms.refCol]
    rw [e1, e2]
  · exact (Cert.KerHostTerms.V_main_v108_apply m c i).trans rfl
  · exact (Cert.KerHostTerms.V_main_v111_apply m c y).trans (by rw [e7])
  · exact (Cert.KerHostTerms.V_main_v118_apply m c k).trans (by rw [e8])
  · exact (Cert.KerHostTerms.V_main_v112_apply m c y).trans (by rw [e9])
  · exact (Cert.KerHostTerms.V_main_v119_apply m c k).trans (by rw [e10])

theorem outTerm_eq [Cert.ReferenceIdeal.Facts₀] (ch ps : Cert.HostTerms.Fv Cert.ReferenceIdeal.S320000x128) (w11 : Cert.HostTerms.Fv Cert.ReferenceIdeal.S128x128)
    (b12 : Cert.HostTerms.Fv Cert.ReferenceIdeal.S128) (w13 : Cert.HostTerms.Fv Cert.ReferenceIdeal.S128x128) (b14 : Cert.HostTerms.Fv Cert.ReferenceIdeal.S128)
    (w15 : Cert.HostTerms.Fv Cert.ReferenceIdeal.S128x1) (b16 : Cert.HostTerms.Fv Cert.ReferenceIdeal.S1) :
    Cert.RefHostTerms.refOut ch ps w11 b12 w13 b14 w15 b16 = Cert.RefDense.refOut ch ps w11 b12 w13 b14 w15 b16 := rfl

/-- The output array: the reference's gated product of its chemical and positional arrays is the kernel's row
    function, those two arrays being the kernel's. -/
theorem out_eq (h : Agree m m' c) :
    (after (Cert.ReferenceIdeal.HandRun.ops (F := Ideal)) (launchContents m' c) (Cert.ReferenceIdeal.main_v156 : DevRef Cert.ReferenceIdeal.τ Cert.ReferenceIdeal.sig)) = Cert.KernelIdeal.Val.outG (Cert.KernelIdeal.HandFrame.V m c Cert.KernelIdeal.main_v106) (Cert.KernelIdeal.HandFrame.V m c Cert.KernelIdeal.main_v107) (Cert.KernelIdeal.HandFrame.V m c Cert.KernelIdeal.main_v108) (Cert.KernelIdeal.HandFrame.V m c Cert.KernelIdeal.main_v109) (Cert.KernelIdeal.HandFrame.V m c Cert.KernelIdeal.main_v116) (Cert.KernelIdeal.HandFrame.V m c Cert.KernelIdeal.main_v110) (Cert.KernelIdeal.HandFrame.V m c Cert.KernelIdeal.main_v117) (Cert.KernelIdeal.HandFrame.V m c Cert.KernelIdeal.main_v111) (Cert.KernelIdeal.HandFrame.V m c Cert.KernelIdeal.main_v118) (Cert.KernelIdeal.HandFrame.V m c Cert.KernelIdeal.main_v112) (Cert.KernelIdeal.HandFrame.V m c Cert.KernelIdeal.main_v119) (Cert.KernelIdeal.HandFrame.V m c Cert.KernelIdeal.main_v113) (Cert.KernelIdeal.HandFrame.V m c Cert.KernelIdeal.main_v120) (Cert.KernelIdeal.HandFrame.V m c Cert.KernelIdeal.main_v114) (Cert.KernelIdeal.HandFrame.V m c Cert.KernelIdeal.main_v121) (Cert.KernelIdeal.HandFrame.V m c Cert.KernelIdeal.main_v115) (Cert.KernelIdeal.HandFrame.V m c Cert.KernelIdeal.main_v122) := by
  have hc := chem_eq m m' c h
  have hp := pos_eq m m' c h
  obtain ⟨e0, e1, e2, e3, e4, e5, e6, e7, e8, e9, e10, e11, e12, e13, e14, e15, e16⟩ := h
  refine (Cert.RefHostTerms.v156_eq m' c).trans ?_
  refine (outTerm_eq _ _ _ _ _ _ _ _).trans ?_
  refine Cert.Bridge.out_bridge _ _ _ _ _ _ _ _ _ _ _ _ _ _ _ _ _ _ _ _ _ _ _ _ _ hc hp (fun y => ?_) (fun k => ?_) (fun y => ?_) (fun k => ?_) (fun y => ?_) ?_
  · exact (Cert.KerHostTerms.V_main_v113_apply m c y).trans (by rw [e11])
  · exact (Cert.KerHostTerms.V_main_v120_apply m c k).trans (by rw [e12])
  · exact (Cert.KerHostTerms.V_main_v114_apply m c y).trans (by rw [e13])
  · exact (Cert.KerHostTerms.V_main_v121_apply m c k).trans (by rw [e14])
  · exact (Cert.KerHostTerms.V_main_v115_apply m c y).trans (by rw [e15])
  · exact (Cert.KerHostTerms.V_main_v122_apply m c).trans (by rw [e16])

end Cert.Assemble

end
-- ==== Proof.lean ====
/-
  The claim: the word-level kernel program, its reading at the exact values and the plain reference all run to the
  end without a fault and leave their seventeen arguments untouched, and the last two end with equal results.

  The kernel program is a long stretch of host operations — gathers of node coordinates and features along the
  edges, per-node sums of three weighted difference vectors and of the edge count taken in ONE accumulating scatter of
  a ten-column payload, their normalisation, the products of the normalised node vectors along the edges — followed by
  one region of eighty grid points, each running three two-layer perceptrons and a logistic gate on a block of four
  thousand edges. The reference takes the four node sums in four scatters, forms fifteen exponentials of the scaled
  squared radius on the host instead of inside the body, and applies the same perceptrons to whole arrays.

  At the exact values every result entry depends on one edge's rows only. The kernel's blocks are rows of its
  window arrays, the eighty blocks cover all edges, so its three block-written results are row functions of the window
  arrays; the reference's dot products, read at an entry, are the same sums. A contraction over eighteen features
  splits into the first three plus the last fifteen, and a column slice of a ten-column accumulating scatter is the
  accumulating scatter of those columns; nothing else is needed, and no finiteness of the inputs is used.
  The idealisation rewrote no operation, so its ledger is empty.
-/
import proofs.«110032_j62122406969661_2_alg».proof.Defs
import proofs.«110032_j62122406969661_2_alg».proof.Proof.Gen.Kernel
import proofs.«110032_j62122406969661_2_alg».proof.Proof.Gen.Kernel.Skeleton
import proofs.«110032_j62122406969661_2_alg».proof.Proof.Gen.Kernel.Launch
import proofs.«110032_j62122406969661_2_alg».proof.Proof.Gen.Kernel.Points
import proofs.«110032_j62122406969661_2_alg».proof.Proof.Gen.KernelIdeal
import proofs.«110032_j62122406969661_2_alg».proof.Proof.Gen.KernelIdeal.Skeleton
import proofs.«110032_j62122406969661_2_alg».proof.Proof.Gen.KernelIdeal.Launch
import proofs.«110032_j62122406969661_2_alg».proof.Proof.Gen.KernelIdeal.Points
import proofs.«110032_j62122406969661_2_alg».proof.Proof.Gen.ReferenceIdeal
import proofs.«110032_j62122406969661_2_alg».proof.Proof.Gen.Pre_finite_inputs
import proofs.«110032_j62122406969661_2_alg».proof.Proof.KFrameBits
import proofs.«110032_j62122406969661_2_alg».proof.Proof.Assemble
import Idealize.ShloMosaic.Adequacy
import Idealize.ShloMosaic.Init

noncomputable section

namespace Cert.Proof

open Idealize.ShloMosaic Idealize.ShloMosaic.TcCoe Idealize.SL.Sem Idealize.ShloMosaic.StableHlo

/-- The word-level program runs and keeps its arguments: the host stretches write fresh buffers only and the region
    stages blocks of buffers the host wrote. -/
theorem frame_k : Cert.frame_Kernel := fun m ρ _ => Cert.Kernel.HandFrame.frame m ρ

/-- The same program read at the exact values. -/
theorem frame_ki : Cert.frame_KernelIdeal := fun m ρ _ => Cert.KernelIdeal.HandFrame.frame m ρ

/-- The reference is a straight line of host operations none of which writes an argument. -/
theorem frame_ri : Cert.frame_ReferenceIdeal := fun m ρ _ =>
  (θ_run Cert.ReferenceIdeal.defs _ _).mono (fun r h c => by
    obtain ⟨k0, k1, k2, k3, k4, k5, k6, k7, k8, k9, k10, k11, k12, k13, k14, k15, k16⟩ := Cert.RefHostTerms.args_kept m c
    exact ⟨(h c Cert.ReferenceIdeal.main_arg0).trans k0,
      (h c Cert.ReferenceIdeal.main_arg1).trans k1,
      (h c Cert.ReferenceIdeal.main_arg2).trans k2,
      (h c Cert.ReferenceIdeal.main_arg3).trans k3,
      (h c Cert.ReferenceIdeal.main_arg4).trans k4,
      (h c Cert.ReferenceIdeal.main_arg5).trans k5,
      (h c Cert.ReferenceIdeal.main_arg6).trans k6,
      (h c Cert.ReferenceIdeal.main_arg7).trans k7,
      (h c Cert.ReferenceIdeal.main_arg8).trans k8,
      (h c Cert.ReferenceIdeal.main_arg9).trans k9,
      (h c Cert.ReferenceIdeal.main_arg10).trans k10,
      (h c Cert.ReferenceIdeal.main_arg11).trans k11,
      (h c Cert.ReferenceIdeal.main_arg12).trans k12,
      (h c Cert.ReferenceIdeal.main_arg13).trans k13,
      (h c Cert.ReferenceIdeal.main_arg14).trans k14,
      (h c Cert.ReferenceIdeal.main_arg15).trans k15,
      (h c Cert.ReferenceIdeal.main_arg16).trans k16⟩)
    (Cert.ReferenceIdeal.HandRun.run_main (F := Ideal) m ρ)

/-- The idealisation rewrote nothing. -/
theorem preserves : Cert.preserves_Kernel_KernelIdeal := trivial

/-- Equal results: the kernel's run names its three block-written arrays as row functions of the window arrays and
    leaves the fourth as the host computed it; the reference's run has every buffer at the fold of its operations; the
    four pairs are equal arrays by the bridges. -/
theorem algebraic : Cert.algebraic_KernelIdeal_ReferenceIdeal := by
  intro m ρ m' ρ' _ hagree
  refine ⟨_, _, _, _, Cert.KernelIdeal.Val.run m ρ, ?_⟩
  refine (θ_run Cert.ReferenceIdeal.defs _ _).mono (fun r h c => ?_)
    (Cert.ReferenceIdeal.HandRun.run_main (F := Ideal) m' ρ')
  have ha : Cert.Assemble.Agree m m' c := hagree c
  obtain ⟨k0, k1, k2, k3, k4, k5, k6, k7, k8, k9, k10, k11, k12, k13, k14, k15, k16⟩ := Cert.RefHostTerms.args_kept m' c
  exact ⟨(h c Cert.ReferenceIdeal.main_v156).trans (Cert.Assemble.out_eq m m' c ha),
    (h c Cert.ReferenceIdeal.main_v125).trans (Cert.Assemble.chem_eq m m' c ha),
    (h c Cert.ReferenceIdeal.main_v134).trans (Cert.Assemble.pos_eq m m' c ha),
    (h c Cert.ReferenceIdeal.main_v31).trans (Cert.Assemble.cdn_eq m m' c ha),
    (h c Cert.ReferenceIdeal.main_arg0).trans k0,
    (h c Cert.ReferenceIdeal.main_arg1).trans k1,
    (h c Cert.ReferenceIdeal.main_arg2).trans k2,
    (h c Cert.ReferenceIdeal.main_arg3).trans k3,
    (h c Cert.ReferenceIdeal.main_arg4).trans k4,
    (h c Cert.ReferenceIdeal.main_arg5).trans k5,
    (h c Cert.ReferenceIdeal.main_arg6).trans k6,
    (h c Cert.ReferenceIdeal.main_arg7).trans k7,
    (h c Cert.ReferenceIdeal.main_arg8).trans k8,
    (h c Cert.ReferenceIdeal.main_arg9).trans k9,
    (h c Cert.ReferenceIdeal.main_arg10).trans k10,
    (h c Cert.ReferenceIdeal.main_arg11).trans k11,
    (h c Cert.ReferenceIdeal.main_arg12).trans k12,
    (h c Cert.ReferenceIdeal.main_arg13).trans k13,
    (h c Cert.ReferenceIdeal.main_arg14).trans k14,
    (h c Cert.ReferenceIdeal.main_arg15).trans k15,
    (h c Cert.ReferenceIdeal.main_arg16).trans k16⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
